-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x500000x4 : Shape := ⟨3, ![8, 500000, 4]⟩
abbrev S_ : Shape := ⟨0, ![]⟩

class Facts : Prop where
  bcast_S_S8x500000x4 : S_.BroadcastsInDim S8x500000x4 (![] : Fin 0 → Fin S8x500000x4.rank)
  reducesTo_S8x500000x4_S_d0_1_2 : S8x500000x4.ReducesTo [0, 1, 2] S_
  h_S_ : 0 < S_.numel

variable [Facts]

def fn {F : FTy → Type} [FloatOps F] (main_arg0 : FVec F S8x500000x4 .f32) : IVec S_ 1 :=
  let main_v0 : FVec F S8x500000x4 .f32 := Host.absf main_arg0
  let main_cst : FVec F S_ .f32 := constant S_ .f32 0x7F800000#32
  let main_v1 : FVec F S8x500000x4 .f32 := broadcastInDim S8x500000x4 ![] bcast_S_S8x500000x4 main_cst
  let main_v2 : IVec S8x500000x4 1 := cmpf .olt main_v0 main_v1
  let main_c : IVec S_ 1 := constantI S_ 1 1#1
  let main_v3 : IVec S_ 1 := (fun x v => Host.reduce IntOp.andi x v reducesTo_S8x500000x4_S_d0_1_2 h_S_) main_v2 main_c
  main_v3
-- ==== Kernel.lean ====
abbrev S8x500000x4 : Shape := ⟨3, ![8, 500000, 4]⟩
abbrev S1 : Shape := ⟨1, ![1]⟩
abbrev S4000000x4 : Shape := ⟨2, ![4000000, 4]⟩
abbrev S4x4000000 : Shape := ⟨2, ![4, 4000000]⟩
abbrev S1x4000000 : Shape := ⟨2, ![1, 4000000]⟩
abbrev S4x160000 : Shape := ⟨2, ![4, 160000]⟩
abbrev S1x160000 : Shape := ⟨2, ![1, 160000]⟩
abbrev S4000000 : Shape := ⟨1, ![4000000]⟩
abbrev S3999999 : Shape := ⟨1, ![3999999]⟩
abbrev S_ : Shape := ⟨0, ![]⟩
abbrev S4000000x1 : Shape := ⟨2, ![4000000, 1]⟩

abbrev nBuf : Space → Nat
  | .hbm => 208
  | .vmem => 4
  | .smem => 0
  | _ => 0

abbrev hbmTy0_0 (i : Nat) : BufTy := match i % 128 with
  | 0 => ⟨S8x500000x4, .f32⟩
  | 1 => ⟨S1, .i32⟩
  | 2 => ⟨S4000000x4, .f32⟩
  | 3 => ⟨S4x4000000, .f32⟩
  | 4 => ⟨S1x4000000, .i32⟩
  | 5 => ⟨S4000000, .i32⟩
  | 6 => ⟨S4000000, .i32⟩
  | 7 => ⟨S4000000, .i32⟩
  | 8 => ⟨S4000000, .i32⟩
  | 9 => ⟨S3999999, .i32⟩
  | 10 => ⟨S4000000, .i32⟩
  | 11 => ⟨S4000000, .i1⟩
  | 12 => ⟨S_, .i32⟩
  | 13 => ⟨S4000000, .i32⟩
  | 14 => ⟨S4000000, .i1⟩
  | 15 => ⟨S4000000, .i1⟩
  | 16 => ⟨S4000000, .i32⟩
  | 17 => ⟨S_, .i32⟩
  | 18 => ⟨S_, .i32⟩
  | 19 => ⟨S4000000, .i32⟩
  | 20 => ⟨S_, .i32⟩
  | 21 => ⟨S4000000, .i32⟩
  | 22 => ⟨S4000000, .i32⟩
  | 23 => ⟨S_, .i32⟩
  | 24 => ⟨S_, .i32⟩
  | 25 => ⟨S4000000, .i32⟩
  | 26 => ⟨S1, .i32⟩
  | 27 => ⟨S_, .i32⟩
  | 28 => ⟨S_, .i32⟩
  | 29 => ⟨S4000000, .i32⟩
  | 30 => ⟨S4000000, .i32⟩
  | 31 => ⟨S4000000, .i32⟩
  | 32 => ⟨S4000000, .i32⟩
  | 33 => ⟨S_, .i32⟩
  | 34 => ⟨S4000000, .i32⟩
  | 35 => ⟨S4000000, .i32⟩
  | 36 => ⟨S4000000, .i32⟩
  | 37 => ⟨S_, .i32⟩
  | 38 => ⟨S4000000, .i32⟩
  | 39 => ⟨S_, .i32⟩
  | 40 => ⟨S4000000, .i32⟩
  | 41 => ⟨S4000000, .i1⟩
  | 42 => ⟨S_, .i32⟩
  | 43 => ⟨S4000000, .i32⟩
  | 44 => ⟨S4000000, .i32⟩
  | 45 => ⟨S4000000, .i32⟩
  | 46 => ⟨S4000000x1, .i32⟩
  | 47 => ⟨S4000000, .i32⟩
  | 48 => ⟨S_, .i32⟩
  | 49 => ⟨S4000000, .i32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S4000000x1, .i32⟩
  | 58 => ⟨S4000000, .i32⟩
  | 59 => ⟨S4000000, .i32⟩
  | 60 => ⟨S4000000, .i32⟩
  | 61 => ⟨S4000000, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S4000000, .i32⟩
  | 69 => ⟨S4000000, .i32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i1⟩
  | 76 => ⟨S_, .i32⟩
  | 77 => ⟨S_, .i1⟩
  | 78 => ⟨S4000000, .i1⟩
  | 79 => ⟨S4000000, .i1⟩
  | 80 => ⟨S4000000, .i1⟩
  | 81 => ⟨S4000000, .i32⟩
  | 82 => ⟨S4000000, .i32⟩
  | 83 => ⟨S4000000, .i32⟩
  | 84 => ⟨S_, .i32⟩
  | 85 => ⟨S_, .i32⟩
  | 86 => ⟨S4000000, .i32⟩
  | 87 => ⟨S4000000, .i32⟩
  | 88 => ⟨S4000000, .i32⟩
  | 89 => ⟨S_, .i32⟩
  | 90 => ⟨S4000000, .i32⟩
  | 91 => ⟨S4000000, .i1⟩
  | 92 => ⟨S4000000, .i32⟩
  | 93 => ⟨S4000000, .i32⟩
  | 94 => ⟨S_, .i32⟩
  | 95 => ⟨S4000000, .i32⟩
  | 96 => ⟨S4000000, .i1⟩
  | 97 => ⟨S4000000, .i1⟩
  | 98 => ⟨S_, .i32⟩
  | 99 => ⟨S4000000, .i32⟩
  | 100 => ⟨S4000000, .i32⟩
  | 101 => ⟨S4000000, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S4000000, .i32⟩
  | 109 => ⟨S4000000, .i32⟩
  | 110 => ⟨S_, .i32⟩
  | 111 => ⟨S4000000, .i32⟩
  | 112 => ⟨S4000000, .i1⟩
  | 113 => ⟨S_, .i32⟩
  | 114 => ⟨S4000000, .i32⟩
  | 115 => ⟨S4000000, .i1⟩
  | 116 => ⟨S_, .i32⟩
  | 117 => ⟨S_, .i1⟩
  | 118 => ⟨S4000000, .i1⟩
  | 119 => ⟨S4000000, .i1⟩
  | 120 => ⟨S4000000, .i1⟩
  | 121 => ⟨S4000000, .i32⟩
  | 122 => ⟨S4000000, .i32⟩
  | 123 => ⟨S4000000, .i32⟩
  | 124 => ⟨S_, .i32⟩
  | 125 => ⟨S_, .i32⟩
  | 126 => ⟨S4000000, .i32⟩
  | 127 => ⟨S4000000, .i32⟩
  | _ => ⟨S8x500000x4, .f32⟩

abbrev hbmTy0_1 (i : Nat) : BufTy := match i % 128 with
  | 0 => ⟨S4000000, .i32⟩
  | 1 => ⟨S_, .i32⟩
  | 2 => ⟨S4000000, .i32⟩
  | 3 => ⟨S4000000, .i1⟩
  | 4 => ⟨S4000000, .i32⟩
  | 5 => ⟨S4000000, .i32⟩
  | 6 => ⟨S_, .i32⟩
  | 7 => ⟨S4000000, .i32⟩
  | 8 => ⟨S4000000, .i1⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S4000000, .i32⟩
  | 21 => ⟨S4000000, .i32⟩
  | 22 => ⟨S_, .i32⟩
  | 23 => ⟨S4000000, .i32⟩
  | 24 => ⟨S4000000, .i1⟩
  | 25 => ⟨S_, .i32⟩
  | 26 => ⟨S4000000, .i32⟩
  | 27 => ⟨S4000000, .i1⟩
  | 28 => ⟨S_, .i32⟩
  | 29 => ⟨S_, .i1⟩
  | 30 => ⟨S4000000, .i1⟩
  | 31 => ⟨S4000000, .i1⟩
  | 32 => ⟨S4000000, .i1⟩
  | 33 => ⟨S4000000, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S4000000, .i32⟩
  | 41 => ⟨S_, .i32⟩
  | 42 => ⟨S4000000, .i32⟩
  | 43 => ⟨S4000000, .i1⟩
  | 44 => ⟨S4000000, .i32⟩
  | 45 => ⟨S4000000, .i32⟩
  | 46 => ⟨S_, .i32⟩
  | 47 => ⟨S4000000, .i32⟩
  | 48 => ⟨S4000000, .i1⟩
  | 49 => ⟨S4000000, .i1⟩
  | 50 => ⟨S_, .i32⟩
  | 51 => ⟨S4000000, .i32⟩
  | 52 => ⟨S4000000, .i32⟩
  | 53 => ⟨S4000000, .i32⟩
  | 54 => ⟨S4000000x1, .i32⟩
  | 55 => ⟨S4000000x1, .i32⟩
  | 56 => ⟨S4000000x1, .i32⟩
  | 57 => ⟨S4000000x1, .i32⟩
  | 58 => ⟨S4000000x4, .i32⟩
  | 59 => ⟨S4000000x1, .i1⟩
  | 60 => ⟨S_, .i32⟩
  | 61 => ⟨S4000000, .i32⟩
  | 62 => ⟨S4000000, .i1⟩
  | 63 => ⟨S_, .i32⟩
  | 64 => ⟨S4000000, .i32⟩
  | 65 => ⟨S4000000, .i32⟩
  | 66 => ⟨S4000000, .i32⟩
  | 67 => ⟨S4000000x1, .i32⟩
  | 68 => ⟨S4000000x4, .f32⟩
  | 69 => ⟨S_, .f32⟩
  | 70 => ⟨S_, .f32⟩
  | 71 => ⟨S4000000x4, .i1⟩
  | 72 => ⟨S4000000x4, .f32⟩
  | 73 => ⟨S4000000x4, .f32⟩
  | 74 => ⟨S4000000x1, .i1⟩
  | 75 => ⟨S_, .i32⟩
  | 76 => ⟨S_, .i32⟩
  | 77 => ⟨S4000000x4, .i1⟩
  | 78 => ⟨S4000000x4, .i32⟩
  | 79 => ⟨S4000000x4, .i32⟩
  | _ => ⟨S8x500000x4, .f32⟩

abbrev hbmTy (i : Nat) : BufTy := match i / 128 with
  | 0 => hbmTy0_0 i
  | 1 => hbmTy0_1 i
  | _ => ⟨S8x500000x4, .f32⟩

abbrev bufTy : (tb : Table) → Fin (tcTables nBuf tb) → BufTy
  | .hbm, ⟨i, _⟩ => hbmTy i
  | .local _ .vmem, ⟨0, _⟩ => ⟨S4x160000, .f32⟩
  | .local _ .vmem, ⟨1, _⟩ => ⟨S4x160000, .f32⟩
  | .local _ .vmem, ⟨2, _⟩ => ⟨S1x160000, .i32⟩
  | .local _ .vmem, ⟨3, _⟩ => ⟨S1x160000, .i32⟩
  | _, _ => ⟨S8x500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_call0_c : Ref sig .tc := ⟨.hbm, 17, rfl⟩
abbrev main_call0_call0_v0 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_call1_call0_c : Ref sig .tc := ⟨.hbm, 23, rfl⟩
abbrev main_call1_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_c_1 : Ref sig .tc := ⟨.hbm, 70, rfl⟩
abbrev main_call3_v5 : Ref sig .tc := ⟨.hbm, 71, rfl⟩
abbrev main_call3_v6 : Ref sig .tc := ⟨.hbm, 72, rfl⟩
abbrev main_call3_c_2 : Ref sig .tc := ⟨.hbm, 73, rfl⟩
abbrev main_call3_v7 : Ref sig .tc := ⟨.hbm, 74, rfl⟩
abbrev main_call3_v8 : Ref sig .tc := ⟨.hbm, 75, rfl⟩
abbrev main_call3_c_3 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_v45 : Ref sig .tc := ⟨.hbm, 83, rfl⟩
abbrev main_c_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_c : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_0 : Ref sig .tc := ⟨.hbm, 98, rfl⟩
abbrev main_call4_v12 : Ref sig .tc := ⟨.hbm, 99, rfl⟩
abbrev main_call4_v13 : Ref sig .tc := ⟨.hbm, 100, rfl⟩
abbrev main_v46 : Ref sig .tc := ⟨.hbm, 101, rfl⟩
abbrev main_c_12 : Ref sig .tc := ⟨.hbm, 102, rfl⟩
abbrev main_call5_v0 : Ref sig .tc := ⟨.hbm, 103, rfl⟩
abbrev main_call5_c : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_c_1 : Ref sig .tc := ⟨.hbm, 110, rfl⟩
abbrev main_call5_v5 : Ref sig .tc := ⟨.hbm, 111, rfl⟩
abbrev main_call5_v6 : Ref sig .tc := ⟨.hbm, 112, rfl⟩
abbrev main_call5_c_2 : Ref sig .tc := ⟨.hbm, 113, rfl⟩
abbrev main_call5_v7 : Ref sig .tc := ⟨.hbm, 114, rfl⟩
abbrev main_call5_v8 : Ref sig .tc := ⟨.hbm, 115, rfl⟩
abbrev main_call5_c_3 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_v47 : Ref sig .tc := ⟨.hbm, 123, rfl⟩
abbrev main_c_13 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_v6 : Ref sig .tc := ⟨.hbm, 131, rfl⟩
abbrev main_call6_v7 : Ref sig .tc := ⟨.hbm, 132, rfl⟩
abbrev main_call6_v8 : Ref sig .tc := ⟨.hbm, 133, rfl⟩
abbrev main_call6_c : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_c_0 : Ref sig .tc := ⟨.hbm, 138, rfl⟩
abbrev main_call6_v12 : Ref sig .tc := ⟨.hbm, 139, rfl⟩
abbrev main_call6_v13 : Ref sig .tc := ⟨.hbm, 140, rfl⟩
abbrev main_v48 : Ref sig .tc := ⟨.hbm, 141, rfl⟩
abbrev main_c_14 : Ref sig .tc := ⟨.hbm, 142, rfl⟩
abbrev main_call7_v0 : Ref sig .tc := ⟨.hbm, 143, rfl⟩
abbrev main_call7_c : Ref sig .tc := ⟨.hbm, 144, rfl⟩
abbrev main_call7_v1 : Ref sig .tc := ⟨.hbm, 145, rfl⟩
abbrev main_call7_c_0 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_call7_c_1 : Ref sig .tc := ⟨.hbm, 150, rfl⟩
abbrev main_call7_v5 : Ref sig .tc := ⟨.hbm, 151, rfl⟩
abbrev main_call7_v6 : Ref sig .tc := ⟨.hbm, 152, rfl⟩
abbrev main_call7_c_2 : Ref sig .tc := ⟨.hbm, 153, rfl⟩
abbrev main_call7_v7 : Ref sig .tc := ⟨.hbm, 154, rfl⟩
abbrev main_call7_v8 : Ref sig .tc := ⟨.hbm, 155, rfl⟩
abbrev main_call7_c_3 : Ref sig .tc := ⟨.hbm, 156, rfl⟩
abbrev main_call7_v9 : Ref sig .tc := ⟨.hbm, 157, rfl⟩
abbrev main_call7_v10 : Ref sig .tc := ⟨.hbm, 158, rfl⟩
abbrev main_call7_v11 : Ref sig .tc := ⟨.hbm, 159, rfl⟩
abbrev main_call7_v12 : Ref sig .tc := ⟨.hbm, 160, rfl⟩
abbrev main_call7_v13 : Ref sig .tc := ⟨.hbm, 161, rfl⟩
abbrev main_call7_v14 : Ref sig .tc := ⟨.hbm, 162, rfl⟩
abbrev main_v49 : Ref sig .tc := ⟨.hbm, 163, rfl⟩
abbrev main_c_15 : Ref sig .tc := ⟨.hbm, 164, rfl⟩
abbrev main_call8_v0 : Ref sig .tc := ⟨.hbm, 165, rfl⟩
abbrev main_call8_v1 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_call8_v5 : Ref sig .tc := ⟨.hbm, 170, rfl⟩
abbrev main_call8_v6 : Ref sig .tc := ⟨.hbm, 171, rfl⟩
abbrev main_call8_v7 : Ref sig .tc := ⟨.hbm, 172, rfl⟩
abbrev main_call8_v8 : Ref sig .tc := ⟨.hbm, 173, rfl⟩
abbrev main_call8_c : Ref sig .tc := ⟨.hbm, 174, rfl⟩
abbrev main_call8_v9 : Ref sig .tc := ⟨.hbm, 175, rfl⟩
abbrev main_call8_v10 : Ref sig .tc := ⟨.hbm, 176, rfl⟩
abbrev main_call8_v11 : Ref sig .tc := ⟨.hbm, 177, rfl⟩
abbrev main_call8_c_0 : Ref sig .tc := ⟨.hbm, 178, rfl⟩
abbrev main_call8_v12 : Ref sig .tc := ⟨.hbm, 179, rfl⟩
abbrev main_call8_v13 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_v56 : Ref sig .tc := ⟨.hbm, 187, rfl⟩
abbrev main_c_16 : Ref sig .tc := ⟨.hbm, 188, rfl⟩
abbrev main_v57 : Ref sig .tc := ⟨.hbm, 189, rfl⟩
abbrev main_v58 : Ref sig .tc := ⟨.hbm, 190, rfl⟩
abbrev main_c_17 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_cst : Ref sig .tc := ⟨.hbm, 197, rfl⟩
abbrev main_call9_v0 : Ref sig .tc := ⟨.hbm, 198, rfl⟩
abbrev main_call9_v1 : Ref sig .tc := ⟨.hbm, 199, rfl⟩
abbrev main_call9_v2 : Ref sig .tc := ⟨.hbm, 200, rfl⟩
abbrev main_v64 : Ref sig .tc := ⟨.hbm, 201, rfl⟩
abbrev main_v65 : Ref sig .tc := ⟨.hbm, 202, rfl⟩
abbrev main_c_18 : Ref sig .tc := ⟨.hbm, 203, rfl⟩
abbrev main_call10_v0 : Ref sig .tc := ⟨.hbm, 204, rfl⟩
abbrev main_call10_v1 : Ref sig .tc := ⟨.hbm, 205, rfl⟩
abbrev main_call10_v2 : Ref sig .tc := ⟨.hbm, 206, rfl⟩
abbrev main_v66 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x500000x4_S4000000x4 : S8x500000x4.ShapeCasts S4000000x4
  transposes_S4000000x4_S4x4000000_1_0 : S4000000x4.Transposes [1, 0] S4x4000000
  inb_S4x160000_S4x160000_0_0 : ∀ a, (![0, 0] : Fin 2 → Nat) a + S4x160000.size a ≤ S4x160000.size a
  h_S4x160000 : 0 < S4x160000.numel
  shapeCasts_S4x160000_S4x160000 : S4x160000.ShapeCasts S4x160000
  slices_S4x160000_o0_0_S1x160000 : S4x160000.Slices ![0, 0] S1x160000
  slices_S4x160000_o1_0_S1x160000 : S4x160000.Slices ![1, 0] S1x160000
  slices_S4x160000_o2_0_S1x160000 : S4x160000.Slices ![2, 0] S1x160000
  iota_S1x160000_d1_w32 : S1x160000.Iotas .tc 32 [1]
  natLt_1_32 : 1 < 32
  inb_S1x160000_S1x160000_0_0 : ∀ a, (![0, 0] : Fin 2 → Nat) a + S1x160000.size a ≤ S1x160000.size a
  h_S1x160000 : 0 < S1x160000.numel
  shapeCasts_S1x4000000_S4000000 : S1x4000000.ShapeCasts S4000000
  slices_S4000000_S3999999_1 : S4000000.Slices ![1] S3999999
  concatenates_S3999999_S1_S4000000_d0 : Shape.Concatenates [S3999999, S1] S4000000 0
  bcast_S_S4000000 : S_.BroadcastsInDim S4000000 (![] : Fin 0 → Fin S4000000.rank)
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  slices_S4000000_S1_3999999 : S4000000.Slices ![3999999] S1
  shapeCasts_S1_S_ : S1.ShapeCasts S_
  bcast_S4000000_S4000000x1_0 : S4000000.BroadcastsInDim S4000000x1 (![0] : Fin 1 → Fin S4000000x1.rank)
  concatenates_S4000000x1_S4000000x1_S4000000x1_S4000000x1_S4000000x4_d1 : Shape.Concatenates [S4000000x1, S4000000x1, S4000000x1, S4000000x1] S4000000x4 1
  bcast_S4000000x1_S4000000x4_0_1 : S4000000x1.BroadcastsInDim S4000000x4 (![0, 1] : Fin 2 → Fin S4000000x4.rank)
  bcast_S_S4000000x4 : S_.BroadcastsInDim S4000000x4 (![] : Fin 0 → Fin S4000000x4.rank)
  scatter_S4000000_S4000000x1_S4000000_n_0_0_1_wf : ScatterDims.WF S4000000 S4000000x1 S4000000 [] [0] [0] 1
  gather_S4000000x4_S4000000x1_S4000000x4_1_0_n_n_0_1_14_wf : GatherDims.WF S4000000x4 S4000000x1 S4000000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x160000.size a ≤ S4x4000000.size a
  hwx0_0 : ∀ i : grid0.Coords, EltTy.bits .f32 = 32 ∨ (Rect.block (s := S4x4000000) S4x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160000.size a ≤ S1x4000000.size a
  hwx0_1 : ∀ i : grid0.Coords, EltTy.bits .i32 = 32 ∨ (Rect.block (s := S1x4000000) S1x160000.size (cc0_transform_1 i) (hinb0_1 i)).WholeWords (EltTy.packing .i32)

variable [Facts₀]

def comparator_i32_i32_d0 : BitVec 32 × BitVec 32 → BitVec 32 × BitVec 32 → BitVec 1 :=
  fun l r =>
    let v67 := IntOp.cmpi .slt l.1 r.1
    v67
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf

abbrev win0_0 : Pipeline.Window sig grid0 :=
  Pipeline.Window.ofSpec (Memref.whole main_v1) S4x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x160000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x500000x4 : Shape := ⟨3, ![8, 500000, 4]⟩
abbrev S3 : Shape := ⟨1, ![3]⟩
abbrev S4000000x4 : Shape := ⟨2, ![4000000, 4]⟩
abbrev S4000000x3 : Shape := ⟨2, ![4000000, 3]⟩
abbrev S1x3 : Shape := ⟨2, ![1, 3]⟩
abbrev S8 : Shape := ⟨1, ![8]⟩
abbrev S8x500000 : Shape := ⟨2, ![8, 500000]⟩
abbrev S4000000 : Shape := ⟨1, ![4000000]⟩
abbrev S4000000x1 : Shape := ⟨2, ![4000000, 1]⟩
abbrev S_ : Shape := ⟨0, ![]⟩
abbrev S1126401 : Shape := ⟨1, ![1126401]⟩

abbrev nBuf : Space → Nat
  | .hbm => 112
  | .vmem => 0
  | .smem => 0
  | _ => 0

abbrev bufTy : (tb : Table) → Fin (tcTables nBuf tb) → BufTy
  | .hbm, ⟨0, _⟩ => ⟨S8x500000x4, .f32⟩
  | .hbm, ⟨1, _⟩ => ⟨S3, .f32⟩
  | .hbm, ⟨2, _⟩ => ⟨S3, .f32⟩
  | .hbm, ⟨3, _⟩ => ⟨S3, .i32⟩
  | .hbm, ⟨4, _⟩ => ⟨S4000000x4, .f32⟩
  | .hbm, ⟨5, _⟩ => ⟨S4000000x3, .f32⟩
  | .hbm, ⟨6, _⟩ => ⟨S1x3, .f32⟩
  | .hbm, ⟨7, _⟩ => ⟨S4000000x3, .f32⟩
  | .hbm, ⟨8, _⟩ => ⟨S4000000x3, .f32⟩
  | .hbm, ⟨9, _⟩ => ⟨S1x3, .f32⟩
  | .hbm, ⟨10, _⟩ => ⟨S4000000x3, .f32⟩
  | .hbm, ⟨11, _⟩ => ⟨S4000000x3, .f32⟩
  | .hbm, ⟨12, _⟩ => ⟨S4000000x3, .i32⟩
  | .hbm, ⟨13, _⟩ => ⟨S8, .i32⟩
  | .hbm, ⟨14, _⟩ => ⟨S8x500000, .i32⟩
  | .hbm, ⟨15, _⟩ => ⟨S4000000, .i32⟩
  | .hbm, ⟨16, _⟩ => ⟨S4000000x1, .i32⟩
  | .hbm, ⟨17, _⟩ => ⟨S4000000x3, .i32⟩
  | .hbm, ⟨18, _⟩ => ⟨S4000000x4, .i32⟩
  | .hbm, ⟨19, _⟩ => ⟨S_, .i32⟩
  | .hbm, ⟨20, _⟩ => ⟨S4000000x3, .i32⟩
  | .hbm, ⟨21, _⟩ => ⟨S4000000x3, .i1⟩
  | .hbm, ⟨22, _⟩ => ⟨S1x3, .i32⟩
  | .hbm, ⟨23, _⟩ => ⟨S4000000x3, .i32⟩
  | .hbm, ⟨24, _⟩ => ⟨S4000000x3, .i1⟩
  | .hbm, ⟨25, _⟩ => ⟨S4000000x3, .i1⟩
  | .hbm, ⟨26, _⟩ => ⟨S_, .i1⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .i32⟩
  | .hbm, ⟨33, _⟩ => ⟨S4000000, .i32⟩
  | .hbm, ⟨34, _⟩ => ⟨S_, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000, .i32⟩
  | .hbm, ⟨39, _⟩ => ⟨S4000000, .i32⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000x1, .i32⟩
  | .hbm, ⟨44, _⟩ => ⟨S4000000, .i32⟩
  | .hbm, ⟨45, _⟩ => ⟨S4000000, .i32⟩
  | .hbm, ⟨46, _⟩ => ⟨S_, .i32⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S_, .i32⟩
  | .hbm, ⟨52, _⟩ => ⟨S1126401, .i32⟩
  | .hbm, ⟨53, _⟩ => ⟨S4000000x1, .i32⟩
  | .hbm, ⟨54, _⟩ => ⟨S1126401, .i32⟩
  | .hbm, ⟨55, _⟩ => ⟨S_, .i32⟩
  | .hbm, ⟨56, _⟩ => ⟨S4000000, .i32⟩
  | .hbm, ⟨57, _⟩ => ⟨S4000000, .i1⟩
  | .hbm, ⟨58, _⟩ => ⟨S_, .i32⟩
  | .hbm, ⟨59, _⟩ => ⟨S4000000, .i32⟩
  | .hbm, ⟨60, _⟩ => ⟨S4000000, .i32⟩
  | .hbm, ⟨61, _⟩ => ⟨S4000000, .i32⟩
  | .hbm, ⟨62, _⟩ => ⟨S4000000x1, .i32⟩
  | .hbm, ⟨63, _⟩ => ⟨S4000000, .i32⟩
  | .hbm, ⟨64, _⟩ => ⟨S4000000, .i1⟩
  | .hbm, ⟨65, _⟩ => ⟨S4000000, .i1⟩
  | .hbm, ⟨66, _⟩ => ⟨S_, .i32⟩
  | .hbm, ⟨67, _⟩ => ⟨S_, .i32⟩
  | .hbm, ⟨68, _⟩ => ⟨S4000000, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S4000000, .i32⟩
  | .hbm, ⟨73, _⟩ => ⟨S_, .i32⟩
  | .hbm, ⟨74, _⟩ => ⟨S4000000, .i32⟩
  | .hbm, ⟨75, _⟩ => ⟨S4000000, .i1⟩
  | .hbm, ⟨76, _⟩ => ⟨S_, .i32⟩
  | .hbm, ⟨77, _⟩ => ⟨S4000000, .i32⟩
  | .hbm, ⟨78, _⟩ => ⟨S4000000, .i32⟩
  | .hbm, ⟨79, _⟩ => ⟨S4000000, .i32⟩
  | .hbm, ⟨80, _⟩ => ⟨S4000000x1, .i32⟩
  | .hbm, ⟨81, _⟩ => ⟨S4000000, .i1⟩
  | .hbm, ⟨82, _⟩ => ⟨S4000000x1, .i1⟩
  | .hbm, ⟨83, _⟩ => ⟨S_, .i32⟩
  | .hbm, ⟨84, _⟩ => ⟨S4000000, .i32⟩
  | .hbm, ⟨85, _⟩ => ⟨S4000000, .i1⟩
  | .hbm, ⟨86, _⟩ => ⟨S_, .i32⟩
  | .hbm, ⟨87, _⟩ => ⟨S4000000, .i32⟩
  | .hbm, ⟨88, _⟩ => ⟨S4000000, .i32⟩
  | .hbm, ⟨89, _⟩ => ⟨S4000000, .i32⟩
  | .hbm, ⟨90, _⟩ => ⟨S4000000x1, .i32⟩
  | .hbm, ⟨91, _⟩ => ⟨S4000000x4, .f32⟩
  | .hbm, ⟨92, _⟩ => ⟨S_, .f32⟩
  | .hbm, ⟨93, _⟩ => ⟨S_, .f32⟩
  | .hbm, ⟨94, _⟩ => ⟨S4000000x4, .i1⟩
  | .hbm, ⟨95, _⟩ => ⟨S4000000x4, .f32⟩
  | .hbm, ⟨96, _⟩ => ⟨S4000000x4, .f32⟩
  | .hbm, ⟨97, _⟩ => ⟨S4000000x1, .i1⟩
  | .hbm, ⟨98, _⟩ => ⟨S_, .i32⟩
  | .hbm, ⟨99, _⟩ => ⟨S4000000, .i32⟩
  | .hbm, ⟨100, _⟩ => ⟨S4000000, .i1⟩
  | .hbm, ⟨101, _⟩ => ⟨S_, .i32⟩
  | .hbm, ⟨102, _⟩ => ⟨S4000000, .i32⟩
  | .hbm, ⟨103, _⟩ => ⟨S4000000, .i32⟩
  | .hbm, ⟨104, _⟩ => ⟨S4000000, .i32⟩
  | .hbm, ⟨105, _⟩ => ⟨S4000000x1, .i32⟩
  | .hbm, ⟨106, _⟩ => ⟨S4000000x4, .i32⟩
  | .hbm, ⟨107, _⟩ => ⟨S_, .i32⟩
  | .hbm, ⟨108, _⟩ => ⟨S_, .i32⟩
  | .hbm, ⟨109, _⟩ => ⟨S4000000x4, .i1⟩
  | .hbm, ⟨110, _⟩ => ⟨S4000000x4, .i32⟩
  | .hbm, ⟨111, _⟩ => ⟨S4000000x4, .i32⟩
  | _, _ => ⟨S8x500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_v37 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_call1_v0 : Ref sig .tc := ⟨.hbm, 67, rfl⟩
abbrev main_call1_v1 : Ref sig .tc := ⟨.hbm, 68, rfl⟩
abbrev main_v51 : Ref sig .tc := ⟨.hbm, 69, rfl⟩
abbrev main_call2_v0 : Ref sig .tc := ⟨.hbm, 70, rfl⟩
abbrev main_call2_v1_0 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v77 : Ref sig .tc := ⟨.hbm, 111, rfl⟩

abbrev nD : Nat := 1
abbrev τ : Topo := Topo.v7x

variable {F : FTy → Type} [FloatOps F]

class Facts₀ : Prop where
  shapeCasts_S8x500000x4_S4000000x4 : S8x500000x4.ShapeCasts S4000000x4
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S8_S8x500000_0 : S8.BroadcastsInDim S8x500000 (![0] : Fin 1 → Fin S8x500000.rank)
  shapeCasts_S8x500000_S4000000 : S8x500000.ShapeCasts S4000000
  bcast_S4000000_S4000000x1_0 : S4000000.BroadcastsInDim S4000000x1 (![0] : Fin 1 → Fin S4000000x1.rank)
  concatenates_S4000000x1_S4000000x3_S4000000x4_d1 : Shape.Concatenates [S4000000x1, S4000000x3] S4000000x4 1
  bcast_S_S4000000x3 : S_.BroadcastsInDim S4000000x3 (![] : Fin 0 → Fin S4000000x3.rank)
  reducesTo_S4000000x3_S4000000_d1 : S4000000x3.ReducesTo [1] S4000000
  h_S_ : 0 < S_.numel
  bcast_S_S4000000 : S_.BroadcastsInDim S4000000 (![] : Fin 0 → Fin S4000000.rank)
  slices_S4000000x3_S4000000x1_0_2 : S4000000x3.Slices ![0, 2] S4000000x1
  shapeCasts_S4000000x1_S4000000 : S4000000x1.ShapeCasts S4000000
  slices_S4000000x3_S4000000x1_0_1 : S4000000x3.Slices ![0, 1] S4000000x1
  slices_S4000000x3_S4000000x1_0_0 : S4000000x3.Slices ![0, 0] S4000000x1
  bcast_S_S1126401 : S_.BroadcastsInDim S1126401 (![] : Fin 0 → Fin S1126401.rank)
  bcast_S4000000x1_S4000000x4_0_1 : S4000000x1.BroadcastsInDim S4000000x4 (![0, 1] : Fin 2 → Fin S4000000x4.rank)
  bcast_S_S4000000x4 : S_.BroadcastsInDim S4000000x4 (![] : Fin 0 → Fin S4000000x4.rank)
  scatter_S1126401_S4000000x1_S4000000_n_0_0_1_wf : ScatterDims.WF S1126401 S4000000x1 S4000000 [] [0] [0] 1
  gather_S1126401_S4000000x1_S4000000_n_0_n_n_0_1_1_wf : GatherDims.WF S1126401 S4000000x1 S4000000 [] [0] [] [0] [] 1 ![1]
  gather_S4000000_S4000000x1_S4000000_n_0_n_n_0_1_1_wf : GatherDims.WF S4000000 S4000000x1 S4000000 [] [0] [] [0] [] 1 ![1]
  gather_S4000000x4_S4000000x1_S4000000x4_1_0_n_n_0_1_14_wf : GatherDims.WF S4000000x4 S4000000x1 S4000000x4 [1] [0] [] [0] [] 1 ![1, 4]

variable [Facts₀]

def scatter_S1126401_S4000000x1_S4000000_n_0_0_1 : ScatterDims S1126401 S4000000x1 S4000000 where
  updateWindowDims := []
  insertedWindowDims := [0]
  scatterDimsToOperandDims := [0]
  indexVectorDim := 1
  wf := scatter_S1126401_S4000000x1_S4000000_n_0_0_1_wf
def gather_S1126401_S4000000x1_S4000000_n_0_n_n_0_1_1 : GatherDims S1126401 S4000000x1 S4000000 where
  offsetDims := []
  collapsedSliceDims := [0]
  operandBatchingDims := []
  startIndicesBatchingDims := []
  startIndexMap := [0]
  indexVectorDim := 1
  sliceSizes := ![1]
  wf := gather_S1126401_S4000000x1_S4000000_n_0_n_n_0_1_1_wf
def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf

class Facts : Prop extends Facts₀ where

variable [Facts]
-- ==== Proof.KernelHost.lean ====
/-
  The host side of the launch of `Kernel`'s one region: @main is three host operations, the region, and 203 host
  operations after it (twenty-two stretches: @main's own lines and the bodies of the functions it calls). Stated here:
  the buffer contents the region finds (the fold of the three operations over the launch memory), that @main reduces
  to the region continued by the later stretches, and the three facts the later stretches owe the launch: each touches
  unscoped TensorCore buffers only, allocates nothing, and writes neither array of the region's two windows.
-/
import proofs.«129221_j18588618457298_2_alg».proof.Proof.Gen.Kernel.Launch
import proofs.«129221_j18588618457298_2_alg».proof.Proof.Gen.Kernel.Skeleton
import proofs.«129221_j18588618457298_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The stretches of host operations after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]

/-- Core `c`'s buffer contents when the region is entered: the three host operations before it over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor

/-- @main is the host operations before the region, the region, and the stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every operation after the region touches unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)

/-- None allocates. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_13_keeps : ∀ op ∈ (hostOps1_13 : List (HloOp τ sig (Elt F))), ∀ w, Proc.devRef .tc (Pipeline.arrRef spec0 w) ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_14_keeps : ∀ op ∈ (hostOps1_14 : List (HloOp τ sig (Elt F))), ∀ w, Proc.devRef .tc (Pipeline.arrRef spec0 w) ∉ op.writes := by
  intro op hop
  simp only [hostOps1_14, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_15_keeps : ∀ op ∈ (hostOps1_15 : List (HloOp τ sig (Elt F))), ∀ w, Proc.devRef .tc (Pipeline.arrRef spec0 w) ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_16_keeps : ∀ op ∈ (hostOps1_16 : List (HloOp τ sig (Elt F))), ∀ w, Proc.devRef .tc (Pipeline.arrRef spec0 w) ∉ op.writes := by
  intro op hop
  simp only [hostOps1_16, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_17_keeps : ∀ op ∈ (hostOps1_17 : List (HloOp τ sig (Elt F))), ∀ w, Proc.devRef .tc (Pipeline.arrRef spec0 w) ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_18_keeps : ∀ op ∈ (hostOps1_18 : List (HloOp τ sig (Elt F))), ∀ w, Proc.devRef .tc (Pipeline.arrRef spec0 w) ∉ op.writes := by
  intro op hop
  simp only [hostOps1_18, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_19_keeps : ∀ op ∈ (hostOps1_19 : List (HloOp τ sig (Elt F))), ∀ w, Proc.devRef .tc (Pipeline.arrRef spec0 w) ∉ op.writes := by
  intro op hop
  simp only [hostOps1_19, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_20_keeps : ∀ op ∈ (hostOps1_20 : List (HloOp τ sig (Elt F))), ∀ w, Proc.devRef .tc (Pipeline.arrRef spec0 w) ∉ op.writes := by
  intro op hop
  simp only [hostOps1_20, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_21_keeps : ∀ op ∈ (hostOps1_21 : List (HloOp τ sig (Elt F))), ∀ w, Proc.devRef .tc (Pipeline.arrRef spec0 w) ∉ op.writes := by
  intro op hop
  simp only [hostOps1_21, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

theorem hostOps0_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps_arg0 : ∀ op ∈ (hostOps1_1 : List (HloOp τ sig (Elt F))), Proc.devRef .tc main_arg0 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps_arg0 : ∀ op ∈ (hostOps1_2 : List (HloOp τ sig (Elt F))), Proc.devRef .tc main_arg0 ∉ op.writes := by
  intro op hop
  simp only [hostOps1_2, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps_arg0 : ∀ op ∈ (hostOps1_3 : List (HloOp τ sig (Elt F))), Proc.devRef .tc main_arg0 ∉ op.writes := by
  intro op hop
  simp only [hostOps1_3, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps_arg0 : ∀ op ∈ (hostOps1_4 : List (HloOp τ sig (Elt F))), Proc.devRef .tc main_arg0 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps_arg0 : ∀ op ∈ (hostOps1_5 : List (HloOp τ sig (Elt F))), Proc.devRef .tc main_arg0 ∉ op.writes := by
  intro op hop
  simp only [hostOps1_5, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps_arg0 : ∀ op ∈ (hostOps1_6 : List (HloOp τ sig (Elt F))), Proc.devRef .tc main_arg0 ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps_arg0 : ∀ op ∈ (hostOps1_7 : List (HloOp τ sig (Elt F))), Proc.devRef .tc main_arg0 ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_8_keeps_arg0 : ∀ op ∈ (hostOps1_8 : List (HloOp τ sig (Elt F))), Proc.devRef .tc main_arg0 ∉ op.writes := by
  intro op hop
  simp only [hostOps1_8, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_9_keeps_arg0 : ∀ op ∈ (hostOps1_9 : List (HloOp τ sig (Elt F))), Proc.devRef .tc main_arg0 ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_10_keeps_arg0 : ∀ op ∈ (hostOps1_10 : List (HloOp τ sig (Elt F))), Proc.devRef .tc main_arg0 ∉ op.writes := by
  intro op hop
  simp only [hostOps1_10, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_11_keeps_arg0 : ∀ op ∈ (hostOps1_11 : List (HloOp τ sig (Elt F))), Proc.devRef .tc main_arg0 ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_12_keeps_arg0 : ∀ op ∈ (hostOps1_12 : List (HloOp τ sig (Elt F))), Proc.devRef .tc main_arg0 ∉ op.writes := by
  intro op hop
  simp only [hostOps1_12, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_13_keeps_arg0 : ∀ op ∈ (hostOps1_13 : List (HloOp τ sig (Elt F))), Proc.devRef .tc main_arg0 ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_14_keeps_arg0 : ∀ op ∈ (hostOps1_14 : List (HloOp τ sig (Elt F))), Proc.devRef .tc main_arg0 ∉ op.writes := by
  intro op hop
  simp only [hostOps1_14, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_15_keeps_arg0 : ∀ op ∈ (hostOps1_15 : List (HloOp τ sig (Elt F))), Proc.devRef .tc main_arg0 ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_16_keeps_arg0 : ∀ op ∈ (hostOps1_16 : List (HloOp τ sig (Elt F))), Proc.devRef .tc main_arg0 ∉ op.writes := by
  intro op hop
  simp only [hostOps1_16, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_17_keeps_arg0 : ∀ op ∈ (hostOps1_17 : List (HloOp τ sig (Elt F))), Proc.devRef .tc main_arg0 ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_18_keeps_arg0 : ∀ op ∈ (hostOps1_18 : List (HloOp τ sig (Elt F))), Proc.devRef .tc main_arg0 ∉ op.writes := by
  intro op hop
  simp only [hostOps1_18, List.mem_cons, List.mem_nil_iff, or_false] at hop
  rcases hop with rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_19_keeps_arg0 : ∀ op ∈ (hostOps1_19 : List (HloOp τ sig (Elt F))), Proc.devRef .tc main_arg0 ∉ op.writes := by
  intro op hop
  simp only [hostOps1_19, List.mem_cons, List.mem_nil_iff, or_false] at hop
  rcases hop with rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_20_keeps_arg0 : ∀ op ∈ (hostOps1_20 : List (HloOp τ sig (Elt F))), Proc.devRef .tc main_arg0 ∉ op.writes := by
  intro op hop
  simp only [hostOps1_20, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_21_keeps_arg0 : ∀ op ∈ (hostOps1_21 : List (HloOp τ sig (Elt F))), Proc.devRef .tc main_arg0 ∉ op.writes := by
  intro op hop
  simp only [hostOps1_21, List.mem_cons, List.mem_nil_iff, or_false] at hop
  rcases hop with rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation after the region writes the argument array. -/
theorem tail_keeps_arg0 : ∀ op ∈ (tail : List (List (HloOp τ sig (Elt F)))).flatten, Proc.devRef .tc main_arg0 ∉ op.writes := by
  intro op hop
  obtain ⟨ops, hops, hop⟩ := List.mem_flatten.mp hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact hostOps1_keeps_arg0 op hop
  · exact hostOps1_1_keeps_arg0 op hop
  · exact hostOps1_2_keeps_arg0 op hop
  · exact hostOps1_3_keeps_arg0 op hop
  · exact hostOps1_4_keeps_arg0 op hop
  · exact hostOps1_5_keeps_arg0 op hop
  · exact hostOps1_6_keeps_arg0 op hop
  · exact hostOps1_7_keeps_arg0 op hop
  · exact hostOps1_8_keeps_arg0 op hop
  · exact hostOps1_9_keeps_arg0 op hop
  · exact hostOps1_10_keeps_arg0 op hop
  · exact hostOps1_11_keeps_arg0 op hop
  · exact hostOps1_12_keeps_arg0 op hop
  · exact hostOps1_13_keeps_arg0 op hop
  · exact hostOps1_14_keeps_arg0 op hop
  · exact hostOps1_15_keeps_arg0 op hop
  · exact hostOps1_16_keeps_arg0 op hop
  · exact hostOps1_17_keeps_arg0 op hop
  · exact hostOps1_18_keeps_arg0 op hop
  · exact hostOps1_19_keeps_arg0 op hop
  · exact hostOps1_20_keeps_arg0 op hop
  · exact hostOps1_21_keeps_arg0 op hop

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (by
    simp only [List.flatten_cons, List.flatten_nil, List.append_nil]
    exact hostOps0_keeps_arg0)

/-- None writes an array of the region's windows (each writes only its own result buffer). -/
theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop
  · exact hostOps1_21_keeps op hop

end Cert.Kernel.Host

end
-- ==== Proof.KernelBody.lean ====
/-
  The launch of `Kernel`'s one region and the run of @main around it. The region's grid has 25 points; point t is
  handed block t (4 × 160000) of the channel-major point array and writes block t (1 × 160000) of the key row. The body
  loads its input block whole, computes one integer per point, and stores the row whole: after the body the output
  window's buffer holds that row as ONE function of the input block and the grid point (`keyBlock`). With this proof
  data the launch theorem runs @main to the end: both window arrays hold what the 25 write-backs leave, every other
  buffer what the later host operations compute from that, and the argument array is as launched.
-/
import proofs.«129221_j18588618457298_2_alg».proof.Proof.KernelHost

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Host

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 4 × 160000 block. -/
abbrev rIn : Rect S4x160000 := Rect.unit (s := S4x160000) ![0, 0] S4x160000.size inb_S4x160000_S4x160000_0_0
/-- The whole 1 × 160000 row. -/
abbrev rOut : Rect S1x160000 := Rect.unit (s := S1x160000) ![0, 0] S1x160000.size inb_S1x160000_S1x160000_0_0

/-- The row of keys the body computes at grid point `i` from its input block `x0`. -/
def keyBlock (i : grid0.Coords) (x0 : Vec F S4x160000 .f32) : IVec S1x160000 32 :=
  k0_pay1 (k0_pay3 (View.ld x0 rIn)) (k0_pay4 (View.ld x0 rIn)) (k0_pay5 (View.ld x0 rIn)) (k0_pay6 (View.ld x0 rIn))
    (k0_pay7 i) 500000#32 (k0_pay8 i)

/-- The output window's buffer after the body: its one store, as a piece. -/
def outRow (i : grid0.Coords) (x0 : Vec F S4x160000 .f32) : Vec F S1x160000 .i32 :=
  View.canon [⟨rOut, keyBlock i x0⟩]

/-- The one store covers the buffer. -/
theorem cover_out (p0 : Vec F S1x160000 .i32) (y : S1x160000.Idx) :
    ∃ pc ∈ ([⟨rOut, p0⟩] : List (View.Piece (Elt F) S1x160000 .i32)), y ∈ pc.1.set :=
  View.cover_of_tiled [⟨rOut, p0⟩] S1x160000.size (by rfl) y

/-! ## The body's triple -/

set_option maxHeartbeats 1000000 in
/-- The kernel body on whole staging memrefs, the input's at contents `x0` and the output's at anything, runs to the
    continuation holding the input's as it was and the output's at `outRow i x0`. -/
theorem sound_kernel (c : Dev nD) (E : Set ℕ) (i : grid0.Coords) (arg1 : Memref sig .tc .vmem S4x160000 .f32) (harg1 : arg1.IsWhole)
    (arg2 : Memref sig .tc .vmem S1x160000 .i32) (harg2 : arg2.IsWhole)
    (x0 : Vec F S4x160000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRow i x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The region's proof data -/

/-- The arrays as the region finds them; after the body at point `t` the input's buffer at its block and the output's at
    the key row of that block; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outRow (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outRow (grid0.coords t) (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end both window arrays hold what the write-backs left and
    every other unscoped buffer what the host operations after the region computed. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hΦ := fun _ _ => rfl)

/-- The argument array ends as launched: no host operation writes it and no window stages it. -/
theorem end_main_arg0 (c : Dev nD) :
    Pipeline.afterTail₀ cfgs (dats m) 0 (V0 m) tail c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The frame: @main runs to the end and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (end_main_arg0 m c)))
    (run_main m ρ)

end Cert.Kernel.Body

end
-- ==== Proof.KernelIdealHost.lean ====
/-
  The host side of the launch of `KernelIdeal`'s one region: @main is three host operations, the region, and 203 host
  operations after it (twenty-two stretches: @main's own lines and the bodies of the functions it calls). Stated here:
  the buffer contents the region finds (the fold of the three operations over the launch memory), that @main reduces
  to the region continued by the later stretches, and the three facts the later stretches owe the launch: each touches
  unscoped TensorCore buffers only, allocates nothing, and writes neither array of the region's two windows.
-/
import proofs.«129221_j18588618457298_2_alg».proof.Proof.Gen.KernelIdeal.Launch
import proofs.«129221_j18588618457298_2_alg».proof.Proof.Gen.KernelIdeal.Skeleton
import proofs.«129221_j18588618457298_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The stretches of host operations after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]

/-- Core `c`'s buffer contents when the region is entered: the three host operations before it over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor

/-- @main is the host operations before the region, the region, and the stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every operation after the region touches unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)

/-- None allocates. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_13_keeps : ∀ op ∈ (hostOps1_13 : List (HloOp τ sig (Elt F))), ∀ w, Proc.devRef .tc (Pipeline.arrRef spec0 w) ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_14_keeps : ∀ op ∈ (hostOps1_14 : List (HloOp τ sig (Elt F))), ∀ w, Proc.devRef .tc (Pipeline.arrRef spec0 w) ∉ op.writes := by
  intro op hop
  simp only [hostOps1_14, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_15_keeps : ∀ op ∈ (hostOps1_15 : List (HloOp τ sig (Elt F))), ∀ w, Proc.devRef .tc (Pipeline.arrRef spec0 w) ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_16_keeps : ∀ op ∈ (hostOps1_16 : List (HloOp τ sig (Elt F))), ∀ w, Proc.devRef .tc (Pipeline.arrRef spec0 w) ∉ op.writes := by
  intro op hop
  simp only [hostOps1_16, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_17_keeps : ∀ op ∈ (hostOps1_17 : List (HloOp τ sig (Elt F))), ∀ w, Proc.devRef .tc (Pipeline.arrRef spec0 w) ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_18_keeps : ∀ op ∈ (hostOps1_18 : List (HloOp τ sig (Elt F))), ∀ w, Proc.devRef .tc (Pipeline.arrRef spec0 w) ∉ op.writes := by
  intro op hop
  simp only [hostOps1_18, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_19_keeps : ∀ op ∈ (hostOps1_19 : List (HloOp τ sig (Elt F))), ∀ w, Proc.devRef .tc (Pipeline.arrRef spec0 w) ∉ op.writes := by
  intro op hop
  simp only [hostOps1_19, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_20_keeps : ∀ op ∈ (hostOps1_20 : List (HloOp τ sig (Elt F))), ∀ w, Proc.devRef .tc (Pipeline.arrRef spec0 w) ∉ op.writes := by
  intro op hop
  simp only [hostOps1_20, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_21_keeps : ∀ op ∈ (hostOps1_21 : List (HloOp τ sig (Elt F))), ∀ w, Proc.devRef .tc (Pipeline.arrRef spec0 w) ∉ op.writes := by
  intro op hop
  simp only [hostOps1_21, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

theorem hostOps0_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps_arg0 : ∀ op ∈ (hostOps1_1 : List (HloOp τ sig (Elt F))), Proc.devRef .tc main_arg0 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps_arg0 : ∀ op ∈ (hostOps1_2 : List (HloOp τ sig (Elt F))), Proc.devRef .tc main_arg0 ∉ op.writes := by
  intro op hop
  simp only [hostOps1_2, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps_arg0 : ∀ op ∈ (hostOps1_3 : List (HloOp τ sig (Elt F))), Proc.devRef .tc main_arg0 ∉ op.writes := by
  intro op hop
  simp only [hostOps1_3, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps_arg0 : ∀ op ∈ (hostOps1_4 : List (HloOp τ sig (Elt F))), Proc.devRef .tc main_arg0 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps_arg0 : ∀ op ∈ (hostOps1_5 : List (HloOp τ sig (Elt F))), Proc.devRef .tc main_arg0 ∉ op.writes := by
  intro op hop
  simp only [hostOps1_5, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps_arg0 : ∀ op ∈ (hostOps1_6 : List (HloOp τ sig (Elt F))), Proc.devRef .tc main_arg0 ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps_arg0 : ∀ op ∈ (hostOps1_7 : List (HloOp τ sig (Elt F))), Proc.devRef .tc main_arg0 ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_8_keeps_arg0 : ∀ op ∈ (hostOps1_8 : List (HloOp τ sig (Elt F))), Proc.devRef .tc main_arg0 ∉ op.writes := by
  intro op hop
  simp only [hostOps1_8, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_9_keeps_arg0 : ∀ op ∈ (hostOps1_9 : List (HloOp τ sig (Elt F))), Proc.devRef .tc main_arg0 ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_10_keeps_arg0 : ∀ op ∈ (hostOps1_10 : List (HloOp τ sig (Elt F))), Proc.devRef .tc main_arg0 ∉ op.writes := by
  intro op hop
  simp only [hostOps1_10, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_11_keeps_arg0 : ∀ op ∈ (hostOps1_11 : List (HloOp τ sig (Elt F))), Proc.devRef .tc main_arg0 ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_12_keeps_arg0 : ∀ op ∈ (hostOps1_12 : List (HloOp τ sig (Elt F))), Proc.devRef .tc main_arg0 ∉ op.writes := by
  intro op hop
  simp only [hostOps1_12, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_13_keeps_arg0 : ∀ op ∈ (hostOps1_13 : List (HloOp τ sig (Elt F))), Proc.devRef .tc main_arg0 ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_14_keeps_arg0 : ∀ op ∈ (hostOps1_14 : List (HloOp τ sig (Elt F))), Proc.devRef .tc main_arg0 ∉ op.writes := by
  intro op hop
  simp only [hostOps1_14, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_15_keeps_arg0 : ∀ op ∈ (hostOps1_15 : List (HloOp τ sig (Elt F))), Proc.devRef .tc main_arg0 ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_16_keeps_arg0 : ∀ op ∈ (hostOps1_16 : List (HloOp τ sig (Elt F))), Proc.devRef .tc main_arg0 ∉ op.writes := by
  intro op hop
  simp only [hostOps1_16, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_17_keeps_arg0 : ∀ op ∈ (hostOps1_17 : List (HloOp τ sig (Elt F))), Proc.devRef .tc main_arg0 ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_18_keeps_arg0 : ∀ op ∈ (hostOps1_18 : List (HloOp τ sig (Elt F))), Proc.devRef .tc main_arg0 ∉ op.writes := by
  intro op hop
  simp only [hostOps1_18, List.mem_cons, List.mem_nil_iff, or_false] at hop
  rcases hop with rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_19_keeps_arg0 : ∀ op ∈ (hostOps1_19 : List (HloOp τ sig (Elt F))), Proc.devRef .tc main_arg0 ∉ op.writes := by
  intro op hop
  simp only [hostOps1_19, List.mem_cons, List.mem_nil_iff, or_false] at hop
  rcases hop with rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_20_keeps_arg0 : ∀ op ∈ (hostOps1_20 : List (HloOp τ sig (Elt F))), Proc.devRef .tc main_arg0 ∉ op.writes := by
  intro op hop
  simp only [hostOps1_20, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_21_keeps_arg0 : ∀ op ∈ (hostOps1_21 : List (HloOp τ sig (Elt F))), Proc.devRef .tc main_arg0 ∉ op.writes := by
  intro op hop
  simp only [hostOps1_21, List.mem_cons, List.mem_nil_iff, or_false] at hop
  rcases hop with rfl | rfl | rfl | rfl
  all_goals simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation after the region writes the argument array. -/
theorem tail_keeps_arg0 : ∀ op ∈ (tail : List (List (HloOp τ sig (Elt F)))).flatten, Proc.devRef .tc main_arg0 ∉ op.writes := by
  intro op hop
  obtain ⟨ops, hops, hop⟩ := List.mem_flatten.mp hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact hostOps1_keeps_arg0 op hop
  · exact hostOps1_1_keeps_arg0 op hop
  · exact hostOps1_2_keeps_arg0 op hop
  · exact hostOps1_3_keeps_arg0 op hop
  · exact hostOps1_4_keeps_arg0 op hop
  · exact hostOps1_5_keeps_arg0 op hop
  · exact hostOps1_6_keeps_arg0 op hop
  · exact hostOps1_7_keeps_arg0 op hop
  · exact hostOps1_8_keeps_arg0 op hop
  · exact hostOps1_9_keeps_arg0 op hop
  · exact hostOps1_10_keeps_arg0 op hop
  · exact hostOps1_11_keeps_arg0 op hop
  · exact hostOps1_12_keeps_arg0 op hop
  · exact hostOps1_13_keeps_arg0 op hop
  · exact hostOps1_14_keeps_arg0 op hop
  · exact hostOps1_15_keeps_arg0 op hop
  · exact hostOps1_16_keeps_arg0 op hop
  · exact hostOps1_17_keeps_arg0 op hop
  · exact hostOps1_18_keeps_arg0 op hop
  · exact hostOps1_19_keeps_arg0 op hop
  · exact hostOps1_20_keeps_arg0 op hop
  · exact hostOps1_21_keeps_arg0 op hop

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (by
    simp only [List.flatten_cons, List.flatten_nil, List.append_nil]
    exact hostOps0_keeps_arg0)

/-- None writes an array of the region's windows (each writes only its own result buffer). -/
theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop
  · exact hostOps1_21_keeps op hop

end Cert.KernelIdeal.Host

end
-- ==== Proof.KernelIdealBody.lean ====
/-
  The launch of `KernelIdeal`'s one region and the run of @main around it. The region's grid has 25 points; point t is
  handed block t (4 × 160000) of the channel-major point array and writes block t (1 × 160000) of the key row. The body
  loads its input block whole, computes one integer per point, and stores the row whole: after the body the output
  window's buffer holds that row as ONE function of the input block and the grid point (`keyBlock`). With this proof
  data the launch theorem runs @main to the end: both window arrays hold what the 25 write-backs leave, every other
  buffer what the later host operations compute from that, and the argument array is as launched.
-/
import proofs.«129221_j18588618457298_2_alg».proof.Proof.KernelIdealHost

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 4 × 160000 block. -/
abbrev rIn : Rect S4x160000 := Rect.unit (s := S4x160000) ![0, 0] S4x160000.size inb_S4x160000_S4x160000_0_0
/-- The whole 1 × 160000 row. -/
abbrev rOut : Rect S1x160000 := Rect.unit (s := S1x160000) ![0, 0] S1x160000.size inb_S1x160000_S1x160000_0_0

/-- The row of keys the body computes at grid point `i` from its input block `x0`. -/
def keyBlock (i : grid0.Coords) (x0 : Vec F S4x160000 .f32) : IVec S1x160000 32 :=
  k0_pay1 (k0_pay3 (View.ld x0 rIn)) (k0_pay4 (View.ld x0 rIn)) (k0_pay5 (View.ld x0 rIn)) (k0_pay6 (View.ld x0 rIn))
    (k0_pay7 i) 500000#32 (k0_pay8 i)

/-- The output window's buffer after the body: its one store, as a piece. -/
def outRow (i : grid0.Coords) (x0 : Vec F S4x160000 .f32) : Vec F S1x160000 .i32 :=
  View.canon [⟨rOut, keyBlock i x0⟩]

/-- The one store covers the buffer. -/
theorem cover_out (p0 : Vec F S1x160000 .i32) (y : S1x160000.Idx) :
    ∃ pc ∈ ([⟨rOut, p0⟩] : List (View.Piece (Elt F) S1x160000 .i32)), y ∈ pc.1.set :=
  View.cover_of_tiled [⟨rOut, p0⟩] S1x160000.size (by rfl) y

/-! ## The body's triple -/

set_option maxHeartbeats 1000000 in
/-- The kernel body on whole staging memrefs, the input's at contents `x0` and the output's at anything, runs to the
    continuation holding the input's as it was and the output's at `outRow i x0`. -/
theorem sound_kernel (c : Dev nD) (E : Set ℕ) (i : grid0.Coords) (arg1 : Memref sig .tc .vmem S4x160000 .f32) (harg1 : arg1.IsWhole)
    (arg2 : Memref sig .tc .vmem S1x160000 .i32) (harg2 : arg2.IsWhole)
    (x0 : Vec F S4x160000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRow i x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The region's proof data -/

/-- The arrays as the region finds them; after the body at point `t` the input's buffer at its block and the output's at
    the key row of that block; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outRow (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outRow (grid0.coords t) (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end both window arrays hold what the write-backs left and
    every other unscoped buffer what the host operations after the region computed. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hΦ := fun _ _ => rfl)

/-- The argument array ends as launched: no host operation writes it and no window stages it. -/
theorem end_main_arg0 (c : Dev nD) :
    Pipeline.afterTail₀ cfgs (dats m) 0 (V0 m) tail c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The frame: @main runs to the end and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (end_main_arg0 m c)))
    (run_main m ρ)

end Cert.KernelIdeal.Body

end
-- ==== Proof.LibStableOrder.lean ====
/-
  The stable insertion sort of the positions `0 … n-1` by a key `f` lists them in the
  lexicographic order of (key, position): equal keys keep their original order. A bijection
  of the positions that lists them in that order is unique.
-/
import Idealize.ShloMosaic.PureOps.ShapeOps
import Idealize.ShloMosaic.Lib.SortFacts
import Mathlib.Data.List.Sort
import Mathlib.Data.List.OfFn
import Mathlib.Data.List.FinRange
import Mathlib.Logic.Equiv.Fin.Basic
import Mathlib.Tactic

namespace Cert.Lib.StableOrder

open Idealize.ShloMosaic

/-- σ lists the positions in lexicographic order of (f, position). -/
def LexSorted {n : ℕ} (f : Fin n → ℕ) (σ : Fin n → Fin n) : Prop :=
  ∀ i j : Fin n, i < j → f (σ i) < f (σ j) ∨ (f (σ i) = f (σ j) ∧ σ i < σ j)

/-- Inserting a position `a` that is smaller than every position of a list ordered by
    (key, position) keeps the list ordered by (key, position): `a` goes after every `b` with a
    strictly smaller key and before the first `c` with `f a ≤ f c`, and `a < c` as positions. -/
theorem pairwise_insertBefore_lex {n : ℕ} (f : Fin n → ℕ) (before : Fin n → Fin n → Bool)
    (hb : ∀ k k', before k k' = true ↔ f k < f k') (a : Fin n) (l : List (Fin n))
    (ha : ∀ b ∈ l, a < b)
    (hl : l.Pairwise fun b c => f b < f c ∨ (f b = f c ∧ b < c)) :
    (insertBefore before a l).Pairwise fun b c => f b < f c ∨ (f b = f c ∧ b < c) := by
  induction l with
  | nil => exact List.pairwise_singleton _ _
  | cons b l ih =>
    rw [List.pairwise_cons] at hl
    unfold insertBefore
    split
    · rename_i h
      have hba : f b < f a := (hb b a).mp h
      refine List.pairwise_cons.mpr
        ⟨fun c hc => ?_, ih (fun c hc => ha c (List.mem_cons_of_mem b hc)) hl.2⟩
      rcases List.mem_cons.mp ((perm_insertBefore before a l).mem_iff.mp hc) with hca | hc'
      · rw [hca]; exact Or.inl hba
      · exact hl.1 c hc'
    · rename_i h
      have hab : f a ≤ f b := by
        by_contra hlt
        exact h ((hb b a).mpr (not_le.mp hlt))
      refine List.pairwise_cons.mpr ⟨fun c hc => ?_, List.pairwise_cons.mpr hl⟩
      have hac : a < c := ha c hc
      have hfac : f a ≤ f c := by
        rcases List.mem_cons.mp hc with hcb | hc'
        · rw [hcb]; exact hab
        · rcases hl.1 c hc' with h1 | ⟨h1, _⟩ <;> omega
      rcases Nat.lt_or_eq_of_le hfac with h1 | h1
      · exact Or.inl h1
      · exact Or.inr ⟨h1, hac⟩

/-- The stable sort of a strictly increasing list of positions is ordered by (key, position). -/
theorem pairwise_stableSort_lex {n : ℕ} (f : Fin n → ℕ) (before : Fin n → Fin n → Bool)
    (hb : ∀ k k', before k k' = true ↔ f k < f k') (l : List (Fin n))
    (hl : l.Pairwise (· < ·)) :
    (stableSort before l).Pairwise fun b c => f b < f c ∨ (f b = f c ∧ b < c) := by
  induction l with
  | nil => exact List.Pairwise.nil
  | cons a l ih =>
    rw [List.pairwise_cons] at hl
    unfold stableSort
    exact pairwise_insertBefore_lex f before hb a _
      (fun b hb' => hl.1 b ((perm_stableSort before l).mem_iff.mp hb')) (ih hl.2)

/-- Stability: the sorting permutation lists the positions by (key, position). -/
theorem sortedFrom_lexSorted {n : ℕ} (f : Fin n → ℕ) (before : Fin n → Fin n → Bool)
    (hb : ∀ k k', before k k' = true ↔ f k < f k') : LexSorted f (sortedFrom before) := by
  intro i j hij
  have hp : ∀ a b : Fin (sortPositions n before).length, a < b →
      f ((sortPositions n before).get a) < f ((sortPositions n before).get b) ∨
        (f ((sortPositions n before).get a) = f ((sortPositions n before).get b) ∧
          (sortPositions n before).get a < (sortPositions n before).get b) :=
    List.pairwise_iff_get.mp
      (pairwise_stableSort_lex f before hb (List.finRange n) (List.pairwise_lt_finRange n))
  unfold sortedFrom
  exact hp _ _ (by simp only [Fin.lt_def, Fin.val_cast]; exact hij)

theorem sortedFrom_bijective {n : ℕ} (before : Fin n → Fin n → Bool) :
    Function.Bijective (sortedFrom before) :=
  ⟨sortedFrom_injective before, sortedFrom_surjective before⟩

/-- Two bijections that both list the positions by (key, position) are equal: both enumerate
    all positions along one strict total order. -/
theorem lexSorted_unique {n : ℕ} (f : Fin n → ℕ) (σ τ : Fin n → Fin n)
    (hσ : Function.Bijective σ) (hτ : Function.Bijective τ)
    (hσs : LexSorted f σ) (hτs : LexSorted f τ) : σ = τ := by
  let r : Fin n → Fin n → Prop := fun a b => f a < f b ∨ (f a = f b ∧ a < b)
  have : Std.Antisymm r := ⟨fun a b h₁ h₂ => by
    rcases h₁ with h₁ | ⟨h₁, h₁'⟩ <;> rcases h₂ with h₂ | ⟨h₂, h₂'⟩
    · omega
    · omega
    · omega
    · exact absurd h₁' (lt_asymm h₂')⟩
  have h₁ : (List.ofFn σ).Pairwise r := List.pairwise_ofFn.mpr hσs
  have h₂ : (List.ofFn τ).Pairwise r := List.pairwise_ofFn.mpr hτs
  have pσ : (List.ofFn σ).Perm (List.finRange n) := by
    rw [List.ofFn_eq_map]
    exact Equiv.Perm.map_finRange_perm (Equiv.ofBijective σ hσ)
  have pτ : (List.ofFn τ).Perm (List.finRange n) := by
    rw [List.ofFn_eq_map]
    exact Equiv.Perm.map_finRange_perm (Equiv.ofBijective τ hτ)
  exact List.ofFn_injective ((pσ.trans pτ.symm).eq_of_pairwise' h₁ h₂)

end Cert.Lib.StableOrder
-- ==== Proof.LibDedup.lean ====
/-
  Two ways of picking one point per occupied voxel agree.

  `n` points, point `i` has a key `key i`; keys below `S` are "in range". One procedure lists the
  points by (key, position) (`σ`), marks a sorted position when it is the LAST of its run of equal
  keys and the key is below `S`, and moves the marked positions to the front in order (`dest`). The
  other marks point `i` when its key is below `S` and `i` is the largest index with that key
  (`chosen`), replaces the key of every other point by `S + 1` (`key2`) and lists the points by
  (that key, position) (`τ`). On the marked prefix the two agree.
-/
import proofs.«129221_j18588618457298_2_alg».proof.Proof.LibStableOrder
import Mathlib.Order.Interval.Finset.Fin
import Mathlib.Data.Fintype.Card
import Mathlib.Tactic

namespace Cert.Lib.Dedup

open Cert.Lib.StableOrder

variable {n : ℕ}

/-- Sorted position `k` is the last of its run of equal keys, and its key is in range. -/
def sel (key : Fin n → ℕ) (S : ℕ) (σ : Fin n → Fin n) (k : Fin n) : Prop :=
  (∀ h : k.val + 1 < n, key (σ k) ≠ key (σ ⟨k.val + 1, h⟩)) ∧ key (σ k) < S

/-- The number of marked sorted positions up to and including `k`. -/
noncomputable def cnt (key : Fin n → ℕ) (S : ℕ) (σ : Fin n → Fin n) (k : Fin n) : ℕ := by
  classical exact (Finset.univ.filter fun k' : Fin n => k' ≤ k ∧ sel key S σ k').card

/-- The number of marked sorted positions. -/
noncomputable def total (key : Fin n → ℕ) (S : ℕ) (σ : Fin n → Fin n) : ℕ := by
  classical exact (Finset.univ.filter fun k' : Fin n => sel key S σ k').card

/-- Where sorted position `k` goes: the marked ones to the front in order, the others behind
    them in order. -/
noncomputable def dest (key : Fin n → ℕ) (S : ℕ) (σ : Fin n → Fin n) (k : Fin n) : ℕ := by
  classical exact
    if (sel key S σ k) then cnt key S σ k - 1 else total key S σ + (k.val + 1 - cnt key S σ k) - 1

/-- Point `i` is in range and is the largest index with its key. -/
def chosen (key : Fin n → ℕ) (S : ℕ) (i : Fin n) : Prop :=
  key i < S ∧ ∀ i' : Fin n, key i' = key i → i' ≤ i

/-- The key with every point that is not chosen sent behind all keys in range. -/
noncomputable def key2 (key : Fin n → ℕ) (S : ℕ) (i : Fin n) : ℕ := by
  classical exact if chosen key S i then key i else S + 1

/-! ## Counting along an initial segment of the positions -/

section counting

theorem card_prefix_pos {p : Fin n → Prop} (k : Fin n) (hp : p k)
    [DecidablePred fun k' : Fin n => k' ≤ k ∧ p k'] :
    0 < (Finset.univ.filter fun k' : Fin n => k' ≤ k ∧ p k').card :=
  Finset.card_pos.mpr ⟨k, by
    simp only [Finset.mem_filter, Finset.mem_univ, true_and]; exact ⟨le_refl k, hp⟩⟩

theorem card_prefix_le {p : Fin n → Prop} (k : Fin n)
    [DecidablePred fun k' : Fin n => k' ≤ k ∧ p k'] :
    (Finset.univ.filter fun k' : Fin n => k' ≤ k ∧ p k').card ≤ k.val + 1 := by
  refine (Finset.card_le_card (t := Finset.Iic k) fun k' hk' => ?_).trans (Fin.card_Iic k).le
  simp only [Finset.mem_filter, Finset.mem_univ, true_and] at hk'
  exact Finset.mem_Iic.mpr hk'.1

theorem card_prefix_le_of_not {p : Fin n → Prop} (k : Fin n) (hp : ¬ p k)
    [DecidablePred fun k' : Fin n => k' ≤ k ∧ p k'] :
    (Finset.univ.filter fun k' : Fin n => k' ≤ k ∧ p k').card ≤ k.val := by
  refine (Finset.card_le_card (t := Finset.Iio k) fun k' hk' => ?_).trans (Fin.card_Iio k).le
  simp only [Finset.mem_filter, Finset.mem_univ, true_and] at hk'
  refine Finset.mem_Iio.mpr (lt_of_le_of_ne hk'.1 fun e => hp ?_)
  rw [← e]; exact hk'.2

theorem card_prefix_le_card {p : Fin n → Prop} (k : Fin n)
    [DecidablePred fun k' : Fin n => k' ≤ k ∧ p k'] [DecidablePred p] :
    (Finset.univ.filter fun k' : Fin n => k' ≤ k ∧ p k').card ≤ (Finset.univ.filter p).card := by
  refine Finset.card_le_card fun k' hk' => ?_
  simp only [Finset.mem_filter, Finset.mem_univ, true_and] at hk' ⊢
  exact hk'.2

/-- A later position that satisfies `p` has a strictly larger count. -/
theorem card_prefix_lt {p : Fin n → Prop} (k₁ k₂ : Fin n) (h : k₁ < k₂) (hp : p k₂)
    [DecidablePred fun k' : Fin n => k' ≤ k₁ ∧ p k'] [DecidablePred fun k' : Fin n => k' ≤ k₂ ∧ p k'] :
    (Finset.univ.filter fun k' : Fin n => k' ≤ k₁ ∧ p k').card
      < (Finset.univ.filter fun k' : Fin n => k' ≤ k₂ ∧ p k').card := by
  refine Finset.card_lt_card ⟨fun k' hk' => ?_, fun hsup => ?_⟩
  · simp only [Finset.mem_filter, Finset.mem_univ, true_and] at hk' ⊢
    exact ⟨le_trans hk'.1 (le_of_lt h), hk'.2⟩
  · have h2 : k₂ ∈ Finset.univ.filter fun k' : Fin n => k' ≤ k₁ ∧ p k' := hsup (by
      simp only [Finset.mem_filter, Finset.mem_univ, true_and]; exact ⟨le_refl k₂, hp⟩)
    simp only [Finset.mem_filter, Finset.mem_univ, true_and] at h2
    exact absurd h2.1 (not_le.mpr h)

/-- Up to a later position that does not satisfy `p` the count grows by less than the distance. -/
theorem card_prefix_add_le {p : Fin n → Prop} (k₁ k₂ : Fin n) (h : k₁ < k₂) (hp : ¬ p k₂)
    [DecidablePred fun k' : Fin n => k' ≤ k₁ ∧ p k'] [DecidablePred fun k' : Fin n => k' ≤ k₂ ∧ p k'] :
    (Finset.univ.filter fun k' : Fin n => k' ≤ k₂ ∧ p k').card + (k₁.val + 1)
      ≤ (Finset.univ.filter fun k' : Fin n => k' ≤ k₁ ∧ p k').card + k₂.val := by
  have hsub : (Finset.univ.filter fun k' : Fin n => k' ≤ k₂ ∧ p k')
      ⊆ (Finset.univ.filter fun k' : Fin n => k' ≤ k₁ ∧ p k') ∪ Finset.Ioo k₁ k₂ := by
    intro k' hk'
    simp only [Finset.mem_filter, Finset.mem_univ, true_and] at hk'
    simp only [Finset.mem_union, Finset.mem_filter, Finset.mem_univ, true_and, Finset.mem_Ioo]
    by_cases hle : k' ≤ k₁
    · exact Or.inl ⟨hle, hk'.2⟩
    · refine Or.inr ⟨not_le.mp hle, lt_of_le_of_ne hk'.1 fun e => hp ?_⟩
      rw [← e]; exact hk'.2
  have h1 := (Finset.card_le_card hsub).trans (Finset.card_union_le _ _)
  rw [Fin.card_Ioo] at h1
  have : k₁.val < k₂.val := h
  omega

/-- All positions satisfying `p`: those up to `k`, and at most the `n - 1 - k` later ones. -/
theorem card_add_le_prefix {p : Fin n → Prop} (k : Fin n)
    [DecidablePred fun k' : Fin n => k' ≤ k ∧ p k'] [DecidablePred p] :
    (Finset.univ.filter p).card + (k.val + 1)
      ≤ (Finset.univ.filter fun k' : Fin n => k' ≤ k ∧ p k').card + n := by
  have hsub : Finset.univ.filter p
      ⊆ (Finset.univ.filter fun k' : Fin n => k' ≤ k ∧ p k') ∪ Finset.Ioi k := by
    intro k' hk'
    simp only [Finset.mem_filter, Finset.mem_univ, true_and] at hk'
    simp only [Finset.mem_union, Finset.mem_filter, Finset.mem_univ, true_and, Finset.mem_Ioi]
    by_cases hle : k' ≤ k
    · exact Or.inl ⟨hle, hk'⟩
    · exact Or.inr (not_le.mp hle)
  have h1 := (Finset.card_le_card hsub).trans (Finset.card_union_le _ _)
  rw [Fin.card_Ioi] at h1
  have := k.isLt
  omega

/-- A bijection of the positions carries the positions whose image satisfies `C` onto the
    points satisfying `C`. -/
theorem card_filter_comp_bijective {ρ : Fin n → Fin n} (hρ : Function.Bijective ρ) (C : Fin n → Prop)
    [DecidablePred C] [DecidablePred fun k => C (ρ k)] :
    (Finset.univ.filter fun k => C (ρ k)).card = (Finset.univ.filter C).card := by
  refine Finset.card_bij (fun k _ => ρ k) ?_ ?_ ?_
  · intro k hk
    simp only [Finset.mem_filter, Finset.mem_univ, true_and] at hk ⊢
    exact hk
  · intro a _ b _ h; exact hρ.1 h
  · intro i hi
    simp only [Finset.mem_filter, Finset.mem_univ, true_and] at hi
    obtain ⟨k, rfl⟩ := hρ.2 i
    exact ⟨k, by simp only [Finset.mem_filter, Finset.mem_univ, true_and]; exact hi, rfl⟩

/-- A downward closed set of positions is an initial segment: `j` belongs to it exactly when
    `j` is below its cardinality. -/
theorem downClosed_iff_lt_card (P : Fin n → Prop) [DecidablePred P]
    (hP : ∀ j j' : Fin n, j' ≤ j → P j → P j') (j : Fin n) :
    P j ↔ j.val < (Finset.univ.filter P).card := by
  constructor
  · intro hj
    have hsub : Finset.Iic j ⊆ Finset.univ.filter P := by
      intro j' hj'
      simp only [Finset.mem_filter, Finset.mem_univ, true_and]
      exact hP j j' (Finset.mem_Iic.mp hj') hj
    have := Finset.card_le_card hsub
    rw [Fin.card_Iic] at this
    omega
  · intro hlt
    by_contra hj
    have hsub : Finset.univ.filter P ⊆ Finset.Iio j := by
      intro j' hj'
      simp only [Finset.mem_filter, Finset.mem_univ, true_and] at hj'
      refine Finset.mem_Iio.mpr ?_
      by_contra hge
      exact hj (hP j' j (not_lt.mp hge) hj')
    have := Finset.card_le_card hsub
    rw [Fin.card_Iio] at this
    omega

/-- Along a listing `ρ` of all points with nondecreasing `g`, and for a set `C` of points on which
    `g` is injective: the positions up to `k` that hold a point of `C` correspond to the points of
    `C` whose `g` is at most that of the point at `k` (itself in `C`). -/
theorem card_prefix_eq_card_le {g : Fin n → ℕ} {ρ : Fin n → Fin n} (hρ : Function.Bijective ρ)
    (hmono : ∀ i j : Fin n, i ≤ j → g (ρ i) ≤ g (ρ j)) (C : Fin n → Prop)
    (hC : ∀ c c', C c → C c' → g c = g c' → c = c') (k : Fin n) (hk : C (ρ k))
    [DecidablePred fun k' : Fin n => k' ≤ k ∧ C (ρ k')]
    [DecidablePred fun i : Fin n => C i ∧ g i ≤ g (ρ k)] :
    (Finset.univ.filter fun k' : Fin n => k' ≤ k ∧ C (ρ k')).card
      = (Finset.univ.filter fun i : Fin n => C i ∧ g i ≤ g (ρ k)).card := by
  refine Finset.card_bij (fun k' _ => ρ k') ?_ ?_ ?_
  · intro k' hk'
    simp only [Finset.mem_filter, Finset.mem_univ, true_and] at hk' ⊢
    exact ⟨hk'.2, hmono k' k hk'.1⟩
  · intro a _ b _ h; exact hρ.1 h
  · intro i hi
    simp only [Finset.mem_filter, Finset.mem_univ, true_and] at hi
    obtain ⟨k', rfl⟩ := hρ.2 i
    refine ⟨k', ?_, rfl⟩
    simp only [Finset.mem_filter, Finset.mem_univ, true_and]
    refine ⟨?_, hi.1⟩
    by_contra hlt
    have h1 := hmono k k' (le_of_lt (not_le.mp hlt))
    have h2 : ρ k' = ρ k := hC _ _ hi.1 hk (le_antisymm hi.2 h1)
    exact hlt (le_of_eq (hρ.1 h2))

end counting

/-! ## Listings by (key, position) -/

/-- Keys along a listing by (key, position) are nondecreasing. -/
theorem lexSorted_mono {f : Fin n → ℕ} {σ : Fin n → Fin n} (h : LexSorted f σ) (i j : Fin n)
    (hij : i ≤ j) : f (σ i) ≤ f (σ j) := by
  rcases lt_or_eq_of_le hij with h1 | h1
  · rcases h i j h1 with h2 | ⟨h2, _⟩ <;> omega
  · rw [h1]

/-- Two chosen points with one key are one point. -/
theorem chosen_inj {key : Fin n → ℕ} {S : ℕ} {i i' : Fin n} (hi : chosen key S i)
    (hi' : chosen key S i') (he : key i = key i') : i = i' :=
  le_antisymm (hi'.2 i he) (hi.2 i' he.symm)

theorem key2_of_chosen {key : Fin n → ℕ} {S : ℕ} {i : Fin n} (h : chosen key S i) :
    key2 key S i = key i := by
  unfold key2; rw [if_pos h]

theorem key2_of_not_chosen {key : Fin n → ℕ} {S : ℕ} {i : Fin n} (h : ¬ chosen key S i) :
    key2 key S i = S + 1 := by
  unfold key2; rw [if_neg h]

/-- The chosen points are those whose replaced key is in range. -/
theorem chosen_iff_key2_lt {key : Fin n → ℕ} {S : ℕ} (i : Fin n) :
    chosen key S i ↔ key2 key S i < S := by
  constructor
  · intro h; rw [key2_of_chosen h]; exact h.1
  · intro h
    by_contra hc
    rw [key2_of_not_chosen hc] at h
    omega

/-- In (key, position) order the last of a run of equal keys is the largest position with that
    key. -/
theorem sel_iff_chosen (key : Fin n → ℕ) (S : ℕ) (σ : Fin n → Fin n) (_hkey : ∀ i, key i ≤ S)
    (hσ : Function.Bijective σ) (hσs : LexSorted key σ) (k : Fin n) :
    sel key S σ k ↔ chosen key S (σ k) := by
  constructor
  · rintro ⟨h1, h2⟩
    refine ⟨h2, fun i' hi' => ?_⟩
    obtain ⟨k', rfl⟩ := hσ.2 i'
    rcases lt_trichotomy k' k with hlt | heq | hgt
    · rcases hσs k' k hlt with h3 | ⟨_, h3⟩
      · omega
      · exact le_of_lt h3
    · rw [heq]
    · exfalso
      have hkk : k.val < k'.val := hgt
      have hk1 : k.val + 1 < n := by have := k'.isLt; omega
      apply h1 hk1
      have a1 := lexSorted_mono hσs k ⟨k.val + 1, hk1⟩ (by simp [Fin.le_def])
      have a2 := lexSorted_mono hσs ⟨k.val + 1, hk1⟩ k' (by simp only [Fin.le_def]; omega)
      omega
  · rintro ⟨h1, h2⟩
    refine ⟨fun h he => ?_, h1⟩
    have h3 := h2 _ he.symm
    rcases hσs k ⟨k.val + 1, h⟩ (by simp [Fin.lt_def]) with h4 | ⟨_, h4⟩
    · omega
    · exact absurd h3 (not_le.mpr h4)

/-! ## The prefix counts and the destination -/

theorem cnt_pos_of_sel (key : Fin n → ℕ) (S : ℕ) (σ : Fin n → Fin n) (_hkey : ∀ i, key i ≤ S)
    (_hσ : Function.Bijective σ) (_hσs : LexSorted key σ) (k : Fin n) :
    sel key S σ k → 0 < cnt key S σ k := by
  intro hk
  classical
  unfold cnt
  exact card_prefix_pos k hk

theorem cnt_le (key : Fin n → ℕ) (S : ℕ) (σ : Fin n → Fin n) (_hkey : ∀ i, key i ≤ S)
    (_hσ : Function.Bijective σ) (_hσs : LexSorted key σ) (k : Fin n) :
    cnt key S σ k ≤ k.val + 1 := by
  classical
  unfold cnt
  exact card_prefix_le k

theorem cnt_le_total (key : Fin n → ℕ) (S : ℕ) (σ : Fin n → Fin n) (_hkey : ∀ i, key i ≤ S)
    (_hσ : Function.Bijective σ) (_hσs : LexSorted key σ) (k : Fin n) :
    cnt key S σ k ≤ total key S σ := by
  classical
  unfold cnt total
  exact card_prefix_le_card k

theorem cnt_le_of_not_sel (key : Fin n → ℕ) (S : ℕ) (σ : Fin n → Fin n) (k : Fin n)
    (h : ¬ sel key S σ k) : cnt key S σ k ≤ k.val := by
  classical
  unfold cnt
  exact card_prefix_le_of_not k h

theorem cnt_lt_cnt (key : Fin n → ℕ) (S : ℕ) (σ : Fin n → Fin n) (k₁ k₂ : Fin n) (h : k₁ < k₂)
    (h₂ : sel key S σ k₂) : cnt key S σ k₁ < cnt key S σ k₂ := by
  classical
  unfold cnt
  exact card_prefix_lt k₁ k₂ h h₂

theorem cnt_add_le (key : Fin n → ℕ) (S : ℕ) (σ : Fin n → Fin n) (k₁ k₂ : Fin n) (h : k₁ < k₂)
    (h₂ : ¬ sel key S σ k₂) : cnt key S σ k₂ + (k₁.val + 1) ≤ cnt key S σ k₁ + k₂.val := by
  classical
  unfold cnt
  exact card_prefix_add_le k₁ k₂ h h₂

theorem total_add_le (key : Fin n → ℕ) (S : ℕ) (σ : Fin n → Fin n) (k : Fin n) :
    total key S σ + (k.val + 1) ≤ cnt key S σ k + n := by
  classical
  unfold cnt total
  exact card_add_le_prefix k

theorem dest_of_sel {key : Fin n → ℕ} {S : ℕ} {σ : Fin n → Fin n} {k : Fin n}
    (h : sel key S σ k) : dest key S σ k = cnt key S σ k - 1 := by
  unfold dest; rw [if_pos h]

theorem dest_of_not_sel {key : Fin n → ℕ} {S : ℕ} {σ : Fin n → Fin n} {k : Fin n}
    (h : ¬ sel key S σ k) :
    dest key S σ k = total key S σ + (k.val + 1 - cnt key S σ k) - 1 := by
  unfold dest; rw [if_neg h]

theorem dest_lt (key : Fin n → ℕ) (S : ℕ) (σ : Fin n → Fin n) (hkey : ∀ i, key i ≤ S)
    (hσ : Function.Bijective σ) (hσs : LexSorted key σ) (k : Fin n) : dest key S σ k < n := by
  have hk := k.isLt
  have h1 := cnt_le key S σ hkey hσ hσs k
  by_cases h : sel key S σ k
  · rw [dest_of_sel h]; omega
  · rw [dest_of_not_sel h]
    have h2 := total_add_le key S σ k
    omega

/-- Distinct sorted positions have distinct destinations. -/
theorem dest_ne_of_lt (key : Fin n → ℕ) (S : ℕ) (σ : Fin n → Fin n) (hkey : ∀ i, key i ≤ S)
    (hσ : Function.Bijective σ) (hσs : LexSorted key σ) (k₁ k₂ : Fin n) (h : k₁ < k₂) :
    dest key S σ k₁ ≠ dest key S σ k₂ := by
  have hv : k₁.val < k₂.val := h
  have t1 := cnt_le_total key S σ hkey hσ hσs k₁
  have t2 := cnt_le_total key S σ hkey hσ hσs k₂
  by_cases s1 : sel key S σ k₁ <;> by_cases s2 : sel key S σ k₂
  · rw [dest_of_sel s1, dest_of_sel s2]
    have a := cnt_lt_cnt key S σ k₁ k₂ h s2
    have b := cnt_pos_of_sel key S σ hkey hσ hσs k₁ s1
    omega
  · rw [dest_of_sel s1, dest_of_not_sel s2]
    have b := cnt_pos_of_sel key S σ hkey hσ hσs k₁ s1
    have c := cnt_le_of_not_sel key S σ k₂ s2
    omega
  · rw [dest_of_not_sel s1, dest_of_sel s2]
    have b := cnt_pos_of_sel key S σ hkey hσ hσs k₂ s2
    have c := cnt_le_of_not_sel key S σ k₁ s1
    omega
  · rw [dest_of_not_sel s1, dest_of_not_sel s2]
    have a := cnt_add_le key S σ k₁ k₂ h s2
    have c1 := cnt_le_of_not_sel key S σ k₁ s1
    have c2 := cnt_le_of_not_sel key S σ k₂ s2
    omega

theorem dest_injective (key : Fin n → ℕ) (S : ℕ) (σ : Fin n → Fin n) (hkey : ∀ i, key i ≤ S)
    (hσ : Function.Bijective σ) (hσs : LexSorted key σ) : Function.Injective (dest key S σ) := by
  intro k₁ k₂ he
  rcases lt_trichotomy k₁ k₂ with h | h | h
  · exact absurd he (dest_ne_of_lt key S σ hkey hσ hσs k₁ k₂ h)
  · exact h
  · exact absurd he.symm (dest_ne_of_lt key S σ hkey hσ hσs k₂ k₁ h)

/-! ## The second listing puts the chosen points first, in the same order -/

/-- The listing by (replaced key, position) holds a chosen point at `j` only if it does at every
    earlier position. -/
theorem chosen_downClosed {key : Fin n → ℕ} {S : ℕ} {τ : Fin n → Fin n}
    (hτs : LexSorted (key2 key S) τ) (j j' : Fin n) (hjj : j' ≤ j) (hj : chosen key S (τ j)) :
    chosen key S (τ j') := by
  rw [chosen_iff_key2_lt] at hj ⊢
  exact lt_of_le_of_lt (lexSorted_mono hτs j' j hjj) hj

/-- The marked sorted positions are as many as the chosen points, however these are listed. -/
theorem total_eq_card_chosen (key : Fin n → ℕ) (S : ℕ) (σ τ : Fin n → Fin n)
    (hkey : ∀ i, key i ≤ S) (hσ : Function.Bijective σ) (hσs : LexSorted key σ)
    (hτ : Function.Bijective τ) [DecidablePred fun j : Fin n => chosen key S (τ j)] :
    total key S σ = (Finset.univ.filter fun j : Fin n => chosen key S (τ j)).card := by
  classical
  unfold total
  refine (congrArg Finset.card (Finset.filter_congr
    (q := fun k' : Fin n => chosen key S (σ k')) fun k' _ => ?_)).trans ?_
  · exact sel_iff_chosen key S σ hkey hσ hσs k'
  · exact (card_filter_comp_bijective hσ (chosen key S)).trans
      (card_filter_comp_bijective hτ (chosen key S)).symm

theorem chosen_iff_lt_total (key : Fin n → ℕ) (S : ℕ) (σ τ : Fin n → Fin n)
    (hkey : ∀ i, key i ≤ S) (hσ : Function.Bijective σ) (hσs : LexSorted key σ)
    (hτ : Function.Bijective τ) (hτs : LexSorted (key2 key S) τ) (j : Fin n) :
    chosen key S (τ j) ↔ j.val < total key S σ := by
  classical
  rw [total_eq_card_chosen key S σ τ hkey hσ hσs hτ]
  exact downClosed_iff_lt_card (fun j : Fin n => chosen key S (τ j))
    (fun j j' hjj hj => chosen_downClosed hτs j j' hjj hj) j

/-- A marked sorted position `k` holding the point that the second listing holds at `j` has
    exactly `j + 1` marked positions up to it: both count the chosen points whose key is at most
    that point's. -/
theorem cnt_eq_of_eq (key : Fin n → ℕ) (S : ℕ) (σ τ : Fin n → Fin n)
    (hkey : ∀ i, key i ≤ S) (hσ : Function.Bijective σ) (hσs : LexSorted key σ)
    (hτ : Function.Bijective τ) (hτs : LexSorted (key2 key S) τ) (k j : Fin n)
    (hc : chosen key S (τ j)) (hk : σ k = τ j) : cnt key S σ k = j.val + 1 := by
  classical
  have e1 : cnt key S σ k
      = (Finset.univ.filter fun i : Fin n => chosen key S i ∧ key i ≤ key (σ k)).card := by
    unfold cnt
    refine (congrArg Finset.card (Finset.filter_congr
      (q := fun k' : Fin n => k' ≤ k ∧ chosen key S (σ k')) fun k' _ => ?_)).trans ?_
    · rw [sel_iff_chosen key S σ hkey hσ hσs k']
    · exact card_prefix_eq_card_le hσ (lexSorted_mono hσs) (chosen key S)
        (fun c c' h h' e => chosen_inj h h' e) k (hk ▸ hc)
  have e2 : j.val + 1
      = (Finset.univ.filter fun i : Fin n => chosen key S i ∧ key i ≤ key (τ j)).card := by
    rw [← Fin.card_Iic j]
    have e3 : Finset.Iic j = Finset.univ.filter fun j' : Fin n => j' ≤ j ∧ chosen key S (τ j') := by
      ext j'
      simp only [Finset.mem_Iic, Finset.mem_filter, Finset.mem_univ, true_and]
      exact ⟨fun h => ⟨h, chosen_downClosed hτs j j' h hc⟩, fun h => h.1⟩
    rw [e3]
    refine (card_prefix_eq_card_le hτ (lexSorted_mono hτs) (chosen key S)
      (fun c c' h h' e => chosen_inj h h' (by rwa [key2_of_chosen h, key2_of_chosen h'] at e))
      j hc).trans ?_
    refine congrArg Finset.card (Finset.filter_congr fun i _ => ?_)
    constructor
    · rintro ⟨h, h'⟩
      rw [key2_of_chosen h, key2_of_chosen hc] at h'
      exact ⟨h, h'⟩
    · rintro ⟨h, h'⟩
      rw [← key2_of_chosen h, ← key2_of_chosen hc] at h'
      exact ⟨h, h'⟩
  rw [e1, e2, hk]

theorem exists_sel_of_lt_total (key : Fin n → ℕ) (S : ℕ) (σ τ : Fin n → Fin n)
    (hkey : ∀ i, key i ≤ S) (hσ : Function.Bijective σ) (hσs : LexSorted key σ)
    (hτ : Function.Bijective τ) (hτs : LexSorted (key2 key S) τ) (j : Fin n)
    (hj : j.val < total key S σ) :
    ∃ k : Fin n, sel key S σ k ∧ dest key S σ k = j.val ∧ σ k = τ j := by
  have hc : chosen key S (τ j) := (chosen_iff_lt_total key S σ τ hkey hσ hσs hτ hτs j).mpr hj
  obtain ⟨k, hk⟩ := hσ.2 (τ j)
  have hs : sel key S σ k := (sel_iff_chosen key S σ hkey hσ hσs k).mpr (hk ▸ hc)
  refine ⟨k, hs, ?_, hk⟩
  rw [dest_of_sel hs, cnt_eq_of_eq key S σ τ hkey hσ hσs hτ hτs k j hc hk]
  omega

end Cert.Lib.Dedup
-- ==== Proof.LibVoxelKey.lean ====
/-
  The 32-bit integer arithmetic of a voxel key: flooring division and remainder of a
  nonnegative word by a positive word are the natural-number quotient and remainder; the signed
  range test `0 ≤ a < X` reads as a bound on the word's natural value; the key polynomial and
  its decoding.
-/
import Idealize.ShloMosaic.PureOps
import Mathlib.Data.BitVec
import Mathlib.Tactic

namespace Cert.Lib.VoxelKey

open Idealize.ShloMosaic

/-! ## One-bit words and `select` -/

theorem bv1_cases (p : BitVec 1) : p = 0#1 ∨ p = 1#1 := by
  revert p; decide

theorem andi_eq_one_iff (p q : BitVec 1) : IntOp.andi p q = 1#1 ↔ p = 1#1 ∧ q = 1#1 := by
  unfold IntOp.andi; revert p q; decide

theorem ofBool_eq_one_iff (b : Bool) : BitVec.ofBool b = 1#1 ↔ b = true := by
  cases b <;> decide

theorem ofBool_eq_zero_iff (b : Bool) : BitVec.ofBool b = 0#1 ↔ b = false := by
  cases b <;> decide

theorem select_of_eq_one {α : Type} {c : BitVec 1} (h : c = 1#1) (a b : α) :
    Scalar.select c a b = a := if_pos h

theorem select_of_ne_one {α : Type} {c : BitVec 1} (h : c ≠ 1#1) (a b : α) :
    Scalar.select c a b = b := if_neg h

theorem cmpi_eq_eq_one_iff {w : ℕ} (x y : BitVec w) : IntOp.cmpi .eq x y = 1#1 ↔ x = y := by
  unfold IntOp.cmpi; rw [ofBool_eq_one_iff]; exact beq_iff_eq

theorem cmpi_ne_eq_one_iff {w : ℕ} (x y : BitVec w) : IntOp.cmpi .ne x y = 1#1 ↔ x ≠ y := by
  unfold IntOp.cmpi; rw [ofBool_eq_one_iff]; exact bne_iff_ne

theorem cmpi_slt_eq_one_iff {w : ℕ} (x y : BitVec w) :
    IntOp.cmpi .slt x y = 1#1 ↔ x.toInt < y.toInt := by
  unfold IntOp.cmpi; rw [ofBool_eq_one_iff]; exact BitVec.slt_iff_toInt_lt

theorem cmpi_sge_eq_one_iff {w : ℕ} (x y : BitVec w) :
    IntOp.cmpi .sge x y = 1#1 ↔ y.toInt ≤ x.toInt := by
  unfold IntOp.cmpi; rw [ofBool_eq_one_iff]; exact BitVec.sle_iff_toInt_le

/-! ## Words of naturals below `2^31` -/

theorem toNat_ofNat_of_lt (a : ℕ) (ha : a < 2 ^ 32) : (BitVec.ofNat 32 a).toNat = a := by
  rw [BitVec.toNat_ofNat]; exact Nat.mod_eq_of_lt ha

theorem msb_ofNat_of_lt (a : ℕ) (ha : a < 2 ^ 31) : (BitVec.ofNat 32 a).msb = false := by
  rw [BitVec.msb_eq_false_iff_two_mul_lt, toNat_ofNat_of_lt a (by omega)]; omega

theorem toInt_ofNat_of_lt (a : ℕ) (ha : a < 2 ^ 31) : (BitVec.ofNat 32 a).toInt = (a : ℤ) := by
  rw [BitVec.toInt_eq_toNat_of_lt (by rw [toNat_ofNat_of_lt a (by omega)]; omega),
    toNat_ofNat_of_lt a (by omega)]

theorem ofNat_ne_zero (a : ℕ) (h0 : 0 < a) (ha : a < 2 ^ 32) : BitVec.ofNat 32 a ≠ 0#32 := by
  intro h
  have := congrArg BitVec.toNat h
  rw [toNat_ofNat_of_lt a ha] at this
  simp at this
  omega

theorem not_sdivCorner (k D : ℕ) (hD : 0 < D) (hD' : D < 2 ^ 31) :
    ¬ IntOp.SDivCorner (BitVec.ofNat 32 k) (BitVec.ofNat 32 D) := by
  rintro (h | ⟨_, h⟩)
  · exact ofNat_ne_zero D hD (by omega) h
  · have := congrArg BitVec.msb h
    rw [msb_ofNat_of_lt D hD'] at this
    revert this; decide

theorem srem_ofNat (k D : ℕ) (hk : k < 2 ^ 31) (hD' : D < 2 ^ 31) :
    (BitVec.ofNat 32 k).srem (BitVec.ofNat 32 D) = BitVec.ofNat 32 (k % D) := by
  rw [BitVec.srem_eq, msb_ofNat_of_lt k hk, msb_ofNat_of_lt D hD']
  apply BitVec.eq_of_toNat_eq
  have hlt : k % D < 2 ^ 32 := lt_of_le_of_lt (Nat.mod_le k D) (by omega)
  rw [BitVec.toNat_umod, toNat_ofNat_of_lt k (by omega), toNat_ofNat_of_lt D (by omega),
    toNat_ofNat_of_lt _ hlt]

theorem sdiv_ofNat (k D : ℕ) (hk : k < 2 ^ 31) (hD' : D < 2 ^ 31) :
    (BitVec.ofNat 32 k).sdiv (BitVec.ofNat 32 D) = BitVec.ofNat 32 (k / D) := by
  rw [BitVec.sdiv_eq, msb_ofNat_of_lt k hk, msb_ofNat_of_lt D hD']
  apply BitVec.eq_of_toNat_eq
  have hlt : k / D < 2 ^ 32 := lt_of_le_of_lt (Nat.div_le_self k D) (by omega)
  rw [BitVec.udiv_eq, BitVec.toNat_udiv, toNat_ofNat_of_lt k (by omega),
    toNat_ofNat_of_lt D (by omega), toNat_ofNat_of_lt _ hlt]

theorem remsi_ofNat (k D : ℕ) (hk : k < 2 ^ 31) (hD : 0 < D) (hD' : D < 2 ^ 31) :
    IntOp.remsi .host (BitVec.ofNat 32 k) (BitVec.ofNat 32 D) = BitVec.ofNat 32 (k % D) := by
  unfold IntOp.remsi
  rw [if_neg (not_sdivCorner k D hD hD'), srem_ofNat k D hk hD']

theorem divsi_ofNat (k D : ℕ) (hk : k < 2 ^ 31) (hD : 0 < D) (hD' : D < 2 ^ 31) :
    IntOp.divsi .host (BitVec.ofNat 32 k) (BitVec.ofNat 32 D) = BitVec.ofNat 32 (k / D) := by
  unfold IntOp.divsi
  rw [if_neg (not_sdivCorner k D hD hD'), sdiv_ofNat k D hk hD']

/-! ## Flooring division and remainder, one element -/

def signW (x : BitVec 32) : BitVec 32 := if x = 0 then 0 else if x.msb then -1 else 1

/-- `jnp.remainder` by a scalar, one element (the divisor guarded against 0, the truncated
    remainder moved to the divisor's sign). -/
def remE (x d : BitVec 32) : BitVec 32 :=
  let d' := Scalar.select (IntOp.cmpi .eq d 0#32) 1#32 d
  let r := IntOp.remsi .host x d'
  Scalar.select (IntOp.andi (IntOp.cmpi .ne (IntOp.cmpi .slt r 0#32) (IntOp.cmpi .slt d' 0#32))
    (IntOp.cmpi .ne r 0#32)) (IntOp.addi r d') r

/-- `jnp.floor_divide` by a scalar, one element. -/
def fdivE (x d : BitVec 32) : BitVec 32 :=
  let q := IntOp.divsi .host x d
  Scalar.select (IntOp.andi (IntOp.cmpi .ne (signW x) (signW d))
    (IntOp.cmpi .ne (IntOp.remsi .host x d) 0#32)) (IntOp.subi q 1#32) q

/-- A word of a natural below `2^31` is not negative. -/
theorem cmpi_slt_zero_ofNat (a : ℕ) (ha : a < 2 ^ 31) :
    IntOp.cmpi .slt (BitVec.ofNat 32 a) 0#32 = 0#1 := by
  rcases bv1_cases (IntOp.cmpi .slt (BitVec.ofNat 32 a) 0#32) with h | h
  · exact h
  · rw [cmpi_slt_eq_one_iff, toInt_ofNat_of_lt a ha, BitVec.toInt_zero] at h
    omega

theorem remE_ofNat (k D : ℕ) (hk : k < 2 ^ 31) (hD : 0 < D) (hD' : D < 2 ^ 31) :
    remE (BitVec.ofNat 32 k) (BitVec.ofNat 32 D) = BitVec.ofNat 32 (k % D) := by
  have hd : Scalar.select (IntOp.cmpi .eq (BitVec.ofNat 32 D) 0#32) 1#32 (BitVec.ofNat 32 D)
      = BitVec.ofNat 32 D :=
    select_of_ne_one (fun h => ofNat_ne_zero D hD (by omega) ((cmpi_eq_eq_one_iff _ _).mp h)) _ _
  have hlt : k % D < 2 ^ 31 := lt_of_le_of_lt (Nat.mod_le k D) hk
  unfold remE
  simp only [hd, remsi_ofNat k D hk hD hD', cmpi_slt_zero_ofNat _ hlt, cmpi_slt_zero_ofNat D hD']
  refine select_of_ne_one (fun h => ?_) _ _
  have h1 := ((andi_eq_one_iff _ _).mp h).1
  rw [cmpi_ne_eq_one_iff] at h1
  exact h1 rfl

theorem signW_ofNat_pos (a : ℕ) (h0 : 0 < a) (ha : a < 2 ^ 31) : signW (BitVec.ofNat 32 a) = 1 := by
  have h : BitVec.ofNat 32 a ≠ 0 := ofNat_ne_zero a h0 (by omega)
  unfold signW
  rw [if_neg h, msb_ofNat_of_lt a ha]
  rfl

theorem fdivE_ofNat (k D : ℕ) (hk : k < 2 ^ 31) (hD : 0 < D) (hD' : D < 2 ^ 31) :
    fdivE (BitVec.ofNat 32 k) (BitVec.ofNat 32 D) = BitVec.ofNat 32 (k / D) := by
  unfold fdivE
  simp only [remsi_ofNat k D hk hD hD', divsi_ofNat k D hk hD hD']
  refine select_of_ne_one (fun h => ?_) _ _
  obtain ⟨h1, h2⟩ := (andi_eq_one_iff _ _).mp h
  rw [cmpi_ne_eq_one_iff] at h1 h2
  rcases Nat.eq_zero_or_pos k with hk0 | hk0
  · apply h2
    rw [hk0, Nat.zero_mod]
  · apply h1
    rw [signW_ofNat_pos k hk0 hk, signW_ofNat_pos D hD hD']

/-! ## The range test -/

/-- `0 ≤ a` and `a < X` as signed words, for `X` below `2^31`: the natural value of `a` is below
    `X`. -/
theorem inRange_iff (a : BitVec 32) (X : ℕ) (hX : X < 2 ^ 31) :
    (IntOp.cmpi .sge a 0#32 = 1#1 ∧ IntOp.cmpi .slt a (BitVec.ofNat 32 X) = 1#1) ↔ a.toNat < X := by
  rw [cmpi_sge_eq_one_iff, cmpi_slt_eq_one_iff, toInt_ofNat_of_lt X hX, BitVec.toInt_zero,
    BitVec.toInt_eq_toNat_cond]
  have := a.isLt
  by_cases h : 2 * a.toNat < 2 ^ 32
  · simp only [h, if_true]; omega
  · simp only [h, if_false]; omega

/-! ## The key polynomial -/

theorem key_ofNat (bs cy cx : ℕ) (_hbs : bs < 8) (_hcy : cy < 400) (_hcx : cx < 352) :
    IntOp.addi (IntOp.muli (BitVec.ofNat 32 bs) 140800#32)
        (IntOp.addi (IntOp.addi (IntOp.muli 0#32 140800#32) (IntOp.muli (BitVec.ofNat 32 cy) 352#32))
          (BitVec.ofNat 32 cx))
      = BitVec.ofNat 32 (bs * 140800 + cy * 352 + cx) := by
  unfold IntOp.addi IntOp.muli
  simp only [BitVec.ofNat_mul_ofNat, BitVec.ofNat_add_ofNat]
  exact congrArg (BitVec.ofNat 32) (by omega)

theorem key_lt (bs cy cx : ℕ) (hbs : bs < 8) (hcy : cy < 400) (hcx : cx < 352) :
    bs * 140800 + cy * 352 + cx < 1126400 := by omega

theorem key_mod (bs cy cx : ℕ) (_hbs : bs < 8) (_hcy : cy < 400) (hcx : cx < 352) :
    (bs * 140800 + cy * 352 + cx) % 352 = cx := by omega

theorem key_div_mod (bs cy cx : ℕ) (_hbs : bs < 8) (hcy : cy < 400) (hcx : cx < 352) :
    (bs * 140800 + cy * 352 + cx) / 352 % 400 = cy := by omega

theorem key_div_div (bs cy cx : ℕ) (_hbs : bs < 8) (hcy : cy < 400) (hcx : cx < 352) :
    (bs * 140800 + cy * 352 + cx) / 352 / 400 = bs := by omega

theorem key_div_div_mod_one (bs cy cx : ℕ) :
    ((bs * 140800 + cy * 352 + cx) / 352 / 400) % 1 = 0 := Nat.mod_one _

theorem key_div_div_div_one (bs cy cx : ℕ) (hbs : bs < 8) (hcy : cy < 400) (hcx : cx < 352) :
    ((bs * 140800 + cy * 352 + cx) / 352 / 400) / 1 = bs := by
  rw [Nat.div_one]; exact key_div_div bs cy cx hbs hcy hcx

/-- The two forms of the key polynomial agree on all words: `140800 = 400 * 352`. -/
theorem key_poly (bs cz cy cx : BitVec 32) :
    IntOp.addi (IntOp.muli bs 140800#32)
        (IntOp.addi (IntOp.addi (IntOp.muli cz 140800#32) (IntOp.muli cy 352#32)) cx)
      = IntOp.addi (IntOp.muli (IntOp.addi (IntOp.muli (IntOp.addi (IntOp.muli bs 1#32) cz) 400#32) cy)
          352#32) cx := by
  unfold IntOp.addi IntOp.muli
  have e : (140800#32 : BitVec 32) = 400#32 * 352#32 := by decide
  have e1 : (1#32 : BitVec 32) = 1 := rfl
  rw [e, e1]
  ring

/-! ## Small word facts -/

theorem ofNat_sub_one (a : ℕ) (h1 : 1 ≤ a) (_ha : a < 2 ^ 31) :
    BitVec.ofNat 32 a - 1#32 = BitVec.ofNat 32 (a - 1) :=
  BitVec.ofNat_sub_ofNat_of_le a 1 (by omega) h1

theorem ofNat_add_ofNat (a b : ℕ) (_ha : a < 2 ^ 31) (_hb : b < 2 ^ 31) :
    BitVec.ofNat 32 a + BitVec.ofNat 32 b = BitVec.ofNat 32 (a + b) :=
  BitVec.ofNat_add_ofNat a b

theorem slt_ofNat (a b : ℕ) (ha : a < 2 ^ 31) (hb : b < 2 ^ 31) :
    (BitVec.ofNat 32 a).slt (BitVec.ofNat 32 b) = decide (a < b) := by
  rw [BitVec.slt_eq_decide, toInt_ofNat_of_lt a ha, toInt_ofNat_of_lt b hb]
  exact decide_eq_decide.mpr Int.ofNat_lt

theorem ofNat_inj (a b : ℕ) (ha : a < 2 ^ 32) (hb : b < 2 ^ 32) :
    BitVec.ofNat 32 a = BitVec.ofNat 32 b ↔ a = b := by
  constructor
  · intro h
    have := congrArg BitVec.toNat h
    rwa [toNat_ofNat_of_lt a ha, toNat_ofNat_of_lt b hb] at this
  · intro h; rw [h]

theorem slt_zero_of_eq_ofNat (x : BitVec 32) (a : ℕ) (hx : x = BitVec.ofNat 32 a) (ha : a < 2 ^ 31) :
    x.slt 0#32 = false := by
  rw [hx, BitVec.slt_eq_decide, toInt_ofNat_of_lt a ha, BitVec.toInt_zero]
  exact decide_eq_false (by omega)

/-- The zero extension of a one-bit word to 32 bits. -/
theorem toNat_setWidth_bv1 (p : BitVec 1) :
    (BitVec.setWidth 32 p).toNat = if p = 1#1 then 1 else 0 := by
  revert p; decide

end Cert.Lib.VoxelKey
-- ==== Proof.LibColumnPick.lean ====
/-
  COLUMN PICKS: reading every second column of a two-axis array with `stablehlo.gather`, and writing columns back at
  every second position with `stablehlo.scatter`, each read at one index. Program-free: only the library's operations.

  The index vector `par + 2 * iota` reads `2k + par` at `k`; the usual negative-index normalisation is the identity on
  it; as a one-column array it keeps its entries. A gather whose start indices are such a column reads the operand's
  column named by the index. A scatter (the body returning the update) whose indices are `2k + par` writes update column
  `k` to result column `2k + par` and leaves the columns of the other parity. The scatter is a left fold of one-element
  updates; below it is read at an index through a general fact on such folds.
-/
import Idealize.ShloMosaic.PureOps.Ideal
import Idealize.ShloMosaic.Lib.ValueIdx
import Idealize.ShloMosaic.Lib.Pipeline.Value

namespace Cert.Lib.ColumnPick

open Idealize.ShloMosaic Idealize.ShloMosaic.ValueIdx

/-! ## Small 32-bit words read as signed integers -/

/-- A natural number below `2^31`, as a 32-bit word read signed, is itself. -/
theorem toInt_ofNat_lt (c : Nat) (h : c < 2147483648) : (BitVec.ofNat 32 c).toInt = (c : Int) := by
  rw [BitVec.toInt_eq_toNat_cond, BitVec.toNat_ofNat]
  have hc : c % 2 ^ 32 = c := Nat.mod_eq_of_lt (by omega)
  rw [hc]
  split <;> omega

/-- A natural number below `2^31`, as a 32-bit word, is not signed-less-than zero. -/
theorem slt_zero_ofNat_lt (c : Nat) (h : c < 2147483648) : (BitVec.ofNat 32 c).slt 0#32 = false := by
  have := toInt_ofNat_lt c h
  simp [BitVec.slt, this]

/-! ## The index vector `par + 2 * iota` -/

/-- The vector `par + 2 * iota` over `4096` positions reads `2k + par` at position `k` (as 32-bit words, where sum and
    product are those of the naturals taken modulo `2^32`). -/
theorem evenOdd_apply (par : Nat) (h0 : (⟨0, ![]⟩ : Shape).BroadcastsInDim ⟨1, ![4096]⟩ ![]) (k : Fin 4096) :
    addi (broadcastInDim ⟨1, ![4096]⟩ ![] h0 (constantI ⟨0, ![]⟩ 32 (BitVec.ofNat 32 par)))
        (muli (broadcastInDim ⟨1, ![4096]⟩ ![] h0 (constantI ⟨0, ![]⟩ 32 2#32)) (iotaInDim ⟨1, ![4096]⟩ 32 0)) (ix1 k)
      = BitVec.ofNat 32 (2 * k.val + par) := by
  show BitVec.ofNat 32 par + BitVec.ofNat 32 2 * BitVec.ofNat 32 k.val = _
  rw [← BitVec.ofNat_mul, ← BitVec.ofNat_add, Nat.add_comm]

/-- The negative-index normalisation `if v < 0 then v + 8192 else v` is the identity on a vector whose entries are
    natural numbers below `8192`: such a word is not negative. -/
theorem normalizeIdx_eq (h0 : (⟨0, ![]⟩ : Shape).BroadcastsInDim ⟨1, ![4096]⟩ ![]) (v : IVec ⟨1, ![4096]⟩ 32)
    (c : Fin 4096 → Nat) (hc : ∀ k, c k < 8192) (hv : ∀ k, v (ix1 k) = BitVec.ofNat 32 (c k)) :
    select (cmpi .slt v (broadcastInDim ⟨1, ![4096]⟩ ![] h0 (constantI ⟨0, ![]⟩ 32 0#32)))
        (addi v (broadcastInDim ⟨1, ![4096]⟩ ![] h0 (constantI ⟨0, ![]⟩ 32 8192#32))) v = v := by
  funext j
  obtain ⟨k, rfl⟩ : ∃ k, j = ix1 k := ⟨j 0, eq_ix1 j⟩
  show Scalar.select (BitVec.ofBool ((v (ix1 k)).slt 0#32)) _ (v (ix1 k)) = v (ix1 k)
  rw [hv k, slt_zero_ofNat_lt (c k) (by have := hc k; omega)]
  exact select_zero _ _

/-- A vector laid out as a one-column array keeps its entries: row `k` of the column is entry `k`. -/
theorem column_apply {α : Type} (h1 : (⟨1, ![4096]⟩ : Shape).BroadcastsInDim ⟨2, ![4096, 1]⟩ ![0])
    (v : (⟨1, ![4096]⟩ : Shape).Idx → α) (k : Fin 4096) :
    broadcastInDim ⟨2, ![4096, 1]⟩ ![0] h1 v (ix2 k 0) = v (ix1 k) := by
  show v _ = v _
  congr 1
  funext a
  match a with
  | ⟨0, _⟩ => rfl

/-! ## A left fold of one-position updates, read at a position -/

section Fold
variable {ι κ α : Type*}

/-- A left fold whose steps each leave position `i'` as it was leaves it as it was. -/
theorem foldl_apply_of_miss (step : (κ → α) → ι → κ → α) (i' : κ) (l : List ι)
    (hmiss : ∀ m ∈ l, ∀ r, step r m i' = r i') (x : κ → α) : l.foldl step x i' = x i' := by
  induction l generalizing x with
  | nil => rfl
  | cons m l ih =>
    rw [List.foldl_cons, ih (fun m' hm' => hmiss m' (List.mem_cons_of_mem _ hm')), hmiss m List.mem_cons_self]

/-- A left fold over a list without repeats in which exactly one step `n` changes position `i'`, to `v` of what it held,
    ends with `v` of the initial value there: the steps before `n` leave the position alone, and so do the steps after. -/
theorem foldl_apply_of_hit (step : (κ → α) → ι → κ → α) (i' : κ) (v : α → α) (n : ι) (l : List ι) (hl : l.Nodup)
    (hn : n ∈ l) (hhit : ∀ r, step r n i' = v (r i')) (hmiss : ∀ m ∈ l, m ≠ n → ∀ r, step r m i' = r i') (x : κ → α) :
    l.foldl step x i' = v (x i') := by
  induction l generalizing x with
  | nil => exact absurd hn List.not_mem_nil
  | cons m l ih =>
    rw [List.foldl_cons]
    obtain ⟨hml, hl'⟩ := List.nodup_cons.1 hl
    rcases List.mem_cons.1 hn with rfl | hn'
    · rw [foldl_apply_of_miss step i' l (fun m' hm' => hmiss m' (List.mem_cons_of_mem _ hm')
        (fun h => hml (h ▸ hm'))), hhit]
    · have hmn : m ≠ n := fun h => hml (h ▸ hn')
      rw [ih hl' hn' (fun m' hm' => hmiss m' (List.mem_cons_of_mem _ hm')), hmiss m List.mem_cons_self hmn]

end Fold

/-! ## `stablehlo.gather` of columns, read at an index

The operand is `[2048, 8192]`, the start indices a one-column array `[4096, 1]` (the index vector's axis is the second),
each naming ONE operand column; the slice is a whole column (`[2048, 1]`, its second axis collapsed), so result element
`(b, k)` is operand element `(b, idx[k, 0])`. A start index is read signed and clamped into `[0, 8191]`; below `8192` it
is itself. -/

section Gather
variable {α : Type}

/-- Those dimension numbers as a literal record; their conditions `wf` are decided on a program's literal shapes. -/
abbrev colDims (wf : GatherDims.WF ⟨2, ![2048, 8192]⟩ ⟨2, ![4096, 1]⟩ ⟨2, ![2048, 4096]⟩ [0] [1] [] [1] [] 1 ![2048, 1]) :
    GatherDims ⟨2, ![2048, 8192]⟩ ⟨2, ![4096, 1]⟩ ⟨2, ![2048, 4096]⟩ where
  offsetDims := [0]
  collapsedSliceDims := [1]
  operandBatchingDims := []
  startIndicesBatchingDims := []
  startIndexMap := [1]
  indexVectorDim := 1
  sliceSizes := ![2048, 1]
  wf := wf

/-- The column gather at `(b, k)` with the literal record: the operand at row `b`, column `idx[k, 0]`. -/
theorem gather_colDims_apply
    (wf : GatherDims.WF ⟨2, ![2048, 8192]⟩ ⟨2, ![4096, 1]⟩ ⟨2, ![2048, 4096]⟩ [0] [1] [] [1] [] 1 ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather (colDims wf) x idx (ix2 b k) = x (ix2 b ⟨c k, hc k⟩) := by
  unfold Host.gather
  congr 1
  funext a
  refine Fin.ext ?_
  match a with
  | ⟨0, _⟩ =>
    show (colDims wf).start (ix2 b k) idx 0 + (colDims wf).batchCoord (ix2 b k) 0 + (colDims wf).offCoord (ix2 b k) 0 = b.val
    rw [GatherDims.batchCoord_eq_zero _ _ _ List.not_mem_nil]
    have hs : (colDims wf).start (ix2 b k) idx 0 = 0 := by
      unfold GatherDims.start
      rw [dif_neg (show (0 : Fin 2) ∉ (colDims wf).startIndexMap from
        fun h => absurd (List.mem_singleton.mp h) (show ¬ (0 : Fin 2) = 1 by decide))]
    have ho : (colDims wf).offCoord (ix2 b k) 0 = b.val := by
      unfold GatherDims.offCoord
      rw [dif_pos (show (0 : Fin 2) ∈ (colDims wf).sKept from (GatherDims.mem_sKept _ _).mpr
        ⟨fun h => absurd (List.mem_singleton.mp h) (show ¬ (0 : Fin 2) = 1 by decide), List.not_mem_nil⟩)]
      rfl
    rw [hs, ho]
    omega
  | ⟨1, _⟩ =>
    show (colDims wf).start (ix2 b k) idx 1 + (colDims wf).batchCoord (ix2 b k) 1 + (colDims wf).offCoord (ix2 b k) 1 = c k
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 b k) ⟨List.idxOf (1 : Fin 2) (colDims wf).startIndexMap,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
    show min ((c k : Int).toNat) (8192 - 1) = c k
    have := hc k
    rw [Int.toNat_natCast]
    omega

/-- THE COLUMN GATHER READ AT `(b, k)`: for dimension numbers with offset axis `0`, collapsed operand axis `1`, no
    batching axes, the start index naming operand axis `1`, the index vector on the start indices' axis `1` and whole
    columns as slices, and start indices `idx[k, 0] = c k` below `8192`, the result at `(b, k)` is the operand at
    `(b, c k)`. -/
theorem gather_column_apply (d : GatherDims ⟨2, ![2048, 8192]⟩ ⟨2, ![4096, 1]⟩ ⟨2, ![2048, 4096]⟩)
    (hod : d.offsetDims = [0]) (hcd : d.collapsedSliceDims = [1]) (hob : d.operandBatchingDims = [])
    (hsb : d.startIndicesBatchingDims = []) (hsm : d.startIndexMap = [1]) (hiv : d.indexVectorDim = 1)
    (hss : d.sliceSizes = ![2048, 1])
    (x : (⟨2, ![2048, 8192]⟩ : Shape).Idx → α) (idx : IVec ⟨2, ![4096, 1]⟩ 32) (c : Fin 4096 → Nat)
    (hc : ∀ k, c k < 8192) (hidx : ∀ k, idx (ix2 k 0) = BitVec.ofNat 32 (c k)) (b : Fin 2048) (k : Fin 4096) :
    Host.gather d x idx (ix2 b k) = x (ix2 b ⟨c k, hc k⟩) := by
  obtain ⟨od, cd, ob, sb, sm, iv, ss, wf⟩ := d
  simp only at hod hcd hob hsb hsm hiv hss
  subst hod hcd hob hsb hsm hiv hss
  exact gather_colDims_apply wf x idx c hc hidx b k

end Gather

/-! ## `stablehlo.scatter` read at an index

The scatter is the left fold, over the update indices in row-major order, of the step that replaces the result's
element at the update's result index. Where the in-bounds result indices are pairwise distinct, each position of the
result is changed by at most one step, so it holds the body applied to the operand's element and that one update, or the
operand's element when no update lands on it. -/

section ScatterFold
variable {α : Type} {s si u : Shape} {w : Nat}

/-- A position no update's result index names keeps the operand's element. -/
theorem scatter_apply_of_miss (d : ScatterDims s si u) (f : α → α → α) (x : s.Idx → α) (idx : IVec si w)
    (upd : u.Idx → α) (i : s.Idx) (hmiss : ∀ j, d.resultIdx? j idx ≠ some i) : Host.scatter d f x idx upd i = x i := by
  unfold Host.scatter
  apply foldl_apply_of_miss
  intro m _ r
  rcases h : d.resultIdx? (u.rowMajor.symm m) idx with _ | i2
  · rfl
  · have hne : i ≠ i2 := fun e => hmiss _ (e ▸ h)
    show (if i = i2 then f (r i2) (upd (u.rowMajor.symm m)) else r i) = r i
    exact if_neg hne

/-- A position that exactly one update index `j` names holds the body applied to the operand's element there and
    update `j`. -/
theorem scatter_apply_of_hit (d : ScatterDims s si u) (f : α → α → α) (x : s.Idx → α) (idx : IVec si w)
    (upd : u.Idx → α) (j : u.Idx) (i : s.Idx) (hj : d.resultIdx? j idx = some i)
    (hinj : ∀ j', d.resultIdx? j' idx = some i → j' = j) : Host.scatter d f x idx upd i = f (x i) (upd j) := by
  unfold Host.scatter
  refine foldl_apply_of_hit _ i (fun a => f a (upd j)) (u.rowMajor j) _ (List.nodup_finRange _) (List.mem_finRange _)
    ?_ ?_ x
  · intro r
    rw [Equiv.symm_apply_apply, hj]
    show (if i = i then f (r i) (upd j) else r i) = f (r i) (upd j)
    exact if_pos rfl
  · intro m _ hm r
    rcases h : d.resultIdx? (u.rowMajor.symm m) idx with _ | i2
    · rfl
    · show (if i = i2 then f (r i2) (upd (u.rowMajor.symm m)) else r i) = r i
      refine if_neg fun e => hm ?_
      subst e
      have := hinj _ h
      rw [← this, Equiv.apply_symm_apply]

end ScatterFold

/-! ## `stablehlo.scatter` of columns at every second position, read at an index

The operand is `[2048, 8192]`, the scatter indices a one-column array `[4096, 1]` each naming ONE operand column, the
updates `[2048, 4096]`: update column `k` (a window over the rows) is written to operand column `idx[k, 0]`. With
`idx[k, 0] = 2k + par` the columns written are those of parity `par`, each once. -/

section Scatter
variable {α : Type}

/-- Those dimension numbers as a literal record; their conditions `wf` are decided on a program's literal shapes. -/
abbrev scatDims (wf : ScatterDims.WF ⟨2, ![2048, 8192]⟩ ⟨2, ![4096, 1]⟩ ⟨2, ![2048, 4096]⟩ [0] [1] [1] 1) :
    ScatterDims ⟨2, ![2048, 8192]⟩ ⟨2, ![4096, 1]⟩ ⟨2, ![2048, 4096]⟩ where
  updateWindowDims := [0]
  insertedWindowDims := [1]
  scatterDimsToOperandDims := [1]
  indexVectorDim := 1
  wf := wf

/-- The result index of update `(b, k)`: row `b` (the window coordinate; the start is `0` on the row axis), column
    `idx[k, 0]` (the start, read signed: a natural number below `8192` is itself; the window coordinate is `0` on the
    inserted axis). It is inside the operand. -/
theorem resultIdx_scatDims (wf : ScatterDims.WF ⟨2, ![2048, 8192]⟩ ⟨2, ![4096, 1]⟩ ⟨2, ![2048, 4096]⟩ [0] [1] [1] 1)
    (idx : IVec ⟨2, ![4096, 1]⟩ 32) (c : Fin 4096 → Nat) (hc : ∀ k, c k < 8192)
    (hidx : ∀ k, idx (ix2 k 0) = BitVec.ofNat 32 (c k)) (b : Fin 2048) (k : Fin 4096) :
    (scatDims wf).resultIdx? (ix2 b k) idx = some (ix2 b ⟨c k, hc k⟩) := by
  have hs0 : (scatDims wf).start (ix2 b k) idx 0 = 0 := by
    unfold ScatterDims.start
    rw [dif_neg (show (0 : Fin 2) ∉ (scatDims wf).scatterDimsToOperandDims from
      fun h => absurd (List.mem_singleton.mp h) (show ¬ (0 : Fin 2) = 1 by decide))]
  have hs1 : (scatDims wf).start (ix2 b k) idx 1 = (c k : Int) := by
    unfold ScatterDims.start
    rw [dif_pos (show (1 : Fin 2) ∈ (scatDims wf).scatterDimsToOperandDims from List.mem_singleton.mpr rfl)]
    have hsi : (scatDims wf).siIdx (ix2 b k) ⟨List.idxOf (1 : Fin 2) (scatDims wf).scatterDimsToOperandDims,
        List.idxOf_lt_length_iff.2 (List.mem_singleton.mpr rfl)⟩ = ix2 k 0 := by
      funext a'; refine Fin.ext ?_
      match a' with
      | ⟨0, _⟩ => rfl
      | ⟨1, _⟩ => rfl
    rw [hsi, hidx k, toInt_ofNat_lt (c k) (by have := hc k; omega)]
  have hw0 : (scatDims wf).window (ix2 b k) 0 = b.val := by
    unfold ScatterDims.window
    rw [dif_pos (show (0 : Fin 2) ∈ (⟨2, ![2048, 8192]⟩ : Shape).kept [1] from by decide)]
    rfl
  have hw1 : (scatDims wf).window (ix2 b k) 1 = 0 := by
    unfold ScatterDims.window
    rw [dif_neg (show (1 : Fin 2) ∉ (⟨2, ![2048, 8192]⟩ : Shape).kept [1] from by decide)]
  unfold ScatterDims.resultIdx?
  split
  · next h =>
    congr 1
    funext a
    refine Fin.ext ?_
    match a with
    | ⟨0, _⟩ =>
      show ((scatDims wf).start (ix2 b k) idx 0 + ((scatDims wf).window (ix2 b k) 0 : Int)).toNat = b.val
      rw [hs0, hw0]; simp
    | ⟨1, _⟩ =>
      show ((scatDims wf).start (ix2 b k) idx 1 + ((scatDims wf).window (ix2 b k) 1 : Int)).toNat = c k
      rw [hs1, hw1]; simp
  · next h =>
    refine absurd (fun a => ?_) h
    match a with
    | ⟨0, _⟩ =>
      show 0 ≤ (scatDims wf).start (ix2 b k) idx 0 + ((scatDims wf).window (ix2 b k) 0 : Int) ∧
        (scatDims wf).start (ix2 b k) idx 0 + ((scatDims wf).window (ix2 b k) 0 : Int) < ((2048 : Nat) : Int)
      rw [hs0, hw0]; have := b.isLt; omega
    | ⟨1, _⟩ =>
      show 0 ≤ (scatDims wf).start (ix2 b k) idx 1 + ((scatDims wf).window (ix2 b k) 1 : Int) ∧
        (scatDims wf).start (ix2 b k) idx 1 + ((scatDims wf).window (ix2 b k) 1 : Int) < ((8192 : Nat) : Int)
      rw [hs1, hw1]; have := hc k; omega

/-- The column scatter at `(b, col)` with the literal record. -/
theorem scatter_scatDims_apply
    (wf : ScatterDims.WF ⟨2, ![2048, 8192]⟩ ⟨2, ![4096, 1]⟩ ⟨2, ![2048, 4096]⟩ [0] [1] [1] 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter (scatDims wf) (fun _ v => v) x idx upd (ix2 b col)
      = if col.val % 2 = par then upd (ix2 b ⟨col.val / 2, by have := col.isLt; omega⟩) else x (ix2 b col) := by
  have hc : ∀ k : Fin 4096, 2 * k.val + par < 8192 := fun k => by have := k.isLt; omega
  have hres : ∀ (b' : Fin 2048) (k' : Fin 4096),
      (scatDims wf).resultIdx? (ix2 b' k') idx = some (ix2 b' ⟨2 * k'.val + par, hc k'⟩) :=
    fun b' k' => resultIdx_scatDims wf idx (fun k => 2 * k.val + par) hc hidx b' k'
  have hcol := col.isLt
  split
  · next hp =>
    have hk : col.val / 2 < 4096 := by omega
    refine scatter_apply_of_hit (scatDims wf) _ x idx upd (ix2 b ⟨col.val / 2, hk⟩) (ix2 b col) ?_ ?_
    · rw [hres]
      congr 2
      refine Fin.ext ?_
      show 2 * (col.val / 2) + par = col.val
      omega
    · intro j' hj'
      obtain ⟨b', k', rfl⟩ : ∃ b' k', j' = ix2 b' k' := ⟨j' 0, j' 1, eq_ix2 j'⟩
      rw [hres] at hj'
      have e := Option.some.inj hj'
      have e0 : b' = b := congrFun e 0
      have e1 : 2 * k'.val + par = col.val := congrArg Fin.val (congrFun e 1)
      subst e0
      congr 1
      refine Fin.ext ?_
      show k'.val = col.val / 2
      omega
  · next hp =>
    refine scatter_apply_of_miss (scatDims wf) _ x idx upd (ix2 b col) fun j' hj' => hp ?_
    obtain ⟨b', k', rfl⟩ : ∃ b' k', j' = ix2 b' k' := ⟨j' 0, j' 1, eq_ix2 j'⟩
    rw [hres] at hj'
    have e := Option.some.inj hj'
    have e1 : 2 * k'.val + par = col.val := congrArg Fin.val (congrFun e 1)
    omega

/-- THE COLUMN SCATTER READ AT `(b, col)`: for dimension numbers with the updates' window axis `0`, the operand's
    inserted axis `1`, the scatter index naming operand axis `1`, the index vector on the scatter indices' axis `1`,
    the body returning the update, and scatter indices `idx[k, 0] = 2k + par` (`par` is `0` or `1`): a column of parity
    `par` holds the update's column `col / 2`, a column of the other parity the operand's. -/
theorem scatter_column_apply (d : ScatterDims ⟨2, ![2048, 8192]⟩ ⟨2, ![4096, 1]⟩ ⟨2, ![2048, 4096]⟩)
    (huw : d.updateWindowDims = [0]) (hiw : d.insertedWindowDims = [1]) (hsd : d.scatterDimsToOperandDims = [1])
    (hiv : d.indexVectorDim = 1)
    (x : (⟨2, ![2048, 8192]⟩ : Shape).Idx → α) (upd : (⟨2, ![2048, 4096]⟩ : Shape).Idx → α)
    (idx : IVec ⟨2, ![4096, 1]⟩ 32) (par : Nat) (hpar : par < 2)
    (hidx : ∀ k : Fin 4096, idx (ix2 k 0) = BitVec.ofNat 32 (2 * k.val + par)) (b : Fin 2048) (col : Fin 8192) :
    Host.scatter d (fun _ v => v) x idx upd (ix2 b col)
      = if col.val % 2 = par then upd (ix2 b ⟨col.val / 2, by have := col.isLt; omega⟩) else x (ix2 b col) := by
  obtain ⟨uw, iw, sd, iv, wf⟩ := d
  simp only at huw hiw hsd hiv
  subst huw hiw hsd hiv
  exact scatter_scatDims_apply wf x upd idx par hpar hidx b col

end Scatter

end Cert.Lib.ColumnPick
-- ==== Proof.LibHostReads.lean ====
/-
  HOST OPERATIONS READ AT AN INDEX, on arrays with one axis of any length `n`: the stable sort of two arrays, the
  running sum written as a padded window reduction, the scatter that sets or maximises single elements, and the gather
  of single elements or whole rows. Program-free: only the library's operations; every statement is generic in the
  lengths and proved by reasoning on the definitions, never by evaluation.
-/
import Idealize.ShloMosaic.PureOps.Ideal
import Idealize.ShloMosaic.Lib.ValueIdx
import Idealize.ShloMosaic.Lib.SortFacts
import proofs.«129221_j18588618457298_2_alg».proof.Proof.LibColumnPick

namespace Cert.Lib.HostReads

open Idealize.ShloMosaic Idealize.ShloMosaic.ValueIdx
open scoped BigOperators

/-! ## The stable sort of two rank-1 arrays, read at a position -/

section StableSort
variable {n : ℕ} {α β : Type}

/-- On a rank-1 shape, replacing the one coordinate of any index by `k` gives the index at `k`. -/
theorem along_ix1 (j : (⟨1, ![n]⟩ : Shape).Idx) (a : Fin (⟨1, ![n]⟩ : Shape).rank)
    (k : Fin ((⟨1, ![n]⟩ : Shape).size a)) :
    j.along a k = ix1 (n := n) ⟨k.val, by obtain rfl : a = 0 := Subsingleton.elim _ _; exact k.isLt⟩ := by
  funext b
  obtain rfl : a = 0 := Subsingleton.elim _ _
  obtain rfl : b = 0 := Subsingleton.elim _ _
  unfold Shape.Idx.along
  exact Function.update_self ..

/-- The stable sorting permutation of the positions of two rank-1 arrays under a comparator on the pairs of their
    elements: position `k` of the sorted arrays holds the elements that stood at `sortPerm cmp x y k`. -/
def sortPerm (cmp : α × β → α × β → BitVec 1) (x : (⟨1, ![n]⟩ : Shape).Idx → α) (y : (⟨1, ![n]⟩ : Shape).Idx → β) :
    Fin n → Fin n :=
  sortedFrom (fun k k' => cmp (x (ix1 k), y (ix1 k)) (x (ix1 k'), y (ix1 k')) == 1#1)

/-- The first sorted array at `k` is the first array at the position the stable sort brings to `k`. -/
theorem sort2_fst_apply (cmp : α × β → α × β → BitVec 1) (x : (⟨1, ![n]⟩ : Shape).Idx → α)
    (y : (⟨1, ![n]⟩ : Shape).Idx → β) (k : Fin n) :
    (Host.sort2 ⟨1, ![n]⟩ 0 cmp x y).1 (ix1 k) = x (ix1 (sortPerm cmp x y k)) := by
  unfold Host.sort2
  rw [dif_pos (show 0 < (⟨1, ![n]⟩ : Shape).rank from Nat.one_pos)]
  simp only [along_ix1]
  rfl

/-- The second sorted array at `k` is the second array at the same position. -/
theorem sort2_snd_apply (cmp : α × β → α × β → BitVec 1) (x : (⟨1, ![n]⟩ : Shape).Idx → α)
    (y : (⟨1, ![n]⟩ : Shape).Idx → β) (k : Fin n) :
    (Host.sort2 ⟨1, ![n]⟩ 0 cmp x y).2 (ix1 k) = y (ix1 (sortPerm cmp x y k)) := by
  unfold Host.sort2
  rw [dif_pos (show 0 < (⟨1, ![n]⟩ : Shape).rank from Nat.one_pos)]
  simp only [along_ix1]
  rfl

end StableSort

/-! ## The running sum as a padded window reduction, read at a position

A window of `n` positions, padded `n - 1` low, stride one, the body integer addition from `0`: window position `w` of
result `k` reads operand position `k + w - (n - 1)` when `n - 1 ≤ k + w`, else the padding `0`. So result `k` is the sum
of the operand's elements at the positions up to `k`, as 32-bit words, where the sum is that of the naturals modulo
`2^32`. -/

section Cumsum
variable {n : ℕ}

/-- A rank-1 index set is its coordinate range. -/
def idxEquiv1 : (⟨1, ![n]⟩ : Shape).Idx ≃ Fin n where
  toFun i := i 0
  invFun := ix1
  left_inv i := (eq_ix1 i).symm
  right_inv _ := rfl

/-- A sum over a rank-1 index set is the sum over the coordinate. -/
theorem sum_idx1 {M : Type*} [AddCommMonoid M] (f : (⟨1, ![n]⟩ : Shape).Idx → M) : ∑ i, f i = ∑ a : Fin n, f (ix1 a) := by
  rw [← Equiv.sum_comp (idxEquiv1 (n := n)).symm f]
  rfl

/-- A left fold of 32-bit additions adds, to its start, the word of the sum of the values of the terms. -/
theorem foldl_add_eq {ι : Type*} (g : ι → BitVec 32) (l : List ι) (a : BitVec 32) :
    l.foldl (fun r m => r + g m) a = a + BitVec.ofNat 32 (l.map fun m => (g m).toNat).sum := by
  induction l generalizing a with
  | nil => simp
  | cons m l ih =>
    rw [List.foldl_cons, ih, List.map_cons, List.sum_cons, BitVec.ofNat_add, BitVec.ofNat_toNat, BitVec.setWidth_eq,
      BitVec.add_assoc]

/-- What window position `w` of result `k` contributes. -/
def cumTerm (x : IVec ⟨1, ![n]⟩ 32) (k w : Fin n) : BitVec 32 :=
  if n - 1 ≤ k.val + w.val then x (ix1 ⟨k.val + w.val - (n - 1), by have := k.isLt; have := w.isLt; omega⟩) else 0#32

theorem cumTerm_pos (x : IVec ⟨1, ![n]⟩ 32) (k w : Fin n) (hc : n - 1 ≤ k.val + w.val) :
    cumTerm x k w = x (ix1 ⟨k.val + w.val - (n - 1), by have := k.isLt; have := w.isLt; omega⟩) := if_pos hc

theorem cumTerm_neg (x : IVec ⟨1, ![n]⟩ 32) (k w : Fin n) (hc : ¬ n - 1 ≤ k.val + w.val) : cumTerm x k w = 0#32 :=
  if_neg hc

/-- The contributions of the window positions are the operand's elements up to `k`, each once. -/
theorem sum_cumTerm (x : IVec ⟨1, ![n]⟩ 32) (k : Fin n) :
    ∑ w : Fin n, (cumTerm x k w).toNat = ∑ k' ∈ Finset.univ.filter (fun k' : Fin n => k' ≤ k), (x (ix1 k')).toNat := by
  have hk := k.isLt
  have e : ∀ w : Fin n, (cumTerm x k w).toNat
      = if n - 1 ≤ k.val + w.val then
          (x (ix1 ⟨k.val + w.val - (n - 1), by have := w.isLt; omega⟩)).toNat else 0 := by
    intro w
    unfold cumTerm
    split <;> rfl
  simp only [e]
  rw [← Finset.sum_filter]
  refine Finset.sum_nbij' (fun w => ⟨k.val + w.val - (n - 1), by have := w.isLt; omega⟩)
    (fun k' => ⟨n - 1 - (k.val - k'.val), by omega⟩) ?_ ?_ ?_ ?_ ?_
  · intro w hw
    have hw' := (Finset.mem_filter.mp hw).2
    refine Finset.mem_filter.mpr ⟨Finset.mem_univ _, ?_⟩
    show k.val + w.val - (n - 1) ≤ k.val
    have := w.isLt; omega
  · intro k' hk'
    have hk'' : k'.val ≤ k.val := (Finset.mem_filter.mp hk').2
    refine Finset.mem_filter.mpr ⟨Finset.mem_univ _, ?_⟩
    show n - 1 ≤ k.val + (n - 1 - (k.val - k'.val))
    omega
  · intro w hw
    have hw' : n - 1 ≤ k.val + w.val := (Finset.mem_filter.mp hw).2
    refine Fin.ext ?_
    show n - 1 - (k.val - (k.val + w.val - (n - 1))) = w.val
    have := w.isLt; omega
  · intro k' hk'
    have hk'' : k'.val ≤ k.val := (Finset.mem_filter.mp hk').2
    refine Fin.ext ?_
    show k.val + (n - 1 - (k.val - k'.val)) - (n - 1) = k'.val
    omega
  · intro w _
    rfl

/-- THE RUNNING SUM READ AT `k`: the word of the sum of the values of the operand's elements at the positions up to
    `k`. -/
theorem cumsum_apply (x : IVec ⟨1, ![n]⟩ 32) (init : (⟨0, ![]⟩ : Shape).Idx → BitVec 32) (hinit : init ix0 = 0#32)
    (h : (⟨1, ![n]⟩ : Shape).ReduceWindows ![n] ![1] ![n - 1] ![0] ⟨1, ![n]⟩) (hu : 0 < (⟨0, ![]⟩ : Shape).numel)
    (k : Fin n) :
    Host.reduceWindow IntOp.addi ![n] ![1] ![n - 1] ![0] x init h hu (ix1 k)
      = BitVec.ofNat 32 (∑ k' ∈ Finset.univ.filter (fun k' : Fin n => k' ≤ k), (x (ix1 k')).toNat) := by
  have hv : init (Shape.Idx.first hu) = 0#32 := by rw [eq_ix0 (Shape.Idx.first hu)]; exact hinit
  have hfold : Host.reduceWindow IntOp.addi ![n] ![1] ![n - 1] ![0] x init h hu (ix1 k)
      = (List.finRange (⟨1, ![n]⟩ : Shape).numel).foldl
          (fun r m => r + cumTerm x k ((⟨1, ![n]⟩ : Shape).rowMajor.symm m 0)) 0#32 := by
    unfold Host.reduceWindow
    simp only [hv]
    congr 1
    funext r m
    show IntOp.addi r _ = r + cumTerm x k _
    unfold IntOp.addi
    congr 1
    have hw : ((⟨1, ![n]⟩ : Shape).rowMajor.symm m 0).val < n := ((⟨1, ![n]⟩ : Shape).rowMajor.symm m 0).isLt
    have hk := k.isLt
    split
    · next hin =>
      have h1 : n - 1 ≤ k.val * 1 + ((⟨1, ![n]⟩ : Shape).rowMajor.symm m 0).val := (hin ⟨0, Nat.one_pos⟩).1
      have hc : n - 1 ≤ k.val + ((⟨1, ![n]⟩ : Shape).rowMajor.symm m 0).val := by omega
      refine Eq.trans ?_ (cumTerm_pos x k _ hc).symm
      congr 1
      funext a
      obtain rfl : a = 0 := Subsingleton.elim _ _
      refine Fin.ext ?_
      show k.val * 1 + ((⟨1, ![n]⟩ : Shape).rowMajor.symm m 0).val - (n - 1)
        = k.val + ((⟨1, ![n]⟩ : Shape).rowMajor.symm m 0).val - (n - 1)
      omega
    · next hin =>
      refine (cumTerm_neg x k _ ?_).symm
      intro hc
      have hc' : n - 1 ≤ k.val + ((⟨1, ![n]⟩ : Shape).rowMajor.symm m 0).val := hc
      apply hin
      intro a
      obtain rfl : a = 0 := Subsingleton.elim _ _
      show n - 1 ≤ k.val * 1 + ((⟨1, ![n]⟩ : Shape).rowMajor.symm m 0).val ∧
        k.val * 1 + ((⟨1, ![n]⟩ : Shape).rowMajor.symm m 0).val - (n - 1) < n
      omega
  rw [hfold, foldl_add_eq, BitVec.zero_add]
  congr 1
  rw [← Fin.sum_univ_def]
  exact (Equiv.sum_comp (⟨1, ![n]⟩ : Shape).rowMajor.symm
    (fun i : (⟨1, ![n]⟩ : Shape).Idx => (cumTerm x k (i 0)).toNat)).trans
      ((sum_idx1 (fun i : (⟨1, ![n]⟩ : Shape).Idx => (cumTerm x k (i 0)).toNat)).trans (sum_cumTerm x k))

end Cumsum

/-! ## Setting single elements of a rank-1 array, and reading single elements of one

The operand is `[N]`, the indices a one-column array `[n, 1]` (the index vector's axis is the second), each naming ONE
operand position, the updates (or the gather's result) `[n]`. Update `k` lands at the position `idx[k, 0]` read signed,
when that is inside the operand; a gather reads the operand there (clamped, which is the identity inside). -/

/-- An axis in the list is not among the kept ones. -/
theorem not_mem_kept_of_mem {s : Shape} (a : Fin s.rank) (l : List (Fin s.rank)) (ha : a ∈ l) : a ∉ s.kept l :=
  fun h => (of_decide_eq_true (List.mem_filter.mp h).2) ha

section Scatter1
variable {α : Type} {N n : ℕ}

/-- Those scatter dimension numbers as a literal record. -/
abbrev scat1Dims (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The start of update `k` on the operand's axis is the scatter index `idx[k, 0]` read signed. -/
theorem scat1Dims_start (wf : ScatterDims.WF ⟨1, ![N]⟩ ⟨2, ![n, 1]⟩ ⟨1, ![n]⟩ [] [0] [0] 1)
    (idx : IVec ⟨2, ![n, 1]⟩ 32) (k : Fin n) : (scat1Dims wf).start (ix1 k) idx 0 = (idx (ix2 k 0)).toInt := by
  unfold ScatterDims.start
  rw [dif_pos (show (0 : Fin 1) ∈ (scat1Dims wf).scatterDimsToOperandDims from List.mem_singleton.mpr rfl)]
  have hsi : (scat1Dims wf).siIdx (ix1 k) ⟨List.idxOf (0 : Fin 1) (scat1Dims wf).scatterDimsToOperandDims,
      List.idxOf_lt_length_iff.2 (List.mem_singleton.mpr rfl)⟩ = ix2 k 0 := by
    funext a'; refine Fin.ext ?_
    match a' with
    | ⟨0, _⟩ => rfl
    | ⟨1, _⟩ => rfl
  rw [hsi]

/-- The operand's one axis is inserted: the window coordinate there is `0`. -/
theorem scat1Dims_window (wf : ScatterDims.WF ⟨1, ![N]⟩ ⟨2, ![n, 1]⟩ ⟨1, ![n]⟩ [] [0] [0] 1) (k : Fin n) :
    (scat1Dims wf).window (ix1 k) 0 = 0 := by
  unfold ScatterDims.window
  rw [dif_neg (show (0 : Fin 1) ∉ (⟨1, ![N]⟩ : Shape).kept [0] from
    not_mem_kept_of_mem (s := ⟨1, ![N]⟩) 0 [0] (List.mem_singleton.mpr rfl))]

theorem resultIdx_scat1Dims_some (wf : ScatterDims.WF ⟨1, ![N]⟩ ⟨2, ![n, 1]⟩ ⟨1, ![n]⟩ [] [0] [0] 1)
    (idx : IVec ⟨2, ![n, 1]⟩ 32) (k : Fin n) (p : Fin N) (hp : (idx (ix2 k 0)).toInt = (p.val : ℤ)) :
    (scat1Dims wf).resultIdx? (ix1 k) idx = some (ix1 p) := by
  have hs := scat1Dims_start wf idx k
  have hw := scat1Dims_window wf k
  unfold ScatterDims.resultIdx?
  split
  · next h =>
    congr 1
    funext a
    obtain rfl : a = 0 := Subsingleton.elim _ _
    refine Fin.ext ?_
    show ((scat1Dims wf).start (ix1 k) idx 0 + ((scat1Dims wf).window (ix1 k) 0 : ℤ)).toNat = p.val
    rw [hs, hw, hp]; simp
  · next h =>
    refine absurd (fun a => ?_) h
    obtain rfl : a = 0 := Subsingleton.elim _ _
    show 0 ≤ (scat1Dims wf).start (ix1 k) idx 0 + ((scat1Dims wf).window (ix1 k) 0 : ℤ) ∧
      (scat1Dims wf).start (ix1 k) idx 0 + ((scat1Dims wf).window (ix1 k) 0 : ℤ) < ((N : ℕ) : ℤ)
    rw [hs, hw, hp]; have := p.isLt; omega

theorem resultIdx_scat1Dims_eq_some_iff (wf : ScatterDims.WF ⟨1, ![N]⟩ ⟨2, ![n, 1]⟩ ⟨1, ![n]⟩ [] [0] [0] 1)
    (idx : IVec ⟨2, ![n, 1]⟩ 32) (k : Fin n) (p : Fin N) :
    (scat1Dims wf).resultIdx? (ix1 k) idx = some (ix1 p) ↔ (idx (ix2 k 0)).toInt = (p.val : ℤ) := by
  refine ⟨fun hres => ?_, resultIdx_scat1Dims_some wf idx k p⟩
  have hs := scat1Dims_start wf idx k
  have hw := scat1Dims_window wf k
  unfold ScatterDims.resultIdx? at hres
  split at hres
  · next h =>
    have h0 : 0 ≤ (scat1Dims wf).start (ix1 k) idx 0 + ((scat1Dims wf).window (ix1 k) 0 : ℤ) := (h 0).1
    have e : ((scat1Dims wf).start (ix1 k) idx 0 + ((scat1Dims wf).window (ix1 k) 0 : ℤ)).toNat = p.val :=
      congrArg (fun f : (⟨1, ![N]⟩ : Shape).Idx => (f 0).val) (Option.some.inj hres)
    rw [hs, hw] at e h0
    omega
  · cases hres

/-- The result index of update `k` is the position `p` when the scatter index `idx[k, 0]`, read signed, is `p`. -/
theorem scatter1_resultIdx_some (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (idx : IVec ⟨2, ![n, 1]⟩ 32) (k : Fin n) (p : Fin N) (hp : (idx (ix2 k 0)).toInt = (p.val : ℤ)) :
    d.resultIdx? (ix1 k) idx = some (ix1 p) := by
  obtain ⟨uw, iw, sd, iv, wf⟩ := d
  simp only at h1 h2 h3 h4
  subst h1 h2 h3 h4
  exact resultIdx_scat1Dims_some wf idx k p hp

/-- The result index of update `k` is the position `p` exactly when the scatter index `idx[k, 0]`, read signed, is `p`. -/
theorem scatter1_resultIdx_eq_some_iff (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (idx : IVec ⟨2, ![n, 1]⟩ 32) (k : Fin n) (p : Fin N) :
    d.resultIdx? (ix1 k) idx = some (ix1 p) ↔ (idx (ix2 k 0)).toInt = (p.val : ℤ) := by
  obtain ⟨uw, iw, sd, iv, wf⟩ := d
  simp only at h1 h2 h3 h4
  subst h1 h2 h3 h4
  exact resultIdx_scat1Dims_eq_some_iff wf idx k p

/-- SETTING ELEMENTS AT PAIRWISE DISTINCT POSITIONS, READ AT ONE OF THEM: when scatter index `k` names position
    `dest k` and `dest` is injective, the result at `dest k` is update `k` (the body returns the update). -/
theorem scatter1_set_apply (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (x : (⟨1, ![N]⟩ : Shape).Idx → α) (idx : IVec ⟨2, ![n, 1]⟩ 32) (upd : (⟨1, ![n]⟩ : Shape).Idx → α)
    (dest : Fin n → Fin N) (hdest : ∀ k, (idx (ix2 k 0)).toInt = ((dest k).val : ℤ)) (hinj : Function.Injective dest)
    (k : Fin n) : Host.scatter d (fun _ b => b) x idx upd (ix1 (dest k)) = upd (ix1 k) := by
  refine ColumnPick.scatter_apply_of_hit d _ x idx upd (ix1 k) (ix1 (dest k))
    (scatter1_resultIdx_some d h1 h2 h3 h4 idx k (dest k) (hdest k)) ?_
  intro j' hj'
  obtain ⟨k', rfl⟩ : ∃ k', j' = ix1 k' := ⟨j' 0, eq_ix1 j'⟩
  have e := (scatter1_resultIdx_eq_some_iff d h1 h2 h3 h4 idx k' (dest k)).mp hj'
  rw [hdest k'] at e
  have e' : dest k' = dest k := Fin.ext (by exact_mod_cast e)
  rw [hinj e']

/-- Those gather dimension numbers as a literal record. -/
abbrev gath1Dims (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

theorem gather_gath1Dims_apply (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (k : Fin n) (p : Fin N)
    (hp : (idx (ix2 k 0)).toInt = (p.val : ℤ)) : Host.gather (gath1Dims wf) x idx (ix1 k) = x (ix1 p) := by
  unfold Host.gather
  congr 1
  funext a
  obtain rfl : a = 0 := Subsingleton.elim _ _
  refine Fin.ext ?_
  show (gath1Dims wf).start (ix1 k) idx 0 + (gath1Dims wf).batchCoord (ix1 k) 0 + (gath1Dims wf).offCoord (ix1 k) 0
    = p.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1Dims wf).startIndexMap from List.mem_singleton.mpr rfl)]
  have hsi : (gath1Dims wf).siIdx (ix1 k) ⟨List.idxOf (0 : Fin 1) (gath1Dims wf).startIndexMap,
      List.idxOf_lt_length_iff.2 (List.mem_singleton.mpr rfl)⟩ = ix2 k 0 := by
    funext b; refine Fin.ext ?_
    match b with
    | ⟨0, _⟩ => rfl
    | ⟨1, _⟩ => rfl
  rw [hsi, hp]
  show min ((p.val : ℤ).toNat) (N - 1) = p.val
  rw [Int.toNat_natCast]
  have := p.isLt
  omega

/-- A GATHER OF SINGLE ELEMENTS READ AT `k`: the operand at the position the start index `idx[k, 0]` names. -/
theorem gather1_apply (dg : GatherDims ⟨1, ![N]⟩ ⟨2, ![n, 1]⟩ ⟨1, ![n]⟩) (g1 : dg.offsetDims = [])
    (g2 : dg.collapsedSliceDims = [0]) (g3 : dg.operandBatchingDims = []) (g4 : dg.startIndicesBatchingDims = [])
    (g5 : dg.startIndexMap = [0]) (g6 : dg.indexVectorDim = 1) (g7 : dg.sliceSizes = ![1])
    (x : (⟨1, ![N]⟩ : Shape).Idx → α) (idx : IVec ⟨2, ![n, 1]⟩ 32) (k : Fin n) (p : Fin N)
    (hp : (idx (ix2 k 0)).toInt = (p.val : ℤ)) : Host.gather dg x idx (ix1 k) = x (ix1 p) := by
  obtain ⟨od, cd, ob, sb, sm, iv, ss, wf⟩ := dg
  simp only at g1 g2 g3 g4 g5 g6 g7
  subst g1 g2 g3 g4 g5 g6 g7
  exact gather_gath1Dims_apply wf x idx k p hp

end Scatter1

/-! ## A gather of whole rows of a two-axis table, read at an index

The operand is `[N, C]`, the start indices a one-column array `[n, 1]` each naming ONE operand row; the slice is a whole
row (`[1, C]`, its first axis collapsed), so result element `(k, c)` is operand element `(idx[k, 0], c)`. -/

section GatherRows
variable {α : Type} {N C n : ℕ}

/-- Those dimension numbers as a literal record. -/
abbrev rowsDims (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rowsDims_apply (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (k : Fin n) (c : Fin C) (p : Fin N)
    (hp : (idx (ix2 k 0)).toInt = (p.val : ℤ)) : Host.gather (rowsDims wf) x idx (ix2 k c) = x (ix2 p c) := by
  unfold Host.gather
  congr 1
  funext a
  refine Fin.ext ?_
  match a with
  | ⟨0, _⟩ =>
    show (rowsDims wf).start (ix2 k c) idx 0 + (rowsDims wf).batchCoord (ix2 k c) 0 + (rowsDims wf).offCoord (ix2 k c) 0
      = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix2 k c) ⟨List.idxOf (0 : Fin 2) (rowsDims wf).startIndexMap,
        List.idxOf_lt_length_iff.2 (List.mem_singleton.mpr rfl)⟩ = ix2 k 0 := by
      funext a'; refine Fin.ext ?_
      match a' with
      | ⟨0, _⟩ => rfl
      | ⟨1, _⟩ => rfl
    rw [hsi, hp]
    show min ((p.val : ℤ).toNat) (N - 1) = p.val
    rw [Int.toNat_natCast]
    have := p.isLt
    omega
  | ⟨1, _⟩ =>
    show (rowsDims wf).start (ix2 k c) idx 1 + (rowsDims wf).batchCoord (ix2 k c) 1 + (rowsDims wf).offCoord (ix2 k c) 1
      = c.val
    rw [GatherDims.batchCoord_eq_zero _ _ _ List.not_mem_nil]
    have hs : (rowsDims wf).start (ix2 k c) idx 1 = 0 := by
      unfold GatherDims.start
      rw [dif_neg (show (1 : Fin 2) ∉ (rowsDims wf).startIndexMap from
        fun h => absurd (List.mem_singleton.mp h) (show ¬ (1 : Fin 2) = 0 by decide))]
    have ho : (rowsDims wf).offCoord (ix2 k c) 1 = c.val := by
      unfold GatherDims.offCoord
      rw [dif_pos (show (1 : Fin 2) ∈ (rowsDims wf).sKept from (GatherDims.mem_sKept _ _).mpr
        ⟨fun h => absurd (List.mem_singleton.mp h) (show ¬ (1 : Fin 2) = 0 by decide), List.not_mem_nil⟩)]
      rfl
    rw [hs, ho]
    omega

/-- A GATHER OF WHOLE ROWS READ AT `(k, c)`: the operand at row `idx[k, 0]`, column `c`. -/
theorem gatherRows_apply (dr : GatherDims ⟨2, ![N, C]⟩ ⟨2, ![n, 1]⟩ ⟨2, ![n, C]⟩) (g1 : dr.offsetDims = [1])
    (g2 : dr.collapsedSliceDims = [0]) (g3 : dr.operandBatchingDims = []) (g4 : dr.startIndicesBatchingDims = [])
    (g5 : dr.startIndexMap = [0]) (g6 : dr.indexVectorDim = 1) (g7 : dr.sliceSizes = ![1, C])
    (x : (⟨2, ![N, C]⟩ : Shape).Idx → α) (idx : IVec ⟨2, ![n, 1]⟩ 32) (k : Fin n) (c : Fin C) (p : Fin N)
    (hp : (idx (ix2 k 0)).toInt = (p.val : ℤ)) : Host.gather dr x idx (ix2 k c) = x (ix2 p c) := by
  obtain ⟨od, cd, ob, sb, sm, iv, ss, wf⟩ := dr
  simp only at g1 g2 g3 g4 g5 g6 g7
  subst g1 g2 g3 g4 g5 g6 g7
  exact gather_rowsDims_apply wf x idx k c p hp

end GatherRows

/-! ## A scatter whose body is the signed maximum, read at a position

Every scatter index is in range, so the scatter is a left fold of steps "replace the element at the update's position
by its signed maximum with the update". Read at one position it is a fold on that element alone, over the updates in
order, in which only the updates landing there act. Such a fold ends at least at its start and at least at every update
that acted, and ends at its start or at one of the updates that acted. -/

section FoldAtPosition
variable {ι κ α : Type*}

/-- A left fold whose steps change position `i` by a function of what it held is, at `i`, the fold of that function. -/
theorem foldl_apply_pointwise (step : (κ → α) → ι → κ → α) (i : κ) (g : α → ι → α)
    (h : ∀ r m, step r m i = g (r i) m) (l : List ι) (x : κ → α) : l.foldl step x i = l.foldl g (x i) := by
  induction l generalizing x with
  | nil => rfl
  | cons m l ih => rw [List.foldl_cons, List.foldl_cons, ih, h]

end FoldAtPosition

section ScatterFoldAt
variable {α : Type} {s si u : Shape} {w : Nat}

/-- A scatter all of whose result indices are inside the operand, read at `i`: the fold, over the update indices in
    row-major order, of the body applied at the updates that land on `i`. -/
theorem scatter_apply_eq_foldl (d : ScatterDims s si u) (f : α → α → α) (x : s.Idx → α) (idx : IVec si w)
    (upd : u.Idx → α) (tgt : u.Idx → s.Idx) (hres : ∀ j, d.resultIdx? j idx = some (tgt j)) (i : s.Idx) :
    Host.scatter d f x idx upd i
      = ((List.finRange u.numel).map u.rowMajor.symm).foldl (fun v j => if i = tgt j then f v (upd j) else v) (x i) := by
  unfold Host.scatter
  rw [List.foldl_map]
  refine foldl_apply_pointwise _ i (fun v m => if i = tgt (u.rowMajor.symm m) then f v (upd (u.rowMajor.symm m)) else v)
    ?_ _ x
  intro r m
  rcases h' : d.resultIdx? (u.rowMajor.symm m) idx with _ | i2
  · exact absurd ((hres _).symm.trans h') (by simp)
  · have e : tgt (u.rowMajor.symm m) = i2 := Option.some.inj ((hres _).symm.trans h')
    subst e
    show (if i = tgt (u.rowMajor.symm m) then f (r (tgt (u.rowMajor.symm m))) (upd (u.rowMajor.symm m)) else r i)
      = if i = tgt (u.rowMajor.symm m) then f (r i) (upd (u.rowMajor.symm m)) else r i
    by_cases hi : i = tgt (u.rowMajor.symm m)
    · rw [if_pos hi, if_pos hi, ← hi]
    · rw [if_neg hi, if_neg hi]

end ScatterFoldAt

section MaxFold
variable {ι : Type*}

/-- The signed maximum of two words is one of them, and the other is at most it. -/
theorem maxsi_cases (a b : BitVec 32) :
    (IntOp.maxsi a b = a ∧ b.toInt ≤ a.toInt) ∨ (IntOp.maxsi a b = b ∧ a.toInt ≤ b.toInt) := by
  unfold IntOp.maxsi
  by_cases h : b.slt a = true
  · rw [if_pos h]
    exact Or.inl ⟨rfl, le_of_lt (BitVec.slt_iff_toInt_lt.mp h)⟩
  · rw [if_neg h]
    exact Or.inr ⟨rfl, not_lt.mp fun hlt => h (BitVec.slt_iff_toInt_lt.mpr hlt)⟩

/-- One step "maximise with `b` when `c` holds": at least the old value; at least `b` when `c` holds; and the old
    value, or `b` with `c` holding. -/
theorem maxStep_facts (c : Prop) [Decidable c] (v0 b : BitVec 32) :
    v0.toInt ≤ (if c then IntOp.maxsi v0 b else v0).toInt ∧
      (c → b.toInt ≤ (if c then IntOp.maxsi v0 b else v0).toInt) ∧
      ((if c then IntOp.maxsi v0 b else v0) = v0 ∨ (c ∧ (if c then IntOp.maxsi v0 b else v0) = b)) := by
  by_cases hc : c
  · rw [if_pos hc]
    rcases maxsi_cases v0 b with ⟨e, hle⟩ | ⟨e, hle⟩
    · rw [e]; exact ⟨le_refl _, fun _ => hle, Or.inl rfl⟩
    · rw [e]; exact ⟨hle, fun _ => le_refl _, Or.inr ⟨hc, rfl⟩⟩
  · rw [if_neg hc]
    exact ⟨le_refl _, fun h => absurd h hc, Or.inl rfl⟩

/-- The fold of the steps "maximise with `val j` when `hit j`" over a list, from `v0`. -/
def maxFold (hit : ι → Prop) [DecidablePred hit] (val : ι → BitVec 32) (l : List ι) (v0 : BitVec 32) : BitVec 32 :=
  l.foldl (fun v j => if hit j then IntOp.maxsi v (val j) else v) v0

/-- It ends at least at its start, at least at every value that acted, and at its start or at a value that acted. -/
theorem maxFold_facts (hit : ι → Prop) [DecidablePred hit] (val : ι → BitVec 32) (l : List ι) (v0 : BitVec 32) :
    v0.toInt ≤ (maxFold hit val l v0).toInt ∧ (∀ j ∈ l, hit j → (val j).toInt ≤ (maxFold hit val l v0).toInt) ∧
      (maxFold hit val l v0 = v0 ∨ ∃ j ∈ l, hit j ∧ maxFold hit val l v0 = val j) := by
  induction l generalizing v0 with
  | nil => exact ⟨le_refl _, fun j hj => absurd hj List.not_mem_nil, Or.inl rfl⟩
  | cons m l ih =>
    have hcons : maxFold hit val (m :: l) v0 = maxFold hit val l (if hit m then IntOp.maxsi v0 (val m) else v0) := rfl
    rw [hcons]
    obtain ⟨s1, s2, s3⟩ := maxStep_facts (hit m) v0 (val m)
    obtain ⟨c1, c2, c3⟩ := ih (if hit m then IntOp.maxsi v0 (val m) else v0)
    generalize (if hit m then IntOp.maxsi v0 (val m) else v0) = v1 at s1 s2 s3 c1 c2 c3 ⊢
    refine ⟨le_trans s1 c1, ?_, ?_⟩
    · intro j hj hh
      rcases List.mem_cons.1 hj with rfl | hj'
      · exact le_trans (s2 hh) c1
      · exact c2 j hj' hh
    · rcases c3 with c3 | ⟨j, hj, hh, e3⟩
      · rcases s3 with s3 | ⟨hm, s3⟩
        · exact Or.inl (c3.trans s3)
        · exact Or.inr ⟨m, List.mem_cons_self, hm, c3.trans s3⟩
      · exact Or.inr ⟨j, List.mem_cons_of_mem _ hj, hh, e3⟩

end MaxFold

section SegmentMax
variable {N n : ℕ}

/-- The maximising scatter from a constant operand, every index in range, read at position `p`: the three facts. -/
theorem scatter1_max_facts (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (x0 : BitVec 32) (idx : IVec ⟨2, ![n, 1]⟩ 32) (upd : IVec ⟨1, ![n]⟩ 32) (seg : Fin n → Fin N)
    (hseg : ∀ k, (idx (ix2 k 0)).toInt = ((seg k).val : ℤ)) (p : Fin N) :
    x0.toInt ≤ (Host.scatter d IntOp.maxsi (fun _ => x0) idx upd (ix1 p)).toInt ∧
      (∀ k, seg k = p → (upd (ix1 k)).toInt ≤ (Host.scatter d IntOp.maxsi (fun _ => x0) idx upd (ix1 p)).toInt) ∧
      (Host.scatter d IntOp.maxsi (fun _ => x0) idx upd (ix1 p) = x0 ∨
        ∃ k, seg k = p ∧ Host.scatter d IntOp.maxsi (fun _ => x0) idx upd (ix1 p) = upd (ix1 k)) := by
  have hres : ∀ j : (⟨1, ![n]⟩ : Shape).Idx, d.resultIdx? j idx = some (ix1 (seg (j 0))) := by
    intro j
    obtain ⟨k, rfl⟩ : ∃ k, j = ix1 k := ⟨j 0, eq_ix1 j⟩
    exact scatter1_resultIdx_some d h1 h2 h3 h4 idx k (seg k) (hseg k)
  have hfold : Host.scatter d IntOp.maxsi (fun _ => x0) idx upd (ix1 p)
      = maxFold (fun j : (⟨1, ![n]⟩ : Shape).Idx => ix1 p = ix1 (seg (j 0))) upd
          ((List.finRange (⟨1, ![n]⟩ : Shape).numel).map (⟨1, ![n]⟩ : Shape).rowMajor.symm) x0 :=
    scatter_apply_eq_foldl d IntOp.maxsi (fun _ => x0) idx upd (fun j => ix1 (seg (j 0))) hres (ix1 p)
  rw [hfold]
  obtain ⟨c1, c2, c3⟩ := maxFold_facts (fun j : (⟨1, ![n]⟩ : Shape).Idx => ix1 p = ix1 (seg (j 0))) upd
    ((List.finRange (⟨1, ![n]⟩ : Shape).numel).map (⟨1, ![n]⟩ : Shape).rowMajor.symm) x0
  refine ⟨c1, ?_, ?_⟩
  · intro k hk
    refine c2 (ix1 k) (List.mem_map.mpr ⟨(⟨1, ![n]⟩ : Shape).rowMajor (ix1 k), List.mem_finRange _,
      Equiv.symm_apply_apply _ _⟩) ?_
    subst hk
    rfl
  · rcases c3 with e | ⟨j, _, hh, e⟩
    · exact Or.inl e
    · have hp : p = seg (j 0) := congrFun hh 0
      exact Or.inr ⟨j 0, hp.symm, e.trans (congrArg upd (eq_ix1 j))⟩

/-- Every update landing at `p` is at most the result there. -/
theorem scatter1_max_ge (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (x0 : BitVec 32) (idx : IVec ⟨2, ![n, 1]⟩ 32) (upd : IVec ⟨1, ![n]⟩ 32) (seg : Fin n → Fin N)
    (hseg : ∀ k, (idx (ix2 k 0)).toInt = ((seg k).val : ℤ)) (p : Fin N) (k : Fin n) (hk : seg k = p) :
    (upd (ix1 k)).toInt ≤ (Host.scatter d IntOp.maxsi (fun _ => x0) idx upd (ix1 p)).toInt :=
  (scatter1_max_facts d h1 h2 h3 h4 x0 idx upd seg hseg p).2.1 k hk

/-- The result at `p` is the operand's constant or one of the updates landing at `p`. -/
theorem scatter1_max_mem (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (x0 : BitVec 32) (idx : IVec ⟨2, ![n, 1]⟩ 32) (upd : IVec ⟨1, ![n]⟩ 32) (seg : Fin n → Fin N)
    (hseg : ∀ k, (idx (ix2 k 0)).toInt = ((seg k).val : ℤ)) (p : Fin N) :
    Host.scatter d IntOp.maxsi (fun _ => x0) idx upd (ix1 p) = x0 ∨
      ∃ k, seg k = p ∧ Host.scatter d IntOp.maxsi (fun _ => x0) idx upd (ix1 p) = upd (ix1 k) :=
  (scatter1_max_facts d h1 h2 h3 h4 x0 idx upd seg hseg p).2.2

/-- The operand's constant is at most the result at `p`. -/
theorem scatter1_max_init_le (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (x0 : BitVec 32) (idx : IVec ⟨2, ![n, 1]⟩ 32) (upd : IVec ⟨1, ![n]⟩ 32) (seg : Fin n → Fin N)
    (hseg : ∀ k, (idx (ix2 k 0)).toInt = ((seg k).val : ℤ)) (p : Fin N) :
    x0.toInt ≤ (Host.scatter d IntOp.maxsi (fun _ => x0) idx upd (ix1 p)).toInt :=
  (scatter1_max_facts d h1 h2 h3 h4 x0 idx upd seg hseg p).1

end SegmentMax

end Cert.Lib.HostReads
-- ==== Proof.Spec.lean ====
/-
  The common answer of the two programs, as mathematics. n points; point i has a voxel key `key i ≤ S` (S: out of
  range). A point is chosen when its key is below S and it is the last point of its voxel. `total` counts the chosen
  points, i.e. the occupied voxels; `order` lists the points by a stable sort on the key of chosen points and S+1 for the
  others, so the chosen points come first, by increasing voxel. A voxel key below S decodes to the four coordinates
  (batch, z, y, x) over a 352 × 400 × 1 grid.
-/
import proofs.«129221_j18588618457298_2_alg».proof.Proof.LibDedup
import proofs.«129221_j18588618457298_2_alg».proof.Proof.LibVoxelKey
import proofs.«129221_j18588618457298_2_alg».proof.Proof.LibHostReads

noncomputable section

namespace Cert.Spec

open Idealize.ShloMosaic Cert.Lib.Dedup Cert.Lib.StableOrder

/-- The number of points. -/
abbrev n : ℕ := 4000000
/-- The number of voxels: the key of a point out of range. -/
abbrev S : ℕ := 1126400

/-- How many points are chosen: the number of occupied voxels. -/
def total (key : Fin n → ℕ) : ℕ := by classical exact (Finset.univ.filter fun i : Fin n => chosen key S i).card

/-- The points in emission order. -/
def order (key : Fin n → ℕ) : Fin n → Fin n := sortedFrom (fun k k' => decide (key2 key S k < key2 key S k'))

theorem order_bijective (key : Fin n → ℕ) : Function.Bijective (order key) := sortedFrom_bijective _

theorem order_lexSorted (key : Fin n → ℕ) : LexSorted (key2 key S) (order key) :=
  sortedFrom_lexSorted _ _ (fun _ _ => decide_eq_true_iff)

/-- The coordinates (batch, z, y, x) of voxel key k. -/
def dec (k : ℕ) (c : Fin 4) : BitVec 32 :=
  match c with
  | ⟨0, _⟩ => BitVec.ofNat 32 (k / 352 / 400 / 1)
  | ⟨1, _⟩ => BitVec.ofNat 32 (k / 352 / 400 % 1)
  | ⟨2, _⟩ => BitVec.ofNat 32 (k / 352 % 400)
  | ⟨3, _⟩ => BitVec.ofNat 32 (k % 352)

end Cert.Spec

end
-- ==== Proof.KeySpec.lean ====
/-
  The voxel key of a point, as mathematics on the extended reals. A point (x, y, z, ·) is quantised to the cell
  (⌊(x − 0) / 0.2⌉₀, ⌊(y + 40) / 0.2⌉₀, ⌊(z + 3) / 4⌉₀) — the quotients are exact on the extended reals, the constants the f32
  literals both programs write, the conversion to a 32-bit integer the model's (toward zero, clamped). The point is in
  the grid when the three cells are below 352, 400 and 1 as unsigned words (which is 0 ≤ · < the bound as signed words);
  its key is then batch · 140800 + cell_y · 352 + cell_x, where the batch of point i is i / 500000, and S otherwise.
-/
import proofs.«129221_j18588618457298_2_alg».proof.Proof.Spec

noncomputable section

namespace Cert.KeySpec

open Idealize.ShloMosaic Idealize.ShloMosaic.ValueIdx Cert.Spec

def cellX (x : EReal) : BitVec 32 :=
  Ideal.fptosi 32 (Ideal.div (x - Ideal.ofBits .f32 0x00000000#32) (Ideal.ofBits .f32 0x3E4CCCCD#32))
def cellY (y : EReal) : BitVec 32 :=
  Ideal.fptosi 32 (Ideal.div (y - Ideal.ofBits .f32 0xC2200000#32) (Ideal.ofBits .f32 0x3E4CCCCD#32))
def cellZ (z : EReal) : BitVec 32 :=
  Ideal.fptosi 32 (Ideal.div (z - Ideal.ofBits .f32 0xC0400000#32) (Ideal.ofBits .f32 0x40800000#32))

/-- The three cells are inside the 352 × 400 × 1 grid. -/
def inGrid (a b c : BitVec 32) : Prop := a.toNat < 352 ∧ b.toNat < 400 ∧ c.toNat < 1

instance (a b c : BitVec 32) : Decidable (inGrid a b c) := by unfold inGrid; infer_instance

/-- The voxel key of point `i` of the 4000000 × 4 point table. -/
def keyOf (pts : FVec Ideal ⟨2, ![n, 4]⟩ .f32) (i : Fin n) : ℕ :=
  if inGrid (cellX (pts (ix2 i 0))) (cellY (pts (ix2 i 1))) (cellZ (pts (ix2 i 2))) then
    i.val / 500000 * 140800 + (cellY (pts (ix2 i 1))).toNat * 352 + (cellX (pts (ix2 i 0))).toNat
  else S

theorem keyOf_le (pts : FVec Ideal ⟨2, ![n, 4]⟩ .f32) (i : Fin n) : keyOf pts i ≤ S := by
  unfold keyOf
  split
  · rename_i h
    obtain ⟨h1, h2, -⟩ := h
    have hi : i.val / 500000 < 8 := by have hlt : i.val < 4000000 := i.isLt; omega
    exact le_of_lt (Cert.Lib.VoxelKey.key_lt (i.val / 500000) _ _ hi h2 h1)
  · exact le_refl _

theorem keyOf_lt_iff (pts : FVec Ideal ⟨2, ![n, 4]⟩ .f32) (i : Fin n) :
    keyOf pts i < S ↔ inGrid (cellX (pts (ix2 i 0))) (cellY (pts (ix2 i 1))) (cellZ (pts (ix2 i 2))) := by
  unfold keyOf
  split
  · rename_i h
    refine ⟨fun _ => h, fun _ => ?_⟩
    obtain ⟨h1, h2, -⟩ := h
    have hi : i.val / 500000 < 8 := by have hlt : i.val < 4000000 := i.isLt; omega
    exact Cert.Lib.VoxelKey.key_lt (i.val / 500000) _ _ hi h2 h1
  · rename_i h
    exact ⟨fun hlt => absurd hlt (lt_irrefl _), fun hg => absurd hg h⟩

end Cert.KeySpec

end
-- ==== Proof.KernelKeyWord.lean ====
/-
  The kernel body's arithmetic at one lane, as one function of words: from the three coordinates of a point (extended
  reals) and its row number — grid point × 160000 + lane — the cells, the in-grid test (six signed comparisons), the batch
  row / 500000 (a truncated division with the floor correction, which never fires for a non-negative row), and the key
  batch · 140800 + (cell z · 140800 + cell y · 352 + cell x), or S when the point is outside the grid. It equals the
  specification's key of that row.
-/
import proofs.«129221_j18588618457298_2_alg».proof.Proof.KeySpec

noncomputable section

namespace Cert.KernelKeyWord

open Idealize.ShloMosaic Cert.Spec Cert.KeySpec Cert.Lib.VoxelKey

/-- The key the body stores at one lane: `a0` the grid coordinate as a word, `iy` the lane number as a word. -/
def keyWord (a0 iy : BitVec 32) (px py pz : EReal) : BitVec 32 :=
  let cx := cellX px
  let cy := cellY py
  let cz := cellZ pz
  let kept := IntOp.andi (IntOp.andi (IntOp.andi (IntOp.andi (IntOp.andi (IntOp.cmpi .sge cx 0#32) (IntOp.cmpi .slt cx 352#32))
    (IntOp.cmpi .sge cy 0#32)) (IntOp.cmpi .slt cy 400#32)) (IntOp.cmpi .sge cz 0#32)) (IntOp.cmpi .slt cz 1#32)
  let row := IntOp.addi (Scalar.muli a0 160000#32) iy
  let q := IntOp.divsi .vector row 500000#32
  let sr := IntOp.subi (BitVec.setWidth 32 (IntOp.cmpi .sgt row 0#32)) (BitVec.setWidth 32 (IntOp.cmpi .slt row 0#32))
  let sd := Scalar.subi (Scalar.extui (Scalar.cmpi .sgt 500000#32 0#32)) (Scalar.extui (Scalar.cmpi .slt 500000#32 0#32))
  let fix := IntOp.andi (IntOp.cmpi .ne sr sd) (IntOp.cmpi .ne (IntOp.remsi .vector row 500000#32) 0#32)
  let bs := Scalar.select fix (IntOp.subi q 1#32) q
  Scalar.select kept (IntOp.addi (IntOp.muli bs 140800#32)
    (IntOp.addi (IntOp.addi (IntOp.muli cz 140800#32) (IntOp.muli cy 352#32)) cx)) 1126400#32

/-! ## The truncated division of non-negative words, on any unit -/

theorem divsi_ofNat_unit (u : ArithUnit) (k D : ℕ) (hk : k < 2 ^ 31) (hD : 0 < D) (hD' : D < 2 ^ 31) :
    IntOp.divsi u (BitVec.ofNat 32 k) (BitVec.ofNat 32 D) = BitVec.ofNat 32 (k / D) := by
  unfold IntOp.divsi
  rw [if_neg (not_sdivCorner k D hD hD'), sdiv_ofNat k D hk hD']

theorem remsi_ofNat_unit (u : ArithUnit) (k D : ℕ) (hk : k < 2 ^ 31) (hD : 0 < D) (hD' : D < 2 ^ 31) :
    IntOp.remsi u (BitVec.ofNat 32 k) (BitVec.ofNat 32 D) = BitVec.ofNat 32 (k % D) := by
  unfold IntOp.remsi
  rw [if_neg (not_sdivCorner k D hD hD'), srem_ofNat k D hk hD']

/-- The six comparisons say the three cells are in the grid. -/
theorem kept_iff (cx cy cz : BitVec 32) :
    IntOp.andi (IntOp.andi (IntOp.andi (IntOp.andi (IntOp.andi (IntOp.cmpi .sge cx 0#32) (IntOp.cmpi .slt cx 352#32))
      (IntOp.cmpi .sge cy 0#32)) (IntOp.cmpi .slt cy 400#32)) (IntOp.cmpi .sge cz 0#32)) (IntOp.cmpi .slt cz 1#32) = 1#1
      ↔ inGrid cx cy cz := by
  simp only [andi_eq_one_iff]
  unfold inGrid
  rw [← inRange_iff cx 352 (by norm_num), ← inRange_iff cy 400 (by norm_num), ← inRange_iff cz 1 (by norm_num)]
  tauto

/-- The floor correction never fires for a non-negative row: the batch is the quotient. -/
theorem batch_eq (r : ℕ) (hr : r < 2 ^ 31) :
    Scalar.select
      (IntOp.andi
        (IntOp.cmpi .ne
          (IntOp.subi (BitVec.setWidth 32 (IntOp.cmpi .sgt (BitVec.ofNat 32 r) 0#32))
            (BitVec.setWidth 32 (IntOp.cmpi .slt (BitVec.ofNat 32 r) 0#32)))
          (Scalar.subi (Scalar.extui (Scalar.cmpi .sgt 500000#32 0#32)) (Scalar.extui (Scalar.cmpi .slt 500000#32 0#32))))
        (IntOp.cmpi .ne (IntOp.remsi .vector (BitVec.ofNat 32 r) 500000#32) 0#32))
      (IntOp.subi (IntOp.divsi .vector (BitVec.ofNat 32 r) 500000#32) 1#32)
      (IntOp.divsi .vector (BitVec.ofNat 32 r) 500000#32)
      = BitVec.ofNat 32 (r / 500000) := by
  rw [divsi_ofNat_unit .vector r 500000 hr (by norm_num) (by norm_num),
    remsi_ofNat_unit .vector r 500000 hr (by norm_num) (by norm_num)]
  refine select_of_ne_one (fun h => ?_) _ _
  obtain ⟨h1, h2⟩ := (andi_eq_one_iff _ _).mp h
  rw [cmpi_ne_eq_one_iff] at h1 h2
  rcases Nat.eq_zero_or_pos r with h0 | h0
  · apply h2
    rw [h0, Nat.zero_mod]
  · apply h1
    have e1 : IntOp.cmpi .sgt (BitVec.ofNat 32 r) 0#32 = 1#1 := by
      show BitVec.ofBool ((BitVec.ofNat 32 0).slt (BitVec.ofNat 32 r)) = 1#1
      rw [slt_ofNat 0 r (by norm_num) hr, ofBool_eq_one_iff, decide_eq_true_iff]
      exact h0
    rw [e1, cmpi_slt_zero_ofNat r hr]
    decide

/-- For grid point `i0 < 25` and lane `y < 160000` the stored word is the specification's key of row `i0 · 160000 + y`. -/
theorem keyWord_eq (i0 y : ℕ) (hi0 : i0 < 25) (hy : y < 160000) (px py pz : EReal) :
    keyWord (BitVec.ofNat 32 i0) (BitVec.ofNat 32 (0 * 160000 + y)) px py pz
      = BitVec.ofNat 32 (if inGrid (cellX px) (cellY py) (cellZ pz) then
          (i0 * 160000 + y) / 500000 * 140800 + (cellY py).toNat * 352 + (cellX px).toNat else 1126400) := by
  have hr : i0 * 160000 + y < 2 ^ 31 := by omega
  have hb : (i0 * 160000 + y) / 500000 < 8 := by omega
  have hrow : IntOp.addi (Scalar.muli (BitVec.ofNat 32 i0) 160000#32) (BitVec.ofNat 32 (0 * 160000 + y))
      = BitVec.ofNat 32 (i0 * 160000 + y) := by
    show BitVec.ofNat 32 i0 * BitVec.ofNat 32 160000 + BitVec.ofNat 32 (0 * 160000 + y) = _
    rw [BitVec.ofNat_mul_ofNat, BitVec.ofNat_add_ofNat]
    exact congrArg (BitVec.ofNat 32) (by omega)
  unfold keyWord
  dsimp only
  rw [hrow, batch_eq _ hr]
  generalize cellX px = cx
  generalize cellY py = cy
  generalize cellZ pz = cz
  by_cases hg : inGrid cx cy cz
  · rw [select_of_eq_one ((kept_iff cx cy cz).mpr hg), if_pos hg]
    obtain ⟨h1, h2, h3⟩ := hg
    have hz : cz = 0#32 := BitVec.eq_of_toNat_eq (by rw [BitVec.toNat_zero]; omega)
    obtain ⟨a, ha, rfl⟩ : ∃ a, a < 352 ∧ cx = BitVec.ofNat 32 a :=
      ⟨cx.toNat, h1, by rw [BitVec.ofNat_toNat, BitVec.setWidth_eq]⟩
    obtain ⟨b, hb', rfl⟩ : ∃ b, b < 400 ∧ cy = BitVec.ofNat 32 b :=
      ⟨cy.toNat, h2, by rw [BitVec.ofNat_toNat, BitVec.setWidth_eq]⟩
    rw [hz, toNat_ofNat_of_lt a (by omega), toNat_ofNat_of_lt b (by omega)]
    exact key_ofNat _ b a hb hb' ha
  · rw [select_of_ne_one (fun h => hg ((kept_iff cx cy cz).mp h)), if_neg hg]

end Cert.KernelKeyWord

end
-- ==== Proof.KernelIdealValue.lean ====
/-
  What the region leaves in the key row. The region's input array is the point table transposed (4 × 4000000); grid
  point t is handed columns 160000·t … 160000·t + 159999 of it and writes the same columns of the 1 × 4000000 key row.
  At lane y of point t the body's word is the specification's key of point 160000·t + y (the one-lane lemma). The 25
  blocks tile the row, so after the run the row holds, at every column i, the key of point i of the point table.
-/
import proofs.«129221_j18588618457298_2_alg».proof.Proof.KernelIdealBody
import proofs.«129221_j18588618457298_2_alg».proof.Proof.KernelKeyWord
import Idealize.ShloMosaic.Lib.Pipeline.Value
import Idealize.ShloMosaic.Lib.ValueIdx
import Idealize.ShloMosaic.Lib.ValueLayout

set_option maxRecDepth 16384

noncomputable section

namespace Cert.KernelIdeal.Value

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Host Cert.KernelIdeal.Body
open Cert.Spec Cert.KeySpec Cert.KernelKeyWord

variable (m : (ℓ : Loc nD τ sig) → Buf (Elt Ideal) ℓ)

/-- The point table (4000000 × 4) as the region's program finds it. -/
abbrev pts (c : Dev nD) : FVec Ideal ⟨2, ![n, 4]⟩ .f32 := V m c main_v0

/-- The region's input array is the point table transposed. -/
theorem V_v1_apply (c : Dev nD) (ch : Fin 4) (i : Fin n) : V m c main_v1 (ix2 ch i) = pts m c (ix2 i ch) := by
  have e : (V m c main_v1 : S4x4000000.Idx → EReal)
      = transpose S4x4000000 [1, 0] (V m c main_v0) transposes_S4000000x4_S4x4000000_1_0 := by
    show StableHlo.after hostOps0 (fun b => m (c, b)) (Proc.devRef .tc main_v1) = _
    after_results
    rfl
  rw [e]
  exact transpose_ix2_apply _ _ ch i

theorem hz : (![0, 0] : Fin 2 → Nat) = fun _ => 0 := funext fun a => by fin_cases a <;> rfl

/-- The printed index maps over the grid: both windows move along axis 1 with the point, and the point's coordinate is
    the point's number. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val ∧ ((grid0.coords t) 0).val = t.val :=
  (by decide +kernel : ∀ t : Fin grid0.N, _)

/-- The key row: column i holds the key of point i. -/
def keyRow (c : Dev nD) : S1x4000000.Idx → BitVec 32 :=
  fun i => BitVec.ofNat 32 (keyOf (pts m c) ⟨(i 1).val, idx2_lt1 i⟩)

/-- The body's row at one lane is the one-lane word of the lane's three coordinates. -/
theorem keyBlock_apply (i : grid0.Coords) (x0 : Vec Ideal S4x160000 .f32) (y : Fin 160000) :
    keyBlock i x0 (ix2 0 y) = keyWord (BitVec.ofNat 32 (i 0).val) (BitVec.ofNat 32 (0 * 160000 + y.val))
      (x0 (ix2 0 y)) (x0 (ix2 1 y)) (x0 (ix2 2 y)) := by
  unfold keyBlock
  rw [View.ld_unit_zero (S := S4x160000) hz]
  have s0 : extractStridedSlice S1x160000 ![0, 0] x0 slices_S4x160000_o0_0_S1x160000 (ix2 0 y) = x0 (ix2 0 y) :=
    Idealize.ShloMosaic.extractStridedSlice_apply _ _ _ _ _ fun a => by match a with | ⟨0, _⟩ => rfl | ⟨1, _⟩ => simp
  have s1 : extractStridedSlice S1x160000 ![1, 0] x0 slices_S4x160000_o1_0_S1x160000 (ix2 0 y) = x0 (ix2 1 y) :=
    Idealize.ShloMosaic.extractStridedSlice_apply _ _ _ _ _ fun a => by match a with | ⟨0, _⟩ => rfl | ⟨1, _⟩ => simp
  have s2 : extractStridedSlice S1x160000 ![2, 0] x0 slices_S4x160000_o2_0_S1x160000 (ix2 0 y) = x0 (ix2 2 y) :=
    Idealize.ShloMosaic.extractStridedSlice_apply _ _ _ _ _ fun a => by match a with | ⟨0, _⟩ => rfl | ⟨1, _⟩ => simp
  simp only [k0_pay1, k0_pay2, k0_pay3, k0_pay4, k0_pay5, k0_pay6, k0_pay7, k0_pay8, Idealize.ShloMosaic.shapeCast_self]
  unfold keyWord cellX cellY cellZ
  rw [← s0, ← s1, ← s2]
  rfl

theorem N25 : cfg0.N = 25 := N_0

/-- Block t of the transposed table at (channel, lane y) is the point table at point 160000·t + y. -/
theorem iblk_apply (c : Dev nD) (t : Fin cfg0.N) (ht : t.val < 25) (ch : Fin 4) (y : Fin 160000) :
    iblk m c 0 t (ix2 ch y) = pts m c (ix2 ⟨t.val * 160000 + y.val, by have := y.isLt; show _ < 4000000; omega⟩ ch) := by
  obtain ⟨e0, e1, -, -, -⟩ := idx_facts t
  show V m c main_v1 (((cfg0.win 0).blk t).view.emb (ix2 ch y)) = _
  have h : ((cfg0.win 0).blk t).view.emb (ix2 ch y)
      = ix2 ch ⟨t.val * 160000 + y.val, by have := y.isLt; omega⟩ := by
    funext a; apply Fin.ext
    match a with
    | ⟨0, _⟩ => show win0_0.index t (0 : Fin 2) * 4 + 1 * ch.val = ch.val; omega
    | ⟨1, _⟩ => show win0_0.index t (1 : Fin 2) * 160000 + 1 * y.val = t.val * 160000 + y.val; omega
  rw [h]
  exact V_v1_apply m c ch _

/-- What point t writes back is block t of the key row. -/
theorem flushed_eq (c : Dev nD) (t : Fin cfg0.N) :
    (dats m 0 c).flushed 1 t = ((cfg0.win 1).blk t).view.read (Elt Ideal) (keyRow m c) := by
  obtain ⟨-, -, e2, e3, e4⟩ := idx_facts t
  have ht : t.val < 25 := by have h1 := t.isLt; have h2 := N25; omega
  show (cfg0.win 1).cut (grid0.coords t) ((dats m 0 c).after 1 t) = _
  rw [after_out]
  unfold outRow
  rw [View.canon_unit_zero hz]
  funext j
  obtain ⟨z, y, rfl⟩ : ∃ (z : Fin 1) (y : Fin 160000), j = ix2 z y := ⟨j 0, j 1, eq_ix2 j⟩
  obtain rfl : z = 0 := Subsingleton.elim _ _
  show keyBlock (grid0.coords t) (iblk m c 0 t) (ix2 0 y) = keyRow m c (((cfg0.win 1).blk t).view.emb (ix2 0 y))
  have h : ((cfg0.win 1).blk t).view.emb (ix2 0 y)
      = ix2 0 ⟨t.val * 160000 + y.val, by have := y.isLt; omega⟩ := by
    funext a; apply Fin.ext
    match a with
    | ⟨0, _⟩ => show win0_1.index t (0 : Fin 2) * 1 + 1 * 0 = 0; omega
    | ⟨1, _⟩ => show win0_1.index t (1 : Fin 2) * 160000 + 1 * y.val = t.val * 160000 + y.val; omega
  rw [h, keyBlock_apply, iblk_apply m c t ht, iblk_apply m c t ht, iblk_apply m c t ht, e4, keyWord_eq t.val y.val ht y.isLt]
  rfl

/-- An index of the row is in point t's block iff each coordinate is in the block's range. -/
theorem mem_blk (t : Fin cfg0.N) (i : S1x4000000.Idx) :
    i ∈ ((cfg0.win 1).blk t).view.set ↔ ∀ a : Fin 2, win0_1.index t a * S1x160000.size a ≤ (i a).val
      ∧ (i a).val < win0_1.index t a * S1x160000.size a + S1x160000.size a := by
  show i ∈ ((View.whole main_v2).slice (win0_1.rect t)).set ↔ _
  rw [View.set_slice_whole, Rect.mem_set_unit]
  exact Iff.rfl

/-- Every column is in the block of the point its number divided by 160000 names. -/
theorem cover (i : S1x4000000.Idx) :
    ∃ t : Fin cfg0.N, (cfg0.win 1).flush t = true ∧ i ∈ ((cfg0.win 1).blk t).view.set := by
  have hi0 : (i 0).val < 1 := (i 0).isLt
  have hi1 : (i 1).val < 4000000 := (i 1).isLt
  have hq : (i 1).val / 160000 < cfg0.N := by rw [N25]; omega
  obtain ⟨-, -, e2, e3, -⟩ := idx_facts ⟨(i 1).val / 160000, hq⟩
  refine ⟨⟨(i 1).val / 160000, hq⟩, flush0_1 _, ?_⟩
  rw [mem_blk]
  intro a
  match a with
  | ⟨0, _⟩ =>
    show win0_1.index ⟨(i 1).val / 160000, hq⟩ (0 : Fin 2) * 1 ≤ (i 0).val
      ∧ (i 0).val < win0_1.index ⟨(i 1).val / 160000, hq⟩ (0 : Fin 2) * 1 + 1
    omega
  | ⟨1, _⟩ =>
    show win0_1.index ⟨(i 1).val / 160000, hq⟩ (1 : Fin 2) * 160000 ≤ (i 1).val
      ∧ (i 1).val < win0_1.index ⟨(i 1).val / 160000, hq⟩ (1 : Fin 2) * 160000 + 160000
    have e3' : win0_1.index ⟨(i 1).val / 160000, hq⟩ (1 : Fin 2) = (i 1).val / 160000 := e3
    omega

/-- After the run the key row holds, at every column, the key of that point. -/
theorem final (c : Dev nD) : (dats m 0 c).arrAt 1 cfg0.N = keyRow m c :=
  (dats m 0 c).arrAt_eq_of_cover 1 (keyRow m c) (fun t _ => flushed_eq m c t) cover

end Cert.KernelIdeal.Value

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibSingleAssignmentNary.lean ====
/-
  SINGLE ASSIGNMENT, the operation over a family of operands (a concatenation): in a straight line in which every
  buffer is written once and nothing is read before it is written, the result buffer of an operation over the
  operands `xs 0, …, xs (k-1)` holds, at the end, the operation's function of the FINAL contents of those operands —
  none of them is written again, and neither is the result. Same shape as the one-, two- and three-operand statements
  it sits beside; the side conditions are memberships in literal lists of references. Program-free.
-/
import proofs.«129221_j18588618457298_2_alg».proof.Proof.LibSingleAssignment

namespace Cert.Lib.SingleAssignment

open Idealize.ShloMosaic Idealize.ShloMosaic.StableHlo

variable {τ : Topo} {sig : RefSig} {Val : EltTy → Type}

section Read

variable {l t : List (HloOp τ sig Val)} {Wl Wt : List (Ref sig .tc)}

/-- An operation over a family of operands: its buffer holds its function of the operands' final contents. -/
theorem read_nary (hl : Writes l Wl) (ht : Writes t Wt) (n : Nat) {k : Nat} {xs : Fin k → Ref sig .tc} {y : Ref sig .tc}
    {f : ((i : Fin k) → (xs i).ty.Contents Val) → y.ty.Contents Val} {hxs hy}
    (hop : l[n]? = some (nary (τ := τ) xs y f hxs hy)) (nxs : ∀ i, xs i ∉ Wl.drop n ++ Wt)
    (ny : y ∉ Wl.drop (n + 1) ++ Wt) (U : Valuation τ sig Val) :
    after t (after l U) (Proc.devRef .tc y) = f (fun i => after t (after l U) (Proc.devRef .tc (xs i))) := by
  rw [final_of_at hl ht n hop ny, nary_result]
  refine congrArg f ?_
  funext i
  exact (final_of_before hl ht n (nxs i) U).symm

end Read

/-- The whole line read at its end: nothing follows it. -/
theorem Writes.nil : Writes ([] : List (HloOp τ sig Val)) [] := List.Forall₂.nil

end Cert.Lib.SingleAssignment
-- ==== Proof.LibRefCasts.lean ====
/-
  A typed reference made from a literal buffer whose type is, by computation, the value's own type carries contents
  to the buffer's type and back along an equation between a type and itself: the contents are unchanged, in either
  direction. Nothing here mentions a program.
-/
import Idealize.ShloMosaic.Lib.StableHlo

namespace Cert.Lib.RefCasts

open Idealize.ShloMosaic Idealize.ShloMosaic.StableHlo

variable {sig : RefSig} {Val : EltTy → Type}

/-- Contents carried to the type of the buffer they are already typed at are unchanged. -/
theorem toBuf_self (r : Ref sig .tc) (h1 : r.ty = r.ty) (h2 : r.space ≠ .host) (h3 : r.isScoped = false)
    (v : r.ty.Contents Val) : (TRef.of r h1 h2 h3).toBuf v = v := rfl

/-- Contents carried back from the type of the buffer they are already typed at are unchanged. -/
theorem ofBuf_self (r : Ref sig .tc) (h1 : r.ty = r.ty) (h2 : r.space ≠ .host) (h3 : r.isScoped = false)
    (v : r.ty.Contents Val) : (TRef.of r h1 h2 h3).ofBuf v = v := rfl

end Cert.Lib.RefCasts
-- ==== Proof.KernelIdealStages.lean ====
/-
  The 203 host operations after KernelIdeal's region, read back one at a time: every buffer is written once and nothing
  is read before it is written, so at the end each operation's result buffer holds that operation's function of the
  final contents of its operands. One equation per operation, over any starting contents.
-/
import proofs.«129221_j18588618457298_2_alg».proof.Proof.KernelIdealHost
import proofs.«129221_j18588618457298_2_alg».proof.Proof.LibSingleAssignmentNary
import proofs.«129221_j18588618457298_2_alg».proof.Proof.LibRefCasts

set_option maxRecDepth 16384

noncomputable section

namespace Cert.KernelIdeal.Stages

open Idealize.ShloMosaic Idealize.ShloMosaic.TcCoe Idealize.SL.Sem Idealize.ShloMosaic.StableHlo
open Cert.Lib.SingleAssignment
open Cert.KernelIdeal Cert.KernelIdeal.Gen Cert.KernelIdeal.Host

variable {F : FTy → Type} [FloatOps F]

/-- The operations, in order, as one line. -/
abbrev line : List (HloOp τ sig (Elt F)) := (tail (F := F)).flatten

/-- The buffer each operation writes, in order: every buffer once. -/
abbrev W : List (Ref sig .tc) :=
  [main_v3, main_v4, main_v5_0, main_v5_1, main_v6, main_v7, main_v8, main_c_0, main_v9, main_v10, main_v11, main_v12, main_call0_call0_c, main_call0_call0_v0, main_v13, main_c_1, main_v14, main_v15, main_call1_call0_c, main_call1_call0_v0, main_v16, main_v17, main_v18, main_c_2, main_v19, main_v20, main_v21, main_v22, main_c_3, main_v23, main_v24, main_v25, main_c_4, main_v26, main_c_5, main_v27, main_v28, main_c_6, main_v29, main_v30, main_v31, main_v32, main_v33, main_c_7, main_v34, main_c_8, main_v35, main_v36, main_c_9, main_v37, main_v38, main_v39, main_v40, main_v41, main_v42, main_v43, main_v44, main_c_10, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v45, main_c_11, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v46, main_c_12, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v47, main_c_13, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v48, main_c_14, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v49, main_c_15, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v50, main_v51, main_v52, main_v53, main_v54, main_v55, main_v56, main_c_16, main_v57, main_v58, main_c_17, main_v59, main_v60, main_v61, main_v62, main_v63, main_cst, main_call9_v0, main_call9_v1, main_call9_v2, main_v64, main_v65, main_c_18, main_call10_v0, main_call10_v1, main_call10_v2, main_v66]

theorem writes : Writes (line (F := F)) W := by
  repeat' (first | exact List.Forall₂.nil | refine List.Forall₂.cons rfl ?_)

/-- A reference whose index number is not among a list's index numbers is not in the list. -/
theorem not_mem_of_idx {x : Ref sig .tc} {L : List (Ref sig .tc)} (h : x.idx.val ∉ L.map (fun r => r.idx.val)) : x ∉ L :=
  fun hm => h (List.mem_map.mpr ⟨x, hm, rfl⟩)

variable (U : Valuation τ sig (Elt F))

/-- What buffer `b` holds at the end of the line run from contents `U`. -/
abbrev Vf (b : Ref sig .tc) : b.ty.Contents (Elt F) := after ([] : List (HloOp τ sig (Elt F))) (after (line (F := F)) U) (Proc.devRef .tc b)

/-- Nothing follows the line: this is the line's own end. -/
theorem Vf_eq (b : Ref sig .tc) : Vf U b = after (line (F := F)) U (Proc.devRef .tc b) :=
  congrFun (StableHlo.after_nil (after (line (F := F)) U)) (Proc.devRef .tc b)

/-- A buffer the line does not write holds at the end what it held at the start. -/
theorem kept {b : Ref sig .tc} (hb : b ∉ W) : Vf U b = U (Proc.devRef .tc b) := (Vf_eq U b).trans (after_of_not_mem (writes (F := F)) hb U)

end Cert.KernelIdeal.Stages

end
-- ==== Proof.KernelIdealStages1.lean ====
/-
  Stage equations, part 1 of 4: one equation per host operation (see the base module for the scheme).
-/
import proofs.«129221_j18588618457298_2_alg».proof.Proof.KernelIdealStages

set_option maxRecDepth 16384

noncomputable section

namespace Cert.KernelIdeal.Stages

open Idealize.ShloMosaic Idealize.ShloMosaic.TcCoe Idealize.SL.Sem Idealize.ShloMosaic.StableHlo
open Cert.Lib.SingleAssignment
open Cert.KernelIdeal Cert.KernelIdeal.Gen Cert.KernelIdeal.Host

variable {F : FTy → Type} [FloatOps F]

variable (U : Valuation τ sig (Elt F))

theorem st_main_v3 : Vf U main_v3 = fun i => shapeCast _ (Vf U main_v2) shapeCasts_S1x4000000_S4000000 i :=
  read_reshape (writes (F := F)) Writes.nil 0 rfl (not_mem_of_idx (by decide +kernel)) (not_mem_of_idx (by decide +kernel)) U
theorem st_main_v4 : Vf U main_v4 = (iotaInDim S4000000 32 0) :=
  read_nullary (writes (F := F)) Writes.nil 1 rfl (not_mem_of_idx (by decide +kernel)) U
theorem st_main_v5_0 : Vf U main_v5_0 = ((fun x y => (Host.sort2 S4000000 0 comparator_i32_i32_d0 x y).1) : (⟨S4000000, .i32⟩ : BufTy).Contents (Elt F) → (⟨S4000000, .i32⟩ : BufTy).Contents (Elt F) → (⟨S4000000, .i32⟩ : BufTy).Contents (Elt F)) (Vf U main_v3) (Vf U main_v4) :=
  read_binary (writes (F := F)) Writes.nil 2 rfl (not_mem_of_idx (by decide +kernel)) (not_mem_of_idx (by decide +kernel)) (not_mem_of_idx (by decide +kernel)) U
theorem st_main_v5_1 : Vf U main_v5_1 = ((fun x y => (Host.sort2 S4000000 0 comparator_i32_i32_d0 x y).2) : (⟨S4000000, .i32⟩ : BufTy).Contents (Elt F) → (⟨S4000000, .i32⟩ : BufTy).Contents (Elt F) → (⟨S4000000, .i32⟩ : BufTy).Contents (Elt F)) (Vf U main_v3) (Vf U main_v4) :=
  read_binary (writes (F := F)) Writes.nil 3 rfl (not_mem_of_idx (by decide +kernel)) (not_mem_of_idx (by decide +kernel)) (not_mem_of_idx (by decide +kernel)) U
theorem st_main_v6 : Vf U main_v6 = ((extractStridedSlice S3999999 ![1] · slices_S4000000_S3999999_1) : (⟨S4000000, .i32⟩ : BufTy).Contents (Elt F) → (⟨S3999999, .i32⟩ : BufTy).Contents (Elt F)) (Vf U main_v5_0) :=
  read_unary (writes (F := F)) Writes.nil 4 rfl (not_mem_of_idx (by decide +kernel)) (not_mem_of_idx (by decide +kernel)) U
theorem st_main_v7 : Vf U main_v7 = ((fun a b => concatenate S4000000 0 [⟨S3999999, a⟩, ⟨S1, b⟩] concatenates_S3999999_S1_S4000000_d0) : (⟨S3999999, .i32⟩ : BufTy).Contents (Elt F) → (⟨S1, .i32⟩ : BufTy).Contents (Elt F) → (⟨S4000000, .i32⟩ : BufTy).Contents (Elt F)) (Vf U main_v6) (Vf U main_c) :=
  read_binary (writes (F := F)) Writes.nil 5 rfl (not_mem_of_idx (by decide +kernel)) (not_mem_of_idx (by decide +kernel)) (not_mem_of_idx (by decide +kernel)) U
theorem st_main_v8 : Vf U main_v8 = (cmpi .ne : (⟨S4000000, .i32⟩ : BufTy).Contents (Elt F) → (⟨S4000000, .i32⟩ : BufTy).Contents (Elt F) → (⟨S4000000, .i1⟩ : BufTy).Contents (Elt F)) (Vf U main_v5_0) (Vf U main_v7) :=
  read_binary (writes (F := F)) Writes.nil 6 rfl (not_mem_of_idx (by decide +kernel)) (not_mem_of_idx (by decide +kernel)) (not_mem_of_idx (by decide +kernel)) U
theorem st_main_c_0 : Vf U main_c_0 = (constantI S_ 32 1126400#32) :=
  read_nullary (writes (F := F)) Writes.nil 7 rfl (not_mem_of_idx (by decide +kernel)) U
theorem st_main_v9 : Vf U main_v9 = (broadcastInDim S4000000 ![] bcast_S_S4000000 : (⟨S_, .i32⟩ : BufTy).Contents (Elt F) → (⟨S4000000, .i32⟩ : BufTy).Contents (Elt F)) (Vf U main_c_0) :=
  read_unary (writes (F := F)) Writes.nil 8 rfl (not_mem_of_idx (by decide +kernel)) (not_mem_of_idx (by decide +kernel)) U
theorem st_main_v10 : Vf U main_v10 = (cmpi .slt : (⟨S4000000, .i32⟩ : BufTy).Contents (Elt F) → (⟨S4000000, .i32⟩ : BufTy).Contents (Elt F) → (⟨S4000000, .i1⟩ : BufTy).Contents (Elt F)) (Vf U main_v5_0) (Vf U main_v9) :=
  read_binary (writes (F := F)) Writes.nil 9 rfl (not_mem_of_idx (by decide +kernel)) (not_mem_of_idx (by decide +kernel)) (not_mem_of_idx (by decide +kernel)) U
theorem st_main_v11 : Vf U main_v11 = (andi : (⟨S4000000, .i1⟩ : BufTy).Contents (Elt F) → (⟨S4000000, .i1⟩ : BufTy).Contents (Elt F) → (⟨S4000000, .i1⟩ : BufTy).Contents (Elt F)) (Vf U main_v8) (Vf U main_v10) :=
  read_binary (writes (F := F)) Writes.nil 10 rfl (not_mem_of_idx (by decide +kernel)) (not_mem_of_idx (by decide +kernel)) (not_mem_of_idx (by decide +kernel)) U
theorem st_main_v12 : Vf U main_v12 = ((extui 32 · natLt_1_32) : (⟨S4000000, .i1⟩ : BufTy).Contents (Elt F) → (⟨S4000000, .i32⟩ : BufTy).Contents (Elt F)) (Vf U main_v11) :=
  read_unary (writes (F := F)) Writes.nil 11 rfl (not_mem_of_idx (by decide +kernel)) (not_mem_of_idx (by decide +kernel)) U
theorem st_main_call0_call0_c : Vf U main_call0_call0_c = (constantI S_ 32 0#32) := by
  have hpos : (line (F := F))[12]? = (hostOps1_1 (F := F))[0]? := rfl
  have hop : (hostOps1_1 (F := F))[0]? = some (StableHlo.TRef.nullary (τ := τ) (Val := Elt F) (.of main_call0_call0_c : StableHlo.TRef sig ⟨S_, .i32⟩) (constantI S_ 32 0#32)) := rfl
  have h1 := final_of_at (writes (F := F)) Writes.nil 12 (hpos.trans hop) (y := main_call0_call0_c) (not_mem_of_idx (by decide +kernel)) U

  unfold Vf
  rw [h1]
  generalize after (List.take 12 (line (F := F))) U = V
  refine (nullary_result _ _ _ V).trans ?_
  first | erw [Cert.Lib.RefCasts.toBuf_self]
theorem st_main_call0_call0_v0 : Vf U main_call0_call0_v0 = ((broadcastInDim S_ ![] bcast_S_S_) : (⟨S_, .i32⟩ : BufTy).Contents (Elt F) → (⟨S_, .i32⟩ : BufTy).Contents (Elt F)) (Vf U main_call0_call0_c) := by
  have hpos : (line (F := F))[13]? = (hostOps1_1 (F := F))[1]? := rfl
  have hop : (hostOps1_1 (F := F))[1]? = some (StableHlo.TRef.unary (τ := τ) (Val := Elt F) (.of main_call0_call0_c : StableHlo.TRef sig ⟨S_, .i32⟩) (.of main_call0_call0_v0 : StableHlo.TRef sig ⟨S_, .i32⟩) (broadcastInDim S_ ![] bcast_S_S_)) := rfl
  have h1 := final_of_at (writes (F := F)) Writes.nil 13 (hpos.trans hop) (y := main_call0_call0_v0) (not_mem_of_idx (by decide +kernel)) U
  have hb0 := final_of_before (writes (F := F)) Writes.nil 13 (a := main_call0_call0_c) (not_mem_of_idx (by decide +kernel)) U
  unfold Vf
  rw [h1, hb0]
  generalize after (List.take 13 (line (F := F))) U = V
  refine (unary_result _ _ _ _ _ V).trans ?_
  first | erw [Cert.Lib.RefCasts.toBuf_self, Cert.Lib.RefCasts.ofBuf_self] | erw [Cert.Lib.RefCasts.toBuf_self]
theorem st_main_v13 : Vf U main_v13 = ((fun x v => Host.reduceWindow IntOp.addi ![4000000] ![1] ![3999999] ![0] x v reduceWindows_S4000000_S4000000_w4000000s1p3999999_0 h_S_) : (⟨S4000000, .i32⟩ : BufTy).Contents (Elt F) → (⟨S_, .i32⟩ : BufTy).Contents (Elt F) → (⟨S4000000, .i32⟩ : BufTy).Contents (Elt F)) (Vf U main_v12) (Vf U main_call0_call0_v0) := by
  have hpos : (line (F := F))[14]? = (hostOps1_1 (F := F))[2]? := rfl
  have hop : (hostOps1_1 (F := F))[2]? = some (StableHlo.TRef.binary (τ := τ) (Val := Elt F) (.of main_v12 : StableHlo.TRef sig ⟨S4000000, .i32⟩) (.of main_call0_call0_v0 : StableHlo.TRef sig ⟨S_, .i32⟩) (.of main_v13 : StableHlo.TRef sig ⟨S4000000, .i32⟩) (fun x v => Host.reduceWindow IntOp.addi ![4000000] ![1] ![3999999] ![0] x v reduceWindows_S4000000_S4000000_w4000000s1p3999999_0 h_S_)) := rfl
  have h1 := final_of_at (writes (F := F)) Writes.nil 14 (hpos.trans hop) (y := main_v13) (not_mem_of_idx (by decide +kernel)) U
  have hb0 := final_of_before (writes (F := F)) Writes.nil 14 (a := main_v12) (not_mem_of_idx (by decide +kernel)) U
  have hb1 := final_of_before (writes (F := F)) Writes.nil 14 (a := main_call0_call0_v0) (not_mem_of_idx (by decide +kernel)) U
  unfold Vf
  rw [h1, hb0, hb1]
  generalize after (List.take 14 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_1 : Vf U main_c_1 = (constantI S_ 32 1#32) :=
  read_nullary (writes (F := F)) Writes.nil 15 rfl (not_mem_of_idx (by decide +kernel)) U
theorem st_main_v14 : Vf U main_v14 = (broadcastInDim S4000000 ![] bcast_S_S4000000 : (⟨S_, .i32⟩ : BufTy).Contents (Elt F) → (⟨S4000000, .i32⟩ : BufTy).Contents (Elt F)) (Vf U main_c_1) :=
  read_unary (writes (F := F)) Writes.nil 16 rfl (not_mem_of_idx (by decide +kernel)) (not_mem_of_idx (by decide +kernel)) U
theorem st_main_v15 : Vf U main_v15 = (subi : (⟨S4000000, .i32⟩ : BufTy).Contents (Elt F) → (⟨S4000000, .i32⟩ : BufTy).Contents (Elt F) → (⟨S4000000, .i32⟩ : BufTy).Contents (Elt F)) (Vf U main_v14) (Vf U main_v12) :=
  read_binary (writes (F := F)) Writes.nil 17 rfl (not_mem_of_idx (by decide +kernel)) (not_mem_of_idx (by decide +kernel)) (not_mem_of_idx (by decide +kernel)) U
theorem st_main_call1_call0_c : Vf U main_call1_call0_c = (constantI S_ 32 0#32) := by
  have hpos : (line (F := F))[18]? = (hostOps1_3 (F := F))[0]? := rfl
  have hop : (hostOps1_3 (F := F))[0]? = some (StableHlo.TRef.nullary (τ := τ) (Val := Elt F) (.of main_call1_call0_c : StableHlo.TRef sig ⟨S_, .i32⟩) (constantI S_ 32 0#32)) := rfl
  have h1 := final_of_at (writes (F := F)) Writes.nil 18 (hpos.trans hop) (y := main_call1_call0_c) (not_mem_of_idx (by decide +kernel)) U

  unfold Vf
  rw [h1]
  generalize after (List.take 18 (line (F := F))) U = V
  refine (nullary_result _ _ _ V).trans ?_
  first | erw [Cert.Lib.RefCasts.toBuf_self]
theorem st_main_call1_call0_v0 : Vf U main_call1_call0_v0 = ((broadcastInDim S_ ![] bcast_S_S_) : (⟨S_, .i32⟩ : BufTy).Contents (Elt F) → (⟨S_, .i32⟩ : BufTy).Contents (Elt F)) (Vf U main_call1_call0_c) := by
  have hpos : (line (F := F))[19]? = (hostOps1_3 (F := F))[1]? := rfl
  have hop : (hostOps1_3 (F := F))[1]? = some (StableHlo.TRef.unary (τ := τ) (Val := Elt F) (.of main_call1_call0_c : StableHlo.TRef sig ⟨S_, .i32⟩) (.of main_call1_call0_v0 : StableHlo.TRef sig ⟨S_, .i32⟩) (broadcastInDim S_ ![] bcast_S_S_)) := rfl
  have h1 := final_of_at (writes (F := F)) Writes.nil 19 (hpos.trans hop) (y := main_call1_call0_v0) (not_mem_of_idx (by decide +kernel)) U
  have hb0 := final_of_before (writes (F := F)) Writes.nil 19 (a := main_call1_call0_c) (not_mem_of_idx (by decide +kernel)) U
  unfold Vf
  rw [h1, hb0]
  generalize after (List.take 19 (line (F := F))) U = V
  refine (unary_result _ _ _ _ _ V).trans ?_
  first | erw [Cert.Lib.RefCasts.toBuf_self, Cert.Lib.RefCasts.ofBuf_self] | erw [Cert.Lib.RefCasts.toBuf_self]
theorem st_main_v16 : Vf U main_v16 = ((fun x v => Host.reduceWindow IntOp.addi ![4000000] ![1] ![3999999] ![0] x v reduceWindows_S4000000_S4000000_w4000000s1p3999999_0 h_S_) : (⟨S4000000, .i32⟩ : BufTy).Contents (Elt F) → (⟨S_, .i32⟩ : BufTy).Contents (Elt F) → (⟨S4000000, .i32⟩ : BufTy).Contents (Elt F)) (Vf U main_v15) (Vf U main_call1_call0_v0) := by
  have hpos : (line (F := F))[20]? = (hostOps1_3 (F := F))[2]? := rfl
  have hop : (hostOps1_3 (F := F))[2]? = some (StableHlo.TRef.binary (τ := τ) (Val := Elt F) (.of main_v15 : StableHlo.TRef sig ⟨S4000000, .i32⟩) (.of main_call1_call0_v0 : StableHlo.TRef sig ⟨S_, .i32⟩) (.of main_v16 : StableHlo.TRef sig ⟨S4000000, .i32⟩) (fun x v => Host.reduceWindow IntOp.addi ![4000000] ![1] ![3999999] ![0] x v reduceWindows_S4000000_S4000000_w4000000s1p3999999_0 h_S_)) := rfl
  have h1 := final_of_at (writes (F := F)) Writes.nil 20 (hpos.trans hop) (y := main_v16) (not_mem_of_idx (by decide +kernel)) U
  have hb0 := final_of_before (writes (F := F)) Writes.nil 20 (a := main_v15) (not_mem_of_idx (by decide +kernel)) U
  have hb1 := final_of_before (writes (F := F)) Writes.nil 20 (a := main_call1_call0_v0) (not_mem_of_idx (by decide +kernel)) U
  unfold Vf
  rw [h1, hb0, hb1]
  generalize after (List.take 20 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v17 : Vf U main_v17 = ((extractStridedSlice S1 ![3999999] · slices_S4000000_S1_3999999) : (⟨S4000000, .i32⟩ : BufTy).Contents (Elt F) → (⟨S1, .i32⟩ : BufTy).Contents (Elt F)) (Vf U main_v13) :=
  read_unary (writes (F := F)) Writes.nil 21 rfl (not_mem_of_idx (by decide +kernel)) (not_mem_of_idx (by decide +kernel)) U
theorem st_main_v18 : Vf U main_v18 = fun i => shapeCast _ (Vf U main_v17) shapeCasts_S1_S_ i :=
  read_reshape (writes (F := F)) Writes.nil 22 rfl (not_mem_of_idx (by decide +kernel)) (not_mem_of_idx (by decide +kernel)) U
theorem st_main_c_2 : Vf U main_c_2 = (constantI S_ 32 1#32) :=
  read_nullary (writes (F := F)) Writes.nil 23 rfl (not_mem_of_idx (by decide +kernel)) U
theorem st_main_v19 : Vf U main_v19 = (broadcastInDim S4000000 ![] bcast_S_S4000000 : (⟨S_, .i32⟩ : BufTy).Contents (Elt F) → (⟨S4000000, .i32⟩ : BufTy).Contents (Elt F)) (Vf U main_c_2) :=
  read_unary (writes (F := F)) Writes.nil 24 rfl (not_mem_of_idx (by decide +kernel)) (not_mem_of_idx (by decide +kernel)) U
theorem st_main_v20 : Vf U main_v20 = (subi : (⟨S4000000, .i32⟩ : BufTy).Contents (Elt F) → (⟨S4000000, .i32⟩ : BufTy).Contents (Elt F) → (⟨S4000000, .i32⟩ : BufTy).Contents (Elt F)) (Vf U main_v13) (Vf U main_v19) :=
  read_binary (writes (F := F)) Writes.nil 25 rfl (not_mem_of_idx (by decide +kernel)) (not_mem_of_idx (by decide +kernel)) (not_mem_of_idx (by decide +kernel)) U
theorem st_main_v21 : Vf U main_v21 = (broadcastInDim S4000000 ![] bcast_S_S4000000 : (⟨S_, .i32⟩ : BufTy).Contents (Elt F) → (⟨S4000000, .i32⟩ : BufTy).Contents (Elt F)) (Vf U main_v18) :=
  read_unary (writes (F := F)) Writes.nil 26 rfl (not_mem_of_idx (by decide +kernel)) (not_mem_of_idx (by decide +kernel)) U
theorem st_main_v22 : Vf U main_v22 = (addi : (⟨S4000000, .i32⟩ : BufTy).Contents (Elt F) → (⟨S4000000, .i32⟩ : BufTy).Contents (Elt F) → (⟨S4000000, .i32⟩ : BufTy).Contents (Elt F)) (Vf U main_v21) (Vf U main_v16) :=
  read_binary (writes (F := F)) Writes.nil 27 rfl (not_mem_of_idx (by decide +kernel)) (not_mem_of_idx (by decide +kernel)) (not_mem_of_idx (by decide +kernel)) U
theorem st_main_c_3 : Vf U main_c_3 = (constantI S_ 32 1#32) :=
  read_nullary (writes (F := F)) Writes.nil 28 rfl (not_mem_of_idx (by decide +kernel)) U
theorem st_main_v23 : Vf U main_v23 = (broadcastInDim S4000000 ![] bcast_S_S4000000 : (⟨S_, .i32⟩ : BufTy).Contents (Elt F) → (⟨S4000000, .i32⟩ : BufTy).Contents (Elt F)) (Vf U main_c_3) :=
  read_unary (writes (F := F)) Writes.nil 29 rfl (not_mem_of_idx (by decide +kernel)) (not_mem_of_idx (by decide +kernel)) U
theorem st_main_v24 : Vf U main_v24 = (subi : (⟨S4000000, .i32⟩ : BufTy).Contents (Elt F) → (⟨S4000000, .i32⟩ : BufTy).Contents (Elt F) → (⟨S4000000, .i32⟩ : BufTy).Contents (Elt F)) (Vf U main_v22) (Vf U main_v23) :=
  read_binary (writes (F := F)) Writes.nil 30 rfl (not_mem_of_idx (by decide +kernel)) (not_mem_of_idx (by decide +kernel)) (not_mem_of_idx (by decide +kernel)) U
theorem st_main_v25 : Vf U main_v25 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v11) (Vf U main_v20) (Vf U main_v24) := by
  have hpos : (line (F := F))[31]? = (hostOps1_5 (F := F))[0]? := rfl
  have hop : (hostOps1_5 (F := F))[0]? = some (StableHlo.TRef.ternary (τ := τ) (Val := Elt F) (.of main_v11 : StableHlo.TRef sig ⟨S4000000, .i1⟩) (.of main_v20 : StableHlo.TRef sig ⟨S4000000, .i32⟩) (.of main_v24 : StableHlo.TRef sig ⟨S4000000, .i32⟩) (.of main_v25 : StableHlo.TRef sig ⟨S4000000, .i32⟩) select) := rfl
  have h1 := final_of_at (writes (F := F)) Writes.nil 31 (hpos.trans hop) (y := main_v25) (not_mem_of_idx (by decide +kernel)) U
  have hb0 := final_of_before (writes (F := F)) Writes.nil 31 (a := main_v11) (not_mem_of_idx (by decide +kernel)) U
  have hb1 := final_of_before (writes (F := F)) Writes.nil 31 (a := main_v20) (not_mem_of_idx (by decide +kernel)) U
  have hb2 := final_of_before (writes (F := F)) Writes.nil 31 (a := main_v24) (not_mem_of_idx (by decide +kernel)) U
  unfold Vf
  rw [h1, hb0, hb1, hb2]
  generalize after (List.take 31 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_4 : Vf U main_c_4 = (constantI S_ 32 0#32) :=
  read_nullary (writes (F := F)) Writes.nil 32 rfl (not_mem_of_idx (by decide +kernel)) U
theorem st_main_v26 : Vf U main_v26 = (broadcastInDim S4000000 ![] bcast_S_S4000000 : (⟨S_, .i32⟩ : BufTy).Contents (Elt F) → (⟨S4000000, .i32⟩ : BufTy).Contents (Elt F)) (Vf U main_c_4) :=
  read_unary (writes (F := F)) Writes.nil 33 rfl (not_mem_of_idx (by decide +kernel)) (not_mem_of_idx (by decide +kernel)) U
theorem st_main_c_5 : Vf U main_c_5 = (constantI S_ 32 0#32) :=
  read_nullary (writes (F := F)) Writes.nil 34 rfl (not_mem_of_idx (by decide +kernel)) U
theorem st_main_v27 : Vf U main_v27 = (broadcastInDim S4000000 ![] bcast_S_S4000000 : (⟨S_, .i32⟩ : BufTy).Contents (Elt F) → (⟨S4000000, .i32⟩ : BufTy).Contents (Elt F)) (Vf U main_c_5) :=
  read_unary (writes (F := F)) Writes.nil 35 rfl (not_mem_of_idx (by decide +kernel)) (not_mem_of_idx (by decide +kernel)) U
theorem st_main_v28 : Vf U main_v28 = (cmpi .slt : (⟨S4000000, .i32⟩ : BufTy).Contents (Elt F) → (⟨S4000000, .i32⟩ : BufTy).Contents (Elt F) → (⟨S4000000, .i1⟩ : BufTy).Contents (Elt F)) (Vf U main_v25) (Vf U main_v27) :=
  read_binary (writes (F := F)) Writes.nil 36 rfl (not_mem_of_idx (by decide +kernel)) (not_mem_of_idx (by decide +kernel)) (not_mem_of_idx (by decide +kernel)) U
theorem st_main_c_6 : Vf U main_c_6 = (constantI S_ 32 4000000#32) :=
  read_nullary (writes (F := F)) Writes.nil 37 rfl (not_mem_of_idx (by decide +kernel)) U
theorem st_main_v29 : Vf U main_v29 = (broadcastInDim S4000000 ![] bcast_S_S4000000 : (⟨S_, .i32⟩ : BufTy).Contents (Elt F) → (⟨S4000000, .i32⟩ : BufTy).Contents (Elt F)) (Vf U main_c_6) :=
  read_unary (writes (F := F)) Writes.nil 38 rfl (not_mem_of_idx (by decide +kernel)) (not_mem_of_idx (by decide +kernel)) U
theorem st_main_v30 : Vf U main_v30 = (addi : (⟨S4000000, .i32⟩ : BufTy).Contents (Elt F) → (⟨S4000000, .i32⟩ : BufTy).Contents (Elt F) → (⟨S4000000, .i32⟩ : BufTy).Contents (Elt F)) (Vf U main_v25) (Vf U main_v29) :=
  read_binary (writes (F := F)) Writes.nil 39 rfl (not_mem_of_idx (by decide +kernel)) (not_mem_of_idx (by decide +kernel)) (not_mem_of_idx (by decide +kernel)) U
theorem st_main_v31 : Vf U main_v31 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v28) (Vf U main_v30) (Vf U main_v25) :=
  read_ternary (writes (F := F)) Writes.nil 40 rfl (not_mem_of_idx (by decide +kernel)) (not_mem_of_idx (by decide +kernel)) (not_mem_of_idx (by decide +kernel)) (not_mem_of_idx (by decide +kernel)) U
theorem st_main_v32 : Vf U main_v32 = (broadcastInDim S4000000x1 ![0] bcast_S4000000_S4000000x1_0 : (⟨S4000000, .i32⟩ : BufTy).Contents (Elt F) → (⟨S4000000x1, .i32⟩ : BufTy).Contents (Elt F)) (Vf U main_v31) :=
  read_unary (writes (F := F)) Writes.nil 41 rfl (not_mem_of_idx (by decide +kernel)) (not_mem_of_idx (by decide +kernel)) U
theorem st_main_v33 : Vf U main_v33 = ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)) (Vf U main_v26) (Vf U main_v32) (Vf U main_v5_1) :=
  read_ternary (writes (F := F)) Writes.nil 42 rfl (not_mem_of_idx (by decide +kernel)) (not_mem_of_idx (by decide +kernel)) (not_mem_of_idx (by decide +kernel)) (not_mem_of_idx (by decide +kernel)) U
theorem st_main_c_7 : Vf U main_c_7 = (constantI S_ 32 0#32) :=
  read_nullary (writes (F := F)) Writes.nil 43 rfl (not_mem_of_idx (by decide +kernel)) U
theorem st_main_v34 : Vf U main_v34 = (broadcastInDim S4000000 ![] bcast_S_S4000000 : (⟨S_, .i32⟩ : BufTy).Contents (Elt F) → (⟨S4000000, .i32⟩ : BufTy).Contents (Elt F)) (Vf U main_c_7) :=
  read_unary (writes (F := F)) Writes.nil 44 rfl (not_mem_of_idx (by decide +kernel)) (not_mem_of_idx (by decide +kernel)) U
theorem st_main_c_8 : Vf U main_c_8 = (constantI S_ 32 0#32) :=
  read_nullary (writes (F := F)) Writes.nil 45 rfl (not_mem_of_idx (by decide +kernel)) U
theorem st_main_v35 : Vf U main_v35 = (broadcastInDim S4000000 ![] bcast_S_S4000000 : (⟨S_, .i32⟩ : BufTy).Contents (Elt F) → (⟨S4000000, .i32⟩ : BufTy).Contents (Elt F)) (Vf U main_c_8) :=
  read_unary (writes (F := F)) Writes.nil 46 rfl (not_mem_of_idx (by decide +kernel)) (not_mem_of_idx (by decide +kernel)) U
theorem st_main_v36 : Vf U main_v36 = (cmpi .slt : (⟨S4000000, .i32⟩ : BufTy).Contents (Elt F) → (⟨S4000000, .i32⟩ : BufTy).Contents (Elt F) → (⟨S4000000, .i1⟩ : BufTy).Contents (Elt F)) (Vf U main_v25) (Vf U main_v35) :=
  read_binary (writes (F := F)) Writes.nil 47 rfl (not_mem_of_idx (by decide +kernel)) (not_mem_of_idx (by decide +kernel)) (not_mem_of_idx (by decide +kernel)) U
theorem st_main_c_9 : Vf U main_c_9 = (constantI S_ 32 4000000#32) :=
  read_nullary (writes (F := F)) Writes.nil 48 rfl (not_mem_of_idx (by decide +kernel)) U
theorem st_main_v37 : Vf U main_v37 = (broadcastInDim S4000000 ![] bcast_S_S4000000 : (⟨S_, .i32⟩ : BufTy).Contents (Elt F) → (⟨S4000000, .i32⟩ : BufTy).Contents (Elt F)) (Vf U main_c_9) :=
  read_unary (writes (F := F)) Writes.nil 49 rfl (not_mem_of_idx (by decide +kernel)) (not_mem_of_idx (by decide +kernel)) U
theorem st_main_v38 : Vf U main_v38 = (addi : (⟨S4000000, .i32⟩ : BufTy).Contents (Elt F) → (⟨S4000000, .i32⟩ : BufTy).Contents (Elt F) → (⟨S4000000, .i32⟩ : BufTy).Contents (Elt F)) (Vf U main_v25) (Vf U main_v37) :=
  read_binary (writes (F := F)) Writes.nil 50 rfl (not_mem_of_idx (by decide +kernel)) (not_mem_of_idx (by decide +kernel)) (not_mem_of_idx (by decide +kernel)) U

end Cert.KernelIdeal.Stages

end
-- ==== Proof.KernelIdealStages2.lean ====
/-
  Stage equations, part 2 of 4: one equation per host operation (see the base module for the scheme).
-/
import proofs.«129221_j18588618457298_2_alg».proof.Proof.KernelIdealStages

set_option maxRecDepth 16384

noncomputable section

namespace Cert.KernelIdeal.Stages

open Idealize.ShloMosaic Idealize.ShloMosaic.TcCoe Idealize.SL.Sem Idealize.ShloMosaic.StableHlo
open Cert.Lib.SingleAssignment
open Cert.KernelIdeal Cert.KernelIdeal.Gen Cert.KernelIdeal.Host

variable {F : FTy → Type} [FloatOps F]

variable (U : Valuation τ sig (Elt F))

theorem st_main_v39 : Vf U main_v39 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v36) (Vf U main_v38) (Vf U main_v25) :=
  read_ternary (writes (F := F)) Writes.nil 51 rfl (not_mem_of_idx (by decide +kernel)) (not_mem_of_idx (by decide +kernel)) (not_mem_of_idx (by decide +kernel)) (not_mem_of_idx (by decide +kernel)) U
theorem st_main_v40 : Vf U main_v40 = (broadcastInDim S4000000x1 ![0] bcast_S4000000_S4000000x1_0 : (⟨S4000000, .i32⟩ : BufTy).Contents (Elt F) → (⟨S4000000x1, .i32⟩ : BufTy).Contents (Elt F)) (Vf U main_v39) :=
  read_unary (writes (F := F)) Writes.nil 52 rfl (not_mem_of_idx (by decide +kernel)) (not_mem_of_idx (by decide +kernel)) U
theorem st_main_v41 : Vf U main_v41 = ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)) (Vf U main_v34) (Vf U main_v40) (Vf U main_v5_0) :=
  read_ternary (writes (F := F)) Writes.nil 53 rfl (not_mem_of_idx (by decide +kernel)) (not_mem_of_idx (by decide +kernel)) (not_mem_of_idx (by decide +kernel)) (not_mem_of_idx (by decide +kernel)) U
theorem st_main_v42 : Vf U main_v42 = (iotaInDim S4000000 32 0) :=
  read_nullary (writes (F := F)) Writes.nil 54 rfl (not_mem_of_idx (by decide +kernel)) U
theorem st_main_v43 : Vf U main_v43 = (broadcastInDim S4000000 ![] bcast_S_S4000000 : (⟨S_, .i32⟩ : BufTy).Contents (Elt F) → (⟨S4000000, .i32⟩ : BufTy).Contents (Elt F)) (Vf U main_v18) :=
  read_unary (writes (F := F)) Writes.nil 55 rfl (not_mem_of_idx (by decide +kernel)) (not_mem_of_idx (by decide +kernel)) U
theorem st_main_v44 : Vf U main_v44 = (cmpi .slt : (⟨S4000000, .i32⟩ : BufTy).Contents (Elt F) → (⟨S4000000, .i32⟩ : BufTy).Contents (Elt F) → (⟨S4000000, .i1⟩ : BufTy).Contents (Elt F)) (Vf U main_v42) (Vf U main_v43) :=
  read_binary (writes (F := F)) Writes.nil 56 rfl (not_mem_of_idx (by decide +kernel)) (not_mem_of_idx (by decide +kernel)) (not_mem_of_idx (by decide +kernel)) U
theorem st_main_c_10 : Vf U main_c_10 = (constantI S_ 32 352#32) :=
  read_nullary (writes (F := F)) Writes.nil 57 rfl (not_mem_of_idx (by decide +kernel)) U
theorem st_main_call3_v0 : Vf U main_call3_v0 = (id : (⟨S_, .i32⟩ : BufTy).Contents (Elt F) → (⟨S_, .i32⟩ : BufTy).Contents (Elt F)) (Vf U main_c_10) := by
  have hpos : (line (F := F))[58]? = (hostOps1_7 (F := F))[0]? := rfl
  have hop : (hostOps1_7 (F := F))[0]? = some (StableHlo.TRef.unary (τ := τ) (Val := Elt F) (.of main_c_10 : StableHlo.TRef sig ⟨S_, .i32⟩) (.of main_call3_v0 : StableHlo.TRef sig ⟨S_, .i32⟩) id) := rfl
  have h1 := final_of_at (writes (F := F)) Writes.nil 58 (hpos.trans hop) (y := main_call3_v0) (not_mem_of_idx (by decide +kernel)) U
  have hb0 := final_of_before (writes (F := F)) Writes.nil 58 (a := main_c_10) (not_mem_of_idx (by decide +kernel)) U
  unfold Vf
  rw [h1, hb0]
  generalize after (List.take 58 (line (F := F))) U = V
  refine (unary_result _ _ _ _ _ V).trans ?_
  first | erw [Cert.Lib.RefCasts.toBuf_self, Cert.Lib.RefCasts.ofBuf_self] | erw [Cert.Lib.RefCasts.toBuf_self]
theorem st_main_call3_c : Vf U main_call3_c = (constantI S_ 32 0#32) := by
  have hpos : (line (F := F))[59]? = (hostOps1_7 (F := F))[1]? := rfl
  have hop : (hostOps1_7 (F := F))[1]? = some (StableHlo.TRef.nullary (τ := τ) (Val := Elt F) (.of main_call3_c : StableHlo.TRef sig ⟨S_, .i32⟩) (constantI S_ 32 0#32)) := rfl
  have h1 := final_of_at (writes (F := F)) Writes.nil 59 (hpos.trans hop) (y := main_call3_c) (not_mem_of_idx (by decide +kernel)) U

  unfold Vf
  rw [h1]
  generalize after (List.take 59 (line (F := F))) U = V
  refine (nullary_result _ _ _ V).trans ?_
  first | erw [Cert.Lib.RefCasts.toBuf_self]
theorem st_main_call3_v1 : Vf U main_call3_v1 = ((cmpi .eq) : (⟨S_, .i32⟩ : BufTy).Contents (Elt F) → (⟨S_, .i32⟩ : BufTy).Contents (Elt F) → (⟨S_, .i1⟩ : BufTy).Contents (Elt F)) (Vf U main_call3_v0) (Vf U main_call3_c) := by
  have hpos : (line (F := F))[60]? = (hostOps1_7 (F := F))[2]? := rfl
  have hop : (hostOps1_7 (F := F))[2]? = some (StableHlo.TRef.binary (τ := τ) (Val := Elt F) (.of main_call3_v0 : StableHlo.TRef sig ⟨S_, .i32⟩) (.of main_call3_c : StableHlo.TRef sig ⟨S_, .i32⟩) (.of main_call3_v1 : StableHlo.TRef sig ⟨S_, .i1⟩) (cmpi .eq)) := rfl
  have h1 := final_of_at (writes (F := F)) Writes.nil 60 (hpos.trans hop) (y := main_call3_v1) (not_mem_of_idx (by decide +kernel)) U
  have hb0 := final_of_before (writes (F := F)) Writes.nil 60 (a := main_call3_v0) (not_mem_of_idx (by decide +kernel)) U
  have hb1 := final_of_before (writes (F := F)) Writes.nil 60 (a := main_call3_c) (not_mem_of_idx (by decide +kernel)) U
  unfold Vf
  rw [h1, hb0, hb1]
  generalize after (List.take 60 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_c_0 : Vf U main_call3_c_0 = (constantI S_ 32 1#32) := by
  have hpos : (line (F := F))[61]? = (hostOps1_7 (F := F))[3]? := rfl
  have hop : (hostOps1_7 (F := F))[3]? = some (StableHlo.TRef.nullary (τ := τ) (Val := Elt F) (.of main_call3_c_0 : StableHlo.TRef sig ⟨S_, .i32⟩) (constantI S_ 32 1#32)) := rfl
  have h1 := final_of_at (writes (F := F)) Writes.nil 61 (hpos.trans hop) (y := main_call3_c_0) (not_mem_of_idx (by decide +kernel)) U

  unfold Vf
  rw [h1]
  generalize after (List.take 61 (line (F := F))) U = V
  refine (nullary_result _ _ _ V).trans ?_
  first | erw [Cert.Lib.RefCasts.toBuf_self]
theorem st_main_call3_v2 : Vf U main_call3_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (Vf U main_call3_v1) (Vf U main_call3_c_0) (Vf U main_call3_v0) := by
  have hpos : (line (F := F))[62]? = (hostOps1_7 (F := F))[4]? := rfl
  have hop : (hostOps1_7 (F := F))[4]? = some (StableHlo.TRef.ternary (τ := τ) (Val := Elt F) (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select) := rfl
  have h1 := final_of_at (writes (F := F)) Writes.nil 62 (hpos.trans hop) (y := main_call3_v2) (not_mem_of_idx (by decide +kernel)) U
  have hb0 := final_of_before (writes (F := F)) Writes.nil 62 (a := main_call3_v1) (not_mem_of_idx (by decide +kernel)) U
  have hb1 := final_of_before (writes (F := F)) Writes.nil 62 (a := main_call3_c_0) (not_mem_of_idx (by decide +kernel)) U
  have hb2 := final_of_before (writes (F := F)) Writes.nil 62 (a := main_call3_v0) (not_mem_of_idx (by decide +kernel)) U
  unfold Vf
  rw [h1, hb0, hb1, hb2]
  generalize after (List.take 62 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_v3 : Vf U main_call3_v3 = ((broadcastInDim S4000000 ![] bcast_S_S4000000) : (⟨S_, .i32⟩ : BufTy).Contents (Elt F) → (⟨S4000000, .i32⟩ : BufTy).Contents (Elt F)) (Vf U main_call3_v2) := by
  have hpos : (line (F := F))[63]? = (hostOps1_7 (F := F))[5]? := rfl
  have hop : (hostOps1_7 (F := F))[5]? = some (StableHlo.TRef.unary (τ := τ) (Val := Elt F) main_call3_call0.v0 (.of main_call3_v3 : StableHlo.TRef sig ⟨S4000000, .i32⟩) (broadcastInDim S4000000 ![] bcast_S_S4000000)) := rfl
  have h1 := final_of_at (writes (F := F)) Writes.nil 63 (hpos.trans hop) (y := main_call3_v3) (not_mem_of_idx (by decide +kernel)) U
  have hb0 := final_of_before (writes (F := F)) Writes.nil 63 (a := main_call3_v2) (not_mem_of_idx (by decide +kernel)) U
  unfold Vf
  rw [h1, hb0]
  generalize after (List.take 63 (line (F := F))) U = V
  refine (unary_result _ _ _ _ _ V).trans ?_
  first | erw [Cert.Lib.RefCasts.toBuf_self, Cert.Lib.RefCasts.ofBuf_self] | erw [Cert.Lib.RefCasts.toBuf_self]
theorem st_main_call3_v4 : Vf U main_call3_v4 = (Host.remsi : (⟨S4000000, .i32⟩ : BufTy).Contents (Elt F) → (⟨S4000000, .i32⟩ : BufTy).Contents (Elt F) → (⟨S4000000, .i32⟩ : BufTy).Contents (Elt F)) (Vf U main_v41) (Vf U main_call3_v3) := by
  have hpos : (line (F := F))[64]? = (hostOps1_7 (F := F))[6]? := rfl
  have hop : (hostOps1_7 (F := F))[6]? = some (StableHlo.TRef.binary (τ := τ) (Val := Elt F) (.of main_v41 : StableHlo.TRef sig ⟨S4000000, .i32⟩) (.of main_call3_v3 : StableHlo.TRef sig ⟨S4000000, .i32⟩) (.of main_call3_v4 : StableHlo.TRef sig ⟨S4000000, .i32⟩) Host.remsi) := rfl
  have h1 := final_of_at (writes (F := F)) Writes.nil 64 (hpos.trans hop) (y := main_call3_v4) (not_mem_of_idx (by decide +kernel)) U
  have hb0 := final_of_before (writes (F := F)) Writes.nil 64 (a := main_v41) (not_mem_of_idx (by decide +kernel)) U
  have hb1 := final_of_before (writes (F := F)) Writes.nil 64 (a := main_call3_v3) (not_mem_of_idx (by decide +kernel)) U
  unfold Vf
  rw [h1, hb0, hb1]
  generalize after (List.take 64 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_c_1 : Vf U main_call3_c_1 = (constantI S_ 32 0#32) := by
  have hpos : (line (F := F))[65]? = (hostOps1_7 (F := F))[7]? := rfl
  have hop : (hostOps1_7 (F := F))[7]? = some (StableHlo.TRef.nullary (τ := τ) (Val := Elt F) (.of main_call3_c_1 : StableHlo.TRef sig ⟨S_, .i32⟩) (constantI S_ 32 0#32)) := rfl
  have h1 := final_of_at (writes (F := F)) Writes.nil 65 (hpos.trans hop) (y := main_call3_c_1) (not_mem_of_idx (by decide +kernel)) U

  unfold Vf
  rw [h1]
  generalize after (List.take 65 (line (F := F))) U = V
  refine (nullary_result _ _ _ V).trans ?_
  first | erw [Cert.Lib.RefCasts.toBuf_self]
theorem st_main_call3_v5 : Vf U main_call3_v5 = ((broadcastInDim S4000000 ![] bcast_S_S4000000) : (⟨S_, .i32⟩ : BufTy).Contents (Elt F) → (⟨S4000000, .i32⟩ : BufTy).Contents (Elt F)) (Vf U main_call3_c_1) := by
  have hpos : (line (F := F))[66]? = (hostOps1_7 (F := F))[8]? := rfl
  have hop : (hostOps1_7 (F := F))[8]? = some (StableHlo.TRef.unary (τ := τ) (Val := Elt F) (.of main_call3_c_1 : StableHlo.TRef sig ⟨S_, .i32⟩) (.of main_call3_v5 : StableHlo.TRef sig ⟨S4000000, .i32⟩) (broadcastInDim S4000000 ![] bcast_S_S4000000)) := rfl
  have h1 := final_of_at (writes (F := F)) Writes.nil 66 (hpos.trans hop) (y := main_call3_v5) (not_mem_of_idx (by decide +kernel)) U
  have hb0 := final_of_before (writes (F := F)) Writes.nil 66 (a := main_call3_c_1) (not_mem_of_idx (by decide +kernel)) U
  unfold Vf
  rw [h1, hb0]
  generalize after (List.take 66 (line (F := F))) U = V
  refine (unary_result _ _ _ _ _ V).trans ?_
  first | erw [Cert.Lib.RefCasts.toBuf_self, Cert.Lib.RefCasts.ofBuf_self] | erw [Cert.Lib.RefCasts.toBuf_self]
theorem st_main_call3_v6 : Vf U main_call3_v6 = ((cmpi .ne) : (⟨S4000000, .i32⟩ : BufTy).Contents (Elt F) → (⟨S4000000, .i32⟩ : BufTy).Contents (Elt F) → (⟨S4000000, .i1⟩ : BufTy).Contents (Elt F)) (Vf U main_call3_v4) (Vf U main_call3_v5) := by
  have hpos : (line (F := F))[67]? = (hostOps1_7 (F := F))[9]? := rfl
  have hop : (hostOps1_7 (F := F))[9]? = some (StableHlo.TRef.binary (τ := τ) (Val := Elt F) (.of main_call3_v4 : StableHlo.TRef sig ⟨S4000000, .i32⟩) (.of main_call3_v5 : StableHlo.TRef sig ⟨S4000000, .i32⟩) (.of main_call3_v6 : StableHlo.TRef sig ⟨S4000000, .i1⟩) (cmpi .ne)) := rfl
  have h1 := final_of_at (writes (F := F)) Writes.nil 67 (hpos.trans hop) (y := main_call3_v6) (not_mem_of_idx (by decide +kernel)) U
  have hb0 := final_of_before (writes (F := F)) Writes.nil 67 (a := main_call3_v4) (not_mem_of_idx (by decide +kernel)) U
  have hb1 := final_of_before (writes (F := F)) Writes.nil 67 (a := main_call3_v5) (not_mem_of_idx (by decide +kernel)) U
  unfold Vf
  rw [h1, hb0, hb1]
  generalize after (List.take 67 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_c_2 : Vf U main_call3_c_2 = (constantI S_ 32 0#32) := by
  have hpos : (line (F := F))[68]? = (hostOps1_7 (F := F))[10]? := rfl
  have hop : (hostOps1_7 (F := F))[10]? = some (StableHlo.TRef.nullary (τ := τ) (Val := Elt F) (.of main_call3_c_2 : StableHlo.TRef sig ⟨S_, .i32⟩) (constantI S_ 32 0#32)) := rfl
  have h1 := final_of_at (writes (F := F)) Writes.nil 68 (hpos.trans hop) (y := main_call3_c_2) (not_mem_of_idx (by decide +kernel)) U

  unfold Vf
  rw [h1]
  generalize after (List.take 68 (line (F := F))) U = V
  refine (nullary_result _ _ _ V).trans ?_
  first | erw [Cert.Lib.RefCasts.toBuf_self]
theorem st_main_call3_v7 : Vf U main_call3_v7 = ((broadcastInDim S4000000 ![] bcast_S_S4000000) : (⟨S_, .i32⟩ : BufTy).Contents (Elt F) → (⟨S4000000, .i32⟩ : BufTy).Contents (Elt F)) (Vf U main_call3_c_2) := by
  have hpos : (line (F := F))[69]? = (hostOps1_7 (F := F))[11]? := rfl
  have hop : (hostOps1_7 (F := F))[11]? = some (StableHlo.TRef.unary (τ := τ) (Val := Elt F) (.of main_call3_c_2 : StableHlo.TRef sig ⟨S_, .i32⟩) (.of main_call3_v7 : StableHlo.TRef sig ⟨S4000000, .i32⟩) (broadcastInDim S4000000 ![] bcast_S_S4000000)) := rfl
  have h1 := final_of_at (writes (F := F)) Writes.nil 69 (hpos.trans hop) (y := main_call3_v7) (not_mem_of_idx (by decide +kernel)) U
  have hb0 := final_of_before (writes (F := F)) Writes.nil 69 (a := main_call3_c_2) (not_mem_of_idx (by decide +kernel)) U
  unfold Vf
  rw [h1, hb0]
  generalize after (List.take 69 (line (F := F))) U = V
  refine (unary_result _ _ _ _ _ V).trans ?_
  first | erw [Cert.Lib.RefCasts.toBuf_self, Cert.Lib.RefCasts.ofBuf_self] | erw [Cert.Lib.RefCasts.toBuf_self]
theorem st_main_call3_v8 : Vf U main_call3_v8 = ((cmpi .slt) : (⟨S4000000, .i32⟩ : BufTy).Contents (Elt F) → (⟨S4000000, .i32⟩ : BufTy).Contents (Elt F) → (⟨S4000000, .i1⟩ : BufTy).Contents (Elt F)) (Vf U main_call3_v4) (Vf U main_call3_v7) := by
  have hpos : (line (F := F))[70]? = (hostOps1_7 (F := F))[12]? := rfl
  have hop : (hostOps1_7 (F := F))[12]? = some (StableHlo.TRef.binary (τ := τ) (Val := Elt F) (.of main_call3_v4 : StableHlo.TRef sig ⟨S4000000, .i32⟩) (.of main_call3_v7 : StableHlo.TRef sig ⟨S4000000, .i32⟩) (.of main_call3_v8 : StableHlo.TRef sig ⟨S4000000, .i1⟩) (cmpi .slt)) := rfl
  have h1 := final_of_at (writes (F := F)) Writes.nil 70 (hpos.trans hop) (y := main_call3_v8) (not_mem_of_idx (by decide +kernel)) U
  have hb0 := final_of_before (writes (F := F)) Writes.nil 70 (a := main_call3_v4) (not_mem_of_idx (by decide +kernel)) U
  have hb1 := final_of_before (writes (F := F)) Writes.nil 70 (a := main_call3_v7) (not_mem_of_idx (by decide +kernel)) U
  unfold Vf
  rw [h1, hb0, hb1]
  generalize after (List.take 70 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_c_3 : Vf U main_call3_c_3 = (constantI S_ 32 0#32) := by
  have hpos : (line (F := F))[71]? = (hostOps1_7 (F := F))[13]? := rfl
  have hop : (hostOps1_7 (F := F))[13]? = some (StableHlo.TRef.nullary (τ := τ) (Val := Elt F) (.of main_call3_c_3 : StableHlo.TRef sig ⟨S_, .i32⟩) (constantI S_ 32 0#32)) := rfl
  have h1 := final_of_at (writes (F := F)) Writes.nil 71 (hpos.trans hop) (y := main_call3_c_3) (not_mem_of_idx (by decide +kernel)) U

  unfold Vf
  rw [h1]
  generalize after (List.take 71 (line (F := F))) U = V
  refine (nullary_result _ _ _ V).trans ?_
  first | erw [Cert.Lib.RefCasts.toBuf_self]
theorem st_main_call3_v9 : Vf U main_call3_v9 = ((cmpi .slt) : (⟨S_, .i32⟩ : BufTy).Contents (Elt F) → (⟨S_, .i32⟩ : BufTy).Contents (Elt F) → (⟨S_, .i1⟩ : BufTy).Contents (Elt F)) (Vf U main_call3_v2) (Vf U main_call3_c_3) := by
  have hpos : (line (F := F))[72]? = (hostOps1_7 (F := F))[14]? := rfl
  have hop : (hostOps1_7 (F := F))[14]? = some (StableHlo.TRef.binary (τ := τ) (Val := Elt F) main_call3_call0.v0 (.of main_call3_c_3 : StableHlo.TRef sig ⟨S_, .i32⟩) (.of main_call3_v9 : StableHlo.TRef sig ⟨S_, .i1⟩) (cmpi .slt)) := rfl
  have h1 := final_of_at (writes (F := F)) Writes.nil 72 (hpos.trans hop) (y := main_call3_v9) (not_mem_of_idx (by decide +kernel)) U
  have hb0 := final_of_before (writes (F := F)) Writes.nil 72 (a := main_call3_v2) (not_mem_of_idx (by decide +kernel)) U
  have hb1 := final_of_before (writes (F := F)) Writes.nil 72 (a := main_call3_c_3) (not_mem_of_idx (by decide +kernel)) U
  unfold Vf
  rw [h1, hb0, hb1]
  generalize after (List.take 72 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_v10 : Vf U main_call3_v10 = ((broadcastInDim S4000000 ![] bcast_S_S4000000) : (⟨S_, .i1⟩ : BufTy).Contents (Elt F) → (⟨S4000000, .i1⟩ : BufTy).Contents (Elt F)) (Vf U main_call3_v9) := by
  have hpos : (line (F := F))[73]? = (hostOps1_7 (F := F))[15]? := rfl
  have hop : (hostOps1_7 (F := F))[15]? = some (StableHlo.TRef.unary (τ := τ) (Val := Elt F) (.of main_call3_v9 : StableHlo.TRef sig ⟨S_, .i1⟩) (.of main_call3_v10 : StableHlo.TRef sig ⟨S4000000, .i1⟩) (broadcastInDim S4000000 ![] bcast_S_S4000000)) := rfl
  have h1 := final_of_at (writes (F := F)) Writes.nil 73 (hpos.trans hop) (y := main_call3_v10) (not_mem_of_idx (by decide +kernel)) U
  have hb0 := final_of_before (writes (F := F)) Writes.nil 73 (a := main_call3_v9) (not_mem_of_idx (by decide +kernel)) U
  unfold Vf
  rw [h1, hb0]
  generalize after (List.take 73 (line (F := F))) U = V
  refine (unary_result _ _ _ _ _ V).trans ?_
  first | erw [Cert.Lib.RefCasts.toBuf_self, Cert.Lib.RefCasts.ofBuf_self] | erw [Cert.Lib.RefCasts.toBuf_self]
theorem st_main_call3_v11 : Vf U main_call3_v11 = ((cmpi .ne) : (⟨S4000000, .i1⟩ : BufTy).Contents (Elt F) → (⟨S4000000, .i1⟩ : BufTy).Contents (Elt F) → (⟨S4000000, .i1⟩ : BufTy).Contents (Elt F)) (Vf U main_call3_v8) (Vf U main_call3_v10) := by
  have hpos : (line (F := F))[74]? = (hostOps1_7 (F := F))[16]? := rfl
  have hop : (hostOps1_7 (F := F))[16]? = some (StableHlo.TRef.binary (τ := τ) (Val := Elt F) (.of main_call3_v8 : StableHlo.TRef sig ⟨S4000000, .i1⟩) (.of main_call3_v10 : StableHlo.TRef sig ⟨S4000000, .i1⟩) (.of main_call3_v11 : StableHlo.TRef sig ⟨S4000000, .i1⟩) (cmpi .ne)) := rfl
  have h1 := final_of_at (writes (F := F)) Writes.nil 74 (hpos.trans hop) (y := main_call3_v11) (not_mem_of_idx (by decide +kernel)) U
  have hb0 := final_of_before (writes (F := F)) Writes.nil 74 (a := main_call3_v8) (not_mem_of_idx (by decide +kernel)) U
  have hb1 := final_of_before (writes (F := F)) Writes.nil 74 (a := main_call3_v10) (not_mem_of_idx (by decide +kernel)) U
  unfold Vf
  rw [h1, hb0, hb1]
  generalize after (List.take 74 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_v12 : Vf U main_call3_v12 = (andi : (⟨S4000000, .i1⟩ : BufTy).Contents (Elt F) → (⟨S4000000, .i1⟩ : BufTy).Contents (Elt F) → (⟨S4000000, .i1⟩ : BufTy).Contents (Elt F)) (Vf U main_call3_v11) (Vf U main_call3_v6) := by
  have hpos : (line (F := F))[75]? = (hostOps1_7 (F := F))[17]? := rfl
  have hop : (hostOps1_7 (F := F))[17]? = some (StableHlo.TRef.binary (τ := τ) (Val := Elt F) (.of main_call3_v11 : StableHlo.TRef sig ⟨S4000000, .i1⟩) (.of main_call3_v6 : StableHlo.TRef sig ⟨S4000000, .i1⟩) (.of main_call3_v12 : StableHlo.TRef sig ⟨S4000000, .i1⟩) andi) := rfl
  have h1 := final_of_at (writes (F := F)) Writes.nil 75 (hpos.trans hop) (y := main_call3_v12) (not_mem_of_idx (by decide +kernel)) U
  have hb0 := final_of_before (writes (F := F)) Writes.nil 75 (a := main_call3_v11) (not_mem_of_idx (by decide +kernel)) U
  have hb1 := final_of_before (writes (F := F)) Writes.nil 75 (a := main_call3_v6) (not_mem_of_idx (by decide +kernel)) U
  unfold Vf
  rw [h1, hb0, hb1]
  generalize after (List.take 75 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call3_v13 : Vf U main_call3_v13 = ((broadcastInDim S4000000 ![] bcast_S_S4000000) : (⟨S_, .i32⟩ : BufTy).Contents (Elt F) → (⟨S4000000, .i32⟩ : BufTy).Contents (Elt F)) (Vf U main_call3_v2) := by
  have hpos : (line (F := F))[76]? = (hostOps1_7 (F := F))[18]? := rfl
  have hop : (hostOps1_7 (F := F))[18]? = some (StableHlo.TRef.unary (τ := τ) (Val := Elt F) main_call3_call0.v0 (.of main_call3_v13 : StableHlo.TRef sig ⟨S4000000, .i32⟩) (broadcastInDim S4000000 ![] bcast_S_S4000000)) := rfl
  have h1 := final_of_at (writes (F := F)) Writes.nil 76 (hpos.trans hop) (y := main_call3_v13) (not_mem_of_idx (by decide +kernel)) U
  have hb0 := final_of_before (writes (F := F)) Writes.nil 76 (a := main_call3_v2) (not_mem_of_idx (by decide +kernel)) U
  unfold Vf
  rw [h1, hb0]
  generalize after (List.take 76 (line (F := F))) U = V
  refine (unary_result _ _ _ _ _ V).trans ?_
  first | erw [Cert.Lib.RefCasts.toBuf_self, Cert.Lib.RefCasts.ofBuf_self] | erw [Cert.Lib.RefCasts.toBuf_self]
theorem st_main_call3_v14 : Vf U main_call3_v14 = (addi : (⟨S4000000, .i32⟩ : BufTy).Contents (Elt F) → (⟨S4000000, .i32⟩ : BufTy).Contents (Elt F) → (⟨S4000000, .i32⟩ : BufTy).Contents (Elt F)) (Vf U main_call3_v4) (Vf U main_call3_v13) := by
  have hpos : (line (F := F))[77]? = (hostOps1_7 (F := F))[19]? := rfl
  have hop : (hostOps1_7 (F := F))[19]? = some (StableHlo.TRef.binary (τ := τ) (Val := Elt F) (.of main_call3_v4 : StableHlo.TRef sig ⟨S4000000, .i32⟩) (.of main_call3_v13 : StableHlo.TRef sig ⟨S4000000, .i32⟩) (.of main_call3_v14 : StableHlo.TRef sig ⟨S4000000, .i32⟩) addi) := rfl
  have h1 := final_of_at (writes (F := F)) Writes.nil 77 (hpos.trans hop) (y := main_call3_v14) (not_mem_of_idx (by decide +kernel)) U
  have hb0 := final_of_before (writes (F := F)) Writes.nil 77 (a := main_call3_v4) (not_mem_of_idx (by decide +kernel)) U
  have hb1 := final_of_before (writes (F := F)) Writes.nil 77 (a := main_call3_v13) (not_mem_of_idx (by decide +kernel)) U
  unfold Vf
  rw [h1, hb0, hb1]
  generalize after (List.take 77 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v45 : Vf U main_v45 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call3_v12) (Vf U main_call3_v14) (Vf U main_call3_v4) := by
  have hpos : (line (F := F))[78]? = (hostOps1_7 (F := F))[20]? := rfl
  have hop : (hostOps1_7 (F := F))[20]? = some (StableHlo.TRef.ternary (τ := τ) (Val := Elt F) (.of main_call3_v12 : StableHlo.TRef sig ⟨S4000000, .i1⟩) (.of main_call3_v14 : StableHlo.TRef sig ⟨S4000000, .i32⟩) (.of main_call3_v4 : StableHlo.TRef sig ⟨S4000000, .i32⟩) (.of main_v45 : StableHlo.TRef sig ⟨S4000000, .i32⟩) select) := rfl
  have h1 := final_of_at (writes (F := F)) Writes.nil 78 (hpos.trans hop) (y := main_v45) (not_mem_of_idx (by decide +kernel)) U
  have hb0 := final_of_before (writes (F := F)) Writes.nil 78 (a := main_call3_v12) (not_mem_of_idx (by decide +kernel)) U
  have hb1 := final_of_before (writes (F := F)) Writes.nil 78 (a := main_call3_v14) (not_mem_of_idx (by decide +kernel)) U
  have hb2 := final_of_before (writes (F := F)) Writes.nil 78 (a := main_call3_v4) (not_mem_of_idx (by decide +kernel)) U
  unfold Vf
  rw [h1, hb0, hb1, hb2]
  generalize after (List.take 78 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_11 : Vf U main_c_11 = (constantI S_ 32 352#32) :=
  read_nullary (writes (F := F)) Writes.nil 79 rfl (not_mem_of_idx (by decide +kernel)) U
theorem st_main_call4_v0 : Vf U main_call4_v0 = (id : (⟨S_, .i32⟩ : BufTy).Contents (Elt F) → (⟨S_, .i32⟩ : BufTy).Contents (Elt F)) (Vf U main_c_11) := by
  have hpos : (line (F := F))[80]? = (hostOps1_9 (F := F))[0]? := rfl
  have hop : (hostOps1_9 (F := F))[0]? = some (StableHlo.TRef.unary (τ := τ) (Val := Elt F) (.of main_c_11 : StableHlo.TRef sig ⟨S_, .i32⟩) (.of main_call4_v0 : StableHlo.TRef sig ⟨S_, .i32⟩) id) := rfl
  have h1 := final_of_at (writes (F := F)) Writes.nil 80 (hpos.trans hop) (y := main_call4_v0) (not_mem_of_idx (by decide +kernel)) U
  have hb0 := final_of_before (writes (F := F)) Writes.nil 80 (a := main_c_11) (not_mem_of_idx (by decide +kernel)) U
  unfold Vf
  rw [h1, hb0]
  generalize after (List.take 80 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v1 : Vf U main_call4_v1 = ((broadcastInDim S4000000 ![] bcast_S_S4000000) : (⟨S_, .i32⟩ : BufTy).Contents (Elt F) → (⟨S4000000, .i32⟩ : BufTy).Contents (Elt F)) (Vf U main_call4_v0) := by
  have hpos : (line (F := F))[81]? = (hostOps1_9 (F := F))[1]? := rfl
  have hop : (hostOps1_9 (F := F))[1]? = some (StableHlo.TRef.unary (τ := τ) (Val := Elt F) (.of main_call4_v0 : StableHlo.TRef sig ⟨S_, .i32⟩) (.of main_call4_v1 : StableHlo.TRef sig ⟨S4000000, .i32⟩) (broadcastInDim S4000000 ![] bcast_S_S4000000)) := rfl
  have h1 := final_of_at (writes (F := F)) Writes.nil 81 (hpos.trans hop) (y := main_call4_v1) (not_mem_of_idx (by decide +kernel)) U
  have hb0 := final_of_before (writes (F := F)) Writes.nil 81 (a := main_call4_v0) (not_mem_of_idx (by decide +kernel)) U
  unfold Vf
  rw [h1, hb0]
  generalize after (List.take 81 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v2 : Vf U main_call4_v2 = (Host.divsi : (⟨S4000000, .i32⟩ : BufTy).Contents (Elt F) → (⟨S4000000, .i32⟩ : BufTy).Contents (Elt F) → (⟨S4000000, .i32⟩ : BufTy).Contents (Elt F)) (Vf U main_v41) (Vf U main_call4_v1) := by
  have hpos : (line (F := F))[82]? = (hostOps1_9 (F := F))[2]? := rfl
  have hop : (hostOps1_9 (F := F))[2]? = some (StableHlo.TRef.binary (τ := τ) (Val := Elt F) (.of main_v41 : StableHlo.TRef sig ⟨S4000000, .i32⟩) (.of main_call4_v1 : StableHlo.TRef sig ⟨S4000000, .i32⟩) (.of main_call4_v2 : StableHlo.TRef sig ⟨S4000000, .i32⟩) Host.divsi) := rfl
  have h1 := final_of_at (writes (F := F)) Writes.nil 82 (hpos.trans hop) (y := main_call4_v2) (not_mem_of_idx (by decide +kernel)) U
  have hb0 := final_of_before (writes (F := F)) Writes.nil 82 (a := main_v41) (not_mem_of_idx (by decide +kernel)) U
  have hb1 := final_of_before (writes (F := F)) Writes.nil 82 (a := main_call4_v1) (not_mem_of_idx (by decide +kernel)) U
  unfold Vf
  rw [h1, hb0, hb1]
  generalize after (List.take 82 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call4_v3 : Vf U main_call4_v3 = (signi : (⟨S4000000, .i32⟩ : BufTy).Contents (Elt F) → (⟨S4000000, .i32⟩ : BufTy).Contents (Elt F)) (Vf U main_v41) := by
  have hpos : (line (F := F))[83]? = (hostOps1_9 (F := F))[3]? := rfl
  have hop : (hostOps1_9 (F := F))[3]? = some (StableHlo.TRef.unary (τ := τ) (Val := Elt F) (.of main_v41 : StableHlo.TRef sig ⟨S4000000, .i32⟩) (.of main_call4_v3 : StableHlo.TRef sig ⟨S4000000, .i32⟩) signi) := rfl
  have h1 := final_of_at (writes (F := F)) Writes.nil 83 (hpos.trans hop) (y := main_call4_v3) (not_mem_of_idx (by decide +kernel)) U
  have hb0 := final_of_before (writes (F := F)) Writes.nil 83 (a := main_v41) (not_mem_of_idx (by decide +kernel)) U
  unfold Vf
  rw [h1, hb0]
  generalize after (List.take 83 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v4 : Vf U main_call4_v4 = (signi : (⟨S_, .i32⟩ : BufTy).Contents (Elt F) → (⟨S_, .i32⟩ : BufTy).Contents (Elt F)) (Vf U main_call4_v0) := by
  have hpos : (line (F := F))[84]? = (hostOps1_9 (F := F))[4]? := rfl
  have hop : (hostOps1_9 (F := F))[4]? = some (StableHlo.TRef.unary (τ := τ) (Val := Elt F) (.of main_call4_v0 : StableHlo.TRef sig ⟨S_, .i32⟩) (.of main_call4_v4 : StableHlo.TRef sig ⟨S_, .i32⟩) signi) := rfl
  have h1 := final_of_at (writes (F := F)) Writes.nil 84 (hpos.trans hop) (y := main_call4_v4) (not_mem_of_idx (by decide +kernel)) U
  have hb0 := final_of_before (writes (F := F)) Writes.nil 84 (a := main_call4_v0) (not_mem_of_idx (by decide +kernel)) U
  unfold Vf
  rw [h1, hb0]
  generalize after (List.take 84 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v5 : Vf U main_call4_v5 = ((broadcastInDim S4000000 ![] bcast_S_S4000000) : (⟨S_, .i32⟩ : BufTy).Contents (Elt F) → (⟨S4000000, .i32⟩ : BufTy).Contents (Elt F)) (Vf U main_call4_v4) := by
  have hpos : (line (F := F))[85]? = (hostOps1_9 (F := F))[5]? := rfl
  have hop : (hostOps1_9 (F := F))[5]? = some (StableHlo.TRef.unary (τ := τ) (Val := Elt F) (.of main_call4_v4 : StableHlo.TRef sig ⟨S_, .i32⟩) (.of main_call4_v5 : StableHlo.TRef sig ⟨S4000000, .i32⟩) (broadcastInDim S4000000 ![] bcast_S_S4000000)) := rfl
  have h1 := final_of_at (writes (F := F)) Writes.nil 85 (hpos.trans hop) (y := main_call4_v5) (not_mem_of_idx (by decide +kernel)) U
  have hb0 := final_of_before (writes (F := F)) Writes.nil 85 (a := main_call4_v4) (not_mem_of_idx (by decide +kernel)) U
  unfold Vf
  rw [h1, hb0]
  generalize after (List.take 85 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v6 : Vf U main_call4_v6 = ((cmpi .ne) : (⟨S4000000, .i32⟩ : BufTy).Contents (Elt F) → (⟨S4000000, .i32⟩ : BufTy).Contents (Elt F) → (⟨S4000000, .i1⟩ : BufTy).Contents (Elt F)) (Vf U main_call4_v3) (Vf U main_call4_v5) := by
  have hpos : (line (F := F))[86]? = (hostOps1_9 (F := F))[6]? := rfl
  have hop : (hostOps1_9 (F := F))[6]? = some (StableHlo.TRef.binary (τ := τ) (Val := Elt F) (.of main_call4_v3 : StableHlo.TRef sig ⟨S4000000, .i32⟩) (.of main_call4_v5 : StableHlo.TRef sig ⟨S4000000, .i32⟩) (.of main_call4_v6 : StableHlo.TRef sig ⟨S4000000, .i1⟩) (cmpi .ne)) := rfl
  have h1 := final_of_at (writes (F := F)) Writes.nil 86 (hpos.trans hop) (y := main_call4_v6) (not_mem_of_idx (by decide +kernel)) U
  have hb0 := final_of_before (writes (F := F)) Writes.nil 86 (a := main_call4_v3) (not_mem_of_idx (by decide +kernel)) U
  have hb1 := final_of_before (writes (F := F)) Writes.nil 86 (a := main_call4_v5) (not_mem_of_idx (by decide +kernel)) U
  unfold Vf
  rw [h1, hb0, hb1]
  generalize after (List.take 86 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call4_v7 : Vf U main_call4_v7 = ((broadcastInDim S4000000 ![] bcast_S_S4000000) : (⟨S_, .i32⟩ : BufTy).Contents (Elt F) → (⟨S4000000, .i32⟩ : BufTy).Contents (Elt F)) (Vf U main_call4_v0) := by
  have hpos : (line (F := F))[87]? = (hostOps1_9 (F := F))[7]? := rfl
  have hop : (hostOps1_9 (F := F))[7]? = some (StableHlo.TRef.unary (τ := τ) (Val := Elt F) (.of main_call4_v0 : StableHlo.TRef sig ⟨S_, .i32⟩) (.of main_call4_v7 : StableHlo.TRef sig ⟨S4000000, .i32⟩) (broadcastInDim S4000000 ![] bcast_S_S4000000)) := rfl
  have h1 := final_of_at (writes (F := F)) Writes.nil 87 (hpos.trans hop) (y := main_call4_v7) (not_mem_of_idx (by decide +kernel)) U
  have hb0 := final_of_before (writes (F := F)) Writes.nil 87 (a := main_call4_v0) (not_mem_of_idx (by decide +kernel)) U
  unfold Vf
  rw [h1, hb0]
  generalize after (List.take 87 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v8 : Vf U main_call4_v8 = (Host.remsi : (⟨S4000000, .i32⟩ : BufTy).Contents (Elt F) → (⟨S4000000, .i32⟩ : BufTy).Contents (Elt F) → (⟨S4000000, .i32⟩ : BufTy).Contents (Elt F)) (Vf U main_v41) (Vf U main_call4_v7) := by
  have hpos : (line (F := F))[88]? = (hostOps1_9 (F := F))[8]? := rfl
  have hop : (hostOps1_9 (F := F))[8]? = some (StableHlo.TRef.binary (τ := τ) (Val := Elt F) (.of main_v41 : StableHlo.TRef sig ⟨S4000000, .i32⟩) (.of main_call4_v7 : StableHlo.TRef sig ⟨S4000000, .i32⟩) (.of main_call4_v8 : StableHlo.TRef sig ⟨S4000000, .i32⟩) Host.remsi) := rfl
  have h1 := final_of_at (writes (F := F)) Writes.nil 88 (hpos.trans hop) (y := main_call4_v8) (not_mem_of_idx (by decide +kernel)) U
  have hb0 := final_of_before (writes (F := F)) Writes.nil 88 (a := main_v41) (not_mem_of_idx (by decide +kernel)) U
  have hb1 := final_of_before (writes (F := F)) Writes.nil 88 (a := main_call4_v7) (not_mem_of_idx (by decide +kernel)) U
  unfold Vf
  rw [h1, hb0, hb1]
  generalize after (List.take 88 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call4_c : Vf U main_call4_c = (constantI S_ 32 0#32) := by
  have hpos : (line (F := F))[89]? = (hostOps1_9 (F := F))[9]? := rfl
  have hop : (hostOps1_9 (F := F))[9]? = some (StableHlo.TRef.nullary (τ := τ) (Val := Elt F) (.of main_call4_c : StableHlo.TRef sig ⟨S_, .i32⟩) (constantI S_ 32 0#32)) := rfl
  have h1 := final_of_at (writes (F := F)) Writes.nil 89 (hpos.trans hop) (y := main_call4_c) (not_mem_of_idx (by decide +kernel)) U

  unfold Vf
  rw [h1]
  generalize after (List.take 89 (line (F := F))) U = V
  refine (nullary_result _ _ _ V).trans ?_
  first | erw [Cert.Lib.RefCasts.toBuf_self]
theorem st_main_call4_v9 : Vf U main_call4_v9 = ((broadcastInDim S4000000 ![] bcast_S_S4000000) : (⟨S_, .i32⟩ : BufTy).Contents (Elt F) → (⟨S4000000, .i32⟩ : BufTy).Contents (Elt F)) (Vf U main_call4_c) := by
  have hpos : (line (F := F))[90]? = (hostOps1_9 (F := F))[10]? := rfl
  have hop : (hostOps1_9 (F := F))[10]? = some (StableHlo.TRef.unary (τ := τ) (Val := Elt F) (.of main_call4_c : StableHlo.TRef sig ⟨S_, .i32⟩) (.of main_call4_v9 : StableHlo.TRef sig ⟨S4000000, .i32⟩) (broadcastInDim S4000000 ![] bcast_S_S4000000)) := rfl
  have h1 := final_of_at (writes (F := F)) Writes.nil 90 (hpos.trans hop) (y := main_call4_v9) (not_mem_of_idx (by decide +kernel)) U
  have hb0 := final_of_before (writes (F := F)) Writes.nil 90 (a := main_call4_c) (not_mem_of_idx (by decide +kernel)) U
  unfold Vf
  rw [h1, hb0]
  generalize after (List.take 90 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v10 : Vf U main_call4_v10 = ((cmpi .ne) : (⟨S4000000, .i32⟩ : BufTy).Contents (Elt F) → (⟨S4000000, .i32⟩ : BufTy).Contents (Elt F) → (⟨S4000000, .i1⟩ : BufTy).Contents (Elt F)) (Vf U main_call4_v8) (Vf U main_call4_v9) := by
  have hpos : (line (F := F))[91]? = (hostOps1_9 (F := F))[11]? := rfl
  have hop : (hostOps1_9 (F := F))[11]? = some (StableHlo.TRef.binary (τ := τ) (Val := Elt F) (.of main_call4_v8 : StableHlo.TRef sig ⟨S4000000, .i32⟩) (.of main_call4_v9 : StableHlo.TRef sig ⟨S4000000, .i32⟩) (.of main_call4_v10 : StableHlo.TRef sig ⟨S4000000, .i1⟩) (cmpi .ne)) := rfl
  have h1 := final_of_at (writes (F := F)) Writes.nil 91 (hpos.trans hop) (y := main_call4_v10) (not_mem_of_idx (by decide +kernel)) U
  have hb0 := final_of_before (writes (F := F)) Writes.nil 91 (a := main_call4_v8) (not_mem_of_idx (by decide +kernel)) U
  have hb1 := final_of_before (writes (F := F)) Writes.nil 91 (a := main_call4_v9) (not_mem_of_idx (by decide +kernel)) U
  unfold Vf
  rw [h1, hb0, hb1]
  generalize after (List.take 91 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call4_v11 : Vf U main_call4_v11 = (andi : (⟨S4000000, .i1⟩ : BufTy).Contents (Elt F) → (⟨S4000000, .i1⟩ : BufTy).Contents (Elt F) → (⟨S4000000, .i1⟩ : BufTy).Contents (Elt F)) (Vf U main_call4_v6) (Vf U main_call4_v10) := by
  have hpos : (line (F := F))[92]? = (hostOps1_9 (F := F))[12]? := rfl
  have hop : (hostOps1_9 (F := F))[12]? = some (StableHlo.TRef.binary (τ := τ) (Val := Elt F) (.of main_call4_v6 : StableHlo.TRef sig ⟨S4000000, .i1⟩) (.of main_call4_v10 : StableHlo.TRef sig ⟨S4000000, .i1⟩) (.of main_call4_v11 : StableHlo.TRef sig ⟨S4000000, .i1⟩) andi) := rfl
  have h1 := final_of_at (writes (F := F)) Writes.nil 92 (hpos.trans hop) (y := main_call4_v11) (not_mem_of_idx (by decide +kernel)) U
  have hb0 := final_of_before (writes (F := F)) Writes.nil 92 (a := main_call4_v6) (not_mem_of_idx (by decide +kernel)) U
  have hb1 := final_of_before (writes (F := F)) Writes.nil 92 (a := main_call4_v10) (not_mem_of_idx (by decide +kernel)) U
  unfold Vf
  rw [h1, hb0, hb1]
  generalize after (List.take 92 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call4_c_0 : Vf U main_call4_c_0 = (constantI S_ 32 1#32) := by
  have hpos : (line (F := F))[93]? = (hostOps1_9 (F := F))[13]? := rfl
  have hop : (hostOps1_9 (F := F))[13]? = some (StableHlo.TRef.nullary (τ := τ) (Val := Elt F) (.of main_call4_c_0 : StableHlo.TRef sig ⟨S_, .i32⟩) (constantI S_ 32 1#32)) := rfl
  have h1 := final_of_at (writes (F := F)) Writes.nil 93 (hpos.trans hop) (y := main_call4_c_0) (not_mem_of_idx (by decide +kernel)) U

  unfold Vf
  rw [h1]
  generalize after (List.take 93 (line (F := F))) U = V
  refine (nullary_result _ _ _ V).trans ?_
  first | erw [Cert.Lib.RefCasts.toBuf_self]
theorem st_main_call4_v12 : Vf U main_call4_v12 = ((broadcastInDim S4000000 ![] bcast_S_S4000000) : (⟨S_, .i32⟩ : BufTy).Contents (Elt F) → (⟨S4000000, .i32⟩ : BufTy).Contents (Elt F)) (Vf U main_call4_c_0) := by
  have hpos : (line (F := F))[94]? = (hostOps1_9 (F := F))[14]? := rfl
  have hop : (hostOps1_9 (F := F))[14]? = some (StableHlo.TRef.unary (τ := τ) (Val := Elt F) (.of main_call4_c_0 : StableHlo.TRef sig ⟨S_, .i32⟩) (.of main_call4_v12 : StableHlo.TRef sig ⟨S4000000, .i32⟩) (broadcastInDim S4000000 ![] bcast_S_S4000000)) := rfl
  have h1 := final_of_at (writes (F := F)) Writes.nil 94 (hpos.trans hop) (y := main_call4_v12) (not_mem_of_idx (by decide +kernel)) U
  have hb0 := final_of_before (writes (F := F)) Writes.nil 94 (a := main_call4_c_0) (not_mem_of_idx (by decide +kernel)) U
  unfold Vf
  rw [h1, hb0]
  generalize after (List.take 94 (line (F := F))) U = V
  refine (unary_result _ _ _ _ _ V).trans ?_
  first | erw [Cert.Lib.RefCasts.toBuf_self, Cert.Lib.RefCasts.ofBuf_self] | erw [Cert.Lib.RefCasts.toBuf_self]
theorem st_main_call4_v13 : Vf U main_call4_v13 = (subi : (⟨S4000000, .i32⟩ : BufTy).Contents (Elt F) → (⟨S4000000, .i32⟩ : BufTy).Contents (Elt F) → (⟨S4000000, .i32⟩ : BufTy).Contents (Elt F)) (Vf U main_call4_v2) (Vf U main_call4_v12) := by
  have hpos : (line (F := F))[95]? = (hostOps1_9 (F := F))[15]? := rfl
  have hop : (hostOps1_9 (F := F))[15]? = some (StableHlo.TRef.binary (τ := τ) (Val := Elt F) (.of main_call4_v2 : StableHlo.TRef sig ⟨S4000000, .i32⟩) (.of main_call4_v12 : StableHlo.TRef sig ⟨S4000000, .i32⟩) (.of main_call4_v13 : StableHlo.TRef sig ⟨S4000000, .i32⟩) subi) := rfl
  have h1 := final_of_at (writes (F := F)) Writes.nil 95 (hpos.trans hop) (y := main_call4_v13) (not_mem_of_idx (by decide +kernel)) U
  have hb0 := final_of_before (writes (F := F)) Writes.nil 95 (a := main_call4_v2) (not_mem_of_idx (by decide +kernel)) U
  have hb1 := final_of_before (writes (F := F)) Writes.nil 95 (a := main_call4_v12) (not_mem_of_idx (by decide +kernel)) U
  unfold Vf
  rw [h1, hb0, hb1]
  generalize after (List.take 95 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v46 : Vf U main_v46 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call4_v11) (Vf U main_call4_v13) (Vf U main_call4_v2) := by
  have hpos : (line (F := F))[96]? = (hostOps1_9 (F := F))[16]? := rfl
  have hop : (hostOps1_9 (F := F))[16]? = some (StableHlo.TRef.ternary (τ := τ) (Val := Elt F) (.of main_call4_v11 : StableHlo.TRef sig ⟨S4000000, .i1⟩) (.of main_call4_v13 : StableHlo.TRef sig ⟨S4000000, .i32⟩) (.of main_call4_v2 : StableHlo.TRef sig ⟨S4000000, .i32⟩) (.of main_v46 : StableHlo.TRef sig ⟨S4000000, .i32⟩) select) := rfl
  have h1 := final_of_at (writes (F := F)) Writes.nil 96 (hpos.trans hop) (y := main_v46) (not_mem_of_idx (by decide +kernel)) U
  have hb0 := final_of_before (writes (F := F)) Writes.nil 96 (a := main_call4_v11) (not_mem_of_idx (by decide +kernel)) U
  have hb1 := final_of_before (writes (F := F)) Writes.nil 96 (a := main_call4_v13) (not_mem_of_idx (by decide +kernel)) U
  have hb2 := final_of_before (writes (F := F)) Writes.nil 96 (a := main_call4_v2) (not_mem_of_idx (by decide +kernel)) U
  unfold Vf
  rw [h1, hb0, hb1, hb2]
  generalize after (List.take 96 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_12 : Vf U main_c_12 = (constantI S_ 32 400#32) :=
  read_nullary (writes (F := F)) Writes.nil 97 rfl (not_mem_of_idx (by decide +kernel)) U
theorem st_main_call5_v0 : Vf U main_call5_v0 = (id : (⟨S_, .i32⟩ : BufTy).Contents (Elt F) → (⟨S_, .i32⟩ : BufTy).Contents (Elt F)) (Vf U main_c_12) := by
  have hpos : (line (F := F))[98]? = (hostOps1_11 (F := F))[0]? := rfl
  have hop : (hostOps1_11 (F := F))[0]? = some (StableHlo.TRef.unary (τ := τ) (Val := Elt F) (.of main_c_12 : StableHlo.TRef sig ⟨S_, .i32⟩) (.of main_call5_v0 : StableHlo.TRef sig ⟨S_, .i32⟩) id) := rfl
  have h1 := final_of_at (writes (F := F)) Writes.nil 98 (hpos.trans hop) (y := main_call5_v0) (not_mem_of_idx (by decide +kernel)) U
  have hb0 := final_of_before (writes (F := F)) Writes.nil 98 (a := main_c_12) (not_mem_of_idx (by decide +kernel)) U
  unfold Vf
  rw [h1, hb0]
  generalize after (List.take 98 (line (F := F))) U = V
  refine (unary_result _ _ _ _ _ V).trans ?_
  first | erw [Cert.Lib.RefCasts.toBuf_self, Cert.Lib.RefCasts.ofBuf_self] | erw [Cert.Lib.RefCasts.toBuf_self]
theorem st_main_call5_c : Vf U main_call5_c = (constantI S_ 32 0#32) := by
  have hpos : (line (F := F))[99]? = (hostOps1_11 (F := F))[1]? := rfl
  have hop : (hostOps1_11 (F := F))[1]? = some (StableHlo.TRef.nullary (τ := τ) (Val := Elt F) (.of main_call5_c : StableHlo.TRef sig ⟨S_, .i32⟩) (constantI S_ 32 0#32)) := rfl
  have h1 := final_of_at (writes (F := F)) Writes.nil 99 (hpos.trans hop) (y := main_call5_c) (not_mem_of_idx (by decide +kernel)) U

  unfold Vf
  rw [h1]
  generalize after (List.take 99 (line (F := F))) U = V
  refine (nullary_result _ _ _ V).trans ?_
  first | erw [Cert.Lib.RefCasts.toBuf_self]
theorem st_main_call5_v1 : Vf U main_call5_v1 = ((cmpi .eq) : (⟨S_, .i32⟩ : BufTy).Contents (Elt F) → (⟨S_, .i32⟩ : BufTy).Contents (Elt F) → (⟨S_, .i1⟩ : BufTy).Contents (Elt F)) (Vf U main_call5_v0) (Vf U main_call5_c) := by
  have hpos : (line (F := F))[100]? = (hostOps1_11 (F := F))[2]? := rfl
  have hop : (hostOps1_11 (F := F))[2]? = some (StableHlo.TRef.binary (τ := τ) (Val := Elt F) (.of main_call5_v0 : StableHlo.TRef sig ⟨S_, .i32⟩) (.of main_call5_c : StableHlo.TRef sig ⟨S_, .i32⟩) (.of main_call5_v1 : StableHlo.TRef sig ⟨S_, .i1⟩) (cmpi .eq)) := rfl
  have h1 := final_of_at (writes (F := F)) Writes.nil 100 (hpos.trans hop) (y := main_call5_v1) (not_mem_of_idx (by decide +kernel)) U
  have hb0 := final_of_before (writes (F := F)) Writes.nil 100 (a := main_call5_v0) (not_mem_of_idx (by decide +kernel)) U
  have hb1 := final_of_before (writes (F := F)) Writes.nil 100 (a := main_call5_c) (not_mem_of_idx (by decide +kernel)) U
  unfold Vf
  rw [h1, hb0, hb1]
  generalize after (List.take 100 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_c_0 : Vf U main_call5_c_0 = (constantI S_ 32 1#32) := by
  have hpos : (line (F := F))[101]? = (hostOps1_11 (F := F))[3]? := rfl
  have hop : (hostOps1_11 (F := F))[3]? = some (StableHlo.TRef.nullary (τ := τ) (Val := Elt F) (.of main_call5_c_0 : StableHlo.TRef sig ⟨S_, .i32⟩) (constantI S_ 32 1#32)) := rfl
  have h1 := final_of_at (writes (F := F)) Writes.nil 101 (hpos.trans hop) (y := main_call5_c_0) (not_mem_of_idx (by decide +kernel)) U

  unfold Vf
  rw [h1]
  generalize after (List.take 101 (line (F := F))) U = V
  refine (nullary_result _ _ _ V).trans ?_
  first | erw [Cert.Lib.RefCasts.toBuf_self]

end Cert.KernelIdeal.Stages

end
-- ==== Proof.KernelIdealStages3.lean ====
/-
  Stage equations, part 3 of 4: one equation per host operation (see the base module for the scheme).
-/
import proofs.«129221_j18588618457298_2_alg».proof.Proof.KernelIdealStages

set_option maxRecDepth 16384

noncomputable section

namespace Cert.KernelIdeal.Stages

open Idealize.ShloMosaic Idealize.ShloMosaic.TcCoe Idealize.SL.Sem Idealize.ShloMosaic.StableHlo
open Cert.Lib.SingleAssignment
open Cert.KernelIdeal Cert.KernelIdeal.Gen Cert.KernelIdeal.Host

variable {F : FTy → Type} [FloatOps F]

variable (U : Valuation τ sig (Elt F))

theorem st_main_call5_v2 : Vf U main_call5_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (Vf U main_call5_v1) (Vf U main_call5_c_0) (Vf U main_call5_v0) := by
  have hpos : (line (F := F))[102]? = (hostOps1_11 (F := F))[4]? := rfl
  have hop : (hostOps1_11 (F := F))[4]? = some (StableHlo.TRef.ternary (τ := τ) (Val := Elt F) (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select) := rfl
  have h1 := final_of_at (writes (F := F)) Writes.nil 102 (hpos.trans hop) (y := main_call5_v2) (not_mem_of_idx (by decide +kernel)) U
  have hb0 := final_of_before (writes (F := F)) Writes.nil 102 (a := main_call5_v1) (not_mem_of_idx (by decide +kernel)) U
  have hb1 := final_of_before (writes (F := F)) Writes.nil 102 (a := main_call5_c_0) (not_mem_of_idx (by decide +kernel)) U
  have hb2 := final_of_before (writes (F := F)) Writes.nil 102 (a := main_call5_v0) (not_mem_of_idx (by decide +kernel)) U
  unfold Vf
  rw [h1, hb0, hb1, hb2]
  generalize after (List.take 102 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_v3 : Vf U main_call5_v3 = ((broadcastInDim S4000000 ![] bcast_S_S4000000) : (⟨S_, .i32⟩ : BufTy).Contents (Elt F) → (⟨S4000000, .i32⟩ : BufTy).Contents (Elt F)) (Vf U main_call5_v2) := by
  have hpos : (line (F := F))[103]? = (hostOps1_11 (F := F))[5]? := rfl
  have hop : (hostOps1_11 (F := F))[5]? = some (StableHlo.TRef.unary (τ := τ) (Val := Elt F) main_call5_call0.v0 (.of main_call5_v3 : StableHlo.TRef sig ⟨S4000000, .i32⟩) (broadcastInDim S4000000 ![] bcast_S_S4000000)) := rfl
  have h1 := final_of_at (writes (F := F)) Writes.nil 103 (hpos.trans hop) (y := main_call5_v3) (not_mem_of_idx (by decide +kernel)) U
  have hb0 := final_of_before (writes (F := F)) Writes.nil 103 (a := main_call5_v2) (not_mem_of_idx (by decide +kernel)) U
  unfold Vf
  rw [h1, hb0]
  generalize after (List.take 103 (line (F := F))) U = V
  refine (unary_result _ _ _ _ _ V).trans ?_
  first | erw [Cert.Lib.RefCasts.toBuf_self, Cert.Lib.RefCasts.ofBuf_self] | erw [Cert.Lib.RefCasts.toBuf_self]
theorem st_main_call5_v4 : Vf U main_call5_v4 = (Host.remsi : (⟨S4000000, .i32⟩ : BufTy).Contents (Elt F) → (⟨S4000000, .i32⟩ : BufTy).Contents (Elt F) → (⟨S4000000, .i32⟩ : BufTy).Contents (Elt F)) (Vf U main_v46) (Vf U main_call5_v3) := by
  have hpos : (line (F := F))[104]? = (hostOps1_11 (F := F))[6]? := rfl
  have hop : (hostOps1_11 (F := F))[6]? = some (StableHlo.TRef.binary (τ := τ) (Val := Elt F) (.of main_v46 : StableHlo.TRef sig ⟨S4000000, .i32⟩) (.of main_call5_v3 : StableHlo.TRef sig ⟨S4000000, .i32⟩) (.of main_call5_v4 : StableHlo.TRef sig ⟨S4000000, .i32⟩) Host.remsi) := rfl
  have h1 := final_of_at (writes (F := F)) Writes.nil 104 (hpos.trans hop) (y := main_call5_v4) (not_mem_of_idx (by decide +kernel)) U
  have hb0 := final_of_before (writes (F := F)) Writes.nil 104 (a := main_v46) (not_mem_of_idx (by decide +kernel)) U
  have hb1 := final_of_before (writes (F := F)) Writes.nil 104 (a := main_call5_v3) (not_mem_of_idx (by decide +kernel)) U
  unfold Vf
  rw [h1, hb0, hb1]
  generalize after (List.take 104 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_c_1 : Vf U main_call5_c_1 = (constantI S_ 32 0#32) := by
  have hpos : (line (F := F))[105]? = (hostOps1_11 (F := F))[7]? := rfl
  have hop : (hostOps1_11 (F := F))[7]? = some (StableHlo.TRef.nullary (τ := τ) (Val := Elt F) (.of main_call5_c_1 : StableHlo.TRef sig ⟨S_, .i32⟩) (constantI S_ 32 0#32)) := rfl
  have h1 := final_of_at (writes (F := F)) Writes.nil 105 (hpos.trans hop) (y := main_call5_c_1) (not_mem_of_idx (by decide +kernel)) U

  unfold Vf
  rw [h1]
  generalize after (List.take 105 (line (F := F))) U = V
  refine (nullary_result _ _ _ V).trans ?_
  first | erw [Cert.Lib.RefCasts.toBuf_self]
theorem st_main_call5_v5 : Vf U main_call5_v5 = ((broadcastInDim S4000000 ![] bcast_S_S4000000) : (⟨S_, .i32⟩ : BufTy).Contents (Elt F) → (⟨S4000000, .i32⟩ : BufTy).Contents (Elt F)) (Vf U main_call5_c_1) := by
  have hpos : (line (F := F))[106]? = (hostOps1_11 (F := F))[8]? := rfl
  have hop : (hostOps1_11 (F := F))[8]? = some (StableHlo.TRef.unary (τ := τ) (Val := Elt F) (.of main_call5_c_1 : StableHlo.TRef sig ⟨S_, .i32⟩) (.of main_call5_v5 : StableHlo.TRef sig ⟨S4000000, .i32⟩) (broadcastInDim S4000000 ![] bcast_S_S4000000)) := rfl
  have h1 := final_of_at (writes (F := F)) Writes.nil 106 (hpos.trans hop) (y := main_call5_v5) (not_mem_of_idx (by decide +kernel)) U
  have hb0 := final_of_before (writes (F := F)) Writes.nil 106 (a := main_call5_c_1) (not_mem_of_idx (by decide +kernel)) U
  unfold Vf
  rw [h1, hb0]
  generalize after (List.take 106 (line (F := F))) U = V
  refine (unary_result _ _ _ _ _ V).trans ?_
  first | erw [Cert.Lib.RefCasts.toBuf_self, Cert.Lib.RefCasts.ofBuf_self] | erw [Cert.Lib.RefCasts.toBuf_self]
theorem st_main_call5_v6 : Vf U main_call5_v6 = ((cmpi .ne) : (⟨S4000000, .i32⟩ : BufTy).Contents (Elt F) → (⟨S4000000, .i32⟩ : BufTy).Contents (Elt F) → (⟨S4000000, .i1⟩ : BufTy).Contents (Elt F)) (Vf U main_call5_v4) (Vf U main_call5_v5) := by
  have hpos : (line (F := F))[107]? = (hostOps1_11 (F := F))[9]? := rfl
  have hop : (hostOps1_11 (F := F))[9]? = some (StableHlo.TRef.binary (τ := τ) (Val := Elt F) (.of main_call5_v4 : StableHlo.TRef sig ⟨S4000000, .i32⟩) (.of main_call5_v5 : StableHlo.TRef sig ⟨S4000000, .i32⟩) (.of main_call5_v6 : StableHlo.TRef sig ⟨S4000000, .i1⟩) (cmpi .ne)) := rfl
  have h1 := final_of_at (writes (F := F)) Writes.nil 107 (hpos.trans hop) (y := main_call5_v6) (not_mem_of_idx (by decide +kernel)) U
  have hb0 := final_of_before (writes (F := F)) Writes.nil 107 (a := main_call5_v4) (not_mem_of_idx (by decide +kernel)) U
  have hb1 := final_of_before (writes (F := F)) Writes.nil 107 (a := main_call5_v5) (not_mem_of_idx (by decide +kernel)) U
  unfold Vf
  rw [h1, hb0, hb1]
  generalize after (List.take 107 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_c_2 : Vf U main_call5_c_2 = (constantI S_ 32 0#32) := by
  have hpos : (line (F := F))[108]? = (hostOps1_11 (F := F))[10]? := rfl
  have hop : (hostOps1_11 (F := F))[10]? = some (StableHlo.TRef.nullary (τ := τ) (Val := Elt F) (.of main_call5_c_2 : StableHlo.TRef sig ⟨S_, .i32⟩) (constantI S_ 32 0#32)) := rfl
  have h1 := final_of_at (writes (F := F)) Writes.nil 108 (hpos.trans hop) (y := main_call5_c_2) (not_mem_of_idx (by decide +kernel)) U

  unfold Vf
  rw [h1]
  generalize after (List.take 108 (line (F := F))) U = V
  refine (nullary_result _ _ _ V).trans ?_
  first | erw [Cert.Lib.RefCasts.toBuf_self]
theorem st_main_call5_v7 : Vf U main_call5_v7 = ((broadcastInDim S4000000 ![] bcast_S_S4000000) : (⟨S_, .i32⟩ : BufTy).Contents (Elt F) → (⟨S4000000, .i32⟩ : BufTy).Contents (Elt F)) (Vf U main_call5_c_2) := by
  have hpos : (line (F := F))[109]? = (hostOps1_11 (F := F))[11]? := rfl
  have hop : (hostOps1_11 (F := F))[11]? = some (StableHlo.TRef.unary (τ := τ) (Val := Elt F) (.of main_call5_c_2 : StableHlo.TRef sig ⟨S_, .i32⟩) (.of main_call5_v7 : StableHlo.TRef sig ⟨S4000000, .i32⟩) (broadcastInDim S4000000 ![] bcast_S_S4000000)) := rfl
  have h1 := final_of_at (writes (F := F)) Writes.nil 109 (hpos.trans hop) (y := main_call5_v7) (not_mem_of_idx (by decide +kernel)) U
  have hb0 := final_of_before (writes (F := F)) Writes.nil 109 (a := main_call5_c_2) (not_mem_of_idx (by decide +kernel)) U
  unfold Vf
  rw [h1, hb0]
  generalize after (List.take 109 (line (F := F))) U = V
  refine (unary_result _ _ _ _ _ V).trans ?_
  first | erw [Cert.Lib.RefCasts.toBuf_self, Cert.Lib.RefCasts.ofBuf_self] | erw [Cert.Lib.RefCasts.toBuf_self]
theorem st_main_call5_v8 : Vf U main_call5_v8 = ((cmpi .slt) : (⟨S4000000, .i32⟩ : BufTy).Contents (Elt F) → (⟨S4000000, .i32⟩ : BufTy).Contents (Elt F) → (⟨S4000000, .i1⟩ : BufTy).Contents (Elt F)) (Vf U main_call5_v4) (Vf U main_call5_v7) := by
  have hpos : (line (F := F))[110]? = (hostOps1_11 (F := F))[12]? := rfl
  have hop : (hostOps1_11 (F := F))[12]? = some (StableHlo.TRef.binary (τ := τ) (Val := Elt F) (.of main_call5_v4 : StableHlo.TRef sig ⟨S4000000, .i32⟩) (.of main_call5_v7 : StableHlo.TRef sig ⟨S4000000, .i32⟩) (.of main_call5_v8 : StableHlo.TRef sig ⟨S4000000, .i1⟩) (cmpi .slt)) := rfl
  have h1 := final_of_at (writes (F := F)) Writes.nil 110 (hpos.trans hop) (y := main_call5_v8) (not_mem_of_idx (by decide +kernel)) U
  have hb0 := final_of_before (writes (F := F)) Writes.nil 110 (a := main_call5_v4) (not_mem_of_idx (by decide +kernel)) U
  have hb1 := final_of_before (writes (F := F)) Writes.nil 110 (a := main_call5_v7) (not_mem_of_idx (by decide +kernel)) U
  unfold Vf
  rw [h1, hb0, hb1]
  generalize after (List.take 110 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_c_3 : Vf U main_call5_c_3 = (constantI S_ 32 0#32) := by
  have hpos : (line (F := F))[111]? = (hostOps1_11 (F := F))[13]? := rfl
  have hop : (hostOps1_11 (F := F))[13]? = some (StableHlo.TRef.nullary (τ := τ) (Val := Elt F) (.of main_call5_c_3 : StableHlo.TRef sig ⟨S_, .i32⟩) (constantI S_ 32 0#32)) := rfl
  have h1 := final_of_at (writes (F := F)) Writes.nil 111 (hpos.trans hop) (y := main_call5_c_3) (not_mem_of_idx (by decide +kernel)) U

  unfold Vf
  rw [h1]
  generalize after (List.take 111 (line (F := F))) U = V
  refine (nullary_result _ _ _ V).trans ?_
  first | erw [Cert.Lib.RefCasts.toBuf_self]
theorem st_main_call5_v9 : Vf U main_call5_v9 = ((cmpi .slt) : (⟨S_, .i32⟩ : BufTy).Contents (Elt F) → (⟨S_, .i32⟩ : BufTy).Contents (Elt F) → (⟨S_, .i1⟩ : BufTy).Contents (Elt F)) (Vf U main_call5_v2) (Vf U main_call5_c_3) := by
  have hpos : (line (F := F))[112]? = (hostOps1_11 (F := F))[14]? := rfl
  have hop : (hostOps1_11 (F := F))[14]? = some (StableHlo.TRef.binary (τ := τ) (Val := Elt F) main_call5_call0.v0 (.of main_call5_c_3 : StableHlo.TRef sig ⟨S_, .i32⟩) (.of main_call5_v9 : StableHlo.TRef sig ⟨S_, .i1⟩) (cmpi .slt)) := rfl
  have h1 := final_of_at (writes (F := F)) Writes.nil 112 (hpos.trans hop) (y := main_call5_v9) (not_mem_of_idx (by decide +kernel)) U
  have hb0 := final_of_before (writes (F := F)) Writes.nil 112 (a := main_call5_v2) (not_mem_of_idx (by decide +kernel)) U
  have hb1 := final_of_before (writes (F := F)) Writes.nil 112 (a := main_call5_c_3) (not_mem_of_idx (by decide +kernel)) U
  unfold Vf
  rw [h1, hb0, hb1]
  generalize after (List.take 112 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_v10 : Vf U main_call5_v10 = ((broadcastInDim S4000000 ![] bcast_S_S4000000) : (⟨S_, .i1⟩ : BufTy).Contents (Elt F) → (⟨S4000000, .i1⟩ : BufTy).Contents (Elt F)) (Vf U main_call5_v9) := by
  have hpos : (line (F := F))[113]? = (hostOps1_11 (F := F))[15]? := rfl
  have hop : (hostOps1_11 (F := F))[15]? = some (StableHlo.TRef.unary (τ := τ) (Val := Elt F) (.of main_call5_v9 : StableHlo.TRef sig ⟨S_, .i1⟩) (.of main_call5_v10 : StableHlo.TRef sig ⟨S4000000, .i1⟩) (broadcastInDim S4000000 ![] bcast_S_S4000000)) := rfl
  have h1 := final_of_at (writes (F := F)) Writes.nil 113 (hpos.trans hop) (y := main_call5_v10) (not_mem_of_idx (by decide +kernel)) U
  have hb0 := final_of_before (writes (F := F)) Writes.nil 113 (a := main_call5_v9) (not_mem_of_idx (by decide +kernel)) U
  unfold Vf
  rw [h1, hb0]
  generalize after (List.take 113 (line (F := F))) U = V
  refine (unary_result _ _ _ _ _ V).trans ?_
  first | erw [Cert.Lib.RefCasts.toBuf_self, Cert.Lib.RefCasts.ofBuf_self] | erw [Cert.Lib.RefCasts.toBuf_self]
theorem st_main_call5_v11 : Vf U main_call5_v11 = ((cmpi .ne) : (⟨S4000000, .i1⟩ : BufTy).Contents (Elt F) → (⟨S4000000, .i1⟩ : BufTy).Contents (Elt F) → (⟨S4000000, .i1⟩ : BufTy).Contents (Elt F)) (Vf U main_call5_v8) (Vf U main_call5_v10) := by
  have hpos : (line (F := F))[114]? = (hostOps1_11 (F := F))[16]? := rfl
  have hop : (hostOps1_11 (F := F))[16]? = some (StableHlo.TRef.binary (τ := τ) (Val := Elt F) (.of main_call5_v8 : StableHlo.TRef sig ⟨S4000000, .i1⟩) (.of main_call5_v10 : StableHlo.TRef sig ⟨S4000000, .i1⟩) (.of main_call5_v11 : StableHlo.TRef sig ⟨S4000000, .i1⟩) (cmpi .ne)) := rfl
  have h1 := final_of_at (writes (F := F)) Writes.nil 114 (hpos.trans hop) (y := main_call5_v11) (not_mem_of_idx (by decide +kernel)) U
  have hb0 := final_of_before (writes (F := F)) Writes.nil 114 (a := main_call5_v8) (not_mem_of_idx (by decide +kernel)) U
  have hb1 := final_of_before (writes (F := F)) Writes.nil 114 (a := main_call5_v10) (not_mem_of_idx (by decide +kernel)) U
  unfold Vf
  rw [h1, hb0, hb1]
  generalize after (List.take 114 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_v12 : Vf U main_call5_v12 = (andi : (⟨S4000000, .i1⟩ : BufTy).Contents (Elt F) → (⟨S4000000, .i1⟩ : BufTy).Contents (Elt F) → (⟨S4000000, .i1⟩ : BufTy).Contents (Elt F)) (Vf U main_call5_v11) (Vf U main_call5_v6) := by
  have hpos : (line (F := F))[115]? = (hostOps1_11 (F := F))[17]? := rfl
  have hop : (hostOps1_11 (F := F))[17]? = some (StableHlo.TRef.binary (τ := τ) (Val := Elt F) (.of main_call5_v11 : StableHlo.TRef sig ⟨S4000000, .i1⟩) (.of main_call5_v6 : StableHlo.TRef sig ⟨S4000000, .i1⟩) (.of main_call5_v12 : StableHlo.TRef sig ⟨S4000000, .i1⟩) andi) := rfl
  have h1 := final_of_at (writes (F := F)) Writes.nil 115 (hpos.trans hop) (y := main_call5_v12) (not_mem_of_idx (by decide +kernel)) U
  have hb0 := final_of_before (writes (F := F)) Writes.nil 115 (a := main_call5_v11) (not_mem_of_idx (by decide +kernel)) U
  have hb1 := final_of_before (writes (F := F)) Writes.nil 115 (a := main_call5_v6) (not_mem_of_idx (by decide +kernel)) U
  unfold Vf
  rw [h1, hb0, hb1]
  generalize after (List.take 115 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call5_v13 : Vf U main_call5_v13 = ((broadcastInDim S4000000 ![] bcast_S_S4000000) : (⟨S_, .i32⟩ : BufTy).Contents (Elt F) → (⟨S4000000, .i32⟩ : BufTy).Contents (Elt F)) (Vf U main_call5_v2) := by
  have hpos : (line (F := F))[116]? = (hostOps1_11 (F := F))[18]? := rfl
  have hop : (hostOps1_11 (F := F))[18]? = some (StableHlo.TRef.unary (τ := τ) (Val := Elt F) main_call5_call0.v0 (.of main_call5_v13 : StableHlo.TRef sig ⟨S4000000, .i32⟩) (broadcastInDim S4000000 ![] bcast_S_S4000000)) := rfl
  have h1 := final_of_at (writes (F := F)) Writes.nil 116 (hpos.trans hop) (y := main_call5_v13) (not_mem_of_idx (by decide +kernel)) U
  have hb0 := final_of_before (writes (F := F)) Writes.nil 116 (a := main_call5_v2) (not_mem_of_idx (by decide +kernel)) U
  unfold Vf
  rw [h1, hb0]
  generalize after (List.take 116 (line (F := F))) U = V
  refine (unary_result _ _ _ _ _ V).trans ?_
  first | erw [Cert.Lib.RefCasts.toBuf_self, Cert.Lib.RefCasts.ofBuf_self] | erw [Cert.Lib.RefCasts.toBuf_self]
theorem st_main_call5_v14 : Vf U main_call5_v14 = (addi : (⟨S4000000, .i32⟩ : BufTy).Contents (Elt F) → (⟨S4000000, .i32⟩ : BufTy).Contents (Elt F) → (⟨S4000000, .i32⟩ : BufTy).Contents (Elt F)) (Vf U main_call5_v4) (Vf U main_call5_v13) := by
  have hpos : (line (F := F))[117]? = (hostOps1_11 (F := F))[19]? := rfl
  have hop : (hostOps1_11 (F := F))[19]? = some (StableHlo.TRef.binary (τ := τ) (Val := Elt F) (.of main_call5_v4 : StableHlo.TRef sig ⟨S4000000, .i32⟩) (.of main_call5_v13 : StableHlo.TRef sig ⟨S4000000, .i32⟩) (.of main_call5_v14 : StableHlo.TRef sig ⟨S4000000, .i32⟩) addi) := rfl
  have h1 := final_of_at (writes (F := F)) Writes.nil 117 (hpos.trans hop) (y := main_call5_v14) (not_mem_of_idx (by decide +kernel)) U
  have hb0 := final_of_before (writes (F := F)) Writes.nil 117 (a := main_call5_v4) (not_mem_of_idx (by decide +kernel)) U
  have hb1 := final_of_before (writes (F := F)) Writes.nil 117 (a := main_call5_v13) (not_mem_of_idx (by decide +kernel)) U
  unfold Vf
  rw [h1, hb0, hb1]
  generalize after (List.take 117 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v47 : Vf U main_v47 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call5_v12) (Vf U main_call5_v14) (Vf U main_call5_v4) := by
  have hpos : (line (F := F))[118]? = (hostOps1_11 (F := F))[20]? := rfl
  have hop : (hostOps1_11 (F := F))[20]? = some (StableHlo.TRef.ternary (τ := τ) (Val := Elt F) (.of main_call5_v12 : StableHlo.TRef sig ⟨S4000000, .i1⟩) (.of main_call5_v14 : StableHlo.TRef sig ⟨S4000000, .i32⟩) (.of main_call5_v4 : StableHlo.TRef sig ⟨S4000000, .i32⟩) (.of main_v47 : StableHlo.TRef sig ⟨S4000000, .i32⟩) select) := rfl
  have h1 := final_of_at (writes (F := F)) Writes.nil 118 (hpos.trans hop) (y := main_v47) (not_mem_of_idx (by decide +kernel)) U
  have hb0 := final_of_before (writes (F := F)) Writes.nil 118 (a := main_call5_v12) (not_mem_of_idx (by decide +kernel)) U
  have hb1 := final_of_before (writes (F := F)) Writes.nil 118 (a := main_call5_v14) (not_mem_of_idx (by decide +kernel)) U
  have hb2 := final_of_before (writes (F := F)) Writes.nil 118 (a := main_call5_v4) (not_mem_of_idx (by decide +kernel)) U
  unfold Vf
  rw [h1, hb0, hb1, hb2]
  generalize after (List.take 118 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_13 : Vf U main_c_13 = (constantI S_ 32 400#32) :=
  read_nullary (writes (F := F)) Writes.nil 119 rfl (not_mem_of_idx (by decide +kernel)) U
theorem st_main_call6_v0 : Vf U main_call6_v0 = (id : (⟨S_, .i32⟩ : BufTy).Contents (Elt F) → (⟨S_, .i32⟩ : BufTy).Contents (Elt F)) (Vf U main_c_13) := by
  have hpos : (line (F := F))[120]? = (hostOps1_13 (F := F))[0]? := rfl
  have hop : (hostOps1_13 (F := F))[0]? = some (StableHlo.TRef.unary (τ := τ) (Val := Elt F) (.of main_c_13 : StableHlo.TRef sig ⟨S_, .i32⟩) (.of main_call6_v0 : StableHlo.TRef sig ⟨S_, .i32⟩) id) := rfl
  have h1 := final_of_at (writes (F := F)) Writes.nil 120 (hpos.trans hop) (y := main_call6_v0) (not_mem_of_idx (by decide +kernel)) U
  have hb0 := final_of_before (writes (F := F)) Writes.nil 120 (a := main_c_13) (not_mem_of_idx (by decide +kernel)) U
  unfold Vf
  rw [h1, hb0]
  generalize after (List.take 120 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v1 : Vf U main_call6_v1 = ((broadcastInDim S4000000 ![] bcast_S_S4000000) : (⟨S_, .i32⟩ : BufTy).Contents (Elt F) → (⟨S4000000, .i32⟩ : BufTy).Contents (Elt F)) (Vf U main_call6_v0) := by
  have hpos : (line (F := F))[121]? = (hostOps1_13 (F := F))[1]? := rfl
  have hop : (hostOps1_13 (F := F))[1]? = some (StableHlo.TRef.unary (τ := τ) (Val := Elt F) (.of main_call6_v0 : StableHlo.TRef sig ⟨S_, .i32⟩) (.of main_call6_v1 : StableHlo.TRef sig ⟨S4000000, .i32⟩) (broadcastInDim S4000000 ![] bcast_S_S4000000)) := rfl
  have h1 := final_of_at (writes (F := F)) Writes.nil 121 (hpos.trans hop) (y := main_call6_v1) (not_mem_of_idx (by decide +kernel)) U
  have hb0 := final_of_before (writes (F := F)) Writes.nil 121 (a := main_call6_v0) (not_mem_of_idx (by decide +kernel)) U
  unfold Vf
  rw [h1, hb0]
  generalize after (List.take 121 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v2 : Vf U main_call6_v2 = (Host.divsi : (⟨S4000000, .i32⟩ : BufTy).Contents (Elt F) → (⟨S4000000, .i32⟩ : BufTy).Contents (Elt F) → (⟨S4000000, .i32⟩ : BufTy).Contents (Elt F)) (Vf U main_v46) (Vf U main_call6_v1) := by
  have hpos : (line (F := F))[122]? = (hostOps1_13 (F := F))[2]? := rfl
  have hop : (hostOps1_13 (F := F))[2]? = some (StableHlo.TRef.binary (τ := τ) (Val := Elt F) (.of main_v46 : StableHlo.TRef sig ⟨S4000000, .i32⟩) (.of main_call6_v1 : StableHlo.TRef sig ⟨S4000000, .i32⟩) (.of main_call6_v2 : StableHlo.TRef sig ⟨S4000000, .i32⟩) Host.divsi) := rfl
  have h1 := final_of_at (writes (F := F)) Writes.nil 122 (hpos.trans hop) (y := main_call6_v2) (not_mem_of_idx (by decide +kernel)) U
  have hb0 := final_of_before (writes (F := F)) Writes.nil 122 (a := main_v46) (not_mem_of_idx (by decide +kernel)) U
  have hb1 := final_of_before (writes (F := F)) Writes.nil 122 (a := main_call6_v1) (not_mem_of_idx (by decide +kernel)) U
  unfold Vf
  rw [h1, hb0, hb1]
  generalize after (List.take 122 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call6_v3 : Vf U main_call6_v3 = (signi : (⟨S4000000, .i32⟩ : BufTy).Contents (Elt F) → (⟨S4000000, .i32⟩ : BufTy).Contents (Elt F)) (Vf U main_v46) := by
  have hpos : (line (F := F))[123]? = (hostOps1_13 (F := F))[3]? := rfl
  have hop : (hostOps1_13 (F := F))[3]? = some (StableHlo.TRef.unary (τ := τ) (Val := Elt F) (.of main_v46 : StableHlo.TRef sig ⟨S4000000, .i32⟩) (.of main_call6_v3 : StableHlo.TRef sig ⟨S4000000, .i32⟩) signi) := rfl
  have h1 := final_of_at (writes (F := F)) Writes.nil 123 (hpos.trans hop) (y := main_call6_v3) (not_mem_of_idx (by decide +kernel)) U
  have hb0 := final_of_before (writes (F := F)) Writes.nil 123 (a := main_v46) (not_mem_of_idx (by decide +kernel)) U
  unfold Vf
  rw [h1, hb0]
  generalize after (List.take 123 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v4 : Vf U main_call6_v4 = (signi : (⟨S_, .i32⟩ : BufTy).Contents (Elt F) → (⟨S_, .i32⟩ : BufTy).Contents (Elt F)) (Vf U main_call6_v0) := by
  have hpos : (line (F := F))[124]? = (hostOps1_13 (F := F))[4]? := rfl
  have hop : (hostOps1_13 (F := F))[4]? = some (StableHlo.TRef.unary (τ := τ) (Val := Elt F) (.of main_call6_v0 : StableHlo.TRef sig ⟨S_, .i32⟩) (.of main_call6_v4 : StableHlo.TRef sig ⟨S_, .i32⟩) signi) := rfl
  have h1 := final_of_at (writes (F := F)) Writes.nil 124 (hpos.trans hop) (y := main_call6_v4) (not_mem_of_idx (by decide +kernel)) U
  have hb0 := final_of_before (writes (F := F)) Writes.nil 124 (a := main_call6_v0) (not_mem_of_idx (by decide +kernel)) U
  unfold Vf
  rw [h1, hb0]
  generalize after (List.take 124 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v5 : Vf U main_call6_v5 = ((broadcastInDim S4000000 ![] bcast_S_S4000000) : (⟨S_, .i32⟩ : BufTy).Contents (Elt F) → (⟨S4000000, .i32⟩ : BufTy).Contents (Elt F)) (Vf U main_call6_v4) := by
  have hpos : (line (F := F))[125]? = (hostOps1_13 (F := F))[5]? := rfl
  have hop : (hostOps1_13 (F := F))[5]? = some (StableHlo.TRef.unary (τ := τ) (Val := Elt F) (.of main_call6_v4 : StableHlo.TRef sig ⟨S_, .i32⟩) (.of main_call6_v5 : StableHlo.TRef sig ⟨S4000000, .i32⟩) (broadcastInDim S4000000 ![] bcast_S_S4000000)) := rfl
  have h1 := final_of_at (writes (F := F)) Writes.nil 125 (hpos.trans hop) (y := main_call6_v5) (not_mem_of_idx (by decide +kernel)) U
  have hb0 := final_of_before (writes (F := F)) Writes.nil 125 (a := main_call6_v4) (not_mem_of_idx (by decide +kernel)) U
  unfold Vf
  rw [h1, hb0]
  generalize after (List.take 125 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v6 : Vf U main_call6_v6 = ((cmpi .ne) : (⟨S4000000, .i32⟩ : BufTy).Contents (Elt F) → (⟨S4000000, .i32⟩ : BufTy).Contents (Elt F) → (⟨S4000000, .i1⟩ : BufTy).Contents (Elt F)) (Vf U main_call6_v3) (Vf U main_call6_v5) := by
  have hpos : (line (F := F))[126]? = (hostOps1_13 (F := F))[6]? := rfl
  have hop : (hostOps1_13 (F := F))[6]? = some (StableHlo.TRef.binary (τ := τ) (Val := Elt F) (.of main_call6_v3 : StableHlo.TRef sig ⟨S4000000, .i32⟩) (.of main_call6_v5 : StableHlo.TRef sig ⟨S4000000, .i32⟩) (.of main_call6_v6 : StableHlo.TRef sig ⟨S4000000, .i1⟩) (cmpi .ne)) := rfl
  have h1 := final_of_at (writes (F := F)) Writes.nil 126 (hpos.trans hop) (y := main_call6_v6) (not_mem_of_idx (by decide +kernel)) U
  have hb0 := final_of_before (writes (F := F)) Writes.nil 126 (a := main_call6_v3) (not_mem_of_idx (by decide +kernel)) U
  have hb1 := final_of_before (writes (F := F)) Writes.nil 126 (a := main_call6_v5) (not_mem_of_idx (by decide +kernel)) U
  unfold Vf
  rw [h1, hb0, hb1]
  generalize after (List.take 126 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call6_v7 : Vf U main_call6_v7 = ((broadcastInDim S4000000 ![] bcast_S_S4000000) : (⟨S_, .i32⟩ : BufTy).Contents (Elt F) → (⟨S4000000, .i32⟩ : BufTy).Contents (Elt F)) (Vf U main_call6_v0) := by
  have hpos : (line (F := F))[127]? = (hostOps1_13 (F := F))[7]? := rfl
  have hop : (hostOps1_13 (F := F))[7]? = some (StableHlo.TRef.unary (τ := τ) (Val := Elt F) (.of main_call6_v0 : StableHlo.TRef sig ⟨S_, .i32⟩) (.of main_call6_v7 : StableHlo.TRef sig ⟨S4000000, .i32⟩) (broadcastInDim S4000000 ![] bcast_S_S4000000)) := rfl
  have h1 := final_of_at (writes (F := F)) Writes.nil 127 (hpos.trans hop) (y := main_call6_v7) (not_mem_of_idx (by decide +kernel)) U
  have hb0 := final_of_before (writes (F := F)) Writes.nil 127 (a := main_call6_v0) (not_mem_of_idx (by decide +kernel)) U
  unfold Vf
  rw [h1, hb0]
  generalize after (List.take 127 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v8 : Vf U main_call6_v8 = (Host.remsi : (⟨S4000000, .i32⟩ : BufTy).Contents (Elt F) → (⟨S4000000, .i32⟩ : BufTy).Contents (Elt F) → (⟨S4000000, .i32⟩ : BufTy).Contents (Elt F)) (Vf U main_v46) (Vf U main_call6_v7) := by
  have hpos : (line (F := F))[128]? = (hostOps1_13 (F := F))[8]? := rfl
  have hop : (hostOps1_13 (F := F))[8]? = some (StableHlo.TRef.binary (τ := τ) (Val := Elt F) (.of main_v46 : StableHlo.TRef sig ⟨S4000000, .i32⟩) (.of main_call6_v7 : StableHlo.TRef sig ⟨S4000000, .i32⟩) (.of main_call6_v8 : StableHlo.TRef sig ⟨S4000000, .i32⟩) Host.remsi) := rfl
  have h1 := final_of_at (writes (F := F)) Writes.nil 128 (hpos.trans hop) (y := main_call6_v8) (not_mem_of_idx (by decide +kernel)) U
  have hb0 := final_of_before (writes (F := F)) Writes.nil 128 (a := main_v46) (not_mem_of_idx (by decide +kernel)) U
  have hb1 := final_of_before (writes (F := F)) Writes.nil 128 (a := main_call6_v7) (not_mem_of_idx (by decide +kernel)) U
  unfold Vf
  rw [h1, hb0, hb1]
  generalize after (List.take 128 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call6_c : Vf U main_call6_c = (constantI S_ 32 0#32) := by
  have hpos : (line (F := F))[129]? = (hostOps1_13 (F := F))[9]? := rfl
  have hop : (hostOps1_13 (F := F))[9]? = some (StableHlo.TRef.nullary (τ := τ) (Val := Elt F) (.of main_call6_c : StableHlo.TRef sig ⟨S_, .i32⟩) (constantI S_ 32 0#32)) := rfl
  have h1 := final_of_at (writes (F := F)) Writes.nil 129 (hpos.trans hop) (y := main_call6_c) (not_mem_of_idx (by decide +kernel)) U

  unfold Vf
  rw [h1]
  generalize after (List.take 129 (line (F := F))) U = V
  refine (nullary_result _ _ _ V).trans ?_
  first | erw [Cert.Lib.RefCasts.toBuf_self]
theorem st_main_call6_v9 : Vf U main_call6_v9 = ((broadcastInDim S4000000 ![] bcast_S_S4000000) : (⟨S_, .i32⟩ : BufTy).Contents (Elt F) → (⟨S4000000, .i32⟩ : BufTy).Contents (Elt F)) (Vf U main_call6_c) := by
  have hpos : (line (F := F))[130]? = (hostOps1_13 (F := F))[10]? := rfl
  have hop : (hostOps1_13 (F := F))[10]? = some (StableHlo.TRef.unary (τ := τ) (Val := Elt F) (.of main_call6_c : StableHlo.TRef sig ⟨S_, .i32⟩) (.of main_call6_v9 : StableHlo.TRef sig ⟨S4000000, .i32⟩) (broadcastInDim S4000000 ![] bcast_S_S4000000)) := rfl
  have h1 := final_of_at (writes (F := F)) Writes.nil 130 (hpos.trans hop) (y := main_call6_v9) (not_mem_of_idx (by decide +kernel)) U
  have hb0 := final_of_before (writes (F := F)) Writes.nil 130 (a := main_call6_c) (not_mem_of_idx (by decide +kernel)) U
  unfold Vf
  rw [h1, hb0]
  generalize after (List.take 130 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v10 : Vf U main_call6_v10 = ((cmpi .ne) : (⟨S4000000, .i32⟩ : BufTy).Contents (Elt F) → (⟨S4000000, .i32⟩ : BufTy).Contents (Elt F) → (⟨S4000000, .i1⟩ : BufTy).Contents (Elt F)) (Vf U main_call6_v8) (Vf U main_call6_v9) := by
  have hpos : (line (F := F))[131]? = (hostOps1_13 (F := F))[11]? := rfl
  have hop : (hostOps1_13 (F := F))[11]? = some (StableHlo.TRef.binary (τ := τ) (Val := Elt F) (.of main_call6_v8 : StableHlo.TRef sig ⟨S4000000, .i32⟩) (.of main_call6_v9 : StableHlo.TRef sig ⟨S4000000, .i32⟩) (.of main_call6_v10 : StableHlo.TRef sig ⟨S4000000, .i1⟩) (cmpi .ne)) := rfl
  have h1 := final_of_at (writes (F := F)) Writes.nil 131 (hpos.trans hop) (y := main_call6_v10) (not_mem_of_idx (by decide +kernel)) U
  have hb0 := final_of_before (writes (F := F)) Writes.nil 131 (a := main_call6_v8) (not_mem_of_idx (by decide +kernel)) U
  have hb1 := final_of_before (writes (F := F)) Writes.nil 131 (a := main_call6_v9) (not_mem_of_idx (by decide +kernel)) U
  unfold Vf
  rw [h1, hb0, hb1]
  generalize after (List.take 131 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call6_v11 : Vf U main_call6_v11 = (andi : (⟨S4000000, .i1⟩ : BufTy).Contents (Elt F) → (⟨S4000000, .i1⟩ : BufTy).Contents (Elt F) → (⟨S4000000, .i1⟩ : BufTy).Contents (Elt F)) (Vf U main_call6_v6) (Vf U main_call6_v10) := by
  have hpos : (line (F := F))[132]? = (hostOps1_13 (F := F))[12]? := rfl
  have hop : (hostOps1_13 (F := F))[12]? = some (StableHlo.TRef.binary (τ := τ) (Val := Elt F) (.of main_call6_v6 : StableHlo.TRef sig ⟨S4000000, .i1⟩) (.of main_call6_v10 : StableHlo.TRef sig ⟨S4000000, .i1⟩) (.of main_call6_v11 : StableHlo.TRef sig ⟨S4000000, .i1⟩) andi) := rfl
  have h1 := final_of_at (writes (F := F)) Writes.nil 132 (hpos.trans hop) (y := main_call6_v11) (not_mem_of_idx (by decide +kernel)) U
  have hb0 := final_of_before (writes (F := F)) Writes.nil 132 (a := main_call6_v6) (not_mem_of_idx (by decide +kernel)) U
  have hb1 := final_of_before (writes (F := F)) Writes.nil 132 (a := main_call6_v10) (not_mem_of_idx (by decide +kernel)) U
  unfold Vf
  rw [h1, hb0, hb1]
  generalize after (List.take 132 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call6_c_0 : Vf U main_call6_c_0 = (constantI S_ 32 1#32) := by
  have hpos : (line (F := F))[133]? = (hostOps1_13 (F := F))[13]? := rfl
  have hop : (hostOps1_13 (F := F))[13]? = some (StableHlo.TRef.nullary (τ := τ) (Val := Elt F) (.of main_call6_c_0 : StableHlo.TRef sig ⟨S_, .i32⟩) (constantI S_ 32 1#32)) := rfl
  have h1 := final_of_at (writes (F := F)) Writes.nil 133 (hpos.trans hop) (y := main_call6_c_0) (not_mem_of_idx (by decide +kernel)) U

  unfold Vf
  rw [h1]
  generalize after (List.take 133 (line (F := F))) U = V
  refine (nullary_result _ _ _ V).trans ?_
  first | erw [Cert.Lib.RefCasts.toBuf_self]
theorem st_main_call6_v12 : Vf U main_call6_v12 = ((broadcastInDim S4000000 ![] bcast_S_S4000000) : (⟨S_, .i32⟩ : BufTy).Contents (Elt F) → (⟨S4000000, .i32⟩ : BufTy).Contents (Elt F)) (Vf U main_call6_c_0) := by
  have hpos : (line (F := F))[134]? = (hostOps1_13 (F := F))[14]? := rfl
  have hop : (hostOps1_13 (F := F))[14]? = some (StableHlo.TRef.unary (τ := τ) (Val := Elt F) (.of main_call6_c_0 : StableHlo.TRef sig ⟨S_, .i32⟩) (.of main_call6_v12 : StableHlo.TRef sig ⟨S4000000, .i32⟩) (broadcastInDim S4000000 ![] bcast_S_S4000000)) := rfl
  have h1 := final_of_at (writes (F := F)) Writes.nil 134 (hpos.trans hop) (y := main_call6_v12) (not_mem_of_idx (by decide +kernel)) U
  have hb0 := final_of_before (writes (F := F)) Writes.nil 134 (a := main_call6_c_0) (not_mem_of_idx (by decide +kernel)) U
  unfold Vf
  rw [h1, hb0]
  generalize after (List.take 134 (line (F := F))) U = V
  refine (unary_result _ _ _ _ _ V).trans ?_
  first | erw [Cert.Lib.RefCasts.toBuf_self, Cert.Lib.RefCasts.ofBuf_self] | erw [Cert.Lib.RefCasts.toBuf_self]
theorem st_main_call6_v13 : Vf U main_call6_v13 = (subi : (⟨S4000000, .i32⟩ : BufTy).Contents (Elt F) → (⟨S4000000, .i32⟩ : BufTy).Contents (Elt F) → (⟨S4000000, .i32⟩ : BufTy).Contents (Elt F)) (Vf U main_call6_v2) (Vf U main_call6_v12) := by
  have hpos : (line (F := F))[135]? = (hostOps1_13 (F := F))[15]? := rfl
  have hop : (hostOps1_13 (F := F))[15]? = some (StableHlo.TRef.binary (τ := τ) (Val := Elt F) (.of main_call6_v2 : StableHlo.TRef sig ⟨S4000000, .i32⟩) (.of main_call6_v12 : StableHlo.TRef sig ⟨S4000000, .i32⟩) (.of main_call6_v13 : StableHlo.TRef sig ⟨S4000000, .i32⟩) subi) := rfl
  have h1 := final_of_at (writes (F := F)) Writes.nil 135 (hpos.trans hop) (y := main_call6_v13) (not_mem_of_idx (by decide +kernel)) U
  have hb0 := final_of_before (writes (F := F)) Writes.nil 135 (a := main_call6_v2) (not_mem_of_idx (by decide +kernel)) U
  have hb1 := final_of_before (writes (F := F)) Writes.nil 135 (a := main_call6_v12) (not_mem_of_idx (by decide +kernel)) U
  unfold Vf
  rw [h1, hb0, hb1]
  generalize after (List.take 135 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v48 : Vf U main_v48 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call6_v11) (Vf U main_call6_v13) (Vf U main_call6_v2) := by
  have hpos : (line (F := F))[136]? = (hostOps1_13 (F := F))[16]? := rfl
  have hop : (hostOps1_13 (F := F))[16]? = some (StableHlo.TRef.ternary (τ := τ) (Val := Elt F) (.of main_call6_v11 : StableHlo.TRef sig ⟨S4000000, .i1⟩) (.of main_call6_v13 : StableHlo.TRef sig ⟨S4000000, .i32⟩) (.of main_call6_v2 : StableHlo.TRef sig ⟨S4000000, .i32⟩) (.of main_v48 : StableHlo.TRef sig ⟨S4000000, .i32⟩) select) := rfl
  have h1 := final_of_at (writes (F := F)) Writes.nil 136 (hpos.trans hop) (y := main_v48) (not_mem_of_idx (by decide +kernel)) U
  have hb0 := final_of_before (writes (F := F)) Writes.nil 136 (a := main_call6_v11) (not_mem_of_idx (by decide +kernel)) U
  have hb1 := final_of_before (writes (F := F)) Writes.nil 136 (a := main_call6_v13) (not_mem_of_idx (by decide +kernel)) U
  have hb2 := final_of_before (writes (F := F)) Writes.nil 136 (a := main_call6_v2) (not_mem_of_idx (by decide +kernel)) U
  unfold Vf
  rw [h1, hb0, hb1, hb2]
  generalize after (List.take 136 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_14 : Vf U main_c_14 = (constantI S_ 32 1#32) :=
  read_nullary (writes (F := F)) Writes.nil 137 rfl (not_mem_of_idx (by decide +kernel)) U
theorem st_main_call7_v0 : Vf U main_call7_v0 = (id : (⟨S_, .i32⟩ : BufTy).Contents (Elt F) → (⟨S_, .i32⟩ : BufTy).Contents (Elt F)) (Vf U main_c_14) := by
  have hpos : (line (F := F))[138]? = (hostOps1_15 (F := F))[0]? := rfl
  have hop : (hostOps1_15 (F := F))[0]? = some (StableHlo.TRef.unary (τ := τ) (Val := Elt F) (.of main_c_14 : StableHlo.TRef sig ⟨S_, .i32⟩) (.of main_call7_v0 : StableHlo.TRef sig ⟨S_, .i32⟩) id) := rfl
  have h1 := final_of_at (writes (F := F)) Writes.nil 138 (hpos.trans hop) (y := main_call7_v0) (not_mem_of_idx (by decide +kernel)) U
  have hb0 := final_of_before (writes (F := F)) Writes.nil 138 (a := main_c_14) (not_mem_of_idx (by decide +kernel)) U
  unfold Vf
  rw [h1, hb0]
  generalize after (List.take 138 (line (F := F))) U = V
  refine (unary_result _ _ _ _ _ V).trans ?_
  first | erw [Cert.Lib.RefCasts.toBuf_self, Cert.Lib.RefCasts.ofBuf_self] | erw [Cert.Lib.RefCasts.toBuf_self]
theorem st_main_call7_c : Vf U main_call7_c = (constantI S_ 32 0#32) := by
  have hpos : (line (F := F))[139]? = (hostOps1_15 (F := F))[1]? := rfl
  have hop : (hostOps1_15 (F := F))[1]? = some (StableHlo.TRef.nullary (τ := τ) (Val := Elt F) (.of main_call7_c : StableHlo.TRef sig ⟨S_, .i32⟩) (constantI S_ 32 0#32)) := rfl
  have h1 := final_of_at (writes (F := F)) Writes.nil 139 (hpos.trans hop) (y := main_call7_c) (not_mem_of_idx (by decide +kernel)) U

  unfold Vf
  rw [h1]
  generalize after (List.take 139 (line (F := F))) U = V
  refine (nullary_result _ _ _ V).trans ?_
  first | erw [Cert.Lib.RefCasts.toBuf_self]
theorem st_main_call7_v1 : Vf U main_call7_v1 = ((cmpi .eq) : (⟨S_, .i32⟩ : BufTy).Contents (Elt F) → (⟨S_, .i32⟩ : BufTy).Contents (Elt F) → (⟨S_, .i1⟩ : BufTy).Contents (Elt F)) (Vf U main_call7_v0) (Vf U main_call7_c) := by
  have hpos : (line (F := F))[140]? = (hostOps1_15 (F := F))[2]? := rfl
  have hop : (hostOps1_15 (F := F))[2]? = some (StableHlo.TRef.binary (τ := τ) (Val := Elt F) (.of main_call7_v0 : StableHlo.TRef sig ⟨S_, .i32⟩) (.of main_call7_c : StableHlo.TRef sig ⟨S_, .i32⟩) (.of main_call7_v1 : StableHlo.TRef sig ⟨S_, .i1⟩) (cmpi .eq)) := rfl
  have h1 := final_of_at (writes (F := F)) Writes.nil 140 (hpos.trans hop) (y := main_call7_v1) (not_mem_of_idx (by decide +kernel)) U
  have hb0 := final_of_before (writes (F := F)) Writes.nil 140 (a := main_call7_v0) (not_mem_of_idx (by decide +kernel)) U
  have hb1 := final_of_before (writes (F := F)) Writes.nil 140 (a := main_call7_c) (not_mem_of_idx (by decide +kernel)) U
  unfold Vf
  rw [h1, hb0, hb1]
  generalize after (List.take 140 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_c_0 : Vf U main_call7_c_0 = (constantI S_ 32 1#32) := by
  have hpos : (line (F := F))[141]? = (hostOps1_15 (F := F))[3]? := rfl
  have hop : (hostOps1_15 (F := F))[3]? = some (StableHlo.TRef.nullary (τ := τ) (Val := Elt F) (.of main_call7_c_0 : StableHlo.TRef sig ⟨S_, .i32⟩) (constantI S_ 32 1#32)) := rfl
  have h1 := final_of_at (writes (F := F)) Writes.nil 141 (hpos.trans hop) (y := main_call7_c_0) (not_mem_of_idx (by decide +kernel)) U

  unfold Vf
  rw [h1]
  generalize after (List.take 141 (line (F := F))) U = V
  refine (nullary_result _ _ _ V).trans ?_
  first | erw [Cert.Lib.RefCasts.toBuf_self]
theorem st_main_call7_v2 : Vf U main_call7_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (Vf U main_call7_v1) (Vf U main_call7_c_0) (Vf U main_call7_v0) := by
  have hpos : (line (F := F))[142]? = (hostOps1_15 (F := F))[4]? := rfl
  have hop : (hostOps1_15 (F := F))[4]? = some (StableHlo.TRef.ternary (τ := τ) (Val := Elt F) (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select) := rfl
  have h1 := final_of_at (writes (F := F)) Writes.nil 142 (hpos.trans hop) (y := main_call7_v2) (not_mem_of_idx (by decide +kernel)) U
  have hb0 := final_of_before (writes (F := F)) Writes.nil 142 (a := main_call7_v1) (not_mem_of_idx (by decide +kernel)) U
  have hb1 := final_of_before (writes (F := F)) Writes.nil 142 (a := main_call7_c_0) (not_mem_of_idx (by decide +kernel)) U
  have hb2 := final_of_before (writes (F := F)) Writes.nil 142 (a := main_call7_v0) (not_mem_of_idx (by decide +kernel)) U
  unfold Vf
  rw [h1, hb0, hb1, hb2]
  generalize after (List.take 142 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_v3 : Vf U main_call7_v3 = ((broadcastInDim S4000000 ![] bcast_S_S4000000) : (⟨S_, .i32⟩ : BufTy).Contents (Elt F) → (⟨S4000000, .i32⟩ : BufTy).Contents (Elt F)) (Vf U main_call7_v2) := by
  have hpos : (line (F := F))[143]? = (hostOps1_15 (F := F))[5]? := rfl
  have hop : (hostOps1_15 (F := F))[5]? = some (StableHlo.TRef.unary (τ := τ) (Val := Elt F) main_call7_call0.v0 (.of main_call7_v3 : StableHlo.TRef sig ⟨S4000000, .i32⟩) (broadcastInDim S4000000 ![] bcast_S_S4000000)) := rfl
  have h1 := final_of_at (writes (F := F)) Writes.nil 143 (hpos.trans hop) (y := main_call7_v3) (not_mem_of_idx (by decide +kernel)) U
  have hb0 := final_of_before (writes (F := F)) Writes.nil 143 (a := main_call7_v2) (not_mem_of_idx (by decide +kernel)) U
  unfold Vf
  rw [h1, hb0]
  generalize after (List.take 143 (line (F := F))) U = V
  refine (unary_result _ _ _ _ _ V).trans ?_
  first | erw [Cert.Lib.RefCasts.toBuf_self, Cert.Lib.RefCasts.ofBuf_self] | erw [Cert.Lib.RefCasts.toBuf_self]
theorem st_main_call7_v4 : Vf U main_call7_v4 = (Host.remsi : (⟨S4000000, .i32⟩ : BufTy).Contents (Elt F) → (⟨S4000000, .i32⟩ : BufTy).Contents (Elt F) → (⟨S4000000, .i32⟩ : BufTy).Contents (Elt F)) (Vf U main_v48) (Vf U main_call7_v3) := by
  have hpos : (line (F := F))[144]? = (hostOps1_15 (F := F))[6]? := rfl
  have hop : (hostOps1_15 (F := F))[6]? = some (StableHlo.TRef.binary (τ := τ) (Val := Elt F) (.of main_v48 : StableHlo.TRef sig ⟨S4000000, .i32⟩) (.of main_call7_v3 : StableHlo.TRef sig ⟨S4000000, .i32⟩) (.of main_call7_v4 : StableHlo.TRef sig ⟨S4000000, .i32⟩) Host.remsi) := rfl
  have h1 := final_of_at (writes (F := F)) Writes.nil 144 (hpos.trans hop) (y := main_call7_v4) (not_mem_of_idx (by decide +kernel)) U
  have hb0 := final_of_before (writes (F := F)) Writes.nil 144 (a := main_v48) (not_mem_of_idx (by decide +kernel)) U
  have hb1 := final_of_before (writes (F := F)) Writes.nil 144 (a := main_call7_v3) (not_mem_of_idx (by decide +kernel)) U
  unfold Vf
  rw [h1, hb0, hb1]
  generalize after (List.take 144 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_c_1 : Vf U main_call7_c_1 = (constantI S_ 32 0#32) := by
  have hpos : (line (F := F))[145]? = (hostOps1_15 (F := F))[7]? := rfl
  have hop : (hostOps1_15 (F := F))[7]? = some (StableHlo.TRef.nullary (τ := τ) (Val := Elt F) (.of main_call7_c_1 : StableHlo.TRef sig ⟨S_, .i32⟩) (constantI S_ 32 0#32)) := rfl
  have h1 := final_of_at (writes (F := F)) Writes.nil 145 (hpos.trans hop) (y := main_call7_c_1) (not_mem_of_idx (by decide +kernel)) U

  unfold Vf
  rw [h1]
  generalize after (List.take 145 (line (F := F))) U = V
  refine (nullary_result _ _ _ V).trans ?_
  first | erw [Cert.Lib.RefCasts.toBuf_self]
theorem st_main_call7_v5 : Vf U main_call7_v5 = ((broadcastInDim S4000000 ![] bcast_S_S4000000) : (⟨S_, .i32⟩ : BufTy).Contents (Elt F) → (⟨S4000000, .i32⟩ : BufTy).Contents (Elt F)) (Vf U main_call7_c_1) := by
  have hpos : (line (F := F))[146]? = (hostOps1_15 (F := F))[8]? := rfl
  have hop : (hostOps1_15 (F := F))[8]? = some (StableHlo.TRef.unary (τ := τ) (Val := Elt F) (.of main_call7_c_1 : StableHlo.TRef sig ⟨S_, .i32⟩) (.of main_call7_v5 : StableHlo.TRef sig ⟨S4000000, .i32⟩) (broadcastInDim S4000000 ![] bcast_S_S4000000)) := rfl
  have h1 := final_of_at (writes (F := F)) Writes.nil 146 (hpos.trans hop) (y := main_call7_v5) (not_mem_of_idx (by decide +kernel)) U
  have hb0 := final_of_before (writes (F := F)) Writes.nil 146 (a := main_call7_c_1) (not_mem_of_idx (by decide +kernel)) U
  unfold Vf
  rw [h1, hb0]
  generalize after (List.take 146 (line (F := F))) U = V
  refine (unary_result _ _ _ _ _ V).trans ?_
  first | erw [Cert.Lib.RefCasts.toBuf_self, Cert.Lib.RefCasts.ofBuf_self] | erw [Cert.Lib.RefCasts.toBuf_self]
theorem st_main_call7_v6 : Vf U main_call7_v6 = ((cmpi .ne) : (⟨S4000000, .i32⟩ : BufTy).Contents (Elt F) → (⟨S4000000, .i32⟩ : BufTy).Contents (Elt F) → (⟨S4000000, .i1⟩ : BufTy).Contents (Elt F)) (Vf U main_call7_v4) (Vf U main_call7_v5) := by
  have hpos : (line (F := F))[147]? = (hostOps1_15 (F := F))[9]? := rfl
  have hop : (hostOps1_15 (F := F))[9]? = some (StableHlo.TRef.binary (τ := τ) (Val := Elt F) (.of main_call7_v4 : StableHlo.TRef sig ⟨S4000000, .i32⟩) (.of main_call7_v5 : StableHlo.TRef sig ⟨S4000000, .i32⟩) (.of main_call7_v6 : StableHlo.TRef sig ⟨S4000000, .i1⟩) (cmpi .ne)) := rfl
  have h1 := final_of_at (writes (F := F)) Writes.nil 147 (hpos.trans hop) (y := main_call7_v6) (not_mem_of_idx (by decide +kernel)) U
  have hb0 := final_of_before (writes (F := F)) Writes.nil 147 (a := main_call7_v4) (not_mem_of_idx (by decide +kernel)) U
  have hb1 := final_of_before (writes (F := F)) Writes.nil 147 (a := main_call7_v5) (not_mem_of_idx (by decide +kernel)) U
  unfold Vf
  rw [h1, hb0, hb1]
  generalize after (List.take 147 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_c_2 : Vf U main_call7_c_2 = (constantI S_ 32 0#32) := by
  have hpos : (line (F := F))[148]? = (hostOps1_15 (F := F))[10]? := rfl
  have hop : (hostOps1_15 (F := F))[10]? = some (StableHlo.TRef.nullary (τ := τ) (Val := Elt F) (.of main_call7_c_2 : StableHlo.TRef sig ⟨S_, .i32⟩) (constantI S_ 32 0#32)) := rfl
  have h1 := final_of_at (writes (F := F)) Writes.nil 148 (hpos.trans hop) (y := main_call7_c_2) (not_mem_of_idx (by decide +kernel)) U

  unfold Vf
  rw [h1]
  generalize after (List.take 148 (line (F := F))) U = V
  refine (nullary_result _ _ _ V).trans ?_
  first | erw [Cert.Lib.RefCasts.toBuf_self]
theorem st_main_call7_v7 : Vf U main_call7_v7 = ((broadcastInDim S4000000 ![] bcast_S_S4000000) : (⟨S_, .i32⟩ : BufTy).Contents (Elt F) → (⟨S4000000, .i32⟩ : BufTy).Contents (Elt F)) (Vf U main_call7_c_2) := by
  have hpos : (line (F := F))[149]? = (hostOps1_15 (F := F))[11]? := rfl
  have hop : (hostOps1_15 (F := F))[11]? = some (StableHlo.TRef.unary (τ := τ) (Val := Elt F) (.of main_call7_c_2 : StableHlo.TRef sig ⟨S_, .i32⟩) (.of main_call7_v7 : StableHlo.TRef sig ⟨S4000000, .i32⟩) (broadcastInDim S4000000 ![] bcast_S_S4000000)) := rfl
  have h1 := final_of_at (writes (F := F)) Writes.nil 149 (hpos.trans hop) (y := main_call7_v7) (not_mem_of_idx (by decide +kernel)) U
  have hb0 := final_of_before (writes (F := F)) Writes.nil 149 (a := main_call7_c_2) (not_mem_of_idx (by decide +kernel)) U
  unfold Vf
  rw [h1, hb0]
  generalize after (List.take 149 (line (F := F))) U = V
  refine (unary_result _ _ _ _ _ V).trans ?_
  first | erw [Cert.Lib.RefCasts.toBuf_self, Cert.Lib.RefCasts.ofBuf_self] | erw [Cert.Lib.RefCasts.toBuf_self]
theorem st_main_call7_v8 : Vf U main_call7_v8 = ((cmpi .slt) : (⟨S4000000, .i32⟩ : BufTy).Contents (Elt F) → (⟨S4000000, .i32⟩ : BufTy).Contents (Elt F) → (⟨S4000000, .i1⟩ : BufTy).Contents (Elt F)) (Vf U main_call7_v4) (Vf U main_call7_v7) := by
  have hpos : (line (F := F))[150]? = (hostOps1_15 (F := F))[12]? := rfl
  have hop : (hostOps1_15 (F := F))[12]? = some (StableHlo.TRef.binary (τ := τ) (Val := Elt F) (.of main_call7_v4 : StableHlo.TRef sig ⟨S4000000, .i32⟩) (.of main_call7_v7 : StableHlo.TRef sig ⟨S4000000, .i32⟩) (.of main_call7_v8 : StableHlo.TRef sig ⟨S4000000, .i1⟩) (cmpi .slt)) := rfl
  have h1 := final_of_at (writes (F := F)) Writes.nil 150 (hpos.trans hop) (y := main_call7_v8) (not_mem_of_idx (by decide +kernel)) U
  have hb0 := final_of_before (writes (F := F)) Writes.nil 150 (a := main_call7_v4) (not_mem_of_idx (by decide +kernel)) U
  have hb1 := final_of_before (writes (F := F)) Writes.nil 150 (a := main_call7_v7) (not_mem_of_idx (by decide +kernel)) U
  unfold Vf
  rw [h1, hb0, hb1]
  generalize after (List.take 150 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_c_3 : Vf U main_call7_c_3 = (constantI S_ 32 0#32) := by
  have hpos : (line (F := F))[151]? = (hostOps1_15 (F := F))[13]? := rfl
  have hop : (hostOps1_15 (F := F))[13]? = some (StableHlo.TRef.nullary (τ := τ) (Val := Elt F) (.of main_call7_c_3 : StableHlo.TRef sig ⟨S_, .i32⟩) (constantI S_ 32 0#32)) := rfl
  have h1 := final_of_at (writes (F := F)) Writes.nil 151 (hpos.trans hop) (y := main_call7_c_3) (not_mem_of_idx (by decide +kernel)) U

  unfold Vf
  rw [h1]
  generalize after (List.take 151 (line (F := F))) U = V
  refine (nullary_result _ _ _ V).trans ?_
  first | erw [Cert.Lib.RefCasts.toBuf_self]
theorem st_main_call7_v9 : Vf U main_call7_v9 = ((cmpi .slt) : (⟨S_, .i32⟩ : BufTy).Contents (Elt F) → (⟨S_, .i32⟩ : BufTy).Contents (Elt F) → (⟨S_, .i1⟩ : BufTy).Contents (Elt F)) (Vf U main_call7_v2) (Vf U main_call7_c_3) := by
  have hpos : (line (F := F))[152]? = (hostOps1_15 (F := F))[14]? := rfl
  have hop : (hostOps1_15 (F := F))[14]? = some (StableHlo.TRef.binary (τ := τ) (Val := Elt F) main_call7_call0.v0 (.of main_call7_c_3 : StableHlo.TRef sig ⟨S_, .i32⟩) (.of main_call7_v9 : StableHlo.TRef sig ⟨S_, .i1⟩) (cmpi .slt)) := rfl
  have h1 := final_of_at (writes (F := F)) Writes.nil 152 (hpos.trans hop) (y := main_call7_v9) (not_mem_of_idx (by decide +kernel)) U
  have hb0 := final_of_before (writes (F := F)) Writes.nil 152 (a := main_call7_v2) (not_mem_of_idx (by decide +kernel)) U
  have hb1 := final_of_before (writes (F := F)) Writes.nil 152 (a := main_call7_c_3) (not_mem_of_idx (by decide +kernel)) U
  unfold Vf
  rw [h1, hb0, hb1]
  generalize after (List.take 152 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]

end Cert.KernelIdeal.Stages

end
-- ==== Proof.KernelIdealStages4.lean ====
/-
  Stage equations, part 4 of 4: one equation per host operation (see the base module for the scheme).
-/
import proofs.«129221_j18588618457298_2_alg».proof.Proof.KernelIdealStages

set_option maxRecDepth 16384

noncomputable section

namespace Cert.KernelIdeal.Stages

open Idealize.ShloMosaic Idealize.ShloMosaic.TcCoe Idealize.SL.Sem Idealize.ShloMosaic.StableHlo
open Cert.Lib.SingleAssignment
open Cert.KernelIdeal Cert.KernelIdeal.Gen Cert.KernelIdeal.Host

variable {F : FTy → Type} [FloatOps F]

variable (U : Valuation τ sig (Elt F))

theorem st_main_call7_v10 : Vf U main_call7_v10 = ((broadcastInDim S4000000 ![] bcast_S_S4000000) : (⟨S_, .i1⟩ : BufTy).Contents (Elt F) → (⟨S4000000, .i1⟩ : BufTy).Contents (Elt F)) (Vf U main_call7_v9) := by
  have hpos : (line (F := F))[153]? = (hostOps1_15 (F := F))[15]? := rfl
  have hop : (hostOps1_15 (F := F))[15]? = some (StableHlo.TRef.unary (τ := τ) (Val := Elt F) (.of main_call7_v9 : StableHlo.TRef sig ⟨S_, .i1⟩) (.of main_call7_v10 : StableHlo.TRef sig ⟨S4000000, .i1⟩) (broadcastInDim S4000000 ![] bcast_S_S4000000)) := rfl
  have h1 := final_of_at (writes (F := F)) Writes.nil 153 (hpos.trans hop) (y := main_call7_v10) (not_mem_of_idx (by decide +kernel)) U
  have hb0 := final_of_before (writes (F := F)) Writes.nil 153 (a := main_call7_v9) (not_mem_of_idx (by decide +kernel)) U
  unfold Vf
  rw [h1, hb0]
  generalize after (List.take 153 (line (F := F))) U = V
  refine (unary_result _ _ _ _ _ V).trans ?_
  first | erw [Cert.Lib.RefCasts.toBuf_self, Cert.Lib.RefCasts.ofBuf_self] | erw [Cert.Lib.RefCasts.toBuf_self]
theorem st_main_call7_v11 : Vf U main_call7_v11 = ((cmpi .ne) : (⟨S4000000, .i1⟩ : BufTy).Contents (Elt F) → (⟨S4000000, .i1⟩ : BufTy).Contents (Elt F) → (⟨S4000000, .i1⟩ : BufTy).Contents (Elt F)) (Vf U main_call7_v8) (Vf U main_call7_v10) := by
  have hpos : (line (F := F))[154]? = (hostOps1_15 (F := F))[16]? := rfl
  have hop : (hostOps1_15 (F := F))[16]? = some (StableHlo.TRef.binary (τ := τ) (Val := Elt F) (.of main_call7_v8 : StableHlo.TRef sig ⟨S4000000, .i1⟩) (.of main_call7_v10 : StableHlo.TRef sig ⟨S4000000, .i1⟩) (.of main_call7_v11 : StableHlo.TRef sig ⟨S4000000, .i1⟩) (cmpi .ne)) := rfl
  have h1 := final_of_at (writes (F := F)) Writes.nil 154 (hpos.trans hop) (y := main_call7_v11) (not_mem_of_idx (by decide +kernel)) U
  have hb0 := final_of_before (writes (F := F)) Writes.nil 154 (a := main_call7_v8) (not_mem_of_idx (by decide +kernel)) U
  have hb1 := final_of_before (writes (F := F)) Writes.nil 154 (a := main_call7_v10) (not_mem_of_idx (by decide +kernel)) U
  unfold Vf
  rw [h1, hb0, hb1]
  generalize after (List.take 154 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_v12 : Vf U main_call7_v12 = (andi : (⟨S4000000, .i1⟩ : BufTy).Contents (Elt F) → (⟨S4000000, .i1⟩ : BufTy).Contents (Elt F) → (⟨S4000000, .i1⟩ : BufTy).Contents (Elt F)) (Vf U main_call7_v11) (Vf U main_call7_v6) := by
  have hpos : (line (F := F))[155]? = (hostOps1_15 (F := F))[17]? := rfl
  have hop : (hostOps1_15 (F := F))[17]? = some (StableHlo.TRef.binary (τ := τ) (Val := Elt F) (.of main_call7_v11 : StableHlo.TRef sig ⟨S4000000, .i1⟩) (.of main_call7_v6 : StableHlo.TRef sig ⟨S4000000, .i1⟩) (.of main_call7_v12 : StableHlo.TRef sig ⟨S4000000, .i1⟩) andi) := rfl
  have h1 := final_of_at (writes (F := F)) Writes.nil 155 (hpos.trans hop) (y := main_call7_v12) (not_mem_of_idx (by decide +kernel)) U
  have hb0 := final_of_before (writes (F := F)) Writes.nil 155 (a := main_call7_v11) (not_mem_of_idx (by decide +kernel)) U
  have hb1 := final_of_before (writes (F := F)) Writes.nil 155 (a := main_call7_v6) (not_mem_of_idx (by decide +kernel)) U
  unfold Vf
  rw [h1, hb0, hb1]
  generalize after (List.take 155 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call7_v13 : Vf U main_call7_v13 = ((broadcastInDim S4000000 ![] bcast_S_S4000000) : (⟨S_, .i32⟩ : BufTy).Contents (Elt F) → (⟨S4000000, .i32⟩ : BufTy).Contents (Elt F)) (Vf U main_call7_v2) := by
  have hpos : (line (F := F))[156]? = (hostOps1_15 (F := F))[18]? := rfl
  have hop : (hostOps1_15 (F := F))[18]? = some (StableHlo.TRef.unary (τ := τ) (Val := Elt F) main_call7_call0.v0 (.of main_call7_v13 : StableHlo.TRef sig ⟨S4000000, .i32⟩) (broadcastInDim S4000000 ![] bcast_S_S4000000)) := rfl
  have h1 := final_of_at (writes (F := F)) Writes.nil 156 (hpos.trans hop) (y := main_call7_v13) (not_mem_of_idx (by decide +kernel)) U
  have hb0 := final_of_before (writes (F := F)) Writes.nil 156 (a := main_call7_v2) (not_mem_of_idx (by decide +kernel)) U
  unfold Vf
  rw [h1, hb0]
  generalize after (List.take 156 (line (F := F))) U = V
  refine (unary_result _ _ _ _ _ V).trans ?_
  first | erw [Cert.Lib.RefCasts.toBuf_self, Cert.Lib.RefCasts.ofBuf_self] | erw [Cert.Lib.RefCasts.toBuf_self]
theorem st_main_call7_v14 : Vf U main_call7_v14 = (addi : (⟨S4000000, .i32⟩ : BufTy).Contents (Elt F) → (⟨S4000000, .i32⟩ : BufTy).Contents (Elt F) → (⟨S4000000, .i32⟩ : BufTy).Contents (Elt F)) (Vf U main_call7_v4) (Vf U main_call7_v13) := by
  have hpos : (line (F := F))[157]? = (hostOps1_15 (F := F))[19]? := rfl
  have hop : (hostOps1_15 (F := F))[19]? = some (StableHlo.TRef.binary (τ := τ) (Val := Elt F) (.of main_call7_v4 : StableHlo.TRef sig ⟨S4000000, .i32⟩) (.of main_call7_v13 : StableHlo.TRef sig ⟨S4000000, .i32⟩) (.of main_call7_v14 : StableHlo.TRef sig ⟨S4000000, .i32⟩) addi) := rfl
  have h1 := final_of_at (writes (F := F)) Writes.nil 157 (hpos.trans hop) (y := main_call7_v14) (not_mem_of_idx (by decide +kernel)) U
  have hb0 := final_of_before (writes (F := F)) Writes.nil 157 (a := main_call7_v4) (not_mem_of_idx (by decide +kernel)) U
  have hb1 := final_of_before (writes (F := F)) Writes.nil 157 (a := main_call7_v13) (not_mem_of_idx (by decide +kernel)) U
  unfold Vf
  rw [h1, hb0, hb1]
  generalize after (List.take 157 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v49 : Vf U main_v49 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call7_v12) (Vf U main_call7_v14) (Vf U main_call7_v4) := by
  have hpos : (line (F := F))[158]? = (hostOps1_15 (F := F))[20]? := rfl
  have hop : (hostOps1_15 (F := F))[20]? = some (StableHlo.TRef.ternary (τ := τ) (Val := Elt F) (.of main_call7_v12 : StableHlo.TRef sig ⟨S4000000, .i1⟩) (.of main_call7_v14 : StableHlo.TRef sig ⟨S4000000, .i32⟩) (.of main_call7_v4 : StableHlo.TRef sig ⟨S4000000, .i32⟩) (.of main_v49 : StableHlo.TRef sig ⟨S4000000, .i32⟩) select) := rfl
  have h1 := final_of_at (writes (F := F)) Writes.nil 158 (hpos.trans hop) (y := main_v49) (not_mem_of_idx (by decide +kernel)) U
  have hb0 := final_of_before (writes (F := F)) Writes.nil 158 (a := main_call7_v12) (not_mem_of_idx (by decide +kernel)) U
  have hb1 := final_of_before (writes (F := F)) Writes.nil 158 (a := main_call7_v14) (not_mem_of_idx (by decide +kernel)) U
  have hb2 := final_of_before (writes (F := F)) Writes.nil 158 (a := main_call7_v4) (not_mem_of_idx (by decide +kernel)) U
  unfold Vf
  rw [h1, hb0, hb1, hb2]
  generalize after (List.take 158 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_c_15 : Vf U main_c_15 = (constantI S_ 32 1#32) :=
  read_nullary (writes (F := F)) Writes.nil 159 rfl (not_mem_of_idx (by decide +kernel)) U
theorem st_main_call8_v0 : Vf U main_call8_v0 = (id : (⟨S_, .i32⟩ : BufTy).Contents (Elt F) → (⟨S_, .i32⟩ : BufTy).Contents (Elt F)) (Vf U main_c_15) := by
  have hpos : (line (F := F))[160]? = (hostOps1_17 (F := F))[0]? := rfl
  have hop : (hostOps1_17 (F := F))[0]? = some (StableHlo.TRef.unary (τ := τ) (Val := Elt F) (.of main_c_15 : StableHlo.TRef sig ⟨S_, .i32⟩) (.of main_call8_v0 : StableHlo.TRef sig ⟨S_, .i32⟩) id) := rfl
  have h1 := final_of_at (writes (F := F)) Writes.nil 160 (hpos.trans hop) (y := main_call8_v0) (not_mem_of_idx (by decide +kernel)) U
  have hb0 := final_of_before (writes (F := F)) Writes.nil 160 (a := main_c_15) (not_mem_of_idx (by decide +kernel)) U
  unfold Vf
  rw [h1, hb0]
  generalize after (List.take 160 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v1 : Vf U main_call8_v1 = ((broadcastInDim S4000000 ![] bcast_S_S4000000) : (⟨S_, .i32⟩ : BufTy).Contents (Elt F) → (⟨S4000000, .i32⟩ : BufTy).Contents (Elt F)) (Vf U main_call8_v0) := by
  have hpos : (line (F := F))[161]? = (hostOps1_17 (F := F))[1]? := rfl
  have hop : (hostOps1_17 (F := F))[1]? = some (StableHlo.TRef.unary (τ := τ) (Val := Elt F) (.of main_call8_v0 : StableHlo.TRef sig ⟨S_, .i32⟩) (.of main_call8_v1 : StableHlo.TRef sig ⟨S4000000, .i32⟩) (broadcastInDim S4000000 ![] bcast_S_S4000000)) := rfl
  have h1 := final_of_at (writes (F := F)) Writes.nil 161 (hpos.trans hop) (y := main_call8_v1) (not_mem_of_idx (by decide +kernel)) U
  have hb0 := final_of_before (writes (F := F)) Writes.nil 161 (a := main_call8_v0) (not_mem_of_idx (by decide +kernel)) U
  unfold Vf
  rw [h1, hb0]
  generalize after (List.take 161 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v2 : Vf U main_call8_v2 = (Host.divsi : (⟨S4000000, .i32⟩ : BufTy).Contents (Elt F) → (⟨S4000000, .i32⟩ : BufTy).Contents (Elt F) → (⟨S4000000, .i32⟩ : BufTy).Contents (Elt F)) (Vf U main_v48) (Vf U main_call8_v1) := by
  have hpos : (line (F := F))[162]? = (hostOps1_17 (F := F))[2]? := rfl
  have hop : (hostOps1_17 (F := F))[2]? = some (StableHlo.TRef.binary (τ := τ) (Val := Elt F) (.of main_v48 : StableHlo.TRef sig ⟨S4000000, .i32⟩) (.of main_call8_v1 : StableHlo.TRef sig ⟨S4000000, .i32⟩) (.of main_call8_v2 : StableHlo.TRef sig ⟨S4000000, .i32⟩) Host.divsi) := rfl
  have h1 := final_of_at (writes (F := F)) Writes.nil 162 (hpos.trans hop) (y := main_call8_v2) (not_mem_of_idx (by decide +kernel)) U
  have hb0 := final_of_before (writes (F := F)) Writes.nil 162 (a := main_v48) (not_mem_of_idx (by decide +kernel)) U
  have hb1 := final_of_before (writes (F := F)) Writes.nil 162 (a := main_call8_v1) (not_mem_of_idx (by decide +kernel)) U
  unfold Vf
  rw [h1, hb0, hb1]
  generalize after (List.take 162 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call8_v3 : Vf U main_call8_v3 = (signi : (⟨S4000000, .i32⟩ : BufTy).Contents (Elt F) → (⟨S4000000, .i32⟩ : BufTy).Contents (Elt F)) (Vf U main_v48) := by
  have hpos : (line (F := F))[163]? = (hostOps1_17 (F := F))[3]? := rfl
  have hop : (hostOps1_17 (F := F))[3]? = some (StableHlo.TRef.unary (τ := τ) (Val := Elt F) (.of main_v48 : StableHlo.TRef sig ⟨S4000000, .i32⟩) (.of main_call8_v3 : StableHlo.TRef sig ⟨S4000000, .i32⟩) signi) := rfl
  have h1 := final_of_at (writes (F := F)) Writes.nil 163 (hpos.trans hop) (y := main_call8_v3) (not_mem_of_idx (by decide +kernel)) U
  have hb0 := final_of_before (writes (F := F)) Writes.nil 163 (a := main_v48) (not_mem_of_idx (by decide +kernel)) U
  unfold Vf
  rw [h1, hb0]
  generalize after (List.take 163 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v4 : Vf U main_call8_v4 = (signi : (⟨S_, .i32⟩ : BufTy).Contents (Elt F) → (⟨S_, .i32⟩ : BufTy).Contents (Elt F)) (Vf U main_call8_v0) := by
  have hpos : (line (F := F))[164]? = (hostOps1_17 (F := F))[4]? := rfl
  have hop : (hostOps1_17 (F := F))[4]? = some (StableHlo.TRef.unary (τ := τ) (Val := Elt F) (.of main_call8_v0 : StableHlo.TRef sig ⟨S_, .i32⟩) (.of main_call8_v4 : StableHlo.TRef sig ⟨S_, .i32⟩) signi) := rfl
  have h1 := final_of_at (writes (F := F)) Writes.nil 164 (hpos.trans hop) (y := main_call8_v4) (not_mem_of_idx (by decide +kernel)) U
  have hb0 := final_of_before (writes (F := F)) Writes.nil 164 (a := main_call8_v0) (not_mem_of_idx (by decide +kernel)) U
  unfold Vf
  rw [h1, hb0]
  generalize after (List.take 164 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v5 : Vf U main_call8_v5 = ((broadcastInDim S4000000 ![] bcast_S_S4000000) : (⟨S_, .i32⟩ : BufTy).Contents (Elt F) → (⟨S4000000, .i32⟩ : BufTy).Contents (Elt F)) (Vf U main_call8_v4) := by
  have hpos : (line (F := F))[165]? = (hostOps1_17 (F := F))[5]? := rfl
  have hop : (hostOps1_17 (F := F))[5]? = some (StableHlo.TRef.unary (τ := τ) (Val := Elt F) (.of main_call8_v4 : StableHlo.TRef sig ⟨S_, .i32⟩) (.of main_call8_v5 : StableHlo.TRef sig ⟨S4000000, .i32⟩) (broadcastInDim S4000000 ![] bcast_S_S4000000)) := rfl
  have h1 := final_of_at (writes (F := F)) Writes.nil 165 (hpos.trans hop) (y := main_call8_v5) (not_mem_of_idx (by decide +kernel)) U
  have hb0 := final_of_before (writes (F := F)) Writes.nil 165 (a := main_call8_v4) (not_mem_of_idx (by decide +kernel)) U
  unfold Vf
  rw [h1, hb0]
  generalize after (List.take 165 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v6 : Vf U main_call8_v6 = ((cmpi .ne) : (⟨S4000000, .i32⟩ : BufTy).Contents (Elt F) → (⟨S4000000, .i32⟩ : BufTy).Contents (Elt F) → (⟨S4000000, .i1⟩ : BufTy).Contents (Elt F)) (Vf U main_call8_v3) (Vf U main_call8_v5) := by
  have hpos : (line (F := F))[166]? = (hostOps1_17 (F := F))[6]? := rfl
  have hop : (hostOps1_17 (F := F))[6]? = some (StableHlo.TRef.binary (τ := τ) (Val := Elt F) (.of main_call8_v3 : StableHlo.TRef sig ⟨S4000000, .i32⟩) (.of main_call8_v5 : StableHlo.TRef sig ⟨S4000000, .i32⟩) (.of main_call8_v6 : StableHlo.TRef sig ⟨S4000000, .i1⟩) (cmpi .ne)) := rfl
  have h1 := final_of_at (writes (F := F)) Writes.nil 166 (hpos.trans hop) (y := main_call8_v6) (not_mem_of_idx (by decide +kernel)) U
  have hb0 := final_of_before (writes (F := F)) Writes.nil 166 (a := main_call8_v3) (not_mem_of_idx (by decide +kernel)) U
  have hb1 := final_of_before (writes (F := F)) Writes.nil 166 (a := main_call8_v5) (not_mem_of_idx (by decide +kernel)) U
  unfold Vf
  rw [h1, hb0, hb1]
  generalize after (List.take 166 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call8_v7 : Vf U main_call8_v7 = ((broadcastInDim S4000000 ![] bcast_S_S4000000) : (⟨S_, .i32⟩ : BufTy).Contents (Elt F) → (⟨S4000000, .i32⟩ : BufTy).Contents (Elt F)) (Vf U main_call8_v0) := by
  have hpos : (line (F := F))[167]? = (hostOps1_17 (F := F))[7]? := rfl
  have hop : (hostOps1_17 (F := F))[7]? = some (StableHlo.TRef.unary (τ := τ) (Val := Elt F) (.of main_call8_v0 : StableHlo.TRef sig ⟨S_, .i32⟩) (.of main_call8_v7 : StableHlo.TRef sig ⟨S4000000, .i32⟩) (broadcastInDim S4000000 ![] bcast_S_S4000000)) := rfl
  have h1 := final_of_at (writes (F := F)) Writes.nil 167 (hpos.trans hop) (y := main_call8_v7) (not_mem_of_idx (by decide +kernel)) U
  have hb0 := final_of_before (writes (F := F)) Writes.nil 167 (a := main_call8_v0) (not_mem_of_idx (by decide +kernel)) U
  unfold Vf
  rw [h1, hb0]
  generalize after (List.take 167 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v8 : Vf U main_call8_v8 = (Host.remsi : (⟨S4000000, .i32⟩ : BufTy).Contents (Elt F) → (⟨S4000000, .i32⟩ : BufTy).Contents (Elt F) → (⟨S4000000, .i32⟩ : BufTy).Contents (Elt F)) (Vf U main_v48) (Vf U main_call8_v7) := by
  have hpos : (line (F := F))[168]? = (hostOps1_17 (F := F))[8]? := rfl
  have hop : (hostOps1_17 (F := F))[8]? = some (StableHlo.TRef.binary (τ := τ) (Val := Elt F) (.of main_v48 : StableHlo.TRef sig ⟨S4000000, .i32⟩) (.of main_call8_v7 : StableHlo.TRef sig ⟨S4000000, .i32⟩) (.of main_call8_v8 : StableHlo.TRef sig ⟨S4000000, .i32⟩) Host.remsi) := rfl
  have h1 := final_of_at (writes (F := F)) Writes.nil 168 (hpos.trans hop) (y := main_call8_v8) (not_mem_of_idx (by decide +kernel)) U
  have hb0 := final_of_before (writes (F := F)) Writes.nil 168 (a := main_v48) (not_mem_of_idx (by decide +kernel)) U
  have hb1 := final_of_before (writes (F := F)) Writes.nil 168 (a := main_call8_v7) (not_mem_of_idx (by decide +kernel)) U
  unfold Vf
  rw [h1, hb0, hb1]
  generalize after (List.take 168 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call8_c : Vf U main_call8_c = (constantI S_ 32 0#32) := by
  have hpos : (line (F := F))[169]? = (hostOps1_17 (F := F))[9]? := rfl
  have hop : (hostOps1_17 (F := F))[9]? = some (StableHlo.TRef.nullary (τ := τ) (Val := Elt F) (.of main_call8_c : StableHlo.TRef sig ⟨S_, .i32⟩) (constantI S_ 32 0#32)) := rfl
  have h1 := final_of_at (writes (F := F)) Writes.nil 169 (hpos.trans hop) (y := main_call8_c) (not_mem_of_idx (by decide +kernel)) U

  unfold Vf
  rw [h1]
  generalize after (List.take 169 (line (F := F))) U = V
  refine (nullary_result _ _ _ V).trans ?_
  first | erw [Cert.Lib.RefCasts.toBuf_self]
theorem st_main_call8_v9 : Vf U main_call8_v9 = ((broadcastInDim S4000000 ![] bcast_S_S4000000) : (⟨S_, .i32⟩ : BufTy).Contents (Elt F) → (⟨S4000000, .i32⟩ : BufTy).Contents (Elt F)) (Vf U main_call8_c) := by
  have hpos : (line (F := F))[170]? = (hostOps1_17 (F := F))[10]? := rfl
  have hop : (hostOps1_17 (F := F))[10]? = some (StableHlo.TRef.unary (τ := τ) (Val := Elt F) (.of main_call8_c : StableHlo.TRef sig ⟨S_, .i32⟩) (.of main_call8_v9 : StableHlo.TRef sig ⟨S4000000, .i32⟩) (broadcastInDim S4000000 ![] bcast_S_S4000000)) := rfl
  have h1 := final_of_at (writes (F := F)) Writes.nil 170 (hpos.trans hop) (y := main_call8_v9) (not_mem_of_idx (by decide +kernel)) U
  have hb0 := final_of_before (writes (F := F)) Writes.nil 170 (a := main_call8_c) (not_mem_of_idx (by decide +kernel)) U
  unfold Vf
  rw [h1, hb0]
  generalize after (List.take 170 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v10 : Vf U main_call8_v10 = ((cmpi .ne) : (⟨S4000000, .i32⟩ : BufTy).Contents (Elt F) → (⟨S4000000, .i32⟩ : BufTy).Contents (Elt F) → (⟨S4000000, .i1⟩ : BufTy).Contents (Elt F)) (Vf U main_call8_v8) (Vf U main_call8_v9) := by
  have hpos : (line (F := F))[171]? = (hostOps1_17 (F := F))[11]? := rfl
  have hop : (hostOps1_17 (F := F))[11]? = some (StableHlo.TRef.binary (τ := τ) (Val := Elt F) (.of main_call8_v8 : StableHlo.TRef sig ⟨S4000000, .i32⟩) (.of main_call8_v9 : StableHlo.TRef sig ⟨S4000000, .i32⟩) (.of main_call8_v10 : StableHlo.TRef sig ⟨S4000000, .i1⟩) (cmpi .ne)) := rfl
  have h1 := final_of_at (writes (F := F)) Writes.nil 171 (hpos.trans hop) (y := main_call8_v10) (not_mem_of_idx (by decide +kernel)) U
  have hb0 := final_of_before (writes (F := F)) Writes.nil 171 (a := main_call8_v8) (not_mem_of_idx (by decide +kernel)) U
  have hb1 := final_of_before (writes (F := F)) Writes.nil 171 (a := main_call8_v9) (not_mem_of_idx (by decide +kernel)) U
  unfold Vf
  rw [h1, hb0, hb1]
  generalize after (List.take 171 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call8_v11 : Vf U main_call8_v11 = (andi : (⟨S4000000, .i1⟩ : BufTy).Contents (Elt F) → (⟨S4000000, .i1⟩ : BufTy).Contents (Elt F) → (⟨S4000000, .i1⟩ : BufTy).Contents (Elt F)) (Vf U main_call8_v6) (Vf U main_call8_v10) := by
  have hpos : (line (F := F))[172]? = (hostOps1_17 (F := F))[12]? := rfl
  have hop : (hostOps1_17 (F := F))[12]? = some (StableHlo.TRef.binary (τ := τ) (Val := Elt F) (.of main_call8_v6 : StableHlo.TRef sig ⟨S4000000, .i1⟩) (.of main_call8_v10 : StableHlo.TRef sig ⟨S4000000, .i1⟩) (.of main_call8_v11 : StableHlo.TRef sig ⟨S4000000, .i1⟩) andi) := rfl
  have h1 := final_of_at (writes (F := F)) Writes.nil 172 (hpos.trans hop) (y := main_call8_v11) (not_mem_of_idx (by decide +kernel)) U
  have hb0 := final_of_before (writes (F := F)) Writes.nil 172 (a := main_call8_v6) (not_mem_of_idx (by decide +kernel)) U
  have hb1 := final_of_before (writes (F := F)) Writes.nil 172 (a := main_call8_v10) (not_mem_of_idx (by decide +kernel)) U
  unfold Vf
  rw [h1, hb0, hb1]
  generalize after (List.take 172 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_call8_c_0 : Vf U main_call8_c_0 = (constantI S_ 32 1#32) := by
  have hpos : (line (F := F))[173]? = (hostOps1_17 (F := F))[13]? := rfl
  have hop : (hostOps1_17 (F := F))[13]? = some (StableHlo.TRef.nullary (τ := τ) (Val := Elt F) (.of main_call8_c_0 : StableHlo.TRef sig ⟨S_, .i32⟩) (constantI S_ 32 1#32)) := rfl
  have h1 := final_of_at (writes (F := F)) Writes.nil 173 (hpos.trans hop) (y := main_call8_c_0) (not_mem_of_idx (by decide +kernel)) U

  unfold Vf
  rw [h1]
  generalize after (List.take 173 (line (F := F))) U = V
  refine (nullary_result _ _ _ V).trans ?_
  first | erw [Cert.Lib.RefCasts.toBuf_self]
theorem st_main_call8_v12 : Vf U main_call8_v12 = ((broadcastInDim S4000000 ![] bcast_S_S4000000) : (⟨S_, .i32⟩ : BufTy).Contents (Elt F) → (⟨S4000000, .i32⟩ : BufTy).Contents (Elt F)) (Vf U main_call8_c_0) := by
  have hpos : (line (F := F))[174]? = (hostOps1_17 (F := F))[14]? := rfl
  have hop : (hostOps1_17 (F := F))[14]? = some (StableHlo.TRef.unary (τ := τ) (Val := Elt F) (.of main_call8_c_0 : StableHlo.TRef sig ⟨S_, .i32⟩) (.of main_call8_v12 : StableHlo.TRef sig ⟨S4000000, .i32⟩) (broadcastInDim S4000000 ![] bcast_S_S4000000)) := rfl
  have h1 := final_of_at (writes (F := F)) Writes.nil 174 (hpos.trans hop) (y := main_call8_v12) (not_mem_of_idx (by decide +kernel)) U
  have hb0 := final_of_before (writes (F := F)) Writes.nil 174 (a := main_call8_c_0) (not_mem_of_idx (by decide +kernel)) U
  unfold Vf
  rw [h1, hb0]
  generalize after (List.take 174 (line (F := F))) U = V
  refine (unary_result _ _ _ _ _ V).trans ?_
  first | erw [Cert.Lib.RefCasts.toBuf_self, Cert.Lib.RefCasts.ofBuf_self] | erw [Cert.Lib.RefCasts.toBuf_self]
theorem st_main_call8_v13 : Vf U main_call8_v13 = (subi : (⟨S4000000, .i32⟩ : BufTy).Contents (Elt F) → (⟨S4000000, .i32⟩ : BufTy).Contents (Elt F) → (⟨S4000000, .i32⟩ : BufTy).Contents (Elt F)) (Vf U main_call8_v2) (Vf U main_call8_v12) := by
  have hpos : (line (F := F))[175]? = (hostOps1_17 (F := F))[15]? := rfl
  have hop : (hostOps1_17 (F := F))[15]? = some (StableHlo.TRef.binary (τ := τ) (Val := Elt F) (.of main_call8_v2 : StableHlo.TRef sig ⟨S4000000, .i32⟩) (.of main_call8_v12 : StableHlo.TRef sig ⟨S4000000, .i32⟩) (.of main_call8_v13 : StableHlo.TRef sig ⟨S4000000, .i32⟩) subi) := rfl
  have h1 := final_of_at (writes (F := F)) Writes.nil 175 (hpos.trans hop) (y := main_call8_v13) (not_mem_of_idx (by decide +kernel)) U
  have hb0 := final_of_before (writes (F := F)) Writes.nil 175 (a := main_call8_v2) (not_mem_of_idx (by decide +kernel)) U
  have hb1 := final_of_before (writes (F := F)) Writes.nil 175 (a := main_call8_v12) (not_mem_of_idx (by decide +kernel)) U
  unfold Vf
  rw [h1, hb0, hb1]
  generalize after (List.take 175 (line (F := F))) U = V
  refine (binary_result _ _ _ _ _ _ _ V).trans ?_
  first | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v50 : Vf U main_v50 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_call8_v11) (Vf U main_call8_v13) (Vf U main_call8_v2) := by
  have hpos : (line (F := F))[176]? = (hostOps1_17 (F := F))[16]? := rfl
  have hop : (hostOps1_17 (F := F))[16]? = some (StableHlo.TRef.ternary (τ := τ) (Val := Elt F) (.of main_call8_v11 : StableHlo.TRef sig ⟨S4000000, .i1⟩) (.of main_call8_v13 : StableHlo.TRef sig ⟨S4000000, .i32⟩) (.of main_call8_v2 : StableHlo.TRef sig ⟨S4000000, .i32⟩) (.of main_v50 : StableHlo.TRef sig ⟨S4000000, .i32⟩) select) := rfl
  have h1 := final_of_at (writes (F := F)) Writes.nil 176 (hpos.trans hop) (y := main_v50) (not_mem_of_idx (by decide +kernel)) U
  have hb0 := final_of_before (writes (F := F)) Writes.nil 176 (a := main_call8_v11) (not_mem_of_idx (by decide +kernel)) U
  have hb1 := final_of_before (writes (F := F)) Writes.nil 176 (a := main_call8_v13) (not_mem_of_idx (by decide +kernel)) U
  have hb2 := final_of_before (writes (F := F)) Writes.nil 176 (a := main_call8_v2) (not_mem_of_idx (by decide +kernel)) U
  unfold Vf
  rw [h1, hb0, hb1, hb2]
  generalize after (List.take 176 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v51 : Vf U main_v51 = (broadcastInDim S4000000x1 ![0] bcast_S4000000_S4000000x1_0 : (⟨S4000000, .i32⟩ : BufTy).Contents (Elt F) → (⟨S4000000x1, .i32⟩ : BufTy).Contents (Elt F)) (Vf U main_v50) :=
  read_unary (writes (F := F)) Writes.nil 177 rfl (not_mem_of_idx (by decide +kernel)) (not_mem_of_idx (by decide +kernel)) U
theorem st_main_v52 : Vf U main_v52 = (broadcastInDim S4000000x1 ![0] bcast_S4000000_S4000000x1_0 : (⟨S4000000, .i32⟩ : BufTy).Contents (Elt F) → (⟨S4000000x1, .i32⟩ : BufTy).Contents (Elt F)) (Vf U main_v49) :=
  read_unary (writes (F := F)) Writes.nil 178 rfl (not_mem_of_idx (by decide +kernel)) (not_mem_of_idx (by decide +kernel)) U
theorem st_main_v53 : Vf U main_v53 = (broadcastInDim S4000000x1 ![0] bcast_S4000000_S4000000x1_0 : (⟨S4000000, .i32⟩ : BufTy).Contents (Elt F) → (⟨S4000000x1, .i32⟩ : BufTy).Contents (Elt F)) (Vf U main_v47) :=
  read_unary (writes (F := F)) Writes.nil 179 rfl (not_mem_of_idx (by decide +kernel)) (not_mem_of_idx (by decide +kernel)) U
theorem st_main_v54 : Vf U main_v54 = (broadcastInDim S4000000x1 ![0] bcast_S4000000_S4000000x1_0 : (⟨S4000000, .i32⟩ : BufTy).Contents (Elt F) → (⟨S4000000x1, .i32⟩ : BufTy).Contents (Elt F)) (Vf U main_v45) :=
  read_unary (writes (F := F)) Writes.nil 180 rfl (not_mem_of_idx (by decide +kernel)) (not_mem_of_idx (by decide +kernel)) U
theorem st_main_v55 : Vf U main_v55 = (fun u => concatenate S4000000x4 1 [⟨S4000000x1, u 0⟩, ⟨S4000000x1, u 1⟩, ⟨S4000000x1, u 2⟩, ⟨S4000000x1, u 3⟩] concatenates_S4000000x1_S4000000x1_S4000000x1_S4000000x1_S4000000x4_d1) (fun k : Fin 4 => match k with | ⟨0, _⟩ => Vf U main_v51 | ⟨1, _⟩ => Vf U main_v52 | ⟨2, _⟩ => Vf U main_v53 | ⟨3, _⟩ => Vf U main_v54) := by
  have h := read_nary (writes (F := F)) Writes.nil 181 rfl (fun i => by fin_cases i <;> exact not_mem_of_idx (by decide +kernel)) (not_mem_of_idx (by decide +kernel)) U
  exact h
theorem st_main_v56 : Vf U main_v56 = (broadcastInDim S4000000x1 ![0] bcast_S4000000_S4000000x1_0 : (⟨S4000000, .i1⟩ : BufTy).Contents (Elt F) → (⟨S4000000x1, .i1⟩ : BufTy).Contents (Elt F)) (Vf U main_v44) :=
  read_unary (writes (F := F)) Writes.nil 182 rfl (not_mem_of_idx (by decide +kernel)) (not_mem_of_idx (by decide +kernel)) U
theorem st_main_c_16 : Vf U main_c_16 = (constantI S_ 32 0#32) :=
  read_nullary (writes (F := F)) Writes.nil 183 rfl (not_mem_of_idx (by decide +kernel)) U
theorem st_main_v57 : Vf U main_v57 = (broadcastInDim S4000000 ![] bcast_S_S4000000 : (⟨S_, .i32⟩ : BufTy).Contents (Elt F) → (⟨S4000000, .i32⟩ : BufTy).Contents (Elt F)) (Vf U main_c_16) :=
  read_unary (writes (F := F)) Writes.nil 184 rfl (not_mem_of_idx (by decide +kernel)) (not_mem_of_idx (by decide +kernel)) U
theorem st_main_v58 : Vf U main_v58 = (cmpi .slt : (⟨S4000000, .i32⟩ : BufTy).Contents (Elt F) → (⟨S4000000, .i32⟩ : BufTy).Contents (Elt F) → (⟨S4000000, .i1⟩ : BufTy).Contents (Elt F)) (Vf U main_v33) (Vf U main_v57) :=
  read_binary (writes (F := F)) Writes.nil 185 rfl (not_mem_of_idx (by decide +kernel)) (not_mem_of_idx (by decide +kernel)) (not_mem_of_idx (by decide +kernel)) U
theorem st_main_c_17 : Vf U main_c_17 = (constantI S_ 32 4000000#32) :=
  read_nullary (writes (F := F)) Writes.nil 186 rfl (not_mem_of_idx (by decide +kernel)) U
theorem st_main_v59 : Vf U main_v59 = (broadcastInDim S4000000 ![] bcast_S_S4000000 : (⟨S_, .i32⟩ : BufTy).Contents (Elt F) → (⟨S4000000, .i32⟩ : BufTy).Contents (Elt F)) (Vf U main_c_17) :=
  read_unary (writes (F := F)) Writes.nil 187 rfl (not_mem_of_idx (by decide +kernel)) (not_mem_of_idx (by decide +kernel)) U
theorem st_main_v60 : Vf U main_v60 = (addi : (⟨S4000000, .i32⟩ : BufTy).Contents (Elt F) → (⟨S4000000, .i32⟩ : BufTy).Contents (Elt F) → (⟨S4000000, .i32⟩ : BufTy).Contents (Elt F)) (Vf U main_v33) (Vf U main_v59) :=
  read_binary (writes (F := F)) Writes.nil 188 rfl (not_mem_of_idx (by decide +kernel)) (not_mem_of_idx (by decide +kernel)) (not_mem_of_idx (by decide +kernel)) U
theorem st_main_v61 : Vf U main_v61 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v58) (Vf U main_v60) (Vf U main_v33) :=
  read_ternary (writes (F := F)) Writes.nil 189 rfl (not_mem_of_idx (by decide +kernel)) (not_mem_of_idx (by decide +kernel)) (not_mem_of_idx (by decide +kernel)) (not_mem_of_idx (by decide +kernel)) U
theorem st_main_v62 : Vf U main_v62 = (broadcastInDim S4000000x1 ![0] bcast_S4000000_S4000000x1_0 : (⟨S4000000, .i32⟩ : BufTy).Contents (Elt F) → (⟨S4000000x1, .i32⟩ : BufTy).Contents (Elt F)) (Vf U main_v61) :=
  read_unary (writes (F := F)) Writes.nil 190 rfl (not_mem_of_idx (by decide +kernel)) (not_mem_of_idx (by decide +kernel)) U
theorem st_main_v63 : Vf U main_v63 = ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)) (Vf U main_v0) (Vf U main_v62) :=
  read_binary (writes (F := F)) Writes.nil 191 rfl (not_mem_of_idx (by decide +kernel)) (not_mem_of_idx (by decide +kernel)) (not_mem_of_idx (by decide +kernel)) U
theorem st_main_cst : Vf U main_cst = (constant S_ .f32 0x00000000#32) :=
  read_nullary (writes (F := F)) Writes.nil 192 rfl (not_mem_of_idx (by decide +kernel)) U
theorem st_main_call9_v0 : Vf U main_call9_v0 = (id : (⟨S_, .f32⟩ : BufTy).Contents (Elt F) → (⟨S_, .f32⟩ : BufTy).Contents (Elt F)) (Vf U main_cst) := by
  have hpos : (line (F := F))[193]? = (hostOps1_19 (F := F))[0]? := rfl
  have hop : (hostOps1_19 (F := F))[0]? = some (StableHlo.TRef.unary (τ := τ) (Val := Elt F) (.of main_cst : StableHlo.TRef sig ⟨S_, .f32⟩) (.of main_call9_v0 : StableHlo.TRef sig ⟨S_, .f32⟩) id) := rfl
  have h1 := final_of_at (writes (F := F)) Writes.nil 193 (hpos.trans hop) (y := main_call9_v0) (not_mem_of_idx (by decide +kernel)) U
  have hb0 := final_of_before (writes (F := F)) Writes.nil 193 (a := main_cst) (not_mem_of_idx (by decide +kernel)) U
  unfold Vf
  rw [h1, hb0]
  generalize after (List.take 193 (line (F := F))) U = V
  refine (unary_result _ _ _ _ _ V).trans ?_
  first | erw [Cert.Lib.RefCasts.toBuf_self, Cert.Lib.RefCasts.ofBuf_self] | erw [Cert.Lib.RefCasts.toBuf_self]
theorem st_main_call9_v1 : Vf U main_call9_v1 = ((broadcastInDim S4000000x4 ![0, 1] bcast_S4000000x1_S4000000x4_0_1) : (⟨S4000000x1, .i1⟩ : BufTy).Contents (Elt F) → (⟨S4000000x4, .i1⟩ : BufTy).Contents (Elt F)) (Vf U main_v56) := by
  have hpos : (line (F := F))[194]? = (hostOps1_19 (F := F))[1]? := rfl
  have hop : (hostOps1_19 (F := F))[1]? = some (StableHlo.TRef.unary (τ := τ) (Val := Elt F) (.of main_v56 : StableHlo.TRef sig ⟨S4000000x1, .i1⟩) (.of main_call9_v1 : StableHlo.TRef sig ⟨S4000000x4, .i1⟩) (broadcastInDim S4000000x4 ![0, 1] bcast_S4000000x1_S4000000x4_0_1)) := rfl
  have h1 := final_of_at (writes (F := F)) Writes.nil 194 (hpos.trans hop) (y := main_call9_v1) (not_mem_of_idx (by decide +kernel)) U
  have hb0 := final_of_before (writes (F := F)) Writes.nil 194 (a := main_v56) (not_mem_of_idx (by decide +kernel)) U
  unfold Vf
  rw [h1, hb0]
  generalize after (List.take 194 (line (F := F))) U = V
  refine (unary_result _ _ _ _ _ V).trans ?_
  first | erw [Cert.Lib.RefCasts.toBuf_self, Cert.Lib.RefCasts.ofBuf_self] | erw [Cert.Lib.RefCasts.toBuf_self]
theorem st_main_call9_v2 : Vf U main_call9_v2 = ((broadcastInDim S4000000x4 ![] bcast_S_S4000000x4) : (⟨S_, .f32⟩ : BufTy).Contents (Elt F) → (⟨S4000000x4, .f32⟩ : BufTy).Contents (Elt F)) (Vf U main_call9_v0) := by
  have hpos : (line (F := F))[195]? = (hostOps1_19 (F := F))[2]? := rfl
  have hop : (hostOps1_19 (F := F))[2]? = some (StableHlo.TRef.unary (τ := τ) (Val := Elt F) (.of main_call9_v0 : StableHlo.TRef sig ⟨S_, .f32⟩) (.of main_call9_v2 : StableHlo.TRef sig ⟨S4000000x4, .f32⟩) (broadcastInDim S4000000x4 ![] bcast_S_S4000000x4)) := rfl
  have h1 := final_of_at (writes (F := F)) Writes.nil 195 (hpos.trans hop) (y := main_call9_v2) (not_mem_of_idx (by decide +kernel)) U
  have hb0 := final_of_before (writes (F := F)) Writes.nil 195 (a := main_call9_v0) (not_mem_of_idx (by decide +kernel)) U
  unfold Vf
  rw [h1, hb0]
  generalize after (List.take 195 (line (F := F))) U = V
  refine (unary_result _ _ _ _ _ V).trans ?_
  first | erw [Cert.Lib.RefCasts.toBuf_self, Cert.Lib.RefCasts.ofBuf_self] | erw [Cert.Lib.RefCasts.toBuf_self]
theorem st_main_v64 : Vf U main_v64 = (select : (⟨S4000000x4, .i1⟩ : BufTy).Contents (Elt F) → (⟨S4000000x4, .f32⟩ : BufTy).Contents (Elt F) → (⟨S4000000x4, .f32⟩ : BufTy).Contents (Elt F) → (⟨S4000000x4, .f32⟩ : BufTy).Contents (Elt F)) (Vf U main_call9_v1) (Vf U main_v63) (Vf U main_call9_v2) := by
  have hpos : (line (F := F))[196]? = (hostOps1_19 (F := F))[3]? := rfl
  have hop : (hostOps1_19 (F := F))[3]? = some (StableHlo.TRef.ternary (τ := τ) (Val := Elt F) (.of main_call9_v1 : StableHlo.TRef sig ⟨S4000000x4, .i1⟩) (.of main_v63 : StableHlo.TRef sig ⟨S4000000x4, .f32⟩) (.of main_call9_v2 : StableHlo.TRef sig ⟨S4000000x4, .f32⟩) (.of main_v64 : StableHlo.TRef sig ⟨S4000000x4, .f32⟩) select) := rfl
  have h1 := final_of_at (writes (F := F)) Writes.nil 196 (hpos.trans hop) (y := main_v64) (not_mem_of_idx (by decide +kernel)) U
  have hb0 := final_of_before (writes (F := F)) Writes.nil 196 (a := main_call9_v1) (not_mem_of_idx (by decide +kernel)) U
  have hb1 := final_of_before (writes (F := F)) Writes.nil 196 (a := main_v63) (not_mem_of_idx (by decide +kernel)) U
  have hb2 := final_of_before (writes (F := F)) Writes.nil 196 (a := main_call9_v2) (not_mem_of_idx (by decide +kernel)) U
  unfold Vf
  rw [h1, hb0, hb1, hb2]
  generalize after (List.take 196 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]
theorem st_main_v65 : Vf U main_v65 = (broadcastInDim S4000000x1 ![0] bcast_S4000000_S4000000x1_0 : (⟨S4000000, .i1⟩ : BufTy).Contents (Elt F) → (⟨S4000000x1, .i1⟩ : BufTy).Contents (Elt F)) (Vf U main_v44) :=
  read_unary (writes (F := F)) Writes.nil 197 rfl (not_mem_of_idx (by decide +kernel)) (not_mem_of_idx (by decide +kernel)) U
theorem st_main_c_18 : Vf U main_c_18 = (constantI S_ 32 4294967295#32) :=
  read_nullary (writes (F := F)) Writes.nil 198 rfl (not_mem_of_idx (by decide +kernel)) U
theorem st_main_call10_v0 : Vf U main_call10_v0 = (id : (⟨S_, .i32⟩ : BufTy).Contents (Elt F) → (⟨S_, .i32⟩ : BufTy).Contents (Elt F)) (Vf U main_c_18) := by
  have hpos : (line (F := F))[199]? = (hostOps1_21 (F := F))[0]? := rfl
  have hop : (hostOps1_21 (F := F))[0]? = some (StableHlo.TRef.unary (τ := τ) (Val := Elt F) (.of main_c_18 : StableHlo.TRef sig ⟨S_, .i32⟩) (.of main_call10_v0 : StableHlo.TRef sig ⟨S_, .i32⟩) id) := rfl
  have h1 := final_of_at (writes (F := F)) Writes.nil 199 (hpos.trans hop) (y := main_call10_v0) (not_mem_of_idx (by decide +kernel)) U
  have hb0 := final_of_before (writes (F := F)) Writes.nil 199 (a := main_c_18) (not_mem_of_idx (by decide +kernel)) U
  unfold Vf
  rw [h1, hb0]
  generalize after (List.take 199 (line (F := F))) U = V
  refine (unary_result _ _ _ _ _ V).trans ?_
  first | erw [Cert.Lib.RefCasts.toBuf_self, Cert.Lib.RefCasts.ofBuf_self] | erw [Cert.Lib.RefCasts.toBuf_self]
theorem st_main_call10_v1 : Vf U main_call10_v1 = ((broadcastInDim S4000000x4 ![0, 1] bcast_S4000000x1_S4000000x4_0_1) : (⟨S4000000x1, .i1⟩ : BufTy).Contents (Elt F) → (⟨S4000000x4, .i1⟩ : BufTy).Contents (Elt F)) (Vf U main_v65) := by
  have hpos : (line (F := F))[200]? = (hostOps1_21 (F := F))[1]? := rfl
  have hop : (hostOps1_21 (F := F))[1]? = some (StableHlo.TRef.unary (τ := τ) (Val := Elt F) (.of main_v65 : StableHlo.TRef sig ⟨S4000000x1, .i1⟩) (.of main_call10_v1 : StableHlo.TRef sig ⟨S4000000x4, .i1⟩) (broadcastInDim S4000000x4 ![0, 1] bcast_S4000000x1_S4000000x4_0_1)) := rfl
  have h1 := final_of_at (writes (F := F)) Writes.nil 200 (hpos.trans hop) (y := main_call10_v1) (not_mem_of_idx (by decide +kernel)) U
  have hb0 := final_of_before (writes (F := F)) Writes.nil 200 (a := main_v65) (not_mem_of_idx (by decide +kernel)) U
  unfold Vf
  rw [h1, hb0]
  generalize after (List.take 200 (line (F := F))) U = V
  refine (unary_result _ _ _ _ _ V).trans ?_
  first | erw [Cert.Lib.RefCasts.toBuf_self, Cert.Lib.RefCasts.ofBuf_self] | erw [Cert.Lib.RefCasts.toBuf_self]
theorem st_main_call10_v2 : Vf U main_call10_v2 = ((broadcastInDim S4000000x4 ![] bcast_S_S4000000x4) : (⟨S_, .i32⟩ : BufTy).Contents (Elt F) → (⟨S4000000x4, .i32⟩ : BufTy).Contents (Elt F)) (Vf U main_call10_v0) := by
  have hpos : (line (F := F))[201]? = (hostOps1_21 (F := F))[2]? := rfl
  have hop : (hostOps1_21 (F := F))[2]? = some (StableHlo.TRef.unary (τ := τ) (Val := Elt F) (.of main_call10_v0 : StableHlo.TRef sig ⟨S_, .i32⟩) (.of main_call10_v2 : StableHlo.TRef sig ⟨S4000000x4, .i32⟩) (broadcastInDim S4000000x4 ![] bcast_S_S4000000x4)) := rfl
  have h1 := final_of_at (writes (F := F)) Writes.nil 201 (hpos.trans hop) (y := main_call10_v2) (not_mem_of_idx (by decide +kernel)) U
  have hb0 := final_of_before (writes (F := F)) Writes.nil 201 (a := main_call10_v0) (not_mem_of_idx (by decide +kernel)) U
  unfold Vf
  rw [h1, hb0]
  generalize after (List.take 201 (line (F := F))) U = V
  refine (unary_result _ _ _ _ _ V).trans ?_
  first | erw [Cert.Lib.RefCasts.toBuf_self, Cert.Lib.RefCasts.ofBuf_self] | erw [Cert.Lib.RefCasts.toBuf_self]
theorem st_main_v66 : Vf U main_v66 = (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F)) (Vf U main_call10_v1) (Vf U main_v55) (Vf U main_call10_v2) := by
  have hpos : (line (F := F))[202]? = (hostOps1_21 (F := F))[3]? := rfl
  have hop : (hostOps1_21 (F := F))[3]? = some (StableHlo.TRef.ternary (τ := τ) (Val := Elt F) (.of main_call10_v1 : StableHlo.TRef sig ⟨S4000000x4, .i1⟩) (.of main_v55 : StableHlo.TRef sig ⟨S4000000x4, .i32⟩) (.of main_call10_v2 : StableHlo.TRef sig ⟨S4000000x4, .i32⟩) (.of main_v66 : StableHlo.TRef sig ⟨S4000000x4, .i32⟩) select) := rfl
  have h1 := final_of_at (writes (F := F)) Writes.nil 202 (hpos.trans hop) (y := main_v66) (not_mem_of_idx (by decide +kernel)) U
  have hb0 := final_of_before (writes (F := F)) Writes.nil 202 (a := main_call10_v1) (not_mem_of_idx (by decide +kernel)) U
  have hb1 := final_of_before (writes (F := F)) Writes.nil 202 (a := main_v55) (not_mem_of_idx (by decide +kernel)) U
  have hb2 := final_of_before (writes (F := F)) Writes.nil 202 (a := main_call10_v2) (not_mem_of_idx (by decide +kernel)) U
  unfold Vf
  rw [h1, hb0, hb1, hb2]
  generalize after (List.take 202 (line (F := F))) U = V
  refine (ternary_result _ _ _ _ _ _ _ _ _ V).trans ?_
  first | erw [Cert.Lib.RefCasts.toBuf_self, Cert.Lib.RefCasts.ofBuf_self, Cert.Lib.RefCasts.ofBuf_self, Cert.Lib.RefCasts.ofBuf_self] | erw [Cert.Lib.RefCasts.toBuf_self, Cert.Lib.RefCasts.ofBuf_self, Cert.Lib.RefCasts.ofBuf_self] | erw [Cert.Lib.RefCasts.toBuf_self, Cert.Lib.RefCasts.ofBuf_self] | erw [Cert.Lib.RefCasts.toBuf_self]

end Cert.KernelIdeal.Stages

end
-- ==== Proof.KernelTailA.lean ====
/-
  The kernel program's host operations from the stable sort of the keys to the compaction: the sorted keys and
  their original positions, the mark of the last position of each run of equal keys below S, its prefix counts, the
  destination of every sorted position, and the two scatters to those destinations. Read at an index j of the marked
  prefix, the scattered positions hold point order(j) and the scattered keys its key, and the validity mask is j < total.
-/
import proofs.«129221_j18588618457298_2_alg».proof.Proof.Gen.KernelIdeal
import proofs.«129221_j18588618457298_2_alg».proof.Proof.Spec

set_option maxRecDepth 16384

noncomputable section

namespace Cert.KernelIdeal.TailA

open Idealize.ShloMosaic Idealize.ShloMosaic.ValueIdx
open Cert.KernelIdeal Cert.KernelIdeal.Gen
open Cert.Lib.HostReads Cert.Lib.StableOrder Cert.Lib.VoxelKey Cert.Spec

/-! ## The sorting permutation -/

section Generic
variable {m : ℕ}

/-- The comparator is signed less-than on the keys. -/
theorem sigma_facts (T : ℕ) (hT : T < 2 ^ 31) (key : Fin m → ℕ) (hkey : ∀ i, key i ≤ T)
    (x y : IVec ⟨1, ![m]⟩ 32) (hx : ∀ i, x (ix1 i) = BitVec.ofNat 32 (key i)) :
    Function.Bijective (sortPerm comparator_i32_i32_d0 x y) ∧ LexSorted key (sortPerm comparator_i32_i32_d0 x y) := by
  unfold sortPerm
  refine ⟨sortedFrom_bijective _, sortedFrom_lexSorted key _ fun k k' => ?_⟩
  rw [beq_iff_eq]
  show IntOp.cmpi .slt (x (ix1 k)) (x (ix1 k')) = 1#1 ↔ _
  rw [cmpi_slt_eq_one_iff, hx, hx, toInt_ofNat_of_lt _ (by have := hkey k; omega),
    toInt_ofNat_of_lt _ (by have := hkey k'; omega)]
  exact Int.ofNat_lt

end Generic
/-! ## The mark, its prefix counts and the destination, position by position -/

section Pointwise
variable {m : ℕ}

/-- The mark "differs from the next sorted key (or is last) and is below `T`" is the selection of the position. -/
theorem mark_iff (T : ℕ) (hT : T + 1 < 2 ^ 31) (key : Fin m → ℕ) (hkey : ∀ i, key i ≤ T) (σ : Fin m → Fin m)
    (a0 a7 : Fin m → BitVec 32) (h0 : ∀ k, a0 k = BitVec.ofNat 32 (key (σ k)))
    (h7 : ∀ k : Fin m, a7 k = if h : k.val + 1 < m then a0 ⟨k.val + 1, h⟩ else BitVec.ofNat 32 (T + 1)) (k : Fin m) :
    IntOp.andi (IntOp.cmpi .ne (a0 k) (a7 k)) (IntOp.cmpi .slt (a0 k) (BitVec.ofNat 32 T)) = 1#1
      ↔ Cert.Lib.Dedup.sel key T σ k := by
  have hk := hkey (σ k)
  rw [andi_eq_one_iff, cmpi_ne_eq_one_iff, cmpi_slt_eq_one_iff, h0 k, toInt_ofNat_of_lt (key (σ k)) (by omega),
    toInt_ofNat_of_lt T (by omega), h7 k]
  unfold Cert.Lib.Dedup.sel
  refine and_congr ?_ Int.ofNat_lt
  by_cases h : k.val + 1 < m
  · rw [dif_pos h, h0]
    have hk' := hkey (σ ⟨k.val + 1, h⟩)
    constructor
    · intro hne _ he; exact hne (by rw [he])
    · intro hs he; exact hs h ((ofNat_inj _ _ (by omega) (by omega)).mp he)
  · rw [dif_neg h]
    constructor
    · intro _ h'; exact absurd h' h
    · intro _ he
      have := (ofNat_inj _ _ (by omega) (by omega)).mp he
      omega

/-- The values of the marks as 0/1 words, summed up to `k`, count the selected positions up to `k`. -/
theorem count_eq (T : ℕ) (key : Fin m → ℕ) (σ : Fin m → Fin m) (mark : Fin m → BitVec 1)
    (hmark : ∀ k, mark k = 1#1 ↔ Cert.Lib.Dedup.sel key T σ k) (k : Fin m) :
    ∑ k' ∈ Finset.univ.filter (fun k' : Fin m => k' ≤ k), ((mark k').setWidth 32).toNat
      = Cert.Lib.Dedup.cnt key T σ k := by
  simp only [toNat_setWidth_bv1]
  rw [Finset.sum_boole, Finset.filter_filter]
  unfold Cert.Lib.Dedup.cnt
  simp only [Nat.cast_id]
  refine congrArg Finset.card ?_
  ext k'
  simp only [Finset.mem_filter, Finset.mem_univ, true_and]
  exact and_congr Iff.rfl (hmark k')

/-- One minus a 0/1 word is the complementary 0/1 word. -/
theorem toNat_one_sub_setWidth_bv1 (p : BitVec 1) :
    (1#32 - BitVec.setWidth 32 p).toNat = if p = 1#1 then 0 else 1 := by
  revert p; decide

/-- The values of the complemented marks, summed up to `k`, count the positions up to `k` that are not selected. -/
theorem count_not_eq (T : ℕ) (key : Fin m → ℕ) (σ : Fin m → Fin m) (mark : Fin m → BitVec 1)
    (hmark : ∀ k, mark k = 1#1 ↔ Cert.Lib.Dedup.sel key T σ k) (k : Fin m) :
    ∑ k' ∈ Finset.univ.filter (fun k' : Fin m => k' ≤ k), (1#32 - (mark k').setWidth 32).toNat
      = k.val + 1 - Cert.Lib.Dedup.cnt key T σ k := by
  have hB := count_eq T key σ mark hmark k
  simp only [toNat_setWidth_bv1] at hB
  simp only [toNat_one_sub_setWidth_bv1]
  have hsum : (∑ k' ∈ Finset.univ.filter (fun k' : Fin m => k' ≤ k), (if mark k' = 1#1 then (0 : ℕ) else 1))
      + (∑ k' ∈ Finset.univ.filter (fun k' : Fin m => k' ≤ k), (if mark k' = 1#1 then (1 : ℕ) else 0))
      = k.val + 1 := by
    rw [← Finset.sum_add_distrib]
    have e : ∀ k' : Fin m, (if mark k' = 1#1 then (0 : ℕ) else 1) + (if mark k' = 1#1 then (1 : ℕ) else 0) = 1 :=
      fun k' => by split <;> rfl
    simp only [e, Finset.sum_const, smul_eq_mul, mul_one]
    rw [show (Finset.univ.filter fun k' : Fin m => k' ≤ k) = Finset.Iic k from by ext; simp, Fin.card_Iic]
  omega

/-- The selected destination word: the prefix count less one where the position is selected, else the total plus the
    count of unselected positions up to it, less one. -/
theorem dest_word (T : ℕ) (key : Fin m → ℕ) (hkey : ∀ i, key i ≤ T) (σ : Fin m → Fin m) (hσ : Function.Bijective σ)
    (hσs : LexSorted key σ) (hm : 2 * m < 2 ^ 31) (k : Fin m) (mk : BitVec 1)
    (hmk : mk = 1#1 ↔ Cert.Lib.Dedup.sel key T σ k) :
    Scalar.select mk (IntOp.subi (BitVec.ofNat 32 (Cert.Lib.Dedup.cnt key T σ k)) 1#32)
        (IntOp.subi (IntOp.addi (BitVec.ofNat 32 (Cert.Lib.Dedup.total key T σ))
          (BitVec.ofNat 32 (k.val + 1 - Cert.Lib.Dedup.cnt key T σ k))) 1#32)
      = BitVec.ofNat 32 (Cert.Lib.Dedup.dest key T σ k) := by
  have hk := k.isLt
  have h1 := Cert.Lib.Dedup.cnt_le key T σ hkey hσ hσs k
  have h2 := Cert.Lib.Dedup.cnt_le_total key T σ hkey hσ hσs k
  have h3 := Cert.Lib.Dedup.total_add_le key T σ k
  unfold IntOp.subi IntOp.addi
  by_cases hs : Cert.Lib.Dedup.sel key T σ k
  · rw [select_of_eq_one (hmk.mpr hs), Cert.Lib.Dedup.dest_of_sel hs,
      ofNat_sub_one (Cert.Lib.Dedup.cnt key T σ k) (Cert.Lib.Dedup.cnt_pos_of_sel key T σ hkey hσ hσs k hs) (by omega)]
  · have h4 := Cert.Lib.Dedup.cnt_le_of_not_sel key T σ k hs
    rw [select_of_ne_one (fun h => hs (hmk.mp h)), Cert.Lib.Dedup.dest_of_not_sel hs,
      ofNat_add_ofNat (Cert.Lib.Dedup.total key T σ) (k.val + 1 - Cert.Lib.Dedup.cnt key T σ k) (by omega) (by omega),
      ofNat_sub_one (Cert.Lib.Dedup.total key T σ + (k.val + 1 - Cert.Lib.Dedup.cnt key T σ k)) (by omega) (by omega)]

/-- A word of a natural below `2^31` is not negative: the wrap-around branch of an index normalisation never fires. -/
theorem no_wrap (x : BitVec 32) (a : ℕ) (hx : x = BitVec.ofNat 32 a) (ha : a < 2 ^ 31) (y : BitVec 32) :
    Scalar.select (IntOp.cmpi .slt x 0#32) (IntOp.addi x y) x = x := by
  rw [hx, cmpi_slt_zero_ofNat a ha]
  exact select_zero _ _

end Pointwise
section Pointwise2
variable {m : ℕ}

/-- Up to the last position the prefix count is the total. -/
theorem cnt_last (T : ℕ) (key : Fin m → ℕ) (σ : Fin m → Fin m) (k : Fin m) (hk : k.val + 1 = m) :
    Cert.Lib.Dedup.cnt key T σ k = Cert.Lib.Dedup.total key T σ := by
  unfold Cert.Lib.Dedup.cnt Cert.Lib.Dedup.total
  refine congrArg Finset.card ?_
  ext k'
  simp only [Finset.mem_filter, Finset.mem_univ, true_and]
  exact ⟨fun h => h.2, fun h => ⟨by show k'.val ≤ k.val; have := k'.isLt; omega, h⟩⟩

/-- The selected positions are at most all positions. -/
theorem total_le (T : ℕ) (key : Fin m → ℕ) (hkey : ∀ i, key i ≤ T) (σ : Fin m → Fin m) (hσ : Function.Bijective σ)
    (hσs : LexSorted key σ) (k : Fin m) : Cert.Lib.Dedup.total key T σ ≤ m := by
  have h1 := Cert.Lib.Dedup.cnt_le key T σ hkey hσ hσs k
  have h3 := Cert.Lib.Dedup.total_add_le key T σ k
  omega

end Pointwise2
/-! ## The layout operations of the program, read at an index -/

section Layout

/-- A one-row array re-shaped to rank 1 keeps its entries. -/
theorem read_cast21 (x : IVec S1x4000000 32) (i : Fin 4000000) :
    shapeCast S4000000 x shapeCasts_S1x4000000_S4000000 (ix1 i) = x (ix2 0 i) := by
  refine shapeCast_apply x _ (ix1 i) (ix2 0 i) ?_
  rw [Shape.rowMajor_val_two, Shape.rowMajor_val_one]
  show (0 : ℕ) * 4000000 + i.val = i.val
  omega

/-- The slice from position 1 on reads one position further. -/
theorem read_slice1 (x : IVec S4000000 32) (k : Fin 3999999) :
    extractStridedSlice S3999999 ![1] x slices_S4000000_S3999999_1 (ix1 k)
      = x (ix1 ⟨k.val + 1, by have := k.isLt; omega⟩) := by
  refine extractStridedSlice_apply _ x _ (ix1 k) _ fun a => ?_
  obtain rfl : a = 0 := Subsingleton.elim _ _
  show k.val + 1 = 1 + k.val
  omega

/-- The concatenation with a one-element array: the first array below its length, then the one element. -/
theorem read_concat (a : IVec S3999999 32) (b : IVec S1 32) (k : Fin 4000000) :
    concatenate S4000000 0 [⟨S3999999, a⟩, ⟨S1, b⟩] concatenates_S3999999_S1_S4000000_d0 (ix1 k)
      = if h : k.val < 3999999 then a (ix1 ⟨k.val, h⟩) else b (ix1 0) := by
  by_cases h : k.val < 3999999
  · rw [dif_pos h]
    exact concatenate_pair_apply_left (t := S4000000) (s₁ := S3999999) (s₂ := S1) 0 a b _ (ix1 k) rfl (ix1 ⟨k.val, h⟩)
      (fun b' => by obtain rfl : b' = 0 := Subsingleton.elim _ _; rfl)
  · rw [dif_neg h]
    refine concatenate_pair_apply_right (t := S4000000) (s₁ := S3999999) (s₂ := S1) 0 a b _ (ix1 k) rfl rfl (ix1 0)
      (fun b' hb => absurd (Subsingleton.elim _ _) hb) ?_
    show 0 + 3999999 = k.val
    have := k.isLt; omega

/-- A broadcast scalar reads its value everywhere. -/
theorem read_bcast0 (c : IVec S_ 32) (k : Fin 4000000) :
    broadcastInDim S4000000 ![] bcast_S_S4000000 c (ix1 k) = c ix0 := by
  refine broadcastInDim_apply _ _ c (ix1 k) ix0 fun a => a.elim0

/-- A scalar broadcast to a scalar is itself. -/
theorem read_bcast00 (c : IVec S_ 32) : broadcastInDim S_ ![] bcast_S_S_ c ix0 = c ix0 := by
  refine broadcastInDim_apply _ _ c ix0 ix0 fun a => a.elim0

/-- A vector laid out as a one-column array keeps its entries. -/
theorem read_column (v : IVec S4000000 32) (k : Fin 4000000) :
    broadcastInDim S4000000x1 ![0] bcast_S4000000_S4000000x1_0 v (ix2 k 0) = v (ix1 k) := by
  show v _ = v _
  congr 1
  funext a
  match a with
  | ⟨0, _⟩ => rfl

/-- The one-element slice at the last position reads the last element. -/
theorem read_last (x : IVec S4000000 32) :
    extractStridedSlice S1 ![3999999] x slices_S4000000_S1_3999999 (ix1 0) = x (ix1 ⟨3999999, by omega⟩) := by
  refine extractStridedSlice_apply _ x _ (ix1 0) _ fun a => ?_
  obtain rfl : a = 0 := Subsingleton.elim _ _
  rfl

/-- A one-element array re-shaped to a scalar keeps its element. -/
theorem read_cast10 (x : IVec S1 32) : shapeCast S_ x shapeCasts_S1_S_ ix0 = x (ix1 0) := by
  refine shapeCast_apply x _ ix0 (ix1 0) ?_
  rw [Shape.rowMajor_val_one]
  exact (Shape.rowMajorPi_zero _ _).symm

end Layout

theorem tailA
    (key : Fin n → ℕ) (hkey : ∀ i, key i ≤ S)
    (v2 : IVec S1x4000000 32) (c : IVec S1 32)
    (hv2 : ∀ i : Fin n, v2 (ix2 0 i) = BitVec.ofNat 32 (key i))
    (hc : c = constantI S1 32 1126401#32)
    (v3 : IVec S4000000 32) (v4 : IVec S4000000 32) (v5_0 : IVec S4000000 32) (v5_1 : IVec S4000000 32) (v6 : IVec S3999999 32) (v7 : IVec S4000000 32) (v8 : IVec S4000000 1) (c_0 : IVec S_ 32) (v9 : IVec S4000000 32) (v10 : IVec S4000000 1) (v11 : IVec S4000000 1) (v12 : IVec S4000000 32) (call0_call0_c : IVec S_ 32) (call0_call0_v0 : IVec S_ 32) (v13 : IVec S4000000 32) (c_1 : IVec S_ 32) (v14 : IVec S4000000 32) (v15 : IVec S4000000 32) (call1_call0_c : IVec S_ 32) (call1_call0_v0 : IVec S_ 32) (v16 : IVec S4000000 32) (v17 : IVec S1 32) (v18 : IVec S_ 32) (c_2 : IVec S_ 32) (v19 : IVec S4000000 32) (v20 : IVec S4000000 32) (v21 : IVec S4000000 32) (v22 : IVec S4000000 32) (c_3 : IVec S_ 32) (v23 : IVec S4000000 32) (v24 : IVec S4000000 32) (v25 : IVec S4000000 32) (c_4 : IVec S_ 32) (v26 : IVec S4000000 32) (c_5 : IVec S_ 32) (v27 : IVec S4000000 32) (v28 : IVec S4000000 1) (c_6 : IVec S_ 32) (v29 : IVec S4000000 32) (v30 : IVec S4000000 32) (v31 : IVec S4000000 32) (v32 : IVec S4000000x1 32) (v33 : IVec S4000000 32) (c_7 : IVec S_ 32) (v34 : IVec S4000000 32) (c_8 : IVec S_ 32) (v35 : IVec S4000000 32) (v36 : IVec S4000000 1) (c_9 : IVec S_ 32) (v37 : IVec S4000000 32) (v38 : IVec S4000000 32) (v39 : IVec S4000000 32) (v40 : IVec S4000000x1 32) (v41 : IVec S4000000 32) (v42 : IVec S4000000 32) (v43 : IVec S4000000 32) (v44 : IVec S4000000 1) (c_10 : IVec S_ 32)
    (h_v3 : v3 = fun i => shapeCast _ v2 shapeCasts_S1x4000000_S4000000 i)
    (h_v4 : v4 = (iotaInDim S4000000 32 0))
    (h_v5_0 : v5_0 = ((fun x y => (Host.sort2 S4000000 0 comparator_i32_i32_d0 x y).1) : (⟨S4000000, .i32⟩ : BufTy).Contents (Elt Ideal) → (⟨S4000000, .i32⟩ : BufTy).Contents (Elt Ideal) → (⟨S4000000, .i32⟩ : BufTy).Contents (Elt Ideal)) v3 v4)
    (h_v5_1 : v5_1 = ((fun x y => (Host.sort2 S4000000 0 comparator_i32_i32_d0 x y).2) : (⟨S4000000, .i32⟩ : BufTy).Contents (Elt Ideal) → (⟨S4000000, .i32⟩ : BufTy).Contents (Elt Ideal) → (⟨S4000000, .i32⟩ : BufTy).Contents (Elt Ideal)) v3 v4)
    (h_v6 : v6 = ((extractStridedSlice S3999999 ![1] · slices_S4000000_S3999999_1) : (⟨S4000000, .i32⟩ : BufTy).Contents (Elt Ideal) → (⟨S3999999, .i32⟩ : BufTy).Contents (Elt Ideal)) v5_0)
    (h_v7 : v7 = ((fun a b => concatenate S4000000 0 [⟨S3999999, a⟩, ⟨S1, b⟩] concatenates_S3999999_S1_S4000000_d0) : (⟨S3999999, .i32⟩ : BufTy).Contents (Elt Ideal) → (⟨S1, .i32⟩ : BufTy).Contents (Elt Ideal) → (⟨S4000000, .i32⟩ : BufTy).Contents (Elt Ideal)) v6 c)
    (h_v8 : v8 = (cmpi .ne : (⟨S4000000, .i32⟩ : BufTy).Contents (Elt Ideal) → (⟨S4000000, .i32⟩ : BufTy).Contents (Elt Ideal) → (⟨S4000000, .i1⟩ : BufTy).Contents (Elt Ideal)) v5_0 v7)
    (h_c_0 : c_0 = (constantI S_ 32 1126400#32))
    (h_v9 : v9 = (broadcastInDim S4000000 ![] bcast_S_S4000000 : (⟨S_, .i32⟩ : BufTy).Contents (Elt Ideal) → (⟨S4000000, .i32⟩ : BufTy).Contents (Elt Ideal)) c_0)
    (h_v10 : v10 = (cmpi .slt : (⟨S4000000, .i32⟩ : BufTy).Contents (Elt Ideal) → (⟨S4000000, .i32⟩ : BufTy).Contents (Elt Ideal) → (⟨S4000000, .i1⟩ : BufTy).Contents (Elt Ideal)) v5_0 v9)
    (h_v11 : v11 = (andi : (⟨S4000000, .i1⟩ : BufTy).Contents (Elt Ideal) → (⟨S4000000, .i1⟩ : BufTy).Contents (Elt Ideal) → (⟨S4000000, .i1⟩ : BufTy).Contents (Elt Ideal)) v8 v10)
    (h_v12 : v12 = ((extui 32 · natLt_1_32) : (⟨S4000000, .i1⟩ : BufTy).Contents (Elt Ideal) → (⟨S4000000, .i32⟩ : BufTy).Contents (Elt Ideal)) v11)
    (h_call0_call0_c : call0_call0_c = (constantI S_ 32 0#32))
    (h_call0_call0_v0 : call0_call0_v0 = (broadcastInDim S_ ![] bcast_S_S_) call0_call0_c)
    (h_v13 : v13 = (fun x v => Host.reduceWindow IntOp.addi ![4000000] ![1] ![3999999] ![0] x v reduceWindows_S4000000_S4000000_w4000000s1p3999999_0 h_S_) v12 call0_call0_v0)
    (h_c_1 : c_1 = (constantI S_ 32 1#32))
    (h_v14 : v14 = (broadcastInDim S4000000 ![] bcast_S_S4000000 : (⟨S_, .i32⟩ : BufTy).Contents (Elt Ideal) → (⟨S4000000, .i32⟩ : BufTy).Contents (Elt Ideal)) c_1)
    (h_v15 : v15 = (subi : (⟨S4000000, .i32⟩ : BufTy).Contents (Elt Ideal) → (⟨S4000000, .i32⟩ : BufTy).Contents (Elt Ideal) → (⟨S4000000, .i32⟩ : BufTy).Contents (Elt Ideal)) v14 v12)
    (h_call1_call0_c : call1_call0_c = (constantI S_ 32 0#32))
    (h_call1_call0_v0 : call1_call0_v0 = (broadcastInDim S_ ![] bcast_S_S_) call1_call0_c)
    (h_v16 : v16 = (fun x v => Host.reduceWindow IntOp.addi ![4000000] ![1] ![3999999] ![0] x v reduceWindows_S4000000_S4000000_w4000000s1p3999999_0 h_S_) v15 call1_call0_v0)
    (h_v17 : v17 = ((extractStridedSlice S1 ![3999999] · slices_S4000000_S1_3999999) : (⟨S4000000, .i32⟩ : BufTy).Contents (Elt Ideal) → (⟨S1, .i32⟩ : BufTy).Contents (Elt Ideal)) v13)
    (h_v18 : v18 = fun i => shapeCast _ v17 shapeCasts_S1_S_ i)
    (h_c_2 : c_2 = (constantI S_ 32 1#32))
    (h_v19 : v19 = (broadcastInDim S4000000 ![] bcast_S_S4000000 : (⟨S_, .i32⟩ : BufTy).Contents (Elt Ideal) → (⟨S4000000, .i32⟩ : BufTy).Contents (Elt Ideal)) c_2)
    (h_v20 : v20 = (subi : (⟨S4000000, .i32⟩ : BufTy).Contents (Elt Ideal) → (⟨S4000000, .i32⟩ : BufTy).Contents (Elt Ideal) → (⟨S4000000, .i32⟩ : BufTy).Contents (Elt Ideal)) v13 v19)
    (h_v21 : v21 = (broadcastInDim S4000000 ![] bcast_S_S4000000 : (⟨S_, .i32⟩ : BufTy).Contents (Elt Ideal) → (⟨S4000000, .i32⟩ : BufTy).Contents (Elt Ideal)) v18)
    (h_v22 : v22 = (addi : (⟨S4000000, .i32⟩ : BufTy).Contents (Elt Ideal) → (⟨S4000000, .i32⟩ : BufTy).Contents (Elt Ideal) → (⟨S4000000, .i32⟩ : BufTy).Contents (Elt Ideal)) v21 v16)
    (h_c_3 : c_3 = (constantI S_ 32 1#32))
    (h_v23 : v23 = (broadcastInDim S4000000 ![] bcast_S_S4000000 : (⟨S_, .i32⟩ : BufTy).Contents (Elt Ideal) → (⟨S4000000, .i32⟩ : BufTy).Contents (Elt Ideal)) c_3)
    (h_v24 : v24 = (subi : (⟨S4000000, .i32⟩ : BufTy).Contents (Elt Ideal) → (⟨S4000000, .i32⟩ : BufTy).Contents (Elt Ideal) → (⟨S4000000, .i32⟩ : BufTy).Contents (Elt Ideal)) v22 v23)
    (h_v25 : v25 = select v11 v20 v24)
    (h_c_4 : c_4 = (constantI S_ 32 0#32))
    (h_v26 : v26 = (broadcastInDim S4000000 ![] bcast_S_S4000000 : (⟨S_, .i32⟩ : BufTy).Contents (Elt Ideal) → (⟨S4000000, .i32⟩ : BufTy).Contents (Elt Ideal)) c_4)
    (h_c_5 : c_5 = (constantI S_ 32 0#32))
    (h_v27 : v27 = (broadcastInDim S4000000 ![] bcast_S_S4000000 : (⟨S_, .i32⟩ : BufTy).Contents (Elt Ideal) → (⟨S4000000, .i32⟩ : BufTy).Contents (Elt Ideal)) c_5)
    (h_v28 : v28 = (cmpi .slt : (⟨S4000000, .i32⟩ : BufTy).Contents (Elt Ideal) → (⟨S4000000, .i32⟩ : BufTy).Contents (Elt Ideal) → (⟨S4000000, .i1⟩ : BufTy).Contents (Elt Ideal)) v25 v27)
    (h_c_6 : c_6 = (constantI S_ 32 4000000#32))
    (h_v29 : v29 = (broadcastInDim S4000000 ![] bcast_S_S4000000 : (⟨S_, .i32⟩ : BufTy).Contents (Elt Ideal) → (⟨S4000000, .i32⟩ : BufTy).Contents (Elt Ideal)) c_6)
    (h_v30 : v30 = (addi : (⟨S4000000, .i32⟩ : BufTy).Contents (Elt Ideal) → (⟨S4000000, .i32⟩ : BufTy).Contents (Elt Ideal) → (⟨S4000000, .i32⟩ : BufTy).Contents (Elt Ideal)) v25 v29)
    (h_v31 : v31 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v28 v30 v25)
    (h_v32 : v32 = (broadcastInDim S4000000x1 ![0] bcast_S4000000_S4000000x1_0 : (⟨S4000000, .i32⟩ : BufTy).Contents (Elt Ideal) → (⟨S4000000x1, .i32⟩ : BufTy).Contents (Elt Ideal)) v31)
    (h_v33 : v33 = ((fun x i u => Host.scatter scatter_S4000000_S4000000x1_S4000000_n_0_0_1 (fun _ b => b) x i u) : (⟨S4000000, .i32⟩ : BufTy).Contents (Elt Ideal) → (⟨S4000000x1, .i32⟩ : BufTy).Contents (Elt Ideal) → (⟨S4000000, .i32⟩ : BufTy).Contents (Elt Ideal) → (⟨S4000000, .i32⟩ : BufTy).Contents (Elt Ideal)) v26 v32 v5_1)
    (h_c_7 : c_7 = (constantI S_ 32 0#32))
    (h_v34 : v34 = (broadcastInDim S4000000 ![] bcast_S_S4000000 : (⟨S_, .i32⟩ : BufTy).Contents (Elt Ideal) → (⟨S4000000, .i32⟩ : BufTy).Contents (Elt Ideal)) c_7)
    (h_c_8 : c_8 = (constantI S_ 32 0#32))
    (h_v35 : v35 = (broadcastInDim S4000000 ![] bcast_S_S4000000 : (⟨S_, .i32⟩ : BufTy).Contents (Elt Ideal) → (⟨S4000000, .i32⟩ : BufTy).Contents (Elt Ideal)) c_8)
    (h_v36 : v36 = (cmpi .slt : (⟨S4000000, .i32⟩ : BufTy).Contents (Elt Ideal) → (⟨S4000000, .i32⟩ : BufTy).Contents (Elt Ideal) → (⟨S4000000, .i1⟩ : BufTy).Contents (Elt Ideal)) v25 v35)
    (h_c_9 : c_9 = (constantI S_ 32 4000000#32))
    (h_v37 : v37 = (broadcastInDim S4000000 ![] bcast_S_S4000000 : (⟨S_, .i32⟩ : BufTy).Contents (Elt Ideal) → (⟨S4000000, .i32⟩ : BufTy).Contents (Elt Ideal)) c_9)
    (h_v38 : v38 = (addi : (⟨S4000000, .i32⟩ : BufTy).Contents (Elt Ideal) → (⟨S4000000, .i32⟩ : BufTy).Contents (Elt Ideal) → (⟨S4000000, .i32⟩ : BufTy).Contents (Elt Ideal)) v25 v37)
    (h_v39 : v39 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v36 v38 v25)
    (h_v40 : v40 = (broadcastInDim S4000000x1 ![0] bcast_S4000000_S4000000x1_0 : (⟨S4000000, .i32⟩ : BufTy).Contents (Elt Ideal) → (⟨S4000000x1, .i32⟩ : BufTy).Contents (Elt Ideal)) v39)
    (h_v41 : v41 = ((fun x i u => Host.scatter scatter_S4000000_S4000000x1_S4000000_n_0_0_1 (fun _ b => b) x i u) : (⟨S4000000, .i32⟩ : BufTy).Contents (Elt Ideal) → (⟨S4000000x1, .i32⟩ : BufTy).Contents (Elt Ideal) → (⟨S4000000, .i32⟩ : BufTy).Contents (Elt Ideal) → (⟨S4000000, .i32⟩ : BufTy).Contents (Elt Ideal)) v34 v40 v5_0)
    (h_v42 : v42 = (iotaInDim S4000000 32 0))
    (h_v43 : v43 = (broadcastInDim S4000000 ![] bcast_S_S4000000 : (⟨S_, .i32⟩ : BufTy).Contents (Elt Ideal) → (⟨S4000000, .i32⟩ : BufTy).Contents (Elt Ideal)) v18)
    (h_v44 : v44 = (cmpi .slt : (⟨S4000000, .i32⟩ : BufTy).Contents (Elt Ideal) → (⟨S4000000, .i32⟩ : BufTy).Contents (Elt Ideal) → (⟨S4000000, .i1⟩ : BufTy).Contents (Elt Ideal)) v42 v43)
    (h_c_10 : c_10 = (constantI S_ 32 352#32)) :
    (∀ j : Fin n, v44 (ix1 j) = if j.val < total key then 1#1 else 0#1)
    ∧ (∀ j : Fin n, j.val < total key → v33 (ix1 j) = BitVec.ofNat 32 (order key j).val)
    ∧ (∀ j : Fin n, j.val < total key → v41 (ix1 j) = BitVec.ofNat 32 (key (order key j))) := by
  have hT : S + 1 < 2 ^ 31 := by show 1126400 + 1 < 2 ^ 31; norm_num
  have hm2 : 2 * n < 2 ^ 31 := by show 2 * 4000000 < 2 ^ 31; norm_num
  -- the keys as a rank-1 array
  have r3 : ∀ i : Fin n, v3 (ix1 i) = BitVec.ofNat 32 (key i) := by
    intro i; rw [h_v3]; exact (read_cast21 v2 i).trans (hv2 i)
  -- the sorting permutation
  obtain ⟨σ, hσe⟩ : ∃ σ : Fin n → Fin n, σ = sortPerm comparator_i32_i32_d0 v3 v4 := ⟨_, rfl⟩
  have hσf := sigma_facts S (by omega) key hkey v3 v4 r3
  rw [← hσe] at hσf
  obtain ⟨hσ, hσs⟩ := hσf
  have r50 : ∀ k : Fin n, v5_0 (ix1 k) = BitVec.ofNat 32 (key (σ k)) := by
    intro k; rw [h_v5_0, hσe]; exact (sort2_fst_apply comparator_i32_i32_d0 v3 v4 k).trans (r3 _)
  have r51 : ∀ k : Fin n, v5_1 (ix1 k) = BitVec.ofNat 32 (σ k).val := by
    intro k; rw [h_v5_1, hσe]
    refine (sort2_snd_apply comparator_i32_i32_d0 v3 v4 k).trans ?_
    rw [h_v4]; rfl
  -- the sorted keys shifted by one
  have r7 : ∀ k : Fin n, v7 (ix1 k)
      = if h : k.val + 1 < n then v5_0 (ix1 ⟨k.val + 1, h⟩) else BitVec.ofNat 32 (S + 1) := by
    intro k
    have hk : k.val < 4000000 := k.isLt
    rw [h_v7]
    refine (read_concat v6 c k).trans ?_
    by_cases h : k.val < 3999999
    · have h' : k.val + 1 < n := by show k.val + 1 < 4000000; omega
      rw [dif_pos h, dif_pos h', h_v6]
      exact read_slice1 v5_0 ⟨k.val, h⟩
    · have h' : ¬ k.val + 1 < n := by show ¬ k.val + 1 < 4000000; omega
      rw [dif_neg h, dif_neg h', hc]
      rfl
  -- the mark
  have r11 : ∀ k : Fin n, v11 (ix1 k) = 1#1 ↔ Cert.Lib.Dedup.sel key S σ k := by
    intro k
    rw [h_v11, h_v8, h_v10]
    show IntOp.andi (IntOp.cmpi .ne (v5_0 (ix1 k)) (v7 (ix1 k))) (IntOp.cmpi .slt (v5_0 (ix1 k)) (v9 (ix1 k))) = 1#1 ↔ _
    rw [h_v9, read_bcast0, h_c_0]
    exact mark_iff S hT key hkey σ (fun k => v5_0 (ix1 k)) (fun k => v7 (ix1 k)) r50 r7 k
  have r12 : ∀ k : Fin n, v12 (ix1 k) = (v11 (ix1 k)).setWidth 32 := by
    intro k; rw [h_v12]; rfl
  have i0 : call0_call0_v0 ix0 = 0#32 := by
    rw [h_call0_call0_v0, read_bcast00, h_call0_call0_c]; rfl
  have i1 : call1_call0_v0 ix0 = 0#32 := by
    rw [h_call1_call0_v0, read_bcast00, h_call1_call0_c]; rfl
  -- the prefix counts
  have r13 : ∀ k : Fin n, v13 (ix1 k) = BitVec.ofNat 32 (Cert.Lib.Dedup.cnt key S σ k) := by
    intro k; rw [h_v13]
    refine (cumsum_apply (n := 4000000) v12 call0_call0_v0 i0
      reduceWindows_S4000000_S4000000_w4000000s1p3999999_0 h_S_ k).trans ?_
    refine congrArg (BitVec.ofNat 32) ?_
    simp only [r12]
    exact count_eq S key σ (fun k => v11 (ix1 k)) r11 k
  have r15 : ∀ k : Fin n, v15 (ix1 k) = 1#32 - (v11 (ix1 k)).setWidth 32 := by
    intro k; rw [h_v15]
    show IntOp.subi (v14 (ix1 k)) (v12 (ix1 k)) = _
    rw [h_v14, read_bcast0, h_c_1, r12]; rfl
  have r16 : ∀ k : Fin n, v16 (ix1 k) = BitVec.ofNat 32 (k.val + 1 - Cert.Lib.Dedup.cnt key S σ k) := by
    intro k; rw [h_v16]
    refine (cumsum_apply (n := 4000000) v15 call1_call0_v0 i1
      reduceWindows_S4000000_S4000000_w4000000s1p3999999_0 h_S_ k).trans ?_
    refine congrArg (BitVec.ofNat 32) ?_
    simp only [r15]
    exact count_not_eq S key σ (fun k => v11 (ix1 k)) r11 k
  have r18 : v18 ix0 = BitVec.ofNat 32 (Cert.Lib.Dedup.total key S σ) := by
    rw [h_v18]
    refine (read_cast10 v17).trans ?_
    rw [h_v17]
    refine (read_last v13).trans ?_
    rw [r13]
    exact congrArg (BitVec.ofNat 32) (cnt_last S key σ _ rfl)
  -- the destinations
  have r25 : ∀ k : Fin n, v25 (ix1 k) = BitVec.ofNat 32 (Cert.Lib.Dedup.dest key S σ k) := by
    intro k
    have e20 : v20 (ix1 k) = IntOp.subi (BitVec.ofNat 32 (Cert.Lib.Dedup.cnt key S σ k)) 1#32 := by
      rw [h_v20]
      show IntOp.subi (v13 (ix1 k)) (v19 (ix1 k)) = _
      rw [r13, h_v19, read_bcast0, h_c_2]; rfl
    have e24 : v24 (ix1 k) = IntOp.subi (IntOp.addi (BitVec.ofNat 32 (Cert.Lib.Dedup.total key S σ))
        (BitVec.ofNat 32 (k.val + 1 - Cert.Lib.Dedup.cnt key S σ k))) 1#32 := by
      rw [h_v24]
      show IntOp.subi (v22 (ix1 k)) (v23 (ix1 k)) = _
      rw [h_v23, read_bcast0, h_c_3, h_v22]
      show IntOp.subi (IntOp.addi (v21 (ix1 k)) (v16 (ix1 k))) _ = _
      rw [h_v21, read_bcast0, r18, r16]; rfl
    rw [h_v25]
    show Scalar.select (v11 (ix1 k)) (v20 (ix1 k)) (v24 (ix1 k)) = _
    rw [e20, e24]
    exact dest_word S key hkey σ hσ hσs hm2 k _ (r11 k)
  have hdlt : ∀ k : Fin n, Cert.Lib.Dedup.dest key S σ k < 2 ^ 31 := by
    intro k
    have := Cert.Lib.Dedup.dest_lt key S σ hkey hσ hσs k
    have hn : n = 4000000 := rfl
    omega
  have r31 : ∀ k : Fin n, v31 (ix1 k) = BitVec.ofNat 32 (Cert.Lib.Dedup.dest key S σ k) := by
    intro k; rw [h_v31]
    show Scalar.select (v28 (ix1 k)) (v30 (ix1 k)) (v25 (ix1 k)) = _
    rw [h_v28, h_v30]
    show Scalar.select (IntOp.cmpi .slt (v25 (ix1 k)) (v27 (ix1 k))) (IntOp.addi (v25 (ix1 k)) (v29 (ix1 k)))
      (v25 (ix1 k)) = _
    rw [h_v27, read_bcast0, h_c_5]
    show Scalar.select (IntOp.cmpi .slt (v25 (ix1 k)) 0#32) (IntOp.addi (v25 (ix1 k)) (v29 (ix1 k))) (v25 (ix1 k)) = _
    rw [no_wrap _ _ (r25 k) (hdlt k)]
    exact r25 k
  have r39 : ∀ k : Fin n, v39 (ix1 k) = BitVec.ofNat 32 (Cert.Lib.Dedup.dest key S σ k) := by
    intro k; rw [h_v39]
    show Scalar.select (v36 (ix1 k)) (v38 (ix1 k)) (v25 (ix1 k)) = _
    rw [h_v36, h_v38]
    show Scalar.select (IntOp.cmpi .slt (v25 (ix1 k)) (v35 (ix1 k))) (IntOp.addi (v25 (ix1 k)) (v37 (ix1 k)))
      (v25 (ix1 k)) = _
    rw [h_v35, read_bcast0, h_c_8]
    show Scalar.select (IntOp.cmpi .slt (v25 (ix1 k)) 0#32) (IntOp.addi (v25 (ix1 k)) (v37 (ix1 k))) (v25 (ix1 k)) = _
    rw [no_wrap _ _ (r25 k) (hdlt k)]
    exact r25 k
  -- the two scatters
  have hinj : Function.Injective (fun k : Fin n =>
      (⟨Cert.Lib.Dedup.dest key S σ k, Cert.Lib.Dedup.dest_lt key S σ hkey hσ hσs k⟩ : Fin n)) :=
    fun a b h => Cert.Lib.Dedup.dest_injective key S σ hkey hσ hσs (congrArg Fin.val h)
  have r33 : ∀ k : Fin n, v33 (ix1 (⟨Cert.Lib.Dedup.dest key S σ k, Cert.Lib.Dedup.dest_lt key S σ hkey hσ hσs k⟩ : Fin n))
      = v5_1 (ix1 k) := by
    intro k; rw [h_v33]
    refine scatter1_set_apply scatter_S4000000_S4000000x1_S4000000_n_0_0_1 rfl rfl rfl rfl v26 v32 v5_1
      (fun k : Fin n => (⟨Cert.Lib.Dedup.dest key S σ k, Cert.Lib.Dedup.dest_lt key S σ hkey hσ hσs k⟩ : Fin n))
      (fun k' => ?_) hinj k
    rw [h_v32, read_column, r31, toInt_ofNat_of_lt _ (hdlt k')]
  have r41 : ∀ k : Fin n, v41 (ix1 (⟨Cert.Lib.Dedup.dest key S σ k, Cert.Lib.Dedup.dest_lt key S σ hkey hσ hσs k⟩ : Fin n))
      = v5_0 (ix1 k) := by
    intro k; rw [h_v41]
    refine scatter1_set_apply scatter_S4000000_S4000000x1_S4000000_n_0_0_1 rfl rfl rfl rfl v34 v40 v5_0
      (fun k : Fin n => (⟨Cert.Lib.Dedup.dest key S σ k, Cert.Lib.Dedup.dest_lt key S σ hkey hσ hσs k⟩ : Fin n))
      (fun k' => ?_) hinj k
    rw [h_v40, read_column, r39, toInt_ofNat_of_lt _ (hdlt k')]
  -- the count of chosen points
  have htot : total key = Cert.Lib.Dedup.total key S σ := by
    classical
    unfold Cert.Spec.total
    exact (Cert.Lib.Dedup.total_eq_card_chosen key S σ id hkey hσ hσs Function.bijective_id).symm
  have htl : Cert.Lib.Dedup.total key S σ < 2 ^ 31 := by
    have h0 : 0 < n := by show 0 < 4000000; norm_num
    have := total_le S key hkey σ hσ hσs ⟨0, h0⟩
    have hn : n = 4000000 := rfl
    omega
  refine ⟨fun j => ?_, fun j hj => ?_, fun j hj => ?_⟩
  · rw [h_v44]
    show IntOp.cmpi .slt (v42 (ix1 j)) (v43 (ix1 j)) = _
    rw [h_v42, h_v43, read_bcast0, r18, htot]
    show BitVec.ofBool ((BitVec.ofNat 32 j.val).slt (BitVec.ofNat 32 (Cert.Lib.Dedup.total key S σ))) = _
    have hj : j.val < 2 ^ 31 := by have := j.isLt; have hn : n = 4000000 := rfl; omega
    rw [slt_ofNat _ _ hj htl]
    by_cases h : j.val < Cert.Lib.Dedup.total key S σ
    · rw [if_pos h, decide_eq_true h]; rfl
    · rw [if_neg h, decide_eq_false h]; rfl
  · rw [htot] at hj
    obtain ⟨k, hs, hd, hk⟩ := Cert.Lib.Dedup.exists_sel_of_lt_total key S σ (order key) hkey hσ hσs
      (order_bijective key) (order_lexSorted key) j hj
    have e : (⟨Cert.Lib.Dedup.dest key S σ k, Cert.Lib.Dedup.dest_lt key S σ hkey hσ hσs k⟩ : Fin n) = j := Fin.ext hd
    have h33 := r33 k
    rw [e] at h33
    rw [h33, r51 k, hk]
  · rw [htot] at hj
    obtain ⟨k, hs, hd, hk⟩ := Cert.Lib.Dedup.exists_sel_of_lt_total key S σ (order key) hkey hσ hσs
      (order_bijective key) (order_lexSorted key) j hj
    have e : (⟨Cert.Lib.Dedup.dest key S σ k, Cert.Lib.Dedup.dest_lt key S σ hkey hσ hσs k⟩ : Fin n) = j := Fin.ext hd
    have h41 := r41 k
    rw [e] at h41
    rw [h41, r50 k, hk]

end Cert.KernelIdeal.TailA

end
-- ==== Proof.KernelTailB.lean ====
/-
  The kernel program's last host operations: the scattered keys decoded to coordinates by remainders and floor
  divisions (352, 400, 1), the points gathered at the scattered positions, and both masked by validity.
-/
import proofs.«129221_j18588618457298_2_alg».proof.Proof.Gen.KernelIdeal
import proofs.«129221_j18588618457298_2_alg».proof.Proof.Spec

set_option maxRecDepth 16384

noncomputable section

namespace Cert.KernelIdeal.TailB

open Idealize.ShloMosaic Idealize.ShloMosaic.ValueIdx
open Cert.KernelIdeal Cert.KernelIdeal.Gen
open Cert.Lib.HostReads Cert.Lib.StableOrder Cert.Lib.VoxelKey Cert.Spec

/-! ## Reads of the layout operations at an index -/

/-- A scalar broadcast to any shape is the constant array of the scalar. -/
theorem bcast_scalar_eq {T : Shape} {α : Type} (h : S_.BroadcastsInDim T (![] : Fin 0 → Fin T.rank))
    (x : S_.Idx → α) : broadcastInDim T ![] h x = fun _ => x ix0 := by
  funext j
  unfold broadcastInDim
  exact congrArg x (funext fun a => a.elim0)

/-- An array of length `m` made a column, read at row `j`. -/
theorem col_apply {α : Type} {m : ℕ} (h : (⟨1, ![m]⟩ : Shape).BroadcastsInDim ⟨2, ![m, 1]⟩ (![0] : Fin 1 → Fin 2))
    (x : (⟨1, ![m]⟩ : Shape).Idx → α) (j : Fin m) (c : Fin 1) :
    broadcastInDim (⟨2, ![m, 1]⟩ : Shape) ![0] h x (ix2 j c) = x (ix1 j) := by
  refine broadcastInDim_apply _ h x (ix2 j c) (ix1 j) fun a => ?_
  obtain rfl : a = 0 := Subsingleton.elim _ _
  show j.val = if m = 1 then 0 else j.val
  split
  · next h1 => have := j.isLt; omega
  · rfl

/-- A column repeated along `C` columns, read at `(j, c)`. -/
theorem rowbc_apply {α : Type} {m C : ℕ}
    (h : (⟨2, ![m, 1]⟩ : Shape).BroadcastsInDim ⟨2, ![m, C]⟩ (![0, 1] : Fin 2 → Fin 2))
    (x : (⟨2, ![m, 1]⟩ : Shape).Idx → α) (j : Fin m) (c : Fin C) :
    broadcastInDim (⟨2, ![m, C]⟩ : Shape) ![0, 1] h x (ix2 j c) = x (ix2 j 0) := by
  refine broadcastInDim_apply _ h x (ix2 j c) (ix2 j 0) fun a => ?_
  match a with
  | ⟨0, _⟩ =>
    show j.val = if m = 1 then 0 else j.val
    split
    · next h1 => have := j.isLt; omega
    · rfl
  | ⟨1, _⟩ =>
    show (0 : ℕ) = if (1 : ℕ) = 1 then 0 else c.val
    rw [if_pos rfl]

/-- Four columns laid side by side, read at `(j, c)`: column `c` at row `j`. -/
theorem concat4_apply {α : Type} {m : ℕ}
    (h : Shape.Concatenates [(⟨2, ![m, 1]⟩ : Shape), ⟨2, ![m, 1]⟩, ⟨2, ![m, 1]⟩, ⟨2, ![m, 1]⟩] ⟨2, ![m, 4]⟩ 1)
    (x0 x1 x2 x3 : (⟨2, ![m, 1]⟩ : Shape).Idx → α) (j : Fin m) (c : Fin 4) :
    concatenate (⟨2, ![m, 4]⟩ : Shape) 1 [⟨⟨2, ![m, 1]⟩, x0⟩, ⟨⟨2, ![m, 1]⟩, x1⟩, ⟨⟨2, ![m, 1]⟩, x2⟩, ⟨⟨2, ![m, 1]⟩, x3⟩] h (ix2 j c)
      = (match c with | ⟨0, _⟩ => x0 | ⟨1, _⟩ => x1 | ⟨2, _⟩ => x2 | ⟨3, _⟩ => x3) (ix2 j 0) := by
  have hi : ∀ (c : Fin 4) (b : Fin 2), b.cast (rfl : (2 : ℕ) = 2) ≠ (1 : Fin 2) →
      ((ix2 j (0 : Fin 1) : (⟨2, ![m, 1]⟩ : Shape).Idx) b).val = ((ix2 j c : (⟨2, ![m, 4]⟩ : Shape).Idx) (b.cast rfl)).val := by
    intro c b hb
    match b with
    | ⟨0, _⟩ => rfl
    | ⟨1, _⟩ => exact absurd rfl hb
  match c with
  | ⟨0, hc⟩ =>
    exact concatenate_apply_piece 1 [⟨⟨2, ![m, 1]⟩, x0⟩, ⟨⟨2, ![m, 1]⟩, x1⟩, ⟨⟨2, ![m, 1]⟩, x2⟩, ⟨⟨2, ![m, 1]⟩, x3⟩] h
      (ix2 j ⟨0, hc⟩) 0 (by simp) ⟨2, ![m, 1]⟩ x0 rfl rfl 0 rfl (ix2 j 0) (hi _) rfl
  | ⟨1, hc⟩ =>
    exact concatenate_apply_piece 1 [⟨⟨2, ![m, 1]⟩, x0⟩, ⟨⟨2, ![m, 1]⟩, x1⟩, ⟨⟨2, ![m, 1]⟩, x2⟩, ⟨⟨2, ![m, 1]⟩, x3⟩] h
      (ix2 j ⟨1, hc⟩) 1 (by simp) ⟨2, ![m, 1]⟩ x1 rfl rfl 1 rfl (ix2 j 0) (hi _) rfl
  | ⟨2, hc⟩ =>
    exact concatenate_apply_piece 1 [⟨⟨2, ![m, 1]⟩, x0⟩, ⟨⟨2, ![m, 1]⟩, x1⟩, ⟨⟨2, ![m, 1]⟩, x2⟩, ⟨⟨2, ![m, 1]⟩, x3⟩] h
      (ix2 j ⟨2, hc⟩) 2 (by simp) ⟨2, ![m, 1]⟩ x2 rfl rfl 2 rfl (ix2 j 0) (hi _) rfl
  | ⟨3, hc⟩ =>
    exact concatenate_apply_piece 1 [⟨⟨2, ![m, 1]⟩, x0⟩, ⟨⟨2, ![m, 1]⟩, x1⟩, ⟨⟨2, ![m, 1]⟩, x2⟩, ⟨⟨2, ![m, 1]⟩, x3⟩] h
      (ix2 j ⟨3, hc⟩) 3 (by simp) ⟨2, ![m, 1]⟩ x3 rfl rfl 3 rfl (ix2 j 0) (hi _) rfl

/-! ## The two arithmetic bodies read at an index -/

/-- `jnp.remainder` of an array by a scalar, operation by operation, read at an index. -/
theorem rem_apply {T : Shape} (hb : S_.BroadcastsInDim T (![] : Fin 0 → Fin T.rank)) (x : IVec T 32) (d : IVec S_ 32)
    {r_v0 : IVec S_ 32} {r_c : IVec S_ 32} {r_v1 : IVec S_ 1} {r_c_0 : IVec S_ 32} {r_v2 : IVec S_ 32}
    {r_v3 : IVec T 32} {r_v4 : IVec T 32} {r_c_1 : IVec S_ 32} {r_v5 : IVec T 32} {r_v6 : IVec T 1}
    {r_c_2 : IVec S_ 32} {r_v7 : IVec T 32} {r_v8 : IVec T 1} {r_c_3 : IVec S_ 32} {r_v9 : IVec S_ 1}
    {r_v10 : IVec T 1} {r_v11 : IVec T 1} {r_v12 : IVec T 1} {r_v13 : IVec T 32} {r_v14 : IVec T 32}
    {out : IVec T 32}
    (h_v0 : r_v0 = id d)
    (h_c : r_c = (constantI S_ 32 0#32))
    (h_v1 : r_v1 = (cmpi .eq) r_v0 r_c)
    (h_c_0 : r_c_0 = (constantI S_ 32 1#32))
    (h_v2 : r_v2 = select r_v1 r_c_0 r_v0)
    (h_v3 : r_v3 = (broadcastInDim T ![] hb) r_v2)
    (h_v4 : r_v4 = Host.remsi x r_v3)
    (h_c_1 : r_c_1 = (constantI S_ 32 0#32))
    (h_v5 : r_v5 = (broadcastInDim T ![] hb) r_c_1)
    (h_v6 : r_v6 = (cmpi .ne) r_v4 r_v5)
    (h_c_2 : r_c_2 = (constantI S_ 32 0#32))
    (h_v7 : r_v7 = (broadcastInDim T ![] hb) r_c_2)
    (h_v8 : r_v8 = (cmpi .slt) r_v4 r_v7)
    (h_c_3 : r_c_3 = (constantI S_ 32 0#32))
    (h_v9 : r_v9 = (cmpi .slt) r_v2 r_c_3)
    (h_v10 : r_v10 = (broadcastInDim T ![] hb) r_v9)
    (h_v11 : r_v11 = (cmpi .ne) r_v8 r_v10)
    (h_v12 : r_v12 = andi r_v11 r_v6)
    (h_v13 : r_v13 = (broadcastInDim T ![] hb) r_v2)
    (h_v14 : r_v14 = addi r_v4 r_v13)
    (h_out : out = select r_v12 r_v14 r_v4) (i : T.Idx) :
    out i = remE (x i) (d ix0) := by
  subst h_out h_v14 h_v13 h_v12 h_v11 h_v10 h_v9 h_c_3 h_v8 h_v7 h_c_2 h_v6 h_v5 h_c_1 h_v4 h_v3 h_v2 h_c_0 h_v1 h_c h_v0
  simp only [bcast_scalar_eq]
  rfl

/-- `jnp.floor_divide` of an array by a scalar, operation by operation, read at an index. -/
theorem fdiv_apply {T : Shape} (hb : S_.BroadcastsInDim T (![] : Fin 0 → Fin T.rank)) (x : IVec T 32) (d : IVec S_ 32)
    {q_v0 : IVec S_ 32} {q_v1 : IVec T 32} {q_v2 : IVec T 32} {q_v3 : IVec T 32} {q_v4 : IVec S_ 32}
    {q_v5 : IVec T 32} {q_v6 : IVec T 1} {q_v7 : IVec T 32} {q_v8 : IVec T 32} {q_c : IVec S_ 32}
    {q_v9 : IVec T 32} {q_v10 : IVec T 1} {q_v11 : IVec T 1} {q_c_0 : IVec S_ 32} {q_v12 : IVec T 32}
    {q_v13 : IVec T 32} {out : IVec T 32}
    (h_v0 : q_v0 = id d)
    (h_v1 : q_v1 = (broadcastInDim T ![] hb) q_v0)
    (h_v2 : q_v2 = Host.divsi x q_v1)
    (h_v3 : q_v3 = signi x)
    (h_v4 : q_v4 = signi q_v0)
    (h_v5 : q_v5 = (broadcastInDim T ![] hb) q_v4)
    (h_v6 : q_v6 = (cmpi .ne) q_v3 q_v5)
    (h_v7 : q_v7 = (broadcastInDim T ![] hb) q_v0)
    (h_v8 : q_v8 = Host.remsi x q_v7)
    (h_c : q_c = (constantI S_ 32 0#32))
    (h_v9 : q_v9 = (broadcastInDim T ![] hb) q_c)
    (h_v10 : q_v10 = (cmpi .ne) q_v8 q_v9)
    (h_v11 : q_v11 = andi q_v6 q_v10)
    (h_c_0 : q_c_0 = (constantI S_ 32 1#32))
    (h_v12 : q_v12 = (broadcastInDim T ![] hb) q_c_0)
    (h_v13 : q_v13 = subi q_v2 q_v12)
    (h_out : out = select q_v11 q_v13 q_v2) (i : T.Idx) :
    out i = fdivE (x i) (d ix0) := by
  subst h_out h_v13 h_v12 h_c_0 h_v11 h_v10 h_v9 h_c h_v8 h_v7 h_v6 h_v5 h_v4 h_v3 h_v2 h_v1 h_v0
  simp only [bcast_scalar_eq]
  rfl

/-! ## The chosen points -/

/-- The points listed before position `total` are chosen: in particular their keys are in range. -/
theorem chosen_order_of_lt_total (key : Fin n → ℕ) (j : Fin n) (hj : j.val < total key) :
    Cert.Lib.Dedup.chosen key S (order key j) := by
  classical
  have h1 := Cert.Lib.Dedup.downClosed_iff_lt_card (fun j : Fin n => Cert.Lib.Dedup.chosen key S (order key j))
    (fun j j' hjj hj => Cert.Lib.Dedup.chosen_downClosed (order_lexSorted key) j j' hjj hj) j
  rw [Cert.Lib.Dedup.card_filter_comp_bijective (order_bijective key) (Cert.Lib.Dedup.chosen key S)] at h1
  exact h1.mpr hj

/-! ## Decoding one key -/

/-- The chain of remainders and flooring quotients by 352, 400 and 1 on the word of a key below the number of
    voxels gives the words of the natural remainders and quotients. -/
theorem decode_chain (k : ℕ) (hk : k < 1126400) (x41 x45 x46 x47 x48 x49 x50 : BitVec 32)
    (a41 : x41 = BitVec.ofNat 32 k)
    (e45 : x45 = remE x41 352#32) (e46 : x46 = fdivE x41 352#32)
    (e47 : x47 = remE x46 400#32) (e48 : x48 = fdivE x46 400#32)
    (e49 : x49 = remE x48 1#32) (e50 : x50 = fdivE x48 1#32) :
    x45 = BitVec.ofNat 32 (k % 352) ∧ x47 = BitVec.ofNat 32 (k / 352 % 400) ∧
      x49 = BitVec.ofNat 32 (k / 352 / 400 % 1) ∧ x50 = BitVec.ofNat 32 (k / 352 / 400 / 1) := by
  have hk31 : k < 2 ^ 31 := by omega
  have h1 : k / 352 < 2 ^ 31 := lt_of_le_of_lt (Nat.div_le_self _ _) hk31
  have h2 : k / 352 / 400 < 2 ^ 31 := lt_of_le_of_lt (Nat.div_le_self _ _) h1
  subst a41
  have a46 : x46 = BitVec.ofNat 32 (k / 352) := e46.trans (fdivE_ofNat k 352 hk31 (by norm_num) (by norm_num))
  have a48 : x48 = BitVec.ofNat 32 (k / 352 / 400) := by
    rw [e48, a46]; exact fdivE_ofNat _ 400 h1 (by norm_num) (by norm_num)
  refine ⟨e45.trans (remE_ofNat k 352 hk31 (by norm_num) (by norm_num)), ?_, ?_, ?_⟩
  · rw [e47, a46]; exact remE_ofNat _ 400 h1 (by norm_num) (by norm_num)
  · rw [e49, a48]; exact remE_ofNat _ 1 h2 (by norm_num) (by norm_num)
  · rw [e50, a48]; exact fdivE_ofNat _ 1 h2 (by norm_num) (by norm_num)

/-! ## The decoded coordinates and the gathered points, from the operations read at an index -/

theorem tailB_core (key : Fin n → ℕ)
    (v0 : FVec Ideal ⟨2, ![n, 4]⟩ .f32) (v33 v41 : IVec ⟨1, ![n]⟩ 32) (v44 : IVec ⟨1, ![n]⟩ 1)
    (hv44 : ∀ j : Fin n, v44 (ix1 j) = if j.val < total key then 1#1 else 0#1)
    (hv33 : ∀ j : Fin n, j.val < total key → v33 (ix1 j) = BitVec.ofNat 32 (order key j).val)
    (hv41 : ∀ j : Fin n, j.val < total key → v41 (ix1 j) = BitVec.ofNat 32 (key (order key j)))
    (v45 v46 v47 v48 v49 v50 : IVec ⟨1, ![n]⟩ 32)
    (e45 : ∀ i, v45 i = remE (v41 i) 352#32) (e46 : ∀ i, v46 i = fdivE (v41 i) 352#32)
    (e47 : ∀ i, v47 i = remE (v46 i) 400#32) (e48 : ∀ i, v48 i = fdivE (v46 i) 400#32)
    (e49 : ∀ i, v49 i = remE (v48 i) 1#32) (e50 : ∀ i, v50 i = fdivE (v48 i) 1#32)
    (v51 v52 v53 v54 : IVec ⟨2, ![n, 1]⟩ 32)
    (e51 : ∀ j, v51 (ix2 j 0) = v50 (ix1 j)) (e52 : ∀ j, v52 (ix2 j 0) = v49 (ix1 j))
    (e53 : ∀ j, v53 (ix2 j 0) = v47 (ix1 j)) (e54 : ∀ j, v54 (ix2 j 0) = v45 (ix1 j))
    (v55 : IVec ⟨2, ![n, 4]⟩ 32)
    (e55 : ∀ (j : Fin n) (c : Fin 4), v55 (ix2 j c)
      = (match c with | ⟨0, _⟩ => v51 | ⟨1, _⟩ => v52 | ⟨2, _⟩ => v53 | ⟨3, _⟩ => v54) (ix2 j 0))
    (v58 : IVec ⟨1, ![n]⟩ 1) (v60 v61 : IVec ⟨1, ![n]⟩ 32) (v62 : IVec ⟨2, ![n, 1]⟩ 32)
    (e58 : ∀ i, v58 i = IntOp.cmpi .slt (v33 i) 0#32)
    (e61 : ∀ i, v61 i = Scalar.select (v58 i) (v60 i) (v33 i))
    (e62 : ∀ j, v62 (ix2 j 0) = v61 (ix1 j))
    (dg : GatherDims ⟨2, ![n, 4]⟩ ⟨2, ![n, 1]⟩ ⟨2, ![n, 4]⟩) (g1 : dg.offsetDims = [1])
    (g2 : dg.collapsedSliceDims = [0]) (g3 : dg.operandBatchingDims = []) (g4 : dg.startIndicesBatchingDims = [])
    (g5 : dg.startIndexMap = [0]) (g6 : dg.indexVectorDim = 1) (g7 : dg.sliceSizes = ![1, 4])
    (v63 : FVec Ideal ⟨2, ![n, 4]⟩ .f32) (e63 : v63 = Host.gather dg v0 v62)
    (m9 : IVec ⟨2, ![n, 4]⟩ 1) (z9 v64 : FVec Ideal ⟨2, ![n, 4]⟩ .f32)
    (em9 : ∀ j c, m9 (ix2 j c) = v44 (ix1 j)) (ez9 : ∀ j c, z9 (ix2 j c) = Ideal.ofBits .f32 0x00000000#32)
    (e64 : ∀ j c, v64 (ix2 j c) = Scalar.select (m9 (ix2 j c)) (v63 (ix2 j c)) (z9 (ix2 j c)))
    (m10 : IVec ⟨2, ![n, 4]⟩ 1) (z10 v66 : IVec ⟨2, ![n, 4]⟩ 32)
    (em10 : ∀ j c, m10 (ix2 j c) = v44 (ix1 j)) (ez10 : ∀ j c, z10 (ix2 j c) = 4294967295#32)
    (e66 : ∀ j c, v66 (ix2 j c) = Scalar.select (m10 (ix2 j c)) (v55 (ix2 j c)) (z10 (ix2 j c))) :
    (∀ (j : Fin n) (c : Fin 4), v64 (ix2 j c) = if j.val < total key then v0 (ix2 (order key j) c) else Ideal.ofBits .f32 0x00000000#32)
    ∧ (∀ (j : Fin n) (c : Fin 4), v66 (ix2 j c) = if j.val < total key then dec (key (order key j)) c else 4294967295#32) := by
  have hn : n = 4000000 := rfl
  refine ⟨fun j c => ?_, fun j c => ?_⟩
  · -- the gathered points
    rw [e64, em9, ez9, hv44]
    by_cases hj : j.val < total key
    · rw [if_pos hj, if_pos hj, select_of_eq_one rfl, e63]
      have hp := (order key j).isLt
      have hp31 : (order key j).val < 2 ^ 31 := by omega
      have a61 : v61 (ix1 j) = BitVec.ofNat 32 (order key j).val := by
        rw [e61, e58, hv33 j hj, cmpi_slt_zero_ofNat _ hp31]
        exact select_of_ne_one (by decide) _ _
      refine gatherRows_apply dg g1 g2 g3 g4 g5 g6 g7 v0 v62 j c (order key j) ?_
      rw [e62, a61]
      exact toInt_ofNat_of_lt _ hp31
    · rw [if_neg hj, if_neg hj]
      exact select_of_ne_one (by decide) _ _
  · -- the decoded coordinates
    rw [e66, em10, ez10, hv44]
    by_cases hj : j.val < total key
    · rw [if_pos hj, if_pos hj, select_of_eq_one rfl, e55]
      have hk : key (order key j) < S := (chosen_order_of_lt_total key j hj).1
      obtain ⟨b45, b47, b49, b50⟩ := decode_chain (key (order key j)) hk _ _ _ _ _ _ _ (hv41 j hj)
        (e45 (ix1 j)) (e46 (ix1 j)) (e47 (ix1 j)) (e48 (ix1 j)) (e49 (ix1 j)) (e50 (ix1 j))
      match c with
      | ⟨0, _⟩ => exact (e51 j).trans b50
      | ⟨1, _⟩ => exact (e52 j).trans b49
      | ⟨2, _⟩ => exact (e53 j).trans b47
      | ⟨3, _⟩ => exact (e54 j).trans b45
    · rw [if_neg hj, if_neg hj]
      exact select_of_ne_one (by decide) _ _

/-! ## The program's last host operations -/

theorem tailB
    (key : Fin n → ℕ) (hkey : ∀ i, key i ≤ S)
    (v0 : FVec Ideal S4000000x4 .f32) (v33 : IVec S4000000 32) (v41 : IVec S4000000 32) (v44 : IVec S4000000 1) (c_10 : IVec S_ 32)
    (hv44 : ∀ j : Fin n, v44 (ix1 j) = if j.val < total key then 1#1 else 0#1)
    (hv33 : ∀ j : Fin n, j.val < total key → v33 (ix1 j) = BitVec.ofNat 32 (order key j).val)
    (hv41 : ∀ j : Fin n, j.val < total key → v41 (ix1 j) = BitVec.ofNat 32 (key (order key j)))
    (hc10 : c_10 = constantI S_ 32 352#32)
    (call3_v0 : IVec S_ 32) (call3_c : IVec S_ 32) (call3_v1 : IVec S_ 1) (call3_c_0 : IVec S_ 32) (call3_v2 : IVec S_ 32) (call3_v3 : IVec S4000000 32) (call3_v4 : IVec S4000000 32) (call3_c_1 : IVec S_ 32) (call3_v5 : IVec S4000000 32) (call3_v6 : IVec S4000000 1) (call3_c_2 : IVec S_ 32) (call3_v7 : IVec S4000000 32) (call3_v8 : IVec S4000000 1) (call3_c_3 : IVec S_ 32) (call3_v9 : IVec S_ 1) (call3_v10 : IVec S4000000 1) (call3_v11 : IVec S4000000 1) (call3_v12 : IVec S4000000 1) (call3_v13 : IVec S4000000 32) (call3_v14 : IVec S4000000 32) (v45 : IVec S4000000 32) (c_11 : IVec S_ 32) (call4_v0 : IVec S_ 32) (call4_v1 : IVec S4000000 32) (call4_v2 : IVec S4000000 32) (call4_v3 : IVec S4000000 32) (call4_v4 : IVec S_ 32) (call4_v5 : IVec S4000000 32) (call4_v6 : IVec S4000000 1) (call4_v7 : IVec S4000000 32) (call4_v8 : IVec S4000000 32) (call4_c : IVec S_ 32) (call4_v9 : IVec S4000000 32) (call4_v10 : IVec S4000000 1) (call4_v11 : IVec S4000000 1) (call4_c_0 : IVec S_ 32) (call4_v12 : IVec S4000000 32) (call4_v13 : IVec S4000000 32) (v46 : IVec S4000000 32) (c_12 : IVec S_ 32) (call5_v0 : IVec S_ 32) (call5_c : IVec S_ 32) (call5_v1 : IVec S_ 1) (call5_c_0 : IVec S_ 32) (call5_v2 : IVec S_ 32) (call5_v3 : IVec S4000000 32) (call5_v4 : IVec S4000000 32) (call5_c_1 : IVec S_ 32) (call5_v5 : IVec S4000000 32) (call5_v6 : IVec S4000000 1) (call5_c_2 : IVec S_ 32) (call5_v7 : IVec S4000000 32) (call5_v8 : IVec S4000000 1) (call5_c_3 : IVec S_ 32) (call5_v9 : IVec S_ 1) (call5_v10 : IVec S4000000 1) (call5_v11 : IVec S4000000 1) (call5_v12 : IVec S4000000 1) (call5_v13 : IVec S4000000 32) (call5_v14 : IVec S4000000 32) (v47 : IVec S4000000 32) (c_13 : IVec S_ 32) (call6_v0 : IVec S_ 32) (call6_v1 : IVec S4000000 32) (call6_v2 : IVec S4000000 32) (call6_v3 : IVec S4000000 32) (call6_v4 : IVec S_ 32) (call6_v5 : IVec S4000000 32) (call6_v6 : IVec S4000000 1) (call6_v7 : IVec S4000000 32) (call6_v8 : IVec S4000000 32) (call6_c : IVec S_ 32) (call6_v9 : IVec S4000000 32) (call6_v10 : IVec S4000000 1) (call6_v11 : IVec S4000000 1) (call6_c_0 : IVec S_ 32) (call6_v12 : IVec S4000000 32) (call6_v13 : IVec S4000000 32) (v48 : IVec S4000000 32) (c_14 : IVec S_ 32) (call7_v0 : IVec S_ 32) (call7_c : IVec S_ 32) (call7_v1 : IVec S_ 1) (call7_c_0 : IVec S_ 32) (call7_v2 : IVec S_ 32) (call7_v3 : IVec S4000000 32) (call7_v4 : IVec S4000000 32) (call7_c_1 : IVec S_ 32) (call7_v5 : IVec S4000000 32) (call7_v6 : IVec S4000000 1) (call7_c_2 : IVec S_ 32) (call7_v7 : IVec S4000000 32) (call7_v8 : IVec S4000000 1) (call7_c_3 : IVec S_ 32) (call7_v9 : IVec S_ 1) (call7_v10 : IVec S4000000 1) (call7_v11 : IVec S4000000 1) (call7_v12 : IVec S4000000 1) (call7_v13 : IVec S4000000 32) (call7_v14 : IVec S4000000 32) (v49 : IVec S4000000 32) (c_15 : IVec S_ 32) (call8_v0 : IVec S_ 32) (call8_v1 : IVec S4000000 32) (call8_v2 : IVec S4000000 32) (call8_v3 : IVec S4000000 32) (call8_v4 : IVec S_ 32) (call8_v5 : IVec S4000000 32) (call8_v6 : IVec S4000000 1) (call8_v7 : IVec S4000000 32) (call8_v8 : IVec S4000000 32) (call8_c : IVec S_ 32) (call8_v9 : IVec S4000000 32) (call8_v10 : IVec S4000000 1) (call8_v11 : IVec S4000000 1) (call8_c_0 : IVec S_ 32) (call8_v12 : IVec S4000000 32) (call8_v13 : IVec S4000000 32) (v50 : IVec S4000000 32) (v51 : IVec S4000000x1 32) (v52 : IVec S4000000x1 32) (v53 : IVec S4000000x1 32) (v54 : IVec S4000000x1 32) (v55 : IVec S4000000x4 32) (v56 : IVec S4000000x1 1) (c_16 : IVec S_ 32) (v57 : IVec S4000000 32) (v58 : IVec S4000000 1) (c_17 : IVec S_ 32) (v59 : IVec S4000000 32) (v60 : IVec S4000000 32) (v61 : IVec S4000000 32) (v62 : IVec S4000000x1 32) (v63 : FVec Ideal S4000000x4 .f32) (cst : FVec Ideal S_ .f32) (call9_v0 : FVec Ideal S_ .f32) (call9_v1 : IVec S4000000x4 1) (call9_v2 : FVec Ideal S4000000x4 .f32) (v64 : FVec Ideal S4000000x4 .f32) (v65 : IVec S4000000x1 1) (c_18 : IVec S_ 32) (call10_v0 : IVec S_ 32) (call10_v1 : IVec S4000000x4 1) (call10_v2 : IVec S4000000x4 32) (v66 : IVec S4000000x4 32)
    (h_call3_v0 : call3_v0 = id c_10)
    (h_call3_c : call3_c = (constantI S_ 32 0#32))
    (h_call3_v1 : call3_v1 = (cmpi .eq) call3_v0 call3_c)
    (h_call3_c_0 : call3_c_0 = (constantI S_ 32 1#32))
    (h_call3_v2 : call3_v2 = select call3_v1 call3_c_0 call3_v0)
    (h_call3_v3 : call3_v3 = (broadcastInDim S4000000 ![] bcast_S_S4000000) call3_v2)
    (h_call3_v4 : call3_v4 = Host.remsi v41 call3_v3)
    (h_call3_c_1 : call3_c_1 = (constantI S_ 32 0#32))
    (h_call3_v5 : call3_v5 = (broadcastInDim S4000000 ![] bcast_S_S4000000) call3_c_1)
    (h_call3_v6 : call3_v6 = (cmpi .ne) call3_v4 call3_v5)
    (h_call3_c_2 : call3_c_2 = (constantI S_ 32 0#32))
    (h_call3_v7 : call3_v7 = (broadcastInDim S4000000 ![] bcast_S_S4000000) call3_c_2)
    (h_call3_v8 : call3_v8 = (cmpi .slt) call3_v4 call3_v7)
    (h_call3_c_3 : call3_c_3 = (constantI S_ 32 0#32))
    (h_call3_v9 : call3_v9 = (cmpi .slt) call3_v2 call3_c_3)
    (h_call3_v10 : call3_v10 = (broadcastInDim S4000000 ![] bcast_S_S4000000) call3_v9)
    (h_call3_v11 : call3_v11 = (cmpi .ne) call3_v8 call3_v10)
    (h_call3_v12 : call3_v12 = andi call3_v11 call3_v6)
    (h_call3_v13 : call3_v13 = (broadcastInDim S4000000 ![] bcast_S_S4000000) call3_v2)
    (h_call3_v14 : call3_v14 = addi call3_v4 call3_v13)
    (h_v45 : v45 = select call3_v12 call3_v14 call3_v4)
    (h_c_11 : c_11 = (constantI S_ 32 352#32))
    (h_call4_v0 : call4_v0 = id c_11)
    (h_call4_v1 : call4_v1 = (broadcastInDim S4000000 ![] bcast_S_S4000000) call4_v0)
    (h_call4_v2 : call4_v2 = Host.divsi v41 call4_v1)
    (h_call4_v3 : call4_v3 = signi v41)
    (h_call4_v4 : call4_v4 = signi call4_v0)
    (h_call4_v5 : call4_v5 = (broadcastInDim S4000000 ![] bcast_S_S4000000) call4_v4)
    (h_call4_v6 : call4_v6 = (cmpi .ne) call4_v3 call4_v5)
    (h_call4_v7 : call4_v7 = (broadcastInDim S4000000 ![] bcast_S_S4000000) call4_v0)
    (h_call4_v8 : call4_v8 = Host.remsi v41 call4_v7)
    (h_call4_c : call4_c = (constantI S_ 32 0#32))
    (h_call4_v9 : call4_v9 = (broadcastInDim S4000000 ![] bcast_S_S4000000) call4_c)
    (h_call4_v10 : call4_v10 = (cmpi .ne) call4_v8 call4_v9)
    (h_call4_v11 : call4_v11 = andi call4_v6 call4_v10)
    (h_call4_c_0 : call4_c_0 = (constantI S_ 32 1#32))
    (h_call4_v12 : call4_v12 = (broadcastInDim S4000000 ![] bcast_S_S4000000) call4_c_0)
    (h_call4_v13 : call4_v13 = subi call4_v2 call4_v12)
    (h_v46 : v46 = select call4_v11 call4_v13 call4_v2)
    (h_c_12 : c_12 = (constantI S_ 32 400#32))
    (h_call5_v0 : call5_v0 = id c_12)
    (h_call5_c : call5_c = (constantI S_ 32 0#32))
    (h_call5_v1 : call5_v1 = (cmpi .eq) call5_v0 call5_c)
    (h_call5_c_0 : call5_c_0 = (constantI S_ 32 1#32))
    (h_call5_v2 : call5_v2 = select call5_v1 call5_c_0 call5_v0)
    (h_call5_v3 : call5_v3 = (broadcastInDim S4000000 ![] bcast_S_S4000000) call5_v2)
    (h_call5_v4 : call5_v4 = Host.remsi v46 call5_v3)
    (h_call5_c_1 : call5_c_1 = (constantI S_ 32 0#32))
    (h_call5_v5 : call5_v5 = (broadcastInDim S4000000 ![] bcast_S_S4000000) call5_c_1)
    (h_call5_v6 : call5_v6 = (cmpi .ne) call5_v4 call5_v5)
    (h_call5_c_2 : call5_c_2 = (constantI S_ 32 0#32))
    (h_call5_v7 : call5_v7 = (broadcastInDim S4000000 ![] bcast_S_S4000000) call5_c_2)
    (h_call5_v8 : call5_v8 = (cmpi .slt) call5_v4 call5_v7)
    (h_call5_c_3 : call5_c_3 = (constantI S_ 32 0#32))
    (h_call5_v9 : call5_v9 = (cmpi .slt) call5_v2 call5_c_3)
    (h_call5_v10 : call5_v10 = (broadcastInDim S4000000 ![] bcast_S_S4000000) call5_v9)
    (h_call5_v11 : call5_v11 = (cmpi .ne) call5_v8 call5_v10)
    (h_call5_v12 : call5_v12 = andi call5_v11 call5_v6)
    (h_call5_v13 : call5_v13 = (broadcastInDim S4000000 ![] bcast_S_S4000000) call5_v2)
    (h_call5_v14 : call5_v14 = addi call5_v4 call5_v13)
    (h_v47 : v47 = select call5_v12 call5_v14 call5_v4)
    (h_c_13 : c_13 = (constantI S_ 32 400#32))
    (h_call6_v0 : call6_v0 = id c_13)
    (h_call6_v1 : call6_v1 = (broadcastInDim S4000000 ![] bcast_S_S4000000) call6_v0)
    (h_call6_v2 : call6_v2 = Host.divsi v46 call6_v1)
    (h_call6_v3 : call6_v3 = signi v46)
    (h_call6_v4 : call6_v4 = signi call6_v0)
    (h_call6_v5 : call6_v5 = (broadcastInDim S4000000 ![] bcast_S_S4000000) call6_v4)
    (h_call6_v6 : call6_v6 = (cmpi .ne) call6_v3 call6_v5)
    (h_call6_v7 : call6_v7 = (broadcastInDim S4000000 ![] bcast_S_S4000000) call6_v0)
    (h_call6_v8 : call6_v8 = Host.remsi v46 call6_v7)
    (h_call6_c : call6_c = (constantI S_ 32 0#32))
    (h_call6_v9 : call6_v9 = (broadcastInDim S4000000 ![] bcast_S_S4000000) call6_c)
    (h_call6_v10 : call6_v10 = (cmpi .ne) call6_v8 call6_v9)
    (h_call6_v11 : call6_v11 = andi call6_v6 call6_v10)
    (h_call6_c_0 : call6_c_0 = (constantI S_ 32 1#32))
    (h_call6_v12 : call6_v12 = (broadcastInDim S4000000 ![] bcast_S_S4000000) call6_c_0)
    (h_call6_v13 : call6_v13 = subi call6_v2 call6_v12)
    (h_v48 : v48 = select call6_v11 call6_v13 call6_v2)
    (h_c_14 : c_14 = (constantI S_ 32 1#32))
    (h_call7_v0 : call7_v0 = id c_14)
    (h_call7_c : call7_c = (constantI S_ 32 0#32))
    (h_call7_v1 : call7_v1 = (cmpi .eq) call7_v0 call7_c)
    (h_call7_c_0 : call7_c_0 = (constantI S_ 32 1#32))
    (h_call7_v2 : call7_v2 = select call7_v1 call7_c_0 call7_v0)
    (h_call7_v3 : call7_v3 = (broadcastInDim S4000000 ![] bcast_S_S4000000) call7_v2)
    (h_call7_v4 : call7_v4 = Host.remsi v48 call7_v3)
    (h_call7_c_1 : call7_c_1 = (constantI S_ 32 0#32))
    (h_call7_v5 : call7_v5 = (broadcastInDim S4000000 ![] bcast_S_S4000000) call7_c_1)
    (h_call7_v6 : call7_v6 = (cmpi .ne) call7_v4 call7_v5)
    (h_call7_c_2 : call7_c_2 = (constantI S_ 32 0#32))
    (h_call7_v7 : call7_v7 = (broadcastInDim S4000000 ![] bcast_S_S4000000) call7_c_2)
    (h_call7_v8 : call7_v8 = (cmpi .slt) call7_v4 call7_v7)
    (h_call7_c_3 : call7_c_3 = (constantI S_ 32 0#32))
    (h_call7_v9 : call7_v9 = (cmpi .slt) call7_v2 call7_c_3)
    (h_call7_v10 : call7_v10 = (broadcastInDim S4000000 ![] bcast_S_S4000000) call7_v9)
    (h_call7_v11 : call7_v11 = (cmpi .ne) call7_v8 call7_v10)
    (h_call7_v12 : call7_v12 = andi call7_v11 call7_v6)
    (h_call7_v13 : call7_v13 = (broadcastInDim S4000000 ![] bcast_S_S4000000) call7_v2)
    (h_call7_v14 : call7_v14 = addi call7_v4 call7_v13)
    (h_v49 : v49 = select call7_v12 call7_v14 call7_v4)
    (h_c_15 : c_15 = (constantI S_ 32 1#32))
    (h_call8_v0 : call8_v0 = id c_15)
    (h_call8_v1 : call8_v1 = (broadcastInDim S4000000 ![] bcast_S_S4000000) call8_v0)
    (h_call8_v2 : call8_v2 = Host.divsi v48 call8_v1)
    (h_call8_v3 : call8_v3 = signi v48)
    (h_call8_v4 : call8_v4 = signi call8_v0)
    (h_call8_v5 : call8_v5 = (broadcastInDim S4000000 ![] bcast_S_S4000000) call8_v4)
    (h_call8_v6 : call8_v6 = (cmpi .ne) call8_v3 call8_v5)
    (h_call8_v7 : call8_v7 = (broadcastInDim S4000000 ![] bcast_S_S4000000) call8_v0)
    (h_call8_v8 : call8_v8 = Host.remsi v48 call8_v7)
    (h_call8_c : call8_c = (constantI S_ 32 0#32))
    (h_call8_v9 : call8_v9 = (broadcastInDim S4000000 ![] bcast_S_S4000000) call8_c)
    (h_call8_v10 : call8_v10 = (cmpi .ne) call8_v8 call8_v9)
    (h_call8_v11 : call8_v11 = andi call8_v6 call8_v10)
    (h_call8_c_0 : call8_c_0 = (constantI S_ 32 1#32))
    (h_call8_v12 : call8_v12 = (broadcastInDim S4000000 ![] bcast_S_S4000000) call8_c_0)
    (h_call8_v13 : call8_v13 = subi call8_v2 call8_v12)
    (h_v50 : v50 = select call8_v11 call8_v13 call8_v2)
    (h_v51 : v51 = (broadcastInDim S4000000x1 ![0] bcast_S4000000_S4000000x1_0 : (⟨S4000000, .i32⟩ : BufTy).Contents (Elt Ideal) → (⟨S4000000x1, .i32⟩ : BufTy).Contents (Elt Ideal)) v50)
    (h_v52 : v52 = (broadcastInDim S4000000x1 ![0] bcast_S4000000_S4000000x1_0 : (⟨S4000000, .i32⟩ : BufTy).Contents (Elt Ideal) → (⟨S4000000x1, .i32⟩ : BufTy).Contents (Elt Ideal)) v49)
    (h_v53 : v53 = (broadcastInDim S4000000x1 ![0] bcast_S4000000_S4000000x1_0 : (⟨S4000000, .i32⟩ : BufTy).Contents (Elt Ideal) → (⟨S4000000x1, .i32⟩ : BufTy).Contents (Elt Ideal)) v47)
    (h_v54 : v54 = (broadcastInDim S4000000x1 ![0] bcast_S4000000_S4000000x1_0 : (⟨S4000000, .i32⟩ : BufTy).Contents (Elt Ideal) → (⟨S4000000x1, .i32⟩ : BufTy).Contents (Elt Ideal)) v45)
    (h_v55 : v55 = (fun u => concatenate S4000000x4 1 [⟨S4000000x1, u 0⟩, ⟨S4000000x1, u 1⟩, ⟨S4000000x1, u 2⟩, ⟨S4000000x1, u 3⟩] concatenates_S4000000x1_S4000000x1_S4000000x1_S4000000x1_S4000000x4_d1) (fun k : Fin 4 => match k with | ⟨0, _⟩ => v51 | ⟨1, _⟩ => v52 | ⟨2, _⟩ => v53 | ⟨3, _⟩ => v54))
    (h_v56 : v56 = (broadcastInDim S4000000x1 ![0] bcast_S4000000_S4000000x1_0 : (⟨S4000000, .i1⟩ : BufTy).Contents (Elt Ideal) → (⟨S4000000x1, .i1⟩ : BufTy).Contents (Elt Ideal)) v44)
    (h_c_16 : c_16 = (constantI S_ 32 0#32))
    (h_v57 : v57 = (broadcastInDim S4000000 ![] bcast_S_S4000000 : (⟨S_, .i32⟩ : BufTy).Contents (Elt Ideal) → (⟨S4000000, .i32⟩ : BufTy).Contents (Elt Ideal)) c_16)
    (h_v58 : v58 = (cmpi .slt : (⟨S4000000, .i32⟩ : BufTy).Contents (Elt Ideal) → (⟨S4000000, .i32⟩ : BufTy).Contents (Elt Ideal) → (⟨S4000000, .i1⟩ : BufTy).Contents (Elt Ideal)) v33 v57)
    (h_c_17 : c_17 = (constantI S_ 32 4000000#32))
    (h_v59 : v59 = (broadcastInDim S4000000 ![] bcast_S_S4000000 : (⟨S_, .i32⟩ : BufTy).Contents (Elt Ideal) → (⟨S4000000, .i32⟩ : BufTy).Contents (Elt Ideal)) c_17)
    (h_v60 : v60 = (addi : (⟨S4000000, .i32⟩ : BufTy).Contents (Elt Ideal) → (⟨S4000000, .i32⟩ : BufTy).Contents (Elt Ideal) → (⟨S4000000, .i32⟩ : BufTy).Contents (Elt Ideal)) v33 v59)
    (h_v61 : v61 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v58 v60 v33)
    (h_v62 : v62 = (broadcastInDim S4000000x1 ![0] bcast_S4000000_S4000000x1_0 : (⟨S4000000, .i32⟩ : BufTy).Contents (Elt Ideal) → (⟨S4000000x1, .i32⟩ : BufTy).Contents (Elt Ideal)) v61)
    (h_v63 : v63 = ((fun x i => Host.gather gather_S4000000x4_S4000000x1_S4000000x4_1_0_n_n_0_1_14 x i) : (⟨S4000000x4, .f32⟩ : BufTy).Contents (Elt Ideal) → (⟨S4000000x1, .i32⟩ : BufTy).Contents (Elt Ideal) → (⟨S4000000x4, .f32⟩ : BufTy).Contents (Elt Ideal)) v0 v62)
    (h_cst : cst = (constant S_ .f32 0x00000000#32))
    (h_call9_v0 : call9_v0 = id cst)
    (h_call9_v1 : call9_v1 = (broadcastInDim S4000000x4 ![0, 1] bcast_S4000000x1_S4000000x4_0_1) v56)
    (h_call9_v2 : call9_v2 = (broadcastInDim S4000000x4 ![] bcast_S_S4000000x4) call9_v0)
    (h_v64 : v64 = select call9_v1 v63 call9_v2)
    (h_v65 : v65 = (broadcastInDim S4000000x1 ![0] bcast_S4000000_S4000000x1_0 : (⟨S4000000, .i1⟩ : BufTy).Contents (Elt Ideal) → (⟨S4000000x1, .i1⟩ : BufTy).Contents (Elt Ideal)) v44)
    (h_c_18 : c_18 = (constantI S_ 32 4294967295#32))
    (h_call10_v0 : call10_v0 = id c_18)
    (h_call10_v1 : call10_v1 = (broadcastInDim S4000000x4 ![0, 1] bcast_S4000000x1_S4000000x4_0_1) v65)
    (h_call10_v2 : call10_v2 = (broadcastInDim S4000000x4 ![] bcast_S_S4000000x4) call10_v0)
    (h_v66 : v66 = select call10_v1 v55 call10_v2) :
    (∀ (j : Fin n) (c : Fin 4), v64 (ix2 j c) = if j.val < total key then v0 (ix2 (order key j) c) else Ideal.ofBits .f32 0x00000000#32)
    ∧ (∀ (j : Fin n) (c : Fin 4), v66 (ix2 j c) = if j.val < total key then dec (key (order key j)) c else 4294967295#32) := by
  have e10 : c_10 ix0 = 352#32 := by rw [hc10]; rfl
  have e11 : c_11 ix0 = 352#32 := by rw [h_c_11]; rfl
  have e12 : c_12 ix0 = 400#32 := by rw [h_c_12]; rfl
  have e13 : c_13 ix0 = 400#32 := by rw [h_c_13]; rfl
  have e14 : c_14 ix0 = 1#32 := by rw [h_c_14]; rfl
  have e15 : c_15 ix0 = 1#32 := by rw [h_c_15]; rfl
  have e45 : ∀ i, v45 i = remE (v41 i) 352#32 := fun i =>
    (rem_apply bcast_S_S4000000 v41 c_10 h_call3_v0 h_call3_c h_call3_v1 h_call3_c_0 h_call3_v2 h_call3_v3 h_call3_v4 h_call3_c_1 h_call3_v5 h_call3_v6 h_call3_c_2 h_call3_v7 h_call3_v8 h_call3_c_3 h_call3_v9 h_call3_v10 h_call3_v11 h_call3_v12 h_call3_v13 h_call3_v14 h_v45 i).trans (congrArg (remE (v41 i)) e10)
  have e46 : ∀ i, v46 i = fdivE (v41 i) 352#32 := fun i =>
    (fdiv_apply bcast_S_S4000000 v41 c_11 h_call4_v0 h_call4_v1 h_call4_v2 h_call4_v3 h_call4_v4 h_call4_v5 h_call4_v6 h_call4_v7 h_call4_v8 h_call4_c h_call4_v9 h_call4_v10 h_call4_v11 h_call4_c_0 h_call4_v12 h_call4_v13 h_v46 i).trans (congrArg (fdivE (v41 i)) e11)
  have e47 : ∀ i, v47 i = remE (v46 i) 400#32 := fun i =>
    (rem_apply bcast_S_S4000000 v46 c_12 h_call5_v0 h_call5_c h_call5_v1 h_call5_c_0 h_call5_v2 h_call5_v3 h_call5_v4 h_call5_c_1 h_call5_v5 h_call5_v6 h_call5_c_2 h_call5_v7 h_call5_v8 h_call5_c_3 h_call5_v9 h_call5_v10 h_call5_v11 h_call5_v12 h_call5_v13 h_call5_v14 h_v47 i).trans (congrArg (remE (v46 i)) e12)
  have e48 : ∀ i, v48 i = fdivE (v46 i) 400#32 := fun i =>
    (fdiv_apply bcast_S_S4000000 v46 c_13 h_call6_v0 h_call6_v1 h_call6_v2 h_call6_v3 h_call6_v4 h_call6_v5 h_call6_v6 h_call6_v7 h_call6_v8 h_call6_c h_call6_v9 h_call6_v10 h_call6_v11 h_call6_c_0 h_call6_v12 h_call6_v13 h_v48 i).trans (congrArg (fdivE (v46 i)) e13)
  have e49 : ∀ i, v49 i = remE (v48 i) 1#32 := fun i =>
    (rem_apply bcast_S_S4000000 v48 c_14 h_call7_v0 h_call7_c h_call7_v1 h_call7_c_0 h_call7_v2 h_call7_v3 h_call7_v4 h_call7_c_1 h_call7_v5 h_call7_v6 h_call7_c_2 h_call7_v7 h_call7_v8 h_call7_c_3 h_call7_v9 h_call7_v10 h_call7_v11 h_call7_v12 h_call7_v13 h_call7_v14 h_v49 i).trans (congrArg (remE (v48 i)) e14)
  have e50 : ∀ i, v50 i = fdivE (v48 i) 1#32 := fun i =>
    (fdiv_apply bcast_S_S4000000 v48 c_15 h_call8_v0 h_call8_v1 h_call8_v2 h_call8_v3 h_call8_v4 h_call8_v5 h_call8_v6 h_call8_v7 h_call8_v8 h_call8_c h_call8_v9 h_call8_v10 h_call8_v11 h_call8_c_0 h_call8_v12 h_call8_v13 h_v50 i).trans (congrArg (fdivE (v48 i)) e15)
  have e51 : ∀ j : Fin n, v51 (ix2 j 0) = v50 (ix1 j) := fun j =>
    (congrFun h_v51 (ix2 j 0)).trans (col_apply bcast_S4000000_S4000000x1_0 v50 j 0)
  have e52 : ∀ j : Fin n, v52 (ix2 j 0) = v49 (ix1 j) := fun j =>
    (congrFun h_v52 (ix2 j 0)).trans (col_apply bcast_S4000000_S4000000x1_0 v49 j 0)
  have e53 : ∀ j : Fin n, v53 (ix2 j 0) = v47 (ix1 j) := fun j =>
    (congrFun h_v53 (ix2 j 0)).trans (col_apply bcast_S4000000_S4000000x1_0 v47 j 0)
  have e54 : ∀ j : Fin n, v54 (ix2 j 0) = v45 (ix1 j) := fun j =>
    (congrFun h_v54 (ix2 j 0)).trans (col_apply bcast_S4000000_S4000000x1_0 v45 j 0)
  have e55 : ∀ (j : Fin n) (c : Fin 4), v55 (ix2 j c)
      = (match c with | ⟨0, _⟩ => v51 | ⟨1, _⟩ => v52 | ⟨2, _⟩ => v53 | ⟨3, _⟩ => v54) (ix2 j 0) := fun j c =>
    (congrFun h_v55 (ix2 j c)).trans
      (concat4_apply concatenates_S4000000x1_S4000000x1_S4000000x1_S4000000x1_S4000000x4_d1 v51 v52 v53 v54 j c)
  have e58 : ∀ i, v58 i = IntOp.cmpi .slt (v33 i) 0#32 := fun i => by
    rw [h_v58, h_v57, h_c_16, bcast_scalar_eq]; rfl
  have e61 : ∀ i, v61 i = Scalar.select (v58 i) (v60 i) (v33 i) := fun i => congrFun h_v61 i
  have e62 : ∀ j : Fin n, v62 (ix2 j 0) = v61 (ix1 j) := fun j =>
    (congrFun h_v62 (ix2 j 0)).trans (col_apply bcast_S4000000_S4000000x1_0 v61 j 0)
  have em9 : ∀ (j : Fin n) (c : Fin 4), call9_v1 (ix2 j c) = v44 (ix1 j) := fun j c =>
    (congrFun h_call9_v1 (ix2 j c)).trans ((rowbc_apply bcast_S4000000x1_S4000000x4_0_1 v56 j c).trans
      ((congrFun h_v56 (ix2 j 0)).trans (col_apply bcast_S4000000_S4000000x1_0 v44 j 0)))
  have ez9 : ∀ (j : Fin n) (c : Fin 4), call9_v2 (ix2 j c) = Ideal.ofBits .f32 0x00000000#32 := fun j c => by
    rw [h_call9_v2, h_call9_v0, h_cst, bcast_scalar_eq]; rfl
  have e64 : ∀ (j : Fin n) (c : Fin 4), v64 (ix2 j c)
      = Scalar.select (call9_v1 (ix2 j c)) (v63 (ix2 j c)) (call9_v2 (ix2 j c)) := fun j c => congrFun h_v64 (ix2 j c)
  have em10 : ∀ (j : Fin n) (c : Fin 4), call10_v1 (ix2 j c) = v44 (ix1 j) := fun j c =>
    (congrFun h_call10_v1 (ix2 j c)).trans ((rowbc_apply bcast_S4000000x1_S4000000x4_0_1 v65 j c).trans
      ((congrFun h_v65 (ix2 j 0)).trans (col_apply bcast_S4000000_S4000000x1_0 v44 j 0)))
  have ez10 : ∀ (j : Fin n) (c : Fin 4), call10_v2 (ix2 j c) = 4294967295#32 := fun j c => by
    rw [h_call10_v2, h_call10_v0, h_c_18, bcast_scalar_eq]; rfl
  have e66 : ∀ (j : Fin n) (c : Fin 4), v66 (ix2 j c)
      = Scalar.select (call10_v1 (ix2 j c)) (v55 (ix2 j c)) (call10_v2 (ix2 j c)) := fun j c => congrFun h_v66 (ix2 j c)
  exact tailB_core key v0 v33 v41 v44 hv44 hv33 hv41 v45 v46 v47 v48 v49 v50 e45 e46 e47 e48 e49 e50
    v51 v52 v53 v54 e51 e52 e53 e54 v55 e55 v58 v60 v61 v62 e58 e61 e62
    gather_S4000000x4_S4000000x1_S4000000x4_1_0_n_n_0_1_14 rfl rfl rfl rfl rfl rfl rfl v63 h_v63
    call9_v1 call9_v2 v64 em9 ez9 e64 call10_v1 call10_v2 v66 em10 ez10 e66

end Cert.KernelIdeal.TailB

end
-- ==== Proof.PtsSpec.lean ====
/-
  The point table: the 8 × 500000 × 4 argument read as 4000000 rows of 4 (row-major, so point i of the table is point
  i % 500000 of batch i / 500000). Both programs begin by this re-shaping.
-/
import proofs.«129221_j18588618457298_2_alg».proof.Proof.KeySpec

noncomputable section

namespace Cert.PtsSpec

open Idealize.ShloMosaic Cert.Spec

theorem casts : (⟨3, ![8, 500000, 4]⟩ : Shape).ShapeCasts ⟨2, ![4000000, 4]⟩ := by decide

/-- The point table of an argument array. -/
def ptsOf (a : FVec Ideal ⟨3, ![8, 500000, 4]⟩ .f32) : FVec Ideal ⟨2, ![n, 4]⟩ .f32 :=
  fun i => shapeCast ⟨2, ![4000000, 4]⟩ a casts i

end Cert.PtsSpec

end
-- ==== Proof.KernelIdealResult.lean ====
/-
  The kernel program's three results as mathematics. The host operations after the region start from the launch
  memory with the key row in place; their equations, one per operation, feed the two statements about the sort-and-compact
  stretch and the decode-and-mask stretch. So at the end: row j of the first result is point order(j) of the point
  table for j below the number of occupied voxels and zero after; row j of the second is that point's voxel
  coordinates, or −1; entry j of the third says whether j is below that number. The argument array is unchanged.
-/
import proofs.«129221_j18588618457298_2_alg».proof.Proof.KernelIdealValue
import proofs.«129221_j18588618457298_2_alg».proof.Proof.KernelIdealStages1
import proofs.«129221_j18588618457298_2_alg».proof.Proof.KernelIdealStages2
import proofs.«129221_j18588618457298_2_alg».proof.Proof.KernelIdealStages3
import proofs.«129221_j18588618457298_2_alg».proof.Proof.KernelIdealStages4
import proofs.«129221_j18588618457298_2_alg».proof.Proof.KernelTailA
import proofs.«129221_j18588618457298_2_alg».proof.Proof.KernelTailB
import proofs.«129221_j18588618457298_2_alg».proof.Proof.PtsSpec

set_option maxRecDepth 16384

noncomputable section

namespace Cert.KernelIdeal.Result

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.Host Cert.KernelIdeal.Body Cert.KernelIdeal.Value
open Cert.Spec Cert.KeySpec Cert.PtsSpec

variable (m : (ℓ : Loc nD τ sig) → Buf (Elt Ideal) ℓ) (ρ : Dev nD → PrngReg)

/-- The contents the host operations after the region start from: the launch memory after the three operations before
    the region, with the two window arrays as the region left them. -/
abbrev U (c : Dev nD) : Valuation τ sig (Elt Ideal) :=
  Pipeline.withArrays (cfgs 0).spec c (V0 m c) (fun w => (dats m 0 c).arrAt w (cfgs 0).N)

/-- What the later host operations leave in a buffer, in the stage equations' spelling. -/
theorem tail_eq (c : Dev nD) (b : Ref sig .tc) :
    Pipeline.afterTail₀ cfgs (dats m) 0 (V0 m) tail c b = Stages.Vf (U m c) b := by
  unfold Pipeline.afterTail₀
  exact (Stages.Vf_eq (U m c) b).symm

theorem notW {b : Ref sig .tc} (h : b.idx.val ∉ (Stages.W).map (fun r => r.idx.val)) : b ∉ Stages.W :=
  Stages.not_mem_of_idx h

/-- The key row is in place. -/
theorem U_v2 (c : Dev nD) : Stages.Vf (U m c) main_v2 = keyRow m c :=
  (Stages.kept (U m c) (b := main_v2) (notW (by decide +kernel))).trans
    ((Pipeline.withArrays_arr spec0 launch0.win.arr_inj c _ _ 1).trans (final m c))

/-- The point table is the one the region's program read. -/
theorem U_v0 (c : Dev nD) : Stages.Vf (U m c) main_v0 = pts m c :=
  (Stages.kept (U m c) (b := main_v0) (notW (by decide +kernel))).trans
    (Pipeline.withArrays_of_ne _ c (V0 m c) _ main_v0 (by decide))

/-- The sentinel written before the region. -/
theorem U_c (c : Dev nD) : Stages.Vf (U m c) main_c = constantI S1 32 1126401#32 :=
  (Stages.kept (U m c) (b := main_c) (notW (by decide +kernel))).trans
    ((Pipeline.withArrays_of_ne _ c (V0 m c) _ main_c (by decide)).trans (by
      show StableHlo.after hostOps0 (fun b => m (c, b)) (Proc.devRef .tc main_c) = _
      after_results))

/-- The point table is the argument re-shaped. -/
theorem pts_eq (c : Dev nD) : pts m c = ptsOf (m ((c : Thread nD τ).loc main_arg0)) := by
  show StableHlo.after hostOps0 (fun b => m (c, b)) (Proc.devRef .tc main_v0) = _
  after_results
  rfl

set_option maxHeartbeats 4000000 in
/-- What the kernel program's later host operations leave in the three result buffers. -/
theorem values (c : Dev nD) :
    (∀ (j : Fin n) (ch : Fin 4), Stages.Vf (U m c) main_v64 (ix2 j ch)
        = if j.val < total (keyOf (pts m c)) then pts m c (ix2 (order (keyOf (pts m c)) j) ch) else Ideal.ofBits .f32 0x00000000#32)
    ∧ (∀ (j : Fin n) (ch : Fin 4), Stages.Vf (U m c) main_v66 (ix2 j ch)
        = if j.val < total (keyOf (pts m c)) then dec (keyOf (pts m c) (order (keyOf (pts m c)) j)) ch else 4294967295#32)
    ∧ (∀ j : Fin n, Stages.Vf (U m c) main_v44 (ix1 j) = if j.val < total (keyOf (pts m c)) then 1#1 else 0#1) := by
  have hv2 : ∀ i : Fin n, Stages.Vf (U m c) main_v2 (ix2 0 i) = BitVec.ofNat 32 (keyOf (pts m c) i) := fun i => by
    rw [U_v2]; rfl
  obtain ⟨hA1, hA2, hA3⟩ := Cert.KernelIdeal.TailA.tailA (key := keyOf (pts m c)) (hkey := keyOf_le _) (hv2 := hv2) (hc := U_c m c)
      (v3 := Stages.Vf (U m c) main_v3) (v2 := Stages.Vf (U m c) main_v2) (v4 := Stages.Vf (U m c) main_v4) (v5_0 := Stages.Vf (U m c) main_v5_0) (v5_1 := Stages.Vf (U m c) main_v5_1) (v6 := Stages.Vf (U m c) main_v6) (v7 := Stages.Vf (U m c) main_v7) (c := Stages.Vf (U m c) main_c) (v8 := Stages.Vf (U m c) main_v8) (c_0 := Stages.Vf (U m c) main_c_0) (v9 := Stages.Vf (U m c) main_v9) (v10 := Stages.Vf (U m c) main_v10) (v11 := Stages.Vf (U m c) main_v11) (v12 := Stages.Vf (U m c) main_v12) (call0_call0_c := Stages.Vf (U m c) main_call0_call0_c) (call0_call0_v0 := Stages.Vf (U m c) main_call0_call0_v0) (v13 := Stages.Vf (U m c) main_v13) (c_1 := Stages.Vf (U m c) main_c_1) (v14 := Stages.Vf (U m c) main_v14) (v15 := Stages.Vf (U m c) main_v15) (call1_call0_c := Stages.Vf (U m c) main_call1_call0_c) (call1_call0_v0 := Stages.Vf (U m c) main_call1_call0_v0) (v16 := Stages.Vf (U m c) main_v16) (v17 := Stages.Vf (U m c) main_v17) (v18 := Stages.Vf (U m c) main_v18) (c_2 := Stages.Vf (U m c) main_c_2) (v19 := Stages.Vf (U m c) main_v19) (v20 := Stages.Vf (U m c) main_v20) (v21 := Stages.Vf (U m c) main_v21) (v22 := Stages.Vf (U m c) main_v22) (c_3 := Stages.Vf (U m c) main_c_3) (v23 := Stages.Vf (U m c) main_v23) (v24 := Stages.Vf (U m c) main_v24) (v25 := Stages.Vf (U m c) main_v25) (c_4 := Stages.Vf (U m c) main_c_4) (v26 := Stages.Vf (U m c) main_v26) (c_5 := Stages.Vf (U m c) main_c_5) (v27 := Stages.Vf (U m c) main_v27) (v28 := Stages.Vf (U m c) main_v28) (c_6 := Stages.Vf (U m c) main_c_6) (v29 := Stages.Vf (U m c) main_v29) (v30 := Stages.Vf (U m c) main_v30) (v31 := Stages.Vf (U m c) main_v31) (v32 := Stages.Vf (U m c) main_v32) (v33 := Stages.Vf (U m c) main_v33) (c_7 := Stages.Vf (U m c) main_c_7) (v34 := Stages.Vf (U m c) main_v34) (c_8 := Stages.Vf (U m c) main_c_8) (v35 := Stages.Vf (U m c) main_v35) (v36 := Stages.Vf (U m c) main_v36) (c_9 := Stages.Vf (U m c) main_c_9) (v37 := Stages.Vf (U m c) main_v37) (v38 := Stages.Vf (U m c) main_v38) (v39 := Stages.Vf (U m c) main_v39) (v40 := Stages.Vf (U m c) main_v40) (v41 := Stages.Vf (U m c) main_v41) (v42 := Stages.Vf (U m c) main_v42) (v43 := Stages.Vf (U m c) main_v43) (v44 := Stages.Vf (U m c) main_v44) (c_10 := Stages.Vf (U m c) main_c_10) (h_v3 := Stages.st_main_v3 (U m c)) (h_v4 := Stages.st_main_v4 (U m c)) (h_v5_0 := Stages.st_main_v5_0 (U m c)) (h_v5_1 := Stages.st_main_v5_1 (U m c)) (h_v6 := Stages.st_main_v6 (U m c)) (h_v7 := Stages.st_main_v7 (U m c)) (h_v8 := Stages.st_main_v8 (U m c)) (h_c_0 := Stages.st_main_c_0 (U m c)) (h_v9 := Stages.st_main_v9 (U m c)) (h_v10 := Stages.st_main_v10 (U m c)) (h_v11 := Stages.st_main_v11 (U m c)) (h_v12 := Stages.st_main_v12 (U m c)) (h_call0_call0_c := Stages.st_main_call0_call0_c (U m c)) (h_call0_call0_v0 := Stages.st_main_call0_call0_v0 (U m c)) (h_v13 := Stages.st_main_v13 (U m c)) (h_c_1 := Stages.st_main_c_1 (U m c)) (h_v14 := Stages.st_main_v14 (U m c)) (h_v15 := Stages.st_main_v15 (U m c)) (h_call1_call0_c := Stages.st_main_call1_call0_c (U m c)) (h_call1_call0_v0 := Stages.st_main_call1_call0_v0 (U m c)) (h_v16 := Stages.st_main_v16 (U m c)) (h_v17 := Stages.st_main_v17 (U m c)) (h_v18 := Stages.st_main_v18 (U m c)) (h_c_2 := Stages.st_main_c_2 (U m c)) (h_v19 := Stages.st_main_v19 (U m c)) (h_v20 := Stages.st_main_v20 (U m c)) (h_v21 := Stages.st_main_v21 (U m c)) (h_v22 := Stages.st_main_v22 (U m c)) (h_c_3 := Stages.st_main_c_3 (U m c)) (h_v23 := Stages.st_main_v23 (U m c)) (h_v24 := Stages.st_main_v24 (U m c)) (h_v25 := Stages.st_main_v25 (U m c)) (h_c_4 := Stages.st_main_c_4 (U m c)) (h_v26 := Stages.st_main_v26 (U m c)) (h_c_5 := Stages.st_main_c_5 (U m c)) (h_v27 := Stages.st_main_v27 (U m c)) (h_v28 := Stages.st_main_v28 (U m c)) (h_c_6 := Stages.st_main_c_6 (U m c)) (h_v29 := Stages.st_main_v29 (U m c)) (h_v30 := Stages.st_main_v30 (U m c)) (h_v31 := Stages.st_main_v31 (U m c)) (h_v32 := Stages.st_main_v32 (U m c)) (h_v33 := Stages.st_main_v33 (U m c)) (h_c_7 := Stages.st_main_c_7 (U m c)) (h_v34 := Stages.st_main_v34 (U m c)) (h_c_8 := Stages.st_main_c_8 (U m c)) (h_v35 := Stages.st_main_v35 (U m c)) (h_v36 := Stages.st_main_v36 (U m c)) (h_c_9 := Stages.st_main_c_9 (U m c)) (h_v37 := Stages.st_main_v37 (U m c)) (h_v38 := Stages.st_main_v38 (U m c)) (h_v39 := Stages.st_main_v39 (U m c)) (h_v40 := Stages.st_main_v40 (U m c)) (h_v41 := Stages.st_main_v41 (U m c)) (h_v42 := Stages.st_main_v42 (U m c)) (h_v43 := Stages.st_main_v43 (U m c)) (h_v44 := Stages.st_main_v44 (U m c)) (h_c_10 := Stages.st_main_c_10 (U m c))
  obtain ⟨hB1, hB2⟩ := Cert.KernelIdeal.TailB.tailB (key := keyOf (pts m c)) (hkey := keyOf_le _) (hv44 := hA1) (hv33 := hA2) (hv41 := hA3) (hc10 := Stages.st_main_c_10 (U m c))
      (call3_v0 := Stages.Vf (U m c) main_call3_v0) (c_10 := Stages.Vf (U m c) main_c_10) (call3_c := Stages.Vf (U m c) main_call3_c) (call3_v1 := Stages.Vf (U m c) main_call3_v1) (call3_c_0 := Stages.Vf (U m c) main_call3_c_0) (call3_v2 := Stages.Vf (U m c) main_call3_v2) (call3_v3 := Stages.Vf (U m c) main_call3_v3) (call3_v4 := Stages.Vf (U m c) main_call3_v4) (v41 := Stages.Vf (U m c) main_v41) (call3_c_1 := Stages.Vf (U m c) main_call3_c_1) (call3_v5 := Stages.Vf (U m c) main_call3_v5) (call3_v6 := Stages.Vf (U m c) main_call3_v6) (call3_c_2 := Stages.Vf (U m c) main_call3_c_2) (call3_v7 := Stages.Vf (U m c) main_call3_v7) (call3_v8 := Stages.Vf (U m c) main_call3_v8) (call3_c_3 := Stages.Vf (U m c) main_call3_c_3) (call3_v9 := Stages.Vf (U m c) main_call3_v9) (call3_v10 := Stages.Vf (U m c) main_call3_v10) (call3_v11 := Stages.Vf (U m c) main_call3_v11) (call3_v12 := Stages.Vf (U m c) main_call3_v12) (call3_v13 := Stages.Vf (U m c) main_call3_v13) (call3_v14 := Stages.Vf (U m c) main_call3_v14) (v45 := Stages.Vf (U m c) main_v45) (c_11 := Stages.Vf (U m c) main_c_11) (call4_v0 := Stages.Vf (U m c) main_call4_v0) (call4_v1 := Stages.Vf (U m c) main_call4_v1) (call4_v2 := Stages.Vf (U m c) main_call4_v2) (call4_v3 := Stages.Vf (U m c) main_call4_v3) (call4_v4 := Stages.Vf (U m c) main_call4_v4) (call4_v5 := Stages.Vf (U m c) main_call4_v5) (call4_v6 := Stages.Vf (U m c) main_call4_v6) (call4_v7 := Stages.Vf (U m c) main_call4_v7) (call4_v8 := Stages.Vf (U m c) main_call4_v8) (call4_c := Stages.Vf (U m c) main_call4_c) (call4_v9 := Stages.Vf (U m c) main_call4_v9) (call4_v10 := Stages.Vf (U m c) main_call4_v10) (call4_v11 := Stages.Vf (U m c) main_call4_v11) (call4_c_0 := Stages.Vf (U m c) main_call4_c_0) (call4_v12 := Stages.Vf (U m c) main_call4_v12) (call4_v13 := Stages.Vf (U m c) main_call4_v13) (v46 := Stages.Vf (U m c) main_v46) (c_12 := Stages.Vf (U m c) main_c_12) (call5_v0 := Stages.Vf (U m c) main_call5_v0) (call5_c := Stages.Vf (U m c) main_call5_c) (call5_v1 := Stages.Vf (U m c) main_call5_v1) (call5_c_0 := Stages.Vf (U m c) main_call5_c_0) (call5_v2 := Stages.Vf (U m c) main_call5_v2) (call5_v3 := Stages.Vf (U m c) main_call5_v3) (call5_v4 := Stages.Vf (U m c) main_call5_v4) (call5_c_1 := Stages.Vf (U m c) main_call5_c_1) (call5_v5 := Stages.Vf (U m c) main_call5_v5) (call5_v6 := Stages.Vf (U m c) main_call5_v6) (call5_c_2 := Stages.Vf (U m c) main_call5_c_2) (call5_v7 := Stages.Vf (U m c) main_call5_v7) (call5_v8 := Stages.Vf (U m c) main_call5_v8) (call5_c_3 := Stages.Vf (U m c) main_call5_c_3) (call5_v9 := Stages.Vf (U m c) main_call5_v9) (call5_v10 := Stages.Vf (U m c) main_call5_v10) (call5_v11 := Stages.Vf (U m c) main_call5_v11) (call5_v12 := Stages.Vf (U m c) main_call5_v12) (call5_v13 := Stages.Vf (U m c) main_call5_v13) (call5_v14 := Stages.Vf (U m c) main_call5_v14) (v47 := Stages.Vf (U m c) main_v47) (c_13 := Stages.Vf (U m c) main_c_13) (call6_v0 := Stages.Vf (U m c) main_call6_v0) (call6_v1 := Stages.Vf (U m c) main_call6_v1) (call6_v2 := Stages.Vf (U m c) main_call6_v2) (call6_v3 := Stages.Vf (U m c) main_call6_v3) (call6_v4 := Stages.Vf (U m c) main_call6_v4) (call6_v5 := Stages.Vf (U m c) main_call6_v5) (call6_v6 := Stages.Vf (U m c) main_call6_v6) (call6_v7 := Stages.Vf (U m c) main_call6_v7) (call6_v8 := Stages.Vf (U m c) main_call6_v8) (call6_c := Stages.Vf (U m c) main_call6_c) (call6_v9 := Stages.Vf (U m c) main_call6_v9) (call6_v10 := Stages.Vf (U m c) main_call6_v10) (call6_v11 := Stages.Vf (U m c) main_call6_v11) (call6_c_0 := Stages.Vf (U m c) main_call6_c_0) (call6_v12 := Stages.Vf (U m c) main_call6_v12) (call6_v13 := Stages.Vf (U m c) main_call6_v13) (v48 := Stages.Vf (U m c) main_v48) (c_14 := Stages.Vf (U m c) main_c_14) (call7_v0 := Stages.Vf (U m c) main_call7_v0) (call7_c := Stages.Vf (U m c) main_call7_c) (call7_v1 := Stages.Vf (U m c) main_call7_v1) (call7_c_0 := Stages.Vf (U m c) main_call7_c_0) (call7_v2 := Stages.Vf (U m c) main_call7_v2) (call7_v3 := Stages.Vf (U m c) main_call7_v3) (call7_v4 := Stages.Vf (U m c) main_call7_v4) (call7_c_1 := Stages.Vf (U m c) main_call7_c_1) (call7_v5 := Stages.Vf (U m c) main_call7_v5) (call7_v6 := Stages.Vf (U m c) main_call7_v6) (call7_c_2 := Stages.Vf (U m c) main_call7_c_2) (call7_v7 := Stages.Vf (U m c) main_call7_v7) (call7_v8 := Stages.Vf (U m c) main_call7_v8) (call7_c_3 := Stages.Vf (U m c) main_call7_c_3) (call7_v9 := Stages.Vf (U m c) main_call7_v9) (call7_v10 := Stages.Vf (U m c) main_call7_v10) (call7_v11 := Stages.Vf (U m c) main_call7_v11) (call7_v12 := Stages.Vf (U m c) main_call7_v12) (call7_v13 := Stages.Vf (U m c) main_call7_v13) (call7_v14 := Stages.Vf (U m c) main_call7_v14) (v49 := Stages.Vf (U m c) main_v49) (c_15 := Stages.Vf (U m c) main_c_15) (call8_v0 := Stages.Vf (U m c) main_call8_v0) (call8_v1 := Stages.Vf (U m c) main_call8_v1) (call8_v2 := Stages.Vf (U m c) main_call8_v2) (call8_v3 := Stages.Vf (U m c) main_call8_v3) (call8_v4 := Stages.Vf (U m c) main_call8_v4) (call8_v5 := Stages.Vf (U m c) main_call8_v5) (call8_v6 := Stages.Vf (U m c) main_call8_v6) (call8_v7 := Stages.Vf (U m c) main_call8_v7) (call8_v8 := Stages.Vf (U m c) main_call8_v8) (call8_c := Stages.Vf (U m c) main_call8_c) (call8_v9 := Stages.Vf (U m c) main_call8_v9) (call8_v10 := Stages.Vf (U m c) main_call8_v10) (call8_v11 := Stages.Vf (U m c) main_call8_v11) (call8_c_0 := Stages.Vf (U m c) main_call8_c_0) (call8_v12 := Stages.Vf (U m c) main_call8_v12) (call8_v13 := Stages.Vf (U m c) main_call8_v13) (v50 := Stages.Vf (U m c) main_v50) (v51 := Stages.Vf (U m c) main_v51) (v52 := Stages.Vf (U m c) main_v52) (v53 := Stages.Vf (U m c) main_v53) (v54 := Stages.Vf (U m c) main_v54) (v55 := Stages.Vf (U m c) main_v55) (v56 := Stages.Vf (U m c) main_v56) (v44 := Stages.Vf (U m c) main_v44) (c_16 := Stages.Vf (U m c) main_c_16) (v57 := Stages.Vf (U m c) main_v57) (v58 := Stages.Vf (U m c) main_v58) (v33 := Stages.Vf (U m c) main_v33) (c_17 := Stages.Vf (U m c) main_c_17) (v59 := Stages.Vf (U m c) main_v59) (v60 := Stages.Vf (U m c) main_v60) (v61 := Stages.Vf (U m c) main_v61) (v62 := Stages.Vf (U m c) main_v62) (v63 := Stages.Vf (U m c) main_v63) (v0 := Stages.Vf (U m c) main_v0) (cst := Stages.Vf (U m c) main_cst) (call9_v0 := Stages.Vf (U m c) main_call9_v0) (call9_v1 := Stages.Vf (U m c) main_call9_v1) (call9_v2 := Stages.Vf (U m c) main_call9_v2) (v64 := Stages.Vf (U m c) main_v64) (v65 := Stages.Vf (U m c) main_v65) (c_18 := Stages.Vf (U m c) main_c_18) (call10_v0 := Stages.Vf (U m c) main_call10_v0) (call10_v1 := Stages.Vf (U m c) main_call10_v1) (call10_v2 := Stages.Vf (U m c) main_call10_v2) (v66 := Stages.Vf (U m c) main_v66) (h_call3_v0 := Stages.st_main_call3_v0 (U m c)) (h_call3_c := Stages.st_main_call3_c (U m c)) (h_call3_v1 := Stages.st_main_call3_v1 (U m c)) (h_call3_c_0 := Stages.st_main_call3_c_0 (U m c)) (h_call3_v2 := Stages.st_main_call3_v2 (U m c)) (h_call3_v3 := Stages.st_main_call3_v3 (U m c)) (h_call3_v4 := Stages.st_main_call3_v4 (U m c)) (h_call3_c_1 := Stages.st_main_call3_c_1 (U m c)) (h_call3_v5 := Stages.st_main_call3_v5 (U m c)) (h_call3_v6 := Stages.st_main_call3_v6 (U m c)) (h_call3_c_2 := Stages.st_main_call3_c_2 (U m c)) (h_call3_v7 := Stages.st_main_call3_v7 (U m c)) (h_call3_v8 := Stages.st_main_call3_v8 (U m c)) (h_call3_c_3 := Stages.st_main_call3_c_3 (U m c)) (h_call3_v9 := Stages.st_main_call3_v9 (U m c)) (h_call3_v10 := Stages.st_main_call3_v10 (U m c)) (h_call3_v11 := Stages.st_main_call3_v11 (U m c)) (h_call3_v12 := Stages.st_main_call3_v12 (U m c)) (h_call3_v13 := Stages.st_main_call3_v13 (U m c)) (h_call3_v14 := Stages.st_main_call3_v14 (U m c)) (h_v45 := Stages.st_main_v45 (U m c)) (h_c_11 := Stages.st_main_c_11 (U m c)) (h_call4_v0 := Stages.st_main_call4_v0 (U m c)) (h_call4_v1 := Stages.st_main_call4_v1 (U m c)) (h_call4_v2 := Stages.st_main_call4_v2 (U m c)) (h_call4_v3 := Stages.st_main_call4_v3 (U m c)) (h_call4_v4 := Stages.st_main_call4_v4 (U m c)) (h_call4_v5 := Stages.st_main_call4_v5 (U m c)) (h_call4_v6 := Stages.st_main_call4_v6 (U m c)) (h_call4_v7 := Stages.st_main_call4_v7 (U m c)) (h_call4_v8 := Stages.st_main_call4_v8 (U m c)) (h_call4_c := Stages.st_main_call4_c (U m c)) (h_call4_v9 := Stages.st_main_call4_v9 (U m c)) (h_call4_v10 := Stages.st_main_call4_v10 (U m c)) (h_call4_v11 := Stages.st_main_call4_v11 (U m c)) (h_call4_c_0 := Stages.st_main_call4_c_0 (U m c)) (h_call4_v12 := Stages.st_main_call4_v12 (U m c)) (h_call4_v13 := Stages.st_main_call4_v13 (U m c)) (h_v46 := Stages.st_main_v46 (U m c)) (h_c_12 := Stages.st_main_c_12 (U m c)) (h_call5_v0 := Stages.st_main_call5_v0 (U m c)) (h_call5_c := Stages.st_main_call5_c (U m c)) (h_call5_v1 := Stages.st_main_call5_v1 (U m c)) (h_call5_c_0 := Stages.st_main_call5_c_0 (U m c)) (h_call5_v2 := Stages.st_main_call5_v2 (U m c)) (h_call5_v3 := Stages.st_main_call5_v3 (U m c)) (h_call5_v4 := Stages.st_main_call5_v4 (U m c)) (h_call5_c_1 := Stages.st_main_call5_c_1 (U m c)) (h_call5_v5 := Stages.st_main_call5_v5 (U m c)) (h_call5_v6 := Stages.st_main_call5_v6 (U m c)) (h_call5_c_2 := Stages.st_main_call5_c_2 (U m c)) (h_call5_v7 := Stages.st_main_call5_v7 (U m c)) (h_call5_v8 := Stages.st_main_call5_v8 (U m c)) (h_call5_c_3 := Stages.st_main_call5_c_3 (U m c)) (h_call5_v9 := Stages.st_main_call5_v9 (U m c)) (h_call5_v10 := Stages.st_main_call5_v10 (U m c)) (h_call5_v11 := Stages.st_main_call5_v11 (U m c)) (h_call5_v12 := Stages.st_main_call5_v12 (U m c)) (h_call5_v13 := Stages.st_main_call5_v13 (U m c)) (h_call5_v14 := Stages.st_main_call5_v14 (U m c)) (h_v47 := Stages.st_main_v47 (U m c)) (h_c_13 := Stages.st_main_c_13 (U m c)) (h_call6_v0 := Stages.st_main_call6_v0 (U m c)) (h_call6_v1 := Stages.st_main_call6_v1 (U m c)) (h_call6_v2 := Stages.st_main_call6_v2 (U m c)) (h_call6_v3 := Stages.st_main_call6_v3 (U m c)) (h_call6_v4 := Stages.st_main_call6_v4 (U m c)) (h_call6_v5 := Stages.st_main_call6_v5 (U m c)) (h_call6_v6 := Stages.st_main_call6_v6 (U m c)) (h_call6_v7 := Stages.st_main_call6_v7 (U m c)) (h_call6_v8 := Stages.st_main_call6_v8 (U m c)) (h_call6_c := Stages.st_main_call6_c (U m c)) (h_call6_v9 := Stages.st_main_call6_v9 (U m c)) (h_call6_v10 := Stages.st_main_call6_v10 (U m c)) (h_call6_v11 := Stages.st_main_call6_v11 (U m c)) (h_call6_c_0 := Stages.st_main_call6_c_0 (U m c)) (h_call6_v12 := Stages.st_main_call6_v12 (U m c)) (h_call6_v13 := Stages.st_main_call6_v13 (U m c)) (h_v48 := Stages.st_main_v48 (U m c)) (h_c_14 := Stages.st_main_c_14 (U m c)) (h_call7_v0 := Stages.st_main_call7_v0 (U m c)) (h_call7_c := Stages.st_main_call7_c (U m c)) (h_call7_v1 := Stages.st_main_call7_v1 (U m c)) (h_call7_c_0 := Stages.st_main_call7_c_0 (U m c)) (h_call7_v2 := Stages.st_main_call7_v2 (U m c)) (h_call7_v3 := Stages.st_main_call7_v3 (U m c)) (h_call7_v4 := Stages.st_main_call7_v4 (U m c)) (h_call7_c_1 := Stages.st_main_call7_c_1 (U m c)) (h_call7_v5 := Stages.st_main_call7_v5 (U m c)) (h_call7_v6 := Stages.st_main_call7_v6 (U m c)) (h_call7_c_2 := Stages.st_main_call7_c_2 (U m c)) (h_call7_v7 := Stages.st_main_call7_v7 (U m c)) (h_call7_v8 := Stages.st_main_call7_v8 (U m c)) (h_call7_c_3 := Stages.st_main_call7_c_3 (U m c)) (h_call7_v9 := Stages.st_main_call7_v9 (U m c)) (h_call7_v10 := Stages.st_main_call7_v10 (U m c)) (h_call7_v11 := Stages.st_main_call7_v11 (U m c)) (h_call7_v12 := Stages.st_main_call7_v12 (U m c)) (h_call7_v13 := Stages.st_main_call7_v13 (U m c)) (h_call7_v14 := Stages.st_main_call7_v14 (U m c)) (h_v49 := Stages.st_main_v49 (U m c)) (h_c_15 := Stages.st_main_c_15 (U m c)) (h_call8_v0 := Stages.st_main_call8_v0 (U m c)) (h_call8_v1 := Stages.st_main_call8_v1 (U m c)) (h_call8_v2 := Stages.st_main_call8_v2 (U m c)) (h_call8_v3 := Stages.st_main_call8_v3 (U m c)) (h_call8_v4 := Stages.st_main_call8_v4 (U m c)) (h_call8_v5 := Stages.st_main_call8_v5 (U m c)) (h_call8_v6 := Stages.st_main_call8_v6 (U m c)) (h_call8_v7 := Stages.st_main_call8_v7 (U m c)) (h_call8_v8 := Stages.st_main_call8_v8 (U m c)) (h_call8_c := Stages.st_main_call8_c (U m c)) (h_call8_v9 := Stages.st_main_call8_v9 (U m c)) (h_call8_v10 := Stages.st_main_call8_v10 (U m c)) (h_call8_v11 := Stages.st_main_call8_v11 (U m c)) (h_call8_c_0 := Stages.st_main_call8_c_0 (U m c)) (h_call8_v12 := Stages.st_main_call8_v12 (U m c)) (h_call8_v13 := Stages.st_main_call8_v13 (U m c)) (h_v50 := Stages.st_main_v50 (U m c)) (h_v51 := Stages.st_main_v51 (U m c)) (h_v52 := Stages.st_main_v52 (U m c)) (h_v53 := Stages.st_main_v53 (U m c)) (h_v54 := Stages.st_main_v54 (U m c)) (h_v55 := Stages.st_main_v55 (U m c)) (h_v56 := Stages.st_main_v56 (U m c)) (h_c_16 := Stages.st_main_c_16 (U m c)) (h_v57 := Stages.st_main_v57 (U m c)) (h_v58 := Stages.st_main_v58 (U m c)) (h_c_17 := Stages.st_main_c_17 (U m c)) (h_v59 := Stages.st_main_v59 (U m c)) (h_v60 := Stages.st_main_v60 (U m c)) (h_v61 := Stages.st_main_v61 (U m c)) (h_v62 := Stages.st_main_v62 (U m c)) (h_v63 := Stages.st_main_v63 (U m c)) (h_cst := Stages.st_main_cst (U m c)) (h_call9_v0 := Stages.st_main_call9_v0 (U m c)) (h_call9_v1 := Stages.st_main_call9_v1 (U m c)) (h_call9_v2 := Stages.st_main_call9_v2 (U m c)) (h_v64 := Stages.st_main_v64 (U m c)) (h_v65 := Stages.st_main_v65 (U m c)) (h_c_18 := Stages.st_main_c_18 (U m c)) (h_call10_v0 := Stages.st_main_call10_v0 (U m c)) (h_call10_v1 := Stages.st_main_call10_v1 (U m c)) (h_call10_v2 := Stages.st_main_call10_v2 (U m c)) (h_v66 := Stages.st_main_v66 (U m c))
  refine ⟨fun j ch => ?_, hB2, hA1⟩
  rw [hB1 j ch, U_v0]

/-- Every weakly fair execution of the kernel program terminates with these results and the argument unchanged. -/
theorem result : θ_run defs (onTc (τ := τ) (main (F := Ideal))) ⟨m, fun _ => 0, ρ⟩ (fun r => ∀ c : Dev nD,
      r.2.mem ((c.tc : Thread nD τ).loc main_v64) = Stages.Vf (U m c) main_v64
      ∧ r.2.mem ((c.tc : Thread nD τ).loc main_v66) = Stages.Vf (U m c) main_v66
      ∧ r.2.mem ((c.tc : Thread nD τ).loc main_v44) = Stages.Vf (U m c) main_v44
      ∧ r.2.mem ((c.tc : Thread nD τ).loc main_arg0) = m ((c.tc : Thread nD τ).loc main_arg0)) :=
  (θ_run defs _ _).mono (fun _ h c =>
    ⟨((h c).2 main_v64 (Pipeline.mem_restRefs_of main_v64 (by decide) (by decide))).trans (tail_eq m c main_v64),
     ((h c).2 main_v66 (Pipeline.mem_restRefs_of main_v66 (by decide) (by decide))).trans (tail_eq m c main_v66),
     ((h c).2 main_v44 (Pipeline.mem_restRefs_of main_v44 (by decide) (by decide))).trans (tail_eq m c main_v44),
     ((h c).2 main_arg0 (Pipeline.mem_restRefs_of main_arg0 (by decide) (by decide))).trans (end_main_arg0 m c)⟩)
    (run_main m ρ)

end Cert.KernelIdeal.Result

end
-- ==== Proof.RefRun.lean ====
/-
  The reference program's @main as a straight line of host operations: the stretches of its two printed windows, cut
  where it calls a function, the lines of each called function (jnp.where's select, argsort's iota and stable sort)
  written at the call site over that call's buffers. Every weakly fair execution of it terminates with each buffer at
  the fold of these operations over the launch memory.
-/
import proofs.«129221_j18588618457298_2_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev ops_a0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.reshape main_arg0 main_v0 rfl shapeCasts_S8x500000x4_S4000000x4,
    StableHlo.unary main_v0 main_v1 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst main_v2 (broadcastInDim S1x3 ![1] bcast_S3_S1x3_1 : (⟨S3, .f32⟩ : BufTy).Contents (Elt F) → (⟨S1x3, .f32⟩ : BufTy).Contents (Elt F)),
    StableHlo.unary main_v2 main_v3 (broadcastInDim S4000000x3 ![0, 1] bcast_S1x3_S4000000x3_0_1 : (⟨S1x3, .f32⟩ : BufTy).Contents (Elt F) → (⟨S4000000x3, .f32⟩ : BufTy).Contents (Elt F)),
    StableHlo.binary main_v1 main_v3 main_v4 (subf : (⟨S4000000x3, .f32⟩ : BufTy).Contents (Elt F) → (⟨S4000000x3, .f32⟩ : BufTy).Contents (Elt F) → (⟨S4000000x3, .f32⟩ : BufTy).Contents (Elt F)),
    StableHlo.unary main_cst_0 main_v5 (broadcastInDim S1x3 ![1] bcast_S3_S1x3_1 : (⟨S3, .f32⟩ : BufTy).Contents (Elt F) → (⟨S1x3, .f32⟩ : BufTy).Contents (Elt F)),
    StableHlo.unary main_v5 main_v6 (broadcastInDim S4000000x3 ![0, 1] bcast_S1x3_S4000000x3_0_1 : (⟨S1x3, .f32⟩ : BufTy).Contents (Elt F) → (⟨S4000000x3, .f32⟩ : BufTy).Contents (Elt F)),
    StableHlo.binary main_v4 main_v6 main_v7 (Host.divf : (⟨S4000000x3, .f32⟩ : BufTy).Contents (Elt F) → (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)),
    StableHlo.nullary main_v9 (iotaInDim S8 32 0),
    StableHlo.unary main_v9 main_v10 (broadcastInDim S8x500000 ![0] bcast_S8_S8x500000_0 : (⟨S8, .i32⟩ : BufTy).Contents (Elt F) → (⟨S8x500000, .i32⟩ : BufTy).Contents (Elt F)),
    StableHlo.reshape main_v10 main_v11 rfl shapeCasts_S8x500000_S4000000,
    StableHlo.unary main_v11 main_v12 (broadcastInDim S4000000x1 ![0] bcast_S4000000_S4000000x1_0 : (⟨S4000000, .i32⟩ : BufTy).Contents (Elt F) → (⟨S4000000x1, .i32⟩ : BufTy).Contents (Elt F)),
    StableHlo.unary main_v8 main_v13 (Host.reverse [1] : (⟨S4000000x3, .i32⟩ : BufTy).Contents (Elt F) → (⟨S4000000x3, .i32⟩ : BufTy).Contents (Elt F)),
    StableHlo.binary main_v12 main_v13 main_v14 ((fun a b => concatenate S4000000x4 1 [⟨S4000000x1, a⟩, ⟨S4000000x3, b⟩] concatenates_S4000000x1_S4000000x3_S4000000x4_d1) : (⟨S4000000x1, .i32⟩ : BufTy).Contents (Elt F) → (⟨S4000000x3, .i32⟩ : BufTy).Contents (Elt F) → (⟨S4000000x4, .i32⟩ : BufTy).Contents (Elt F)),
    StableHlo.nullary main_c_1 (constantI S_ 32 0#32),
    StableHlo.unary main_c_1 main_v15 (broadcastInDim S4000000x3 ![] bcast_S_S4000000x3 : (⟨S_, .i32⟩ : BufTy).Contents (Elt F) → (⟨S4000000x3, .i32⟩ : BufTy).Contents (Elt F)),
    StableHlo.binary main_v8 main_v15 main_v16 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v17 (broadcastInDim S1x3 ![1] bcast_S3_S1x3_1 : (⟨S3, .i32⟩ : BufTy).Contents (Elt F) → (⟨S1x3, .i32⟩ : BufTy).Contents (Elt F)),
    StableHlo.unary main_v17 main_v18 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v18 main_v19 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v16 main_v19 main_v20 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v20 main_c_2 main_v21 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    StableHlo.nullary main_c_3 (constantI S_ 32 1#32),
    StableHlo.unary main_c_3 main_v22 (broadcastInDim S4000000 ![] bcast_S_S4000000 : (⟨S_, .i32⟩ : BufTy).Contents (Elt F) → (⟨S4000000, .i32⟩ : BufTy).Contents (Elt F)),
    StableHlo.binary main_v11 main_v22 main_v23 (muli : (⟨S4000000, .i32⟩ : BufTy).Contents (Elt F) → (⟨S4000000, .i32⟩ : BufTy).Contents (Elt F) → (⟨S4000000, .i32⟩ : BufTy).Contents (Elt F)),
    StableHlo.unary main_v8 main_v24 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v24 main_v25 rfl shapeCasts_S4000000x1_S4000000,
    StableHlo.binary main_v23 main_v25 main_v26 (addi : (⟨S4000000, .i32⟩ : BufTy).Contents (Elt F) → (⟨S4000000, .i32⟩ : BufTy).Contents (Elt F) → (⟨S4000000, .i32⟩ : BufTy).Contents (Elt F)),
    StableHlo.nullary main_c_4 (constantI S_ 32 400#32),
    StableHlo.unary main_c_4 main_v27 (broadcastInDim S4000000 ![] bcast_S_S4000000 : (⟨S_, .i32⟩ : BufTy).Contents (Elt F) → (⟨S4000000, .i32⟩ : BufTy).Contents (Elt F)),
    StableHlo.binary main_v26 main_v27 main_v28 (muli : (⟨S4000000, .i32⟩ : BufTy).Contents (Elt F) → (⟨S4000000, .i32⟩ : BufTy).Contents (Elt F) → (⟨S4000000, .i32⟩ : BufTy).Contents (Elt F)),
    StableHlo.unary main_v8 main_v29 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v29 main_v30 rfl shapeCasts_S4000000x1_S4000000,
    StableHlo.binary main_v28 main_v30 main_v31 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 352#32),
    StableHlo.unary main_c_5 main_v32 (broadcastInDim S4000000 ![] bcast_S_S4000000 : (⟨S_, .i32⟩ : BufTy).Contents (Elt F) → (⟨S4000000, .i32⟩ : BufTy).Contents (Elt F)),
    StableHlo.binary main_v31 main_v32 main_v33 (muli : (⟨S4000000, .i32⟩ : BufTy).Contents (Elt F) → (⟨S4000000, .i32⟩ : BufTy).Contents (Elt F) → (⟨S4000000, .i32⟩ : BufTy).Contents (Elt F)),
    StableHlo.unary main_v8 main_v34 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v34 main_v35 rfl shapeCasts_S4000000x1_S4000000,
    StableHlo.binary main_v33 main_v35 main_v36 (addi : (⟨S4000000, .i32⟩ : BufTy).Contents (Elt F) → (⟨S4000000, .i32⟩ : BufTy).Contents (Elt F) → (⟨S4000000, .i32⟩ : BufTy).Contents (Elt F)),
    StableHlo.nullary main_c_6 (constantI S_ 32 1126400#32) ]
theorem ops_a0_sub : (ops_a0 : List (HloOp τ sig (Elt F))).Forall fun op => op.bufs ⊆ tcRefs τ sig :=
  ⟨nullary_bufs_sub .., nullary_bufs_sub .., nullary_bufs_sub .., reshape_bufs_sub .., unary_bufs_sub .., unary_bufs_sub .., unary_bufs_sub .., binary_bufs_sub .., unary_bufs_sub .., unary_bufs_sub .., binary_bufs_sub .., unary_bufs_sub .., nullary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub ..⟩
abbrev ops_a1 : List (HloOp τ sig (Elt F)) :=
  [ StableHlo.TRef.unary (.of main_c_6 : StableHlo.TRef sig ⟨S_, .i32⟩) main_call0.v0 id,
    StableHlo.TRef.unary main_call0.v0 main_call0.v1 (broadcastInDim S4000000 ![] bcast_S_S4000000),
    StableHlo.TRef.ternary (.of main_v21 : StableHlo.TRef sig ⟨S4000000, .i1⟩) (.of main_v36 : StableHlo.TRef sig ⟨S4000000, .i32⟩) main_call0.v1 main_call0.v2 select ]
theorem ops_a1_sub : (ops_a1 : List (HloOp τ sig (Elt F))).Forall fun op => op.bufs ⊆ tcRefs τ sig :=
  ⟨unary_bufs_sub .., unary_bufs_sub .., ternary_bufs_sub ..⟩
abbrev ops_a2 : List (HloOp τ sig (Elt F)) :=
  [ StableHlo.nullary main_v38 (iotaInDim S4000000 32 0),
    StableHlo.nullary main_c_7 (constantI S_ 32 2147483648#32),
    StableHlo.unary main_c_7 main_v39 (broadcastInDim S1126401 ![] bcast_S_S1126401 : (⟨S_, .i32⟩ : BufTy).Contents (Elt F) → (⟨S1126401, .i32⟩ : BufTy).Contents (Elt F)),
    StableHlo.unary main_v37 main_v40 (broadcastInDim S4000000x1 ![0] bcast_S4000000_S4000000x1_0 : (⟨S4000000, .i32⟩ : BufTy).Contents (Elt F) → (⟨S4000000x1, .i32⟩ : BufTy).Contents (Elt F)),
    StableHlo.ternary main_v39 main_v40 main_v38 main_v41 ((fun x i u => Host.scatter scatter_S1126401_S4000000x1_S4000000_n_0_0_1 IntOp.maxsi x i u) : (⟨S1126401, .i32⟩ : BufTy).Contents (Elt F) → (⟨S4000000x1, .i32⟩ : BufTy).Contents (Elt F) → (⟨S4000000, .i32⟩ : BufTy).Contents (Elt F) → (⟨S1126401, .i32⟩ : BufTy).Contents (Elt F)),
    StableHlo.nullary main_c_8 (constantI S_ 32 0#32),
    StableHlo.unary main_c_8 main_v42 (broadcastInDim S4000000 ![] bcast_S_S4000000 : (⟨S_, .i32⟩ : BufTy).Contents (Elt F) → (⟨S4000000, .i32⟩ : BufTy).Contents (Elt F)),
    StableHlo.binary main_v37 main_v42 main_v43 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 1126401#32),
    StableHlo.unary main_c_9 main_v44 (broadcastInDim S4000000 ![] bcast_S_S4000000 : (⟨S_, .i32⟩ : BufTy).Contents (Elt F) → (⟨S4000000, .i32⟩ : BufTy).Contents (Elt F)),
    StableHlo.binary main_v37 main_v44 main_v45 (addi : (⟨S4000000, .i32⟩ : BufTy).Contents (Elt F) → (⟨S4000000, .i32⟩ : BufTy).Contents (Elt F) → (⟨S4000000, .i32⟩ : BufTy).Contents (Elt F)),
    StableHlo.ternary main_v43 main_v45 main_v37 main_v46 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v46 main_v47 (broadcastInDim S4000000x1 ![0] bcast_S4000000_S4000000x1_0 : (⟨S4000000, .i32⟩ : BufTy).Contents (Elt F) → (⟨S4000000x1, .i32⟩ : BufTy).Contents (Elt F)) ]
theorem ops_a2_sub : (ops_a2 : List (HloOp τ sig (Elt F))).Forall fun op => op.bufs ⊆ tcRefs τ sig :=
  ⟨nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩
abbrev ops_b0 : List (HloOp τ sig (Elt F)) :=
  [ StableHlo.binary main_v41 main_v47 main_v48 ((fun x i => Host.gather gather_S1126401_S4000000x1_S4000000_n_0_n_n_0_1_1 x i) : (⟨S1126401, .i32⟩ : BufTy).Contents (Elt F) → (⟨S4000000x1, .i32⟩ : BufTy).Contents (Elt F) → (⟨S4000000, .i32⟩ : BufTy).Contents (Elt F)),
    StableHlo.binary main_v38 main_v48 main_v49 (cmpi .eq : (⟨S4000000, .i32⟩ : BufTy).Contents (Elt F) → (⟨S4000000, .i32⟩ : BufTy).Contents (Elt F) → (⟨S4000000, .i1⟩ : BufTy).Contents (Elt F)),
    StableHlo.binary main_v21 main_v49 main_v50 (andi : (⟨S4000000, .i1⟩ : BufTy).Contents (Elt F) → (⟨S4000000, .i1⟩ : BufTy).Contents (Elt F) → (⟨S4000000, .i1⟩ : BufTy).Contents (Elt F)),
    StableHlo.nullary main_c_10 (constantI S_ 32 1126401#32) ]
theorem ops_b0_sub : (ops_b0 : List (HloOp τ sig (Elt F))).Forall fun op => op.bufs ⊆ tcRefs τ sig :=
  ⟨binary_bufs_sub .., binary_bufs_sub .., binary_bufs_sub .., nullary_bufs_sub ..⟩
abbrev ops_b1 : List (HloOp τ sig (Elt F)) :=
  [ StableHlo.TRef.unary (.of main_c_10 : StableHlo.TRef sig ⟨S_, .i32⟩) main_call1.v0 id,
    StableHlo.TRef.unary main_call1.v0 main_call1.v1 (broadcastInDim S4000000 ![] bcast_S_S4000000),
    StableHlo.TRef.ternary (.of main_v50 : StableHlo.TRef sig ⟨S4000000, .i1⟩) (.of main_v37 : StableHlo.TRef sig ⟨S4000000, .i32⟩) main_call1.v1 main_call1.v2 select ]
theorem ops_b1_sub : (ops_b1 : List (HloOp τ sig (Elt F))).Forall fun op => op.bufs ⊆ tcRefs τ sig :=
  ⟨unary_bufs_sub .., unary_bufs_sub .., ternary_bufs_sub ..⟩
abbrev ops_b2 : List (HloOp τ sig (Elt F)) :=
  [ StableHlo.TRef.nullary main_call2.v0 (iotaInDim S4000000 32 0),
    StableHlo.TRef.binary (.of main_v51 : StableHlo.TRef sig ⟨S4000000, .i32⟩) main_call2.v0 main_call2.v1_0 (fun x y => (Host.sort2 S4000000 0 comparator_i32_i32_d0 x y).1),
    StableHlo.TRef.binary (.of main_v51 : StableHlo.TRef sig ⟨S4000000, .i32⟩) main_call2.v0 main_call2.v1_1 (fun x y => (Host.sort2 S4000000 0 comparator_i32_i32_d0 x y).2) ]
theorem ops_b2_sub : (ops_b2 : List (HloOp τ sig (Elt F))).Forall fun op => op.bufs ⊆ tcRefs τ sig :=
  ⟨nullary_bufs_sub .., binary_bufs_sub .., binary_bufs_sub ..⟩
abbrev ops_b3 : List (HloOp τ sig (Elt F)) :=
  [ StableHlo.nullary main_c_11 (constantI S_ 32 0#32),
    StableHlo.unary main_c_11 main_v53 (broadcastInDim S4000000 ![] bcast_S_S4000000 : (⟨S_, .i32⟩ : BufTy).Contents (Elt F) → (⟨S4000000, .i32⟩ : BufTy).Contents (Elt F)),
    StableHlo.binary main_v52 main_v53 main_v54 (cmpi .slt : (⟨S4000000, .i32⟩ : BufTy).Contents (Elt F) → (⟨S4000000, .i32⟩ : BufTy).Contents (Elt F) → (⟨S4000000, .i1⟩ : BufTy).Contents (Elt F)),
    StableHlo.nullary main_c_12 (constantI S_ 32 4000000#32),
    StableHlo.unary main_c_12 main_v55 (broadcastInDim S4000000 ![] bcast_S_S4000000 : (⟨S_, .i32⟩ : BufTy).Contents (Elt F) → (⟨S4000000, .i32⟩ : BufTy).Contents (Elt F)),
    StableHlo.binary main_v52 main_v55 main_v56 (addi : (⟨S4000000, .i32⟩ : BufTy).Contents (Elt F) → (⟨S4000000, .i32⟩ : BufTy).Contents (Elt F) → (⟨S4000000, .i32⟩ : BufTy).Contents (Elt F)),
    StableHlo.ternary main_v54 main_v56 main_v52 main_v57 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v57 main_v58 (broadcastInDim S4000000x1 ![0] bcast_S4000000_S4000000x1_0 : (⟨S4000000, .i32⟩ : BufTy).Contents (Elt F) → (⟨S4000000x1, .i32⟩ : BufTy).Contents (Elt F)),
    StableHlo.binary main_v50 main_v58 main_v59 ((fun x i => Host.gather gather_S4000000_S4000000x1_S4000000_n_0_n_n_0_1_1 x i) : (⟨S4000000, .i1⟩ : BufTy).Contents (Elt F) → (⟨S4000000x1, .i32⟩ : BufTy).Contents (Elt F) → (⟨S4000000, .i1⟩ : BufTy).Contents (Elt F)),
    StableHlo.unary main_v59 main_v60 (broadcastInDim S4000000x1 ![0] bcast_S4000000_S4000000x1_0 : (⟨S4000000, .i1⟩ : BufTy).Contents (Elt F) → (⟨S4000000x1, .i1⟩ : BufTy).Contents (Elt F)),
    StableHlo.nullary main_c_13 (constantI S_ 32 0#32),
    StableHlo.unary main_c_13 main_v61 (broadcastInDim S4000000 ![] bcast_S_S4000000 : (⟨S_, .i32⟩ : BufTy).Contents (Elt F) → (⟨S4000000, .i32⟩ : BufTy).Contents (Elt F)),
    StableHlo.binary main_v52 main_v61 main_v62 (cmpi .slt : (⟨S4000000, .i32⟩ : BufTy).Contents (Elt F) → (⟨S4000000, .i32⟩ : BufTy).Contents (Elt F) → (⟨S4000000, .i1⟩ : BufTy).Contents (Elt F)),
    StableHlo.nullary main_c_14 (constantI S_ 32 4000000#32),
    StableHlo.unary main_c_14 main_v63 (broadcastInDim S4000000 ![] bcast_S_S4000000 : (⟨S_, .i32⟩ : BufTy).Contents (Elt F) → (⟨S4000000, .i32⟩ : BufTy).Contents (Elt F)),
    StableHlo.binary main_v52 main_v63 main_v64 (addi : (⟨S4000000, .i32⟩ : BufTy).Contents (Elt F) → (⟨S4000000, .i32⟩ : BufTy).Contents (Elt F) → (⟨S4000000, .i32⟩ : BufTy).Contents (Elt F)),
    StableHlo.ternary main_v62 main_v64 main_v52 main_v65 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v65 main_v66 (broadcastInDim S4000000x1 ![0] bcast_S4000000_S4000000x1_0 : (⟨S4000000, .i32⟩ : BufTy).Contents (Elt F) → (⟨S4000000x1, .i32⟩ : BufTy).Contents (Elt F)),
    StableHlo.binary main_v0 main_v66 main_v67 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)),
    StableHlo.nullary main_cst_15 (constant S_ .f32 0x00000000#32) ]
theorem ops_b3_sub : (ops_b3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
abbrev ops_b4 : List (HloOp τ sig (Elt F)) :=
  [ StableHlo.TRef.unary (.of main_cst_15 : StableHlo.TRef sig ⟨S_, .f32⟩) main_call3.v0 id,
    StableHlo.TRef.unary (.of main_v60 : StableHlo.TRef sig ⟨S4000000x1, .i1⟩) main_call3.v1 (broadcastInDim S4000000x4 ![0, 1] bcast_S4000000x1_S4000000x4_0_1),
    StableHlo.TRef.unary main_call3.v0 main_call3.v2 (broadcastInDim S4000000x4 ![] bcast_S_S4000000x4),
    StableHlo.TRef.ternary main_call3.v1 (.of main_v67 : StableHlo.TRef sig ⟨S4000000x4, .f32⟩) main_call3.v2 main_call3.v3 select ]
theorem ops_b4_sub : (ops_b4 : List (HloOp τ sig (Elt F))).Forall fun op => op.bufs ⊆ tcRefs τ sig :=
  ⟨unary_bufs_sub .., unary_bufs_sub .., unary_bufs_sub .., ternary_bufs_sub ..⟩
abbrev ops_b5 : List (HloOp τ sig (Elt F)) :=
  [ StableHlo.unary main_v59 main_v69 (broadcastInDim S4000000x1 ![0] bcast_S4000000_S4000000x1_0 : (⟨S4000000, .i1⟩ : BufTy).Contents (Elt F) → (⟨S4000000x1, .i1⟩ : BufTy).Contents (Elt F)),
    StableHlo.nullary main_c_16 (constantI S_ 32 0#32),
    StableHlo.unary main_c_16 main_v70 (broadcastInDim S4000000 ![] bcast_S_S4000000 : (⟨S_, .i32⟩ : BufTy).Contents (Elt F) → (⟨S4000000, .i32⟩ : BufTy).Contents (Elt F)),
    StableHlo.binary main_v52 main_v70 main_v71 (cmpi .slt : (⟨S4000000, .i32⟩ : BufTy).Contents (Elt F) → (⟨S4000000, .i32⟩ : BufTy).Contents (Elt F) → (⟨S4000000, .i1⟩ : BufTy).Contents (Elt F)),
    StableHlo.nullary main_c_17 (constantI S_ 32 4000000#32),
    StableHlo.unary main_c_17 main_v72 (broadcastInDim S4000000 ![] bcast_S_S4000000 : (⟨S_, .i32⟩ : BufTy).Contents (Elt F) → (⟨S4000000, .i32⟩ : BufTy).Contents (Elt F)),
    StableHlo.binary main_v52 main_v72 main_v73 (addi : (⟨S4000000, .i32⟩ : BufTy).Contents (Elt F) → (⟨S4000000, .i32⟩ : BufTy).Contents (Elt F) → (⟨S4000000, .i32⟩ : BufTy).Contents (Elt F)),
    StableHlo.ternary main_v71 main_v73 main_v52 main_v74 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v74 main_v75 (broadcastInDim S4000000x1 ![0] bcast_S4000000_S4000000x1_0 : (⟨S4000000, .i32⟩ : BufTy).Contents (Elt F) → (⟨S4000000x1, .i32⟩ : BufTy).Contents (Elt F)),
    StableHlo.binary main_v14 main_v75 main_v76 ((fun x i => Host.gather gather_S4000000x4_S4000000x1_S4000000x4_1_0_n_n_0_1_14 x i) : (⟨S4000000x4, .i32⟩ : BufTy).Contents (Elt F) → (⟨S4000000x1, .i32⟩ : BufTy).Contents (Elt F) → (⟨S4000000x4, .i32⟩ : BufTy).Contents (Elt F)),
    StableHlo.nullary main_c_18 (constantI S_ 32 4294967295#32) ]
theorem ops_b5_sub : (ops_b5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
abbrev ops_b6 : List (HloOp τ sig (Elt F)) :=
  [ StableHlo.TRef.unary (.of main_c_18 : StableHlo.TRef sig ⟨S_, .i32⟩) main_call4.v0 id,
    StableHlo.TRef.unary (.of main_v69 : StableHlo.TRef sig ⟨S4000000x1, .i1⟩) main_call4.v1 (broadcastInDim S4000000x4 ![0, 1] bcast_S4000000x1_S4000000x4_0_1),
    StableHlo.TRef.unary main_call4.v0 main_call4.v2 (broadcastInDim S4000000x4 ![] bcast_S_S4000000x4),
    StableHlo.TRef.ternary main_call4.v1 (.of main_v76 : StableHlo.TRef sig ⟨S4000000x4, .i32⟩) main_call4.v2 main_call4.v3 select ]
theorem ops_b6_sub : (ops_b6 : List (HloOp τ sig (Elt F))).Forall fun op => op.bufs ⊆ tcRefs τ sig :=
  ⟨unary_bufs_sub .., unary_bufs_sub .., unary_bufs_sub .., ternary_bufs_sub ..⟩

/-- The stretches, in order. -/
abbrev stretches : List (List (HloOp τ sig (Elt F))) := [ops_a0, ops_a1, ops_a2, ops_b0, ops_b1, ops_b2, ops_b3, ops_b4, ops_b5, ops_b6]
/-- All of @main's operations, in order. -/
abbrev ops : List (HloOp τ sig (Elt F)) := (stretches (F := F)).flatten

theorem part0_chain (c : Dev nD) : main_part0 (F := F) c = (Pipeline.chainK
  [seq ops_a0, seq ops_a1] (seq ops_a2) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chain
  [seq ops_b0, seq ops_b1, seq ops_b2, seq ops_b3, seq ops_b4, seq ops_b5, seq ops_b6] : Prog (TpuEff nD τ sig (Elt F) (Pipeline.Sig Λ₀ (Fin 0) fun p => (pcfgs (F := F) p).Adm) .tc) PUnit) := by
  chain_rfl

theorem main_chain (c : Dev nD) : main (F := F) c = (Pipeline.chain ((stretches (F := F)).map seq) : Prog (TpuEff nD τ sig (Elt F) (Pipeline.Sig Λ₀ (Fin 0) fun p => (pcfgs (F := F) p).Adm) .tc) PUnit) := by
  show (main_part0 (F := F) c >>= fun _ => main_part1 (F := F) c) = _
  rewrite [part1_chain, part0_chain, Pipeline.chainK_bind_chain]
  rfl

/-- Stretches run one after the other are their concatenation run as one line. -/
theorem chain_seq (l : List (List (HloOp τ sig (Elt F)))) :
    (Pipeline.chain (l.map seq) : Prog (TpuEff nD τ sig (Elt F) (Pipeline.Sig Λ₀ (Fin 0) fun p => (pcfgs (F := F) p).Adm) .tc) PUnit) = seq l.flatten := by
  induction l with
  | nil => rfl
  | cons a l ih => rw [List.map_cons, Pipeline.chain_cons, List.flatten_cons, seq_append, ih]

theorem main_eq (c : Dev nD) : main (F := F) c = seq ops := (main_chain c).trans (chain_seq _)

theorem scopedRefs_eq : (Finset.univ.filter fun b : Ref sig .tc => b.isScoped) = ∅ := by decide
theorem scopedSems_eq : (Finset.univ.filter fun sm : SemLoc sig => sm.isScoped .tc) = ∅ := by decide

theorem ops_mem (op : HloOp τ sig (Elt F)) (h : op ∈ (ops : List (HloOp τ sig (Elt F)))) :
    op ∈ (ops_a0 : List (HloOp τ sig (Elt F))) ∨ op ∈ (ops_a1 : List (HloOp τ sig (Elt F))) ∨ op ∈ (ops_a2 : List (HloOp τ sig (Elt F))) ∨ op ∈ (ops_b0 : List (HloOp τ sig (Elt F))) ∨ op ∈ (ops_b1 : List (HloOp τ sig (Elt F))) ∨ op ∈ (ops_b2 : List (HloOp τ sig (Elt F))) ∨ op ∈ (ops_b3 : List (HloOp τ sig (Elt F))) ∨ op ∈ (ops_b4 : List (HloOp τ sig (Elt F))) ∨ op ∈ (ops_b5 : List (HloOp τ sig (Elt F))) ∨ op ∈ (ops_b6 : List (HloOp τ sig (Elt F))) := by
  obtain ⟨l, hl, hop⟩ := List.mem_flatten.mp h
  simp only [stretches, List.mem_cons, List.mem_nil_iff, or_false] at hl
  rcases hl with rfl | rfl | rfl | rfl | rfl | rfl | rfl | rfl | rfl | rfl
  · exact Or.inl hop
  · exact Or.inr (Or.inl hop)
  · exact Or.inr (Or.inr (Or.inl hop))
  · exact Or.inr (Or.inr (Or.inr (Or.inl hop)))
  · exact Or.inr (Or.inr (Or.inr (Or.inr (Or.inl hop))))
  · exact Or.inr (Or.inr (Or.inr (Or.inr (Or.inr (Or.inl hop)))))
  · exact Or.inr (Or.inr (Or.inr (Or.inr (Or.inr (Or.inr (Or.inl hop))))))
  · exact Or.inr (Or.inr (Or.inr (Or.inr (Or.inr (Or.inr (Or.inr (Or.inl hop)))))))
  · exact Or.inr (Or.inr (Or.inr (Or.inr (Or.inr (Or.inr (Or.inr (Or.inr (Or.inl hop))))))))
  · exact Or.inr (Or.inr (Or.inr (Or.inr (Or.inr (Or.inr (Or.inr (Or.inr (Or.inr (hop)))))))))

theorem ops_sub : (ops : List (HloOp τ sig (Elt F))).Forall fun op => op.bufs ⊆ tcRefs τ sig := by
  refine List.forall_iff_forall_mem.mpr fun op h => ?_
  rcases ops_mem op h with h | h | h | h | h | h | h | h | h | h
  · exact (List.forall_iff_forall_mem.mp ops_a0_sub) op h
  · exact (List.forall_iff_forall_mem.mp ops_a1_sub) op h
  · exact (List.forall_iff_forall_mem.mp ops_a2_sub) op h
  · exact (List.forall_iff_forall_mem.mp ops_b0_sub) op h
  · exact (List.forall_iff_forall_mem.mp ops_b1_sub) op h
  · exact (List.forall_iff_forall_mem.mp ops_b2_sub) op h
  · exact (List.forall_iff_forall_mem.mp ops_b3_sub) op h
  · exact (List.forall_iff_forall_mem.mp ops_b4_sub) op h
  · exact (List.forall_iff_forall_mem.mp ops_b5_sub) op h
  · exact (List.forall_iff_forall_mem.mp ops_b6_sub) op h

theorem ops_fresh : ∀ op ∈ (ops : List (HloOp τ sig (Elt F))), op.fresh = ∅ := by
  intro op h
  rcases ops_mem op h with h | h | h | h | h | h | h | h | h | h
  all_goals ((repeat (cases h with | head => rfl | tail _ h => ?_)); exact nomatch h)

/-- Every weakly fair execution of @main terminates, and every final state has each TensorCore buffer at the fold of
    the operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RefStages.lean ====
/-
  The reference's 111 host operations read back one at a time: every buffer is written once and nothing is read
  before it is written, so at the end each operation's result buffer holds that operation's function of the final
  contents of its operands. One equation per operation, over any starting contents.
-/
import proofs.«129221_j18588618457298_2_alg».proof.Proof.RefRun
import proofs.«129221_j18588618457298_2_alg».proof.Proof.LibSingleAssignmentNary
import proofs.«129221_j18588618457298_2_alg».proof.Proof.LibRefCasts

set_option maxRecDepth 16384

noncomputable section

namespace Cert.ReferenceIdeal.Stages

open Idealize.ShloMosaic Idealize.ShloMosaic.TcCoe Idealize.SL.Sem Idealize.ShloMosaic.StableHlo
open Cert.Lib.SingleAssignment
open Cert.ReferenceIdeal Cert.ReferenceIdeal.Gen Cert.ReferenceIdeal.Run

variable {F : FTy → Type} [FloatOps F]

/-- The operations, in order, as one line. -/
abbrev line : List (HloOp τ sig (Elt F)) := ops (F := F)

/-- The buffer each operation writes, in order: every buffer once. -/
abbrev W : List (Ref sig .tc) :=
  [main_cst, main_cst_0, main_c, main_v0, main_v1, main_v2, main_v3, main_v4, main_v5, main_v6, main_v7, main_v8, main_v9, main_v10, main_v11, main_v12, main_v13, main_v14, main_c_1, main_v15, main_v16, main_v17, main_v18, main_v19, main_v20, main_c_2, main_v21, main_c_3, main_v22, main_v23, main_v24, main_v25, main_v26, main_c_4, main_v27, main_v28, main_v29, main_v30, main_v31, main_c_5, main_v32, main_v33, main_v34, main_v35, main_v36, main_c_6, main_call0_v0, main_call0_v1, main_v37, main_v38, main_c_7, main_v39, main_v40, main_v41, main_c_8, main_v42, main_v43, main_c_9, main_v44, main_v45, main_v46, main_v47, main_v48, main_v49, main_v50, main_c_10, main_call1_v0, main_call1_v1, main_v51, main_call2_v0, main_call2_v1_0, main_v52, main_c_11, main_v53, main_v54, main_c_12, main_v55, main_v56, main_v57, main_v58, main_v59, main_v60, main_c_13, main_v61, main_v62, main_c_14, main_v63, main_v64, main_v65, main_v66, main_v67, main_cst_15, main_call3_v0, main_call3_v1, main_call3_v2, main_v68, main_v69, main_c_16, main_v70, main_v71, main_c_17, main_v72, main_v73, main_v74, main_v75, main_v76, main_c_18, main_call4_v0, main_call4_v1, main_call4_v2, main_v77]

theorem writes : Writes (line (F := F)) W := by
  repeat' (first | exact List.Forall₂.nil | refine List.Forall₂.cons rfl ?_)

/-- A reference whose index number is not among a list's index numbers is not in the list. -/
theorem not_mem_of_idx {x : Ref sig .tc} {L : List (Ref sig .tc)} (h : x.idx.val ∉ L.map (fun r => r.idx.val)) : x ∉ L :=
  fun hm => h (List.mem_map.mpr ⟨x, hm, rfl⟩)

variable (U : Valuation τ sig (Elt F))

/-- What buffer `b` holds at the end of the line run from contents `U`. -/
abbrev Vf (b : Ref sig .tc) : b.ty.Contents (Elt F) := after ([] : List (HloOp τ sig (Elt F))) (after (line (F := F)) U) (Proc.devRef .tc b)

/-- Nothing follows the line: this is the line's own end. -/
theorem Vf_eq (b : Ref sig .tc) : Vf U b = after (line (F := F)) U (Proc.devRef .tc b) :=
  congrFun (StableHlo.after_nil (after (line (F := F)) U)) (Proc.devRef .tc b)

/-- A buffer the line does not write holds at the end what it held at the start. -/
theorem kept {b : Ref sig .tc} (hb : b ∉ W) : Vf U b = U (Proc.devRef .tc b) := (Vf_eq U b).trans (after_of_not_mem (writes (F := F)) hb U)

end Cert.ReferenceIdeal.Stages

end
-- ==== Proof.RefStages1.lean ====
/-
  Stage equations, part 1 of 2: one equation per host operation (see the base module for the scheme).
-/
import proofs.«129221_j18588618457298_2_alg».proof.Proof.RefStages

set_option maxRecDepth 16384

noncomputable section

namespace Cert.ReferenceIdeal.Stages

open Idealize.ShloMosaic Idealize.ShloMosaic.TcCoe Idealize.SL.Sem Idealize.ShloMosaic.StableHlo
open Cert.Lib.SingleAssignment
open Cert.ReferenceIdeal Cert.ReferenceIdeal.Gen Cert.ReferenceIdeal.Run

variable {F : FTy → Type} [FloatOps F]

variable (U : Valuation τ sig (Elt F))

theorem st_main_cst : Vf U main_cst = (fun i => FloatOps.ofBits .f32 (lit0 (S3.rowMajor i))) :=
  read_nullary (writes (F := F)) Writes.nil 0 rfl (not_mem_of_idx (by decide +kernel)) U
theorem st_main_cst_0 : Vf U main_cst_0 = (fun i => FloatOps.ofBits .f32 (lit1 (S3.rowMajor i))) :=
  read_nullary (writes (F := F)) Writes.nil 1 rfl (not_mem_of_idx (by decide +kernel)) U
theorem st_main_c : Vf U main_c = (fun i => lit2 (S3.rowMajor i)) :=
  read_nullary (writes (F := F)) Writes.nil 2 rfl (not_mem_of_idx (by decide +kernel)) U
theorem st_main_v0 : Vf U main_v0 = fun i => shapeCast _ (Vf U main_arg0) shapeCasts_S8x500000x4_S4000000x4 i :=
  read_reshape (writes (F := F)) Writes.nil 3 rfl (not_mem_of_idx (by decide +kernel)) (not_mem_of_idx (by decide +kernel)) U
theorem st_main_v1 : Vf U main_v1 = ((extractStridedSlice S4000000x3 ![0, 0] · slices_S4000000x4_S4000000x3_0_0) : (⟨S4000000x4, .f32⟩ : BufTy).Contents (Elt F) → (⟨S4000000x3, .f32⟩ : BufTy).Contents (Elt F)) (Vf U main_v0) :=
  read_unary (writes (F := F)) Writes.nil 4 rfl (not_mem_of_idx (by decide +kernel)) (not_mem_of_idx (by decide +kernel)) U
theorem st_main_v2 : Vf U main_v2 = (broadcastInDim S1x3 ![1] bcast_S3_S1x3_1 : (⟨S3, .f32⟩ : BufTy).Contents (Elt F) → (⟨S1x3, .f32⟩ : BufTy).Contents (Elt F)) (Vf U main_cst) :=
  read_unary (writes (F := F)) Writes.nil 5 rfl (not_mem_of_idx (by decide +kernel)) (not_mem_of_idx (by decide +kernel)) U
theorem st_main_v3 : Vf U main_v3 = (broadcastInDim S4000000x3 ![0, 1] bcast_S1x3_S4000000x3_0_1 : (⟨S1x3, .f32⟩ : BufTy).Contents (Elt F) → (⟨S4000000x3, .f32⟩ : BufTy).Contents (Elt F)) (Vf U main_v2) :=
  read_unary (writes (F := F)) Writes.nil 6 rfl (not_mem_of_idx (by decide +kernel)) (not_mem_of_idx (by decide +kernel)) U
theorem st_main_v4 : Vf U main_v4 = (subf : (⟨S4000000x3, .f32⟩ : BufTy).Contents (Elt F) → (⟨S4000000x3, .f32⟩ : BufTy).Contents (Elt F) → (⟨S4000000x3, .f32⟩ : BufTy).Contents (Elt F)) (Vf U main_v1) (Vf U main_v3) :=
  read_binary (writes (F := F)) Writes.nil 7 rfl (not_mem_of_idx (by decide +kernel)) (not_mem_of_idx (by decide +kernel)) (not_mem_of_idx (by decide +kernel)) U
theorem st_main_v5 : Vf U main_v5 = (broadcastInDim S1x3 ![1] bcast_S3_S1x3_1 : (⟨S3, .f32⟩ : BufTy).Contents (Elt F) → (⟨S1x3, .f32⟩ : BufTy).Contents (Elt F)) (Vf U main_cst_0) :=
  read_unary (writes (F := F)) Writes.nil 8 rfl (not_mem_of_idx (by decide +kernel)) (not_mem_of_idx (by decide +kernel)) U
theorem st_main_v6 : Vf U main_v6 = (broadcastInDim S4000000x3 ![0, 1] bcast_S1x3_S4000000x3_0_1 : (⟨S1x3, .f32⟩ : BufTy).Contents (Elt F) → (⟨S4000000x3, .f32⟩ : BufTy).Contents (Elt F)) (Vf U main_v5) :=
  read_unary (writes (F := F)) Writes.nil 9 rfl (not_mem_of_idx (by decide +kernel)) (not_mem_of_idx (by decide +kernel)) U
theorem st_main_v7 : Vf U main_v7 = (Host.divf : (⟨S4000000x3, .f32⟩ : BufTy).Contents (Elt F) → (⟨S4000000x3, .f32⟩ : BufTy).Contents (Elt F) → (⟨S4000000x3, .f32⟩ : BufTy).Contents (Elt F)) (Vf U main_v4) (Vf U main_v6) :=
  read_binary (writes (F := F)) Writes.nil 10 rfl (not_mem_of_idx (by decide +kernel)) (not_mem_of_idx (by decide +kernel)) (not_mem_of_idx (by decide +kernel)) U
theorem st_main_v8 : Vf U main_v8 = (fptosi 32 : (⟨S4000000x3, .f32⟩ : BufTy).Contents (Elt F) → (⟨S4000000x3, .i32⟩ : BufTy).Contents (Elt F)) (Vf U main_v7) :=
  read_unary (writes (F := F)) Writes.nil 11 rfl (not_mem_of_idx (by decide +kernel)) (not_mem_of_idx (by decide +kernel)) U
theorem st_main_v9 : Vf U main_v9 = (iotaInDim S8 32 0) :=
  read_nullary (writes (F := F)) Writes.nil 12 rfl (not_mem_of_idx (by decide +kernel)) U
theorem st_main_v10 : Vf U main_v10 = (broadcastInDim S8x500000 ![0] bcast_S8_S8x500000_0 : (⟨S8, .i32⟩ : BufTy).Contents (Elt F) → (⟨S8x500000, .i32⟩ : BufTy).Contents (Elt F)) (Vf U main_v9) :=
  read_unary (writes (F := F)) Writes.nil 13 rfl (not_mem_of_idx (by decide +kernel)) (not_mem_of_idx (by decide +kernel)) U
theorem st_main_v11 : Vf U main_v11 = fun i => shapeCast _ (Vf U main_v10) shapeCasts_S8x500000_S4000000 i :=
  read_reshape (writes (F := F)) Writes.nil 14 rfl (not_mem_of_idx (by decide +kernel)) (not_mem_of_idx (by decide +kernel)) U
theorem st_main_v12 : Vf U main_v12 = (broadcastInDim S4000000x1 ![0] bcast_S4000000_S4000000x1_0 : (⟨S4000000, .i32⟩ : BufTy).Contents (Elt F) → (⟨S4000000x1, .i32⟩ : BufTy).Contents (Elt F)) (Vf U main_v11) :=
  read_unary (writes (F := F)) Writes.nil 15 rfl (not_mem_of_idx (by decide +kernel)) (not_mem_of_idx (by decide +kernel)) U
theorem st_main_v13 : Vf U main_v13 = (Host.reverse [1] : (⟨S4000000x3, .i32⟩ : BufTy).Contents (Elt F) → (⟨S4000000x3, .i32⟩ : BufTy).Contents (Elt F)) (Vf U main_v8) :=
  read_unary (writes (F := F)) Writes.nil 16 rfl (not_mem_of_idx (by decide +kernel)) (not_mem_of_idx (by decide +kernel)) U
theorem st_main_v14 : Vf U main_v14 = ((fun a b => concatenate S4000000x4 1 [⟨S4000000x1, a⟩, ⟨S4000000x3, b⟩] concatenates_S4000000x1_S4000000x3_S4000000x4_d1) : (⟨S4000000x1, .i32⟩ : BufTy).Contents (Elt F) → (⟨S4000000x3, .i32⟩ : BufTy).Contents (Elt F) → (⟨S4000000x4, .i32⟩ : BufTy).Contents (Elt F)) (Vf U main_v12) (Vf U main_v13) :=
  read_binary (writes (F := F)) Writes.nil 17 rfl (not_mem_of_idx (by decide +kernel)) (not_mem_of_idx (by decide +kernel)) (not_mem_of_idx (by decide +kernel)) U
theorem st_main_c_1 : Vf U main_c_1 = (constantI S_ 32 0#32) :=
  read_nullary (writes (F := F)) Writes.nil 18 rfl (not_mem_of_idx (by decide +kernel)) U
theorem st_main_v15 : Vf U main_v15 = (broadcastInDim S4000000x3 ![] bcast_S_S4000000x3 : (⟨S_, .i32⟩ : BufTy).Contents (Elt F) → (⟨S4000000x3, .i32⟩ : BufTy).Contents (Elt F)) (Vf U main_c_1) :=
  read_unary (writes (F := F)) Writes.nil 19 rfl (not_mem_of_idx (by decide +kernel)) (not_mem_of_idx (by decide +kernel)) U
theorem st_main_v16 : Vf U main_v16 = (cmpi .sge : (⟨S4000000x3, .i32⟩ : BufTy).Contents (Elt F) → (⟨S4000000x3, .i32⟩ : BufTy).Contents (Elt F) → (⟨S4000000x3, .i1⟩ : BufTy).Contents (Elt F)) (Vf U main_v8) (Vf U main_v15) :=
  read_binary (writes (F := F)) Writes.nil 20 rfl (not_mem_of_idx (by decide +kernel)) (not_mem_of_idx (by decide +kernel)) (not_mem_of_idx (by decide +kernel)) U
theorem st_main_v17 : Vf U main_v17 = (broadcastInDim S1x3 ![1] bcast_S3_S1x3_1 : (⟨S3, .i32⟩ : BufTy).Contents (Elt F) → (⟨S1x3, .i32⟩ : BufTy).Contents (Elt F)) (Vf U main_c) :=
  read_unary (writes (F := F)) Writes.nil 21 rfl (not_mem_of_idx (by decide +kernel)) (not_mem_of_idx (by decide +kernel)) U
theorem st_main_v18 : Vf U main_v18 = (broadcastInDim S4000000x3 ![0, 1] bcast_S1x3_S4000000x3_0_1 : (⟨S1x3, .i32⟩ : BufTy).Contents (Elt F) → (⟨S4000000x3, .i32⟩ : BufTy).Contents (Elt F)) (Vf U main_v17) :=
  read_unary (writes (F := F)) Writes.nil 22 rfl (not_mem_of_idx (by decide +kernel)) (not_mem_of_idx (by decide +kernel)) U
theorem st_main_v19 : Vf U main_v19 = (cmpi .slt : (⟨S4000000x3, .i32⟩ : BufTy).Contents (Elt F) → (⟨S4000000x3, .i32⟩ : BufTy).Contents (Elt F) → (⟨S4000000x3, .i1⟩ : BufTy).Contents (Elt F)) (Vf U main_v8) (Vf U main_v18) :=
  read_binary (writes (F := F)) Writes.nil 23 rfl (not_mem_of_idx (by decide +kernel)) (not_mem_of_idx (by decide +kernel)) (not_mem_of_idx (by decide +kernel)) U
theorem st_main_v20 : Vf U main_v20 = (andi : (⟨S4000000x3, .i1⟩ : BufTy).Contents (Elt F) → (⟨S4000000x3, .i1⟩ : BufTy).Contents (Elt F) → (⟨S4000000x3, .i1⟩ : BufTy).Contents (Elt F)) (Vf U main_v16) (Vf U main_v19) :=
  read_binary (writes (F := F)) Writes.nil 24 rfl (not_mem_of_idx (by decide +kernel)) (not_mem_of_idx (by decide +kernel)) (not_mem_of_idx (by decide +kernel)) U
theorem st_main_c_2 : Vf U main_c_2 = (constantI S_ 1 1#1) :=
  read_nullary (writes (F := F)) Writes.nil 25 rfl (not_mem_of_idx (by decide +kernel)) U
theorem st_main_v21 : Vf U main_v21 = ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)) (Vf U main_v20) (Vf U main_c_2) :=
  read_binary (writes (F := F)) Writes.nil 26 rfl (not_mem_of_idx (by decide +kernel)) (not_mem_of_idx (by decide +kernel)) (not_mem_of_idx (by decide +kernel)) U
theorem st_main_c_3 : Vf U main_c_3 = (constantI S_ 32 1#32) :=
  read_nullary (writes (F := F)) Writes.nil 27 rfl (not_mem_of_idx (by decide +kernel)) U
theorem st_main_v22 : Vf U main_v22 = (broadcastInDim S4000000 ![] bcast_S_S4000000 : (⟨S_, .i32⟩ : BufTy).Contents (Elt F) → (⟨S4000000, .i32⟩ : BufTy).Contents (Elt F)) (Vf U main_c_3) :=
  read_unary (writes (F := F)) Writes.nil 28 rfl (not_mem_of_idx (by decide +kernel)) (not_mem_of_idx (by decide +kernel)) U
theorem st_main_v23 : Vf U main_v23 = (muli : (⟨S4000000, .i32⟩ : BufTy).Contents (Elt F) → (⟨S4000000, .i32⟩ : BufTy).Contents (Elt F) → (⟨S4000000, .i32⟩ : BufTy).Contents (Elt F)) (Vf U main_v11) (Vf U main_v22) :=
  read_binary (writes (F := F)) Writes.nil 29 rfl (not_mem_of_idx (by decide +kernel)) (not_mem_of_idx (by decide +kernel)) (not_mem_of_idx (by decide +kernel)) U
theorem st_main_v24 : Vf U main_v24 = ((extractStridedSlice S4000000x1 ![0, 2] · slices_S4000000x3_S4000000x1_0_2) : (⟨S4000000x3, .i32⟩ : BufTy).Contents (Elt F) → (⟨S4000000x1, .i32⟩ : BufTy).Contents (Elt F)) (Vf U main_v8) :=
  read_unary (writes (F := F)) Writes.nil 30 rfl (not_mem_of_idx (by decide +kernel)) (not_mem_of_idx (by decide +kernel)) U
theorem st_main_v25 : Vf U main_v25 = fun i => shapeCast _ (Vf U main_v24) shapeCasts_S4000000x1_S4000000 i :=
  read_reshape (writes (F := F)) Writes.nil 31 rfl (not_mem_of_idx (by decide +kernel)) (not_mem_of_idx (by decide +kernel)) U
theorem st_main_v26 : Vf U main_v26 = (addi : (⟨S4000000, .i32⟩ : BufTy).Contents (Elt F) → (⟨S4000000, .i32⟩ : BufTy).Contents (Elt F) → (⟨S4000000, .i32⟩ : BufTy).Contents (Elt F)) (Vf U main_v23) (Vf U main_v25) :=
  read_binary (writes (F := F)) Writes.nil 32 rfl (not_mem_of_idx (by decide +kernel)) (not_mem_of_idx (by decide +kernel)) (not_mem_of_idx (by decide +kernel)) U
theorem st_main_c_4 : Vf U main_c_4 = (constantI S_ 32 400#32) :=
  read_nullary (writes (F := F)) Writes.nil 33 rfl (not_mem_of_idx (by decide +kernel)) U
theorem st_main_v27 : Vf U main_v27 = (broadcastInDim S4000000 ![] bcast_S_S4000000 : (⟨S_, .i32⟩ : BufTy).Contents (Elt F) → (⟨S4000000, .i32⟩ : BufTy).Contents (Elt F)) (Vf U main_c_4) :=
  read_unary (writes (F := F)) Writes.nil 34 rfl (not_mem_of_idx (by decide +kernel)) (not_mem_of_idx (by decide +kernel)) U
theorem st_main_v28 : Vf U main_v28 = (muli : (⟨S4000000, .i32⟩ : BufTy).Contents (Elt F) → (⟨S4000000, .i32⟩ : BufTy).Contents (Elt F) → (⟨S4000000, .i32⟩ : BufTy).Contents (Elt F)) (Vf U main_v26) (Vf U main_v27) :=
  read_binary (writes (F := F)) Writes.nil 35 rfl (not_mem_of_idx (by decide +kernel)) (not_mem_of_idx (by decide +kernel)) (not_mem_of_idx (by decide +kernel)) U
theorem st_main_v29 : Vf U main_v29 = ((extractStridedSlice S4000000x1 ![0, 1] · slices_S4000000x3_S4000000x1_0_1) : (⟨S4000000x3, .i32⟩ : BufTy).Contents (Elt F) → (⟨S4000000x1, .i32⟩ : BufTy).Contents (Elt F)) (Vf U main_v8) :=
  read_unary (writes (F := F)) Writes.nil 36 rfl (not_mem_of_idx (by decide +kernel)) (not_mem_of_idx (by decide +kernel)) U
theorem st_main_v30 : Vf U main_v30 = fun i => shapeCast _ (Vf U main_v29) shapeCasts_S4000000x1_S4000000 i :=
  read_reshape (writes (F := F)) Writes.nil 37 rfl (not_mem_of_idx (by decide +kernel)) (not_mem_of_idx (by decide +kernel)) U
theorem st_main_v31 : Vf U main_v31 = (addi : (⟨S4000000, .i32⟩ : BufTy).Contents (Elt F) → (⟨S4000000, .i32⟩ : BufTy).Contents (Elt F) → (⟨S4000000, .i32⟩ : BufTy).Contents (Elt F)) (Vf U main_v28) (Vf U main_v30) :=
  read_binary (writes (F := F)) Writes.nil 38 rfl (not_mem_of_idx (by decide +kernel)) (not_mem_of_idx (by decide +kernel)) (not_mem_of_idx (by decide +kernel)) U
theorem st_main_c_5 : Vf U main_c_5 = (constantI S_ 32 352#32) :=
  read_nullary (writes (F := F)) Writes.nil 39 rfl (not_mem_of_idx (by decide +kernel)) U
theorem st_main_v32 : Vf U main_v32 = (broadcastInDim S4000000 ![] bcast_S_S4000000 : (⟨S_, .i32⟩ : BufTy).Contents (Elt F) → (⟨S4000000, .i32⟩ : BufTy).Contents (Elt F)) (Vf U main_c_5) :=
  read_unary (writes (F := F)) Writes.nil 40 rfl (not_mem_of_idx (by decide +kernel)) (not_mem_of_idx (by decide +kernel)) U
theorem st_main_v33 : Vf U main_v33 = (muli : (⟨S4000000, .i32⟩ : BufTy).Contents (Elt F) → (⟨S4000000, .i32⟩ : BufTy).Contents (Elt F) → (⟨S4000000, .i32⟩ : BufTy).Contents (Elt F)) (Vf U main_v31) (Vf U main_v32) :=
  read_binary (writes (F := F)) Writes.nil 41 rfl (not_mem_of_idx (by decide +kernel)) (not_mem_of_idx (by decide +kernel)) (not_mem_of_idx (by decide +kernel)) U
theorem st_main_v34 : Vf U main_v34 = ((extractStridedSlice S4000000x1 ![0, 0] · slices_S4000000x3_S4000000x1_0_0) : (⟨S4000000x3, .i32⟩ : BufTy).Contents (Elt F) → (⟨S4000000x1, .i32⟩ : BufTy).Contents (Elt F)) (Vf U main_v8) :=
  read_unary (writes (F := F)) Writes.nil 42 rfl (not_mem_of_idx (by decide +kernel)) (not_mem_of_idx (by decide +kernel)) U
theorem st_main_v35 : Vf U main_v35 = fun i => shapeCast _ (Vf U main_v34) shapeCasts_S4000000x1_S4000000 i :=
  read_reshape (writes (F := F)) Writes.nil 43 rfl (not_mem_of_idx (by decide +kernel)) (not_mem_of_idx (by decide +kernel)) U
theorem st_main_v36 : Vf U main_v36 = (addi : (⟨S4000000, .i32⟩ : BufTy).Contents (Elt F) → (⟨S4000000, .i32⟩ : BufTy).Contents (Elt F) → (⟨S4000000, .i32⟩ : BufTy).Contents (Elt F)) (Vf U main_v33) (Vf U main_v35) :=
  read_binary (writes (F := F)) Writes.nil 44 rfl (not_mem_of_idx (by decide +kernel)) (not_mem_of_idx (by decide +kernel)) (not_mem_of_idx (by decide +kernel)) U
theorem st_main_c_6 : Vf U main_c_6 = (constantI S_ 32 1126400#32) :=
  read_nullary (writes (F := F)) Writes.nil 45 rfl (not_mem_of_idx (by decide +kernel)) U
theorem st_main_call0_v0 : Vf U main_call0_v0 = (id : (⟨S_, .i32⟩ : BufTy).Contents (Elt F) → (⟨S_, .i32⟩ : BufTy).Contents (Elt F)) (Vf U main_c_6) := by
  have h1 := final_of_at (writes (F := F)) Writes.nil 46 (op := (StableHlo.TRef.unary (τ := τ) (Val := Elt F) (.of main_c_6 : StableHlo.TRef sig ⟨S_, .i32⟩) main_call0.v0 id)) rfl (y := main_call0_v0) (not_mem_of_idx (by decide +kernel)) U
  have hb0 := final_of_before (writes (F := F)) Writes.nil 46 (a := main_c_6) (not_mem_of_idx (by decide +kernel)) U
  unfold Vf
  rw [h1, hb0]
  generalize after (List.take 46 (line (F := F))) U = V
  exact (unary_result _ _ _ _ _ V).trans rfl
theorem st_main_call0_v1 : Vf U main_call0_v1 = ((broadcastInDim S4000000 ![] bcast_S_S4000000) : (⟨S_, .i32⟩ : BufTy).Contents (Elt F) → (⟨S4000000, .i32⟩ : BufTy).Contents (Elt F)) (Vf U main_call0_v0) := by
  have h1 := final_of_at (writes (F := F)) Writes.nil 47 (op := (StableHlo.TRef.unary (τ := τ) (Val := Elt F) main_call0.v0 main_call0.v1 (broadcastInDim S4000000 ![] bcast_S_S4000000))) rfl (y := main_call0_v1) (not_mem_of_idx (by decide +kernel)) U
  have hb0 := final_of_before (writes (F := F)) Writes.nil 47 (a := main_call0_v0) (not_mem_of_idx (by decide +kernel)) U
  unfold Vf
  rw [h1, hb0]
  generalize after (List.take 47 (line (F := F))) U = V
  exact (unary_result _ _ _ _ _ V).trans rfl
theorem st_main_v37 : Vf U main_v37 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v21) (Vf U main_v36) (Vf U main_call0_v1) := by
  have h1 := final_of_at (writes (F := F)) Writes.nil 48 (op := (StableHlo.TRef.ternary (τ := τ) (Val := Elt F) (.of main_v21 : StableHlo.TRef sig ⟨S4000000, .i1⟩) (.of main_v36 : StableHlo.TRef sig ⟨S4000000, .i32⟩) main_call0.v1 main_call0.v2 select)) rfl (y := main_v37) (not_mem_of_idx (by decide +kernel)) U
  have hb0 := final_of_before (writes (F := F)) Writes.nil 48 (a := main_v21) (not_mem_of_idx (by decide +kernel)) U
  have hb1 := final_of_before (writes (F := F)) Writes.nil 48 (a := main_v36) (not_mem_of_idx (by decide +kernel)) U
  have hb2 := final_of_before (writes (F := F)) Writes.nil 48 (a := main_call0_v1) (not_mem_of_idx (by decide +kernel)) U
  unfold Vf
  rw [h1, hb0, hb1, hb2]
  generalize after (List.take 48 (line (F := F))) U = V
  exact (ternary_result _ _ _ _ _ _ _ _ _ V).trans rfl
theorem st_main_v38 : Vf U main_v38 = (iotaInDim S4000000 32 0) :=
  read_nullary (writes (F := F)) Writes.nil 49 rfl (not_mem_of_idx (by decide +kernel)) U
theorem st_main_c_7 : Vf U main_c_7 = (constantI S_ 32 2147483648#32) :=
  read_nullary (writes (F := F)) Writes.nil 50 rfl (not_mem_of_idx (by decide +kernel)) U
theorem st_main_v39 : Vf U main_v39 = (broadcastInDim S1126401 ![] bcast_S_S1126401 : (⟨S_, .i32⟩ : BufTy).Contents (Elt F) → (⟨S1126401, .i32⟩ : BufTy).Contents (Elt F)) (Vf U main_c_7) :=
  read_unary (writes (F := F)) Writes.nil 51 rfl (not_mem_of_idx (by decide +kernel)) (not_mem_of_idx (by decide +kernel)) U
theorem st_main_v40 : Vf U main_v40 = (broadcastInDim S4000000x1 ![0] bcast_S4000000_S4000000x1_0 : (⟨S4000000, .i32⟩ : BufTy).Contents (Elt F) → (⟨S4000000x1, .i32⟩ : BufTy).Contents (Elt F)) (Vf U main_v37) :=
  read_unary (writes (F := F)) Writes.nil 52 rfl (not_mem_of_idx (by decide +kernel)) (not_mem_of_idx (by decide +kernel)) U
theorem st_main_v41 : Vf U main_v41 = ((fun x i u => Host.scatter scatter_S1126401_S4000000x1_S4000000_n_0_0_1 IntOp.maxsi x i u) : (⟨S1126401, .i32⟩ : BufTy).Contents (Elt F) → (⟨S4000000x1, .i32⟩ : BufTy).Contents (Elt F) → (⟨S4000000, .i32⟩ : BufTy).Contents (Elt F) → (⟨S1126401, .i32⟩ : BufTy).Contents (Elt F)) (Vf U main_v39) (Vf U main_v40) (Vf U main_v38) :=
  read_ternary (writes (F := F)) Writes.nil 53 rfl (not_mem_of_idx (by decide +kernel)) (not_mem_of_idx (by decide +kernel)) (not_mem_of_idx (by decide +kernel)) (not_mem_of_idx (by decide +kernel)) U
theorem st_main_c_8 : Vf U main_c_8 = (constantI S_ 32 0#32) :=
  read_nullary (writes (F := F)) Writes.nil 54 rfl (not_mem_of_idx (by decide +kernel)) U
theorem st_main_v42 : Vf U main_v42 = (broadcastInDim S4000000 ![] bcast_S_S4000000 : (⟨S_, .i32⟩ : BufTy).Contents (Elt F) → (⟨S4000000, .i32⟩ : BufTy).Contents (Elt F)) (Vf U main_c_8) :=
  read_unary (writes (F := F)) Writes.nil 55 rfl (not_mem_of_idx (by decide +kernel)) (not_mem_of_idx (by decide +kernel)) U

end Cert.ReferenceIdeal.Stages

end
-- ==== Proof.RefStages2.lean ====
/-
  Stage equations, part 2 of 2: one equation per host operation (see the base module for the scheme).
-/
import proofs.«129221_j18588618457298_2_alg».proof.Proof.RefStages

set_option maxRecDepth 16384

noncomputable section

namespace Cert.ReferenceIdeal.Stages

open Idealize.ShloMosaic Idealize.ShloMosaic.TcCoe Idealize.SL.Sem Idealize.ShloMosaic.StableHlo
open Cert.Lib.SingleAssignment
open Cert.ReferenceIdeal Cert.ReferenceIdeal.Gen Cert.ReferenceIdeal.Run

variable {F : FTy → Type} [FloatOps F]

variable (U : Valuation τ sig (Elt F))

theorem st_main_v43 : Vf U main_v43 = (cmpi .slt : (⟨S4000000, .i32⟩ : BufTy).Contents (Elt F) → (⟨S4000000, .i32⟩ : BufTy).Contents (Elt F) → (⟨S4000000, .i1⟩ : BufTy).Contents (Elt F)) (Vf U main_v37) (Vf U main_v42) :=
  read_binary (writes (F := F)) Writes.nil 56 rfl (not_mem_of_idx (by decide +kernel)) (not_mem_of_idx (by decide +kernel)) (not_mem_of_idx (by decide +kernel)) U
theorem st_main_c_9 : Vf U main_c_9 = (constantI S_ 32 1126401#32) :=
  read_nullary (writes (F := F)) Writes.nil 57 rfl (not_mem_of_idx (by decide +kernel)) U
theorem st_main_v44 : Vf U main_v44 = (broadcastInDim S4000000 ![] bcast_S_S4000000 : (⟨S_, .i32⟩ : BufTy).Contents (Elt F) → (⟨S4000000, .i32⟩ : BufTy).Contents (Elt F)) (Vf U main_c_9) :=
  read_unary (writes (F := F)) Writes.nil 58 rfl (not_mem_of_idx (by decide +kernel)) (not_mem_of_idx (by decide +kernel)) U
theorem st_main_v45 : Vf U main_v45 = (addi : (⟨S4000000, .i32⟩ : BufTy).Contents (Elt F) → (⟨S4000000, .i32⟩ : BufTy).Contents (Elt F) → (⟨S4000000, .i32⟩ : BufTy).Contents (Elt F)) (Vf U main_v37) (Vf U main_v44) :=
  read_binary (writes (F := F)) Writes.nil 59 rfl (not_mem_of_idx (by decide +kernel)) (not_mem_of_idx (by decide +kernel)) (not_mem_of_idx (by decide +kernel)) U
theorem st_main_v46 : Vf U main_v46 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v43) (Vf U main_v45) (Vf U main_v37) :=
  read_ternary (writes (F := F)) Writes.nil 60 rfl (not_mem_of_idx (by decide +kernel)) (not_mem_of_idx (by decide +kernel)) (not_mem_of_idx (by decide +kernel)) (not_mem_of_idx (by decide +kernel)) U
theorem st_main_v47 : Vf U main_v47 = (broadcastInDim S4000000x1 ![0] bcast_S4000000_S4000000x1_0 : (⟨S4000000, .i32⟩ : BufTy).Contents (Elt F) → (⟨S4000000x1, .i32⟩ : BufTy).Contents (Elt F)) (Vf U main_v46) :=
  read_unary (writes (F := F)) Writes.nil 61 rfl (not_mem_of_idx (by decide +kernel)) (not_mem_of_idx (by decide +kernel)) U
theorem st_main_v48 : Vf U main_v48 = ((fun x i => Host.gather gather_S1126401_S4000000x1_S4000000_n_0_n_n_0_1_1 x i) : (⟨S1126401, .i32⟩ : BufTy).Contents (Elt F) → (⟨S4000000x1, .i32⟩ : BufTy).Contents (Elt F) → (⟨S4000000, .i32⟩ : BufTy).Contents (Elt F)) (Vf U main_v41) (Vf U main_v47) :=
  read_binary (writes (F := F)) Writes.nil 62 rfl (not_mem_of_idx (by decide +kernel)) (not_mem_of_idx (by decide +kernel)) (not_mem_of_idx (by decide +kernel)) U
theorem st_main_v49 : Vf U main_v49 = (cmpi .eq : (⟨S4000000, .i32⟩ : BufTy).Contents (Elt F) → (⟨S4000000, .i32⟩ : BufTy).Contents (Elt F) → (⟨S4000000, .i1⟩ : BufTy).Contents (Elt F)) (Vf U main_v38) (Vf U main_v48) :=
  read_binary (writes (F := F)) Writes.nil 63 rfl (not_mem_of_idx (by decide +kernel)) (not_mem_of_idx (by decide +kernel)) (not_mem_of_idx (by decide +kernel)) U
theorem st_main_v50 : Vf U main_v50 = (andi : (⟨S4000000, .i1⟩ : BufTy).Contents (Elt F) → (⟨S4000000, .i1⟩ : BufTy).Contents (Elt F) → (⟨S4000000, .i1⟩ : BufTy).Contents (Elt F)) (Vf U main_v21) (Vf U main_v49) :=
  read_binary (writes (F := F)) Writes.nil 64 rfl (not_mem_of_idx (by decide +kernel)) (not_mem_of_idx (by decide +kernel)) (not_mem_of_idx (by decide +kernel)) U
theorem st_main_c_10 : Vf U main_c_10 = (constantI S_ 32 1126401#32) :=
  read_nullary (writes (F := F)) Writes.nil 65 rfl (not_mem_of_idx (by decide +kernel)) U
theorem st_main_call1_v0 : Vf U main_call1_v0 = (id : (⟨S_, .i32⟩ : BufTy).Contents (Elt F) → (⟨S_, .i32⟩ : BufTy).Contents (Elt F)) (Vf U main_c_10) := by
  have h1 := final_of_at (writes (F := F)) Writes.nil 66 (op := (StableHlo.TRef.unary (τ := τ) (Val := Elt F) (.of main_c_10 : StableHlo.TRef sig ⟨S_, .i32⟩) main_call1.v0 id)) rfl (y := main_call1_v0) (not_mem_of_idx (by decide +kernel)) U
  have hb0 := final_of_before (writes (F := F)) Writes.nil 66 (a := main_c_10) (not_mem_of_idx (by decide +kernel)) U
  unfold Vf
  rw [h1, hb0]
  generalize after (List.take 66 (line (F := F))) U = V
  exact (unary_result _ _ _ _ _ V).trans rfl
theorem st_main_call1_v1 : Vf U main_call1_v1 = ((broadcastInDim S4000000 ![] bcast_S_S4000000) : (⟨S_, .i32⟩ : BufTy).Contents (Elt F) → (⟨S4000000, .i32⟩ : BufTy).Contents (Elt F)) (Vf U main_call1_v0) := by
  have h1 := final_of_at (writes (F := F)) Writes.nil 67 (op := (StableHlo.TRef.unary (τ := τ) (Val := Elt F) main_call1.v0 main_call1.v1 (broadcastInDim S4000000 ![] bcast_S_S4000000))) rfl (y := main_call1_v1) (not_mem_of_idx (by decide +kernel)) U
  have hb0 := final_of_before (writes (F := F)) Writes.nil 67 (a := main_call1_v0) (not_mem_of_idx (by decide +kernel)) U
  unfold Vf
  rw [h1, hb0]
  generalize after (List.take 67 (line (F := F))) U = V
  exact (unary_result _ _ _ _ _ V).trans rfl
theorem st_main_v51 : Vf U main_v51 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v50) (Vf U main_v37) (Vf U main_call1_v1) := by
  have h1 := final_of_at (writes (F := F)) Writes.nil 68 (op := (StableHlo.TRef.ternary (τ := τ) (Val := Elt F) (.of main_v50 : StableHlo.TRef sig ⟨S4000000, .i1⟩) (.of main_v37 : StableHlo.TRef sig ⟨S4000000, .i32⟩) main_call1.v1 main_call1.v2 select)) rfl (y := main_v51) (not_mem_of_idx (by decide +kernel)) U
  have hb0 := final_of_before (writes (F := F)) Writes.nil 68 (a := main_v50) (not_mem_of_idx (by decide +kernel)) U
  have hb1 := final_of_before (writes (F := F)) Writes.nil 68 (a := main_v37) (not_mem_of_idx (by decide +kernel)) U
  have hb2 := final_of_before (writes (F := F)) Writes.nil 68 (a := main_call1_v1) (not_mem_of_idx (by decide +kernel)) U
  unfold Vf
  rw [h1, hb0, hb1, hb2]
  generalize after (List.take 68 (line (F := F))) U = V
  exact (ternary_result _ _ _ _ _ _ _ _ _ V).trans rfl
theorem st_main_call2_v0 : Vf U main_call2_v0 = (iotaInDim S4000000 32 0) := by
  have h1 := final_of_at (writes (F := F)) Writes.nil 69 (op := (StableHlo.TRef.nullary (τ := τ) (Val := Elt F) main_call2.v0 (iotaInDim S4000000 32 0))) rfl (y := main_call2_v0) (not_mem_of_idx (by decide +kernel)) U

  unfold Vf
  rw [h1]
  generalize after (List.take 69 (line (F := F))) U = V
  exact (nullary_result _ _ _ V).trans rfl
theorem st_main_call2_v1_0 : Vf U main_call2_v1_0 = ((fun x y => (Host.sort2 S4000000 0 comparator_i32_i32_d0 x y).1) : (⟨S4000000, .i32⟩ : BufTy).Contents (Elt F) → (⟨S4000000, .i32⟩ : BufTy).Contents (Elt F) → (⟨S4000000, .i32⟩ : BufTy).Contents (Elt F)) (Vf U main_v51) (Vf U main_call2_v0) := by
  have h1 := final_of_at (writes (F := F)) Writes.nil 70 (op := (StableHlo.TRef.binary (τ := τ) (Val := Elt F) (.of main_v51 : StableHlo.TRef sig ⟨S4000000, .i32⟩) main_call2.v0 main_call2.v1_0 (fun x y => (Host.sort2 S4000000 0 comparator_i32_i32_d0 x y).1))) rfl (y := main_call2_v1_0) (not_mem_of_idx (by decide +kernel)) U
  have hb0 := final_of_before (writes (F := F)) Writes.nil 70 (a := main_v51) (not_mem_of_idx (by decide +kernel)) U
  have hb1 := final_of_before (writes (F := F)) Writes.nil 70 (a := main_call2_v0) (not_mem_of_idx (by decide +kernel)) U
  unfold Vf
  rw [h1, hb0, hb1]
  generalize after (List.take 70 (line (F := F))) U = V
  exact (binary_result _ _ _ _ _ _ _ V).trans rfl
theorem st_main_v52 : Vf U main_v52 = ((fun x y => (Host.sort2 S4000000 0 comparator_i32_i32_d0 x y).2) : (⟨S4000000, .i32⟩ : BufTy).Contents (Elt F) → (⟨S4000000, .i32⟩ : BufTy).Contents (Elt F) → (⟨S4000000, .i32⟩ : BufTy).Contents (Elt F)) (Vf U main_v51) (Vf U main_call2_v0) := by
  have h1 := final_of_at (writes (F := F)) Writes.nil 71 (op := (StableHlo.TRef.binary (τ := τ) (Val := Elt F) (.of main_v51 : StableHlo.TRef sig ⟨S4000000, .i32⟩) main_call2.v0 main_call2.v1_1 (fun x y => (Host.sort2 S4000000 0 comparator_i32_i32_d0 x y).2))) rfl (y := main_v52) (not_mem_of_idx (by decide +kernel)) U
  have hb0 := final_of_before (writes (F := F)) Writes.nil 71 (a := main_v51) (not_mem_of_idx (by decide +kernel)) U
  have hb1 := final_of_before (writes (F := F)) Writes.nil 71 (a := main_call2_v0) (not_mem_of_idx (by decide +kernel)) U
  unfold Vf
  rw [h1, hb0, hb1]
  generalize after (List.take 71 (line (F := F))) U = V
  exact (binary_result _ _ _ _ _ _ _ V).trans rfl
theorem st_main_c_11 : Vf U main_c_11 = (constantI S_ 32 0#32) :=
  read_nullary (writes (F := F)) Writes.nil 72 rfl (not_mem_of_idx (by decide +kernel)) U
theorem st_main_v53 : Vf U main_v53 = (broadcastInDim S4000000 ![] bcast_S_S4000000 : (⟨S_, .i32⟩ : BufTy).Contents (Elt F) → (⟨S4000000, .i32⟩ : BufTy).Contents (Elt F)) (Vf U main_c_11) :=
  read_unary (writes (F := F)) Writes.nil 73 rfl (not_mem_of_idx (by decide +kernel)) (not_mem_of_idx (by decide +kernel)) U
theorem st_main_v54 : Vf U main_v54 = (cmpi .slt : (⟨S4000000, .i32⟩ : BufTy).Contents (Elt F) → (⟨S4000000, .i32⟩ : BufTy).Contents (Elt F) → (⟨S4000000, .i1⟩ : BufTy).Contents (Elt F)) (Vf U main_v52) (Vf U main_v53) :=
  read_binary (writes (F := F)) Writes.nil 74 rfl (not_mem_of_idx (by decide +kernel)) (not_mem_of_idx (by decide +kernel)) (not_mem_of_idx (by decide +kernel)) U
theorem st_main_c_12 : Vf U main_c_12 = (constantI S_ 32 4000000#32) :=
  read_nullary (writes (F := F)) Writes.nil 75 rfl (not_mem_of_idx (by decide +kernel)) U
theorem st_main_v55 : Vf U main_v55 = (broadcastInDim S4000000 ![] bcast_S_S4000000 : (⟨S_, .i32⟩ : BufTy).Contents (Elt F) → (⟨S4000000, .i32⟩ : BufTy).Contents (Elt F)) (Vf U main_c_12) :=
  read_unary (writes (F := F)) Writes.nil 76 rfl (not_mem_of_idx (by decide +kernel)) (not_mem_of_idx (by decide +kernel)) U
theorem st_main_v56 : Vf U main_v56 = (addi : (⟨S4000000, .i32⟩ : BufTy).Contents (Elt F) → (⟨S4000000, .i32⟩ : BufTy).Contents (Elt F) → (⟨S4000000, .i32⟩ : BufTy).Contents (Elt F)) (Vf U main_v52) (Vf U main_v55) :=
  read_binary (writes (F := F)) Writes.nil 77 rfl (not_mem_of_idx (by decide +kernel)) (not_mem_of_idx (by decide +kernel)) (not_mem_of_idx (by decide +kernel)) U
theorem st_main_v57 : Vf U main_v57 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v54) (Vf U main_v56) (Vf U main_v52) :=
  read_ternary (writes (F := F)) Writes.nil 78 rfl (not_mem_of_idx (by decide +kernel)) (not_mem_of_idx (by decide +kernel)) (not_mem_of_idx (by decide +kernel)) (not_mem_of_idx (by decide +kernel)) U
theorem st_main_v58 : Vf U main_v58 = (broadcastInDim S4000000x1 ![0] bcast_S4000000_S4000000x1_0 : (⟨S4000000, .i32⟩ : BufTy).Contents (Elt F) → (⟨S4000000x1, .i32⟩ : BufTy).Contents (Elt F)) (Vf U main_v57) :=
  read_unary (writes (F := F)) Writes.nil 79 rfl (not_mem_of_idx (by decide +kernel)) (not_mem_of_idx (by decide +kernel)) U
theorem st_main_v59 : Vf U main_v59 = ((fun x i => Host.gather gather_S4000000_S4000000x1_S4000000_n_0_n_n_0_1_1 x i) : (⟨S4000000, .i1⟩ : BufTy).Contents (Elt F) → (⟨S4000000x1, .i32⟩ : BufTy).Contents (Elt F) → (⟨S4000000, .i1⟩ : BufTy).Contents (Elt F)) (Vf U main_v50) (Vf U main_v58) :=
  read_binary (writes (F := F)) Writes.nil 80 rfl (not_mem_of_idx (by decide +kernel)) (not_mem_of_idx (by decide +kernel)) (not_mem_of_idx (by decide +kernel)) U
theorem st_main_v60 : Vf U main_v60 = (broadcastInDim S4000000x1 ![0] bcast_S4000000_S4000000x1_0 : (⟨S4000000, .i1⟩ : BufTy).Contents (Elt F) → (⟨S4000000x1, .i1⟩ : BufTy).Contents (Elt F)) (Vf U main_v59) :=
  read_unary (writes (F := F)) Writes.nil 81 rfl (not_mem_of_idx (by decide +kernel)) (not_mem_of_idx (by decide +kernel)) U
theorem st_main_c_13 : Vf U main_c_13 = (constantI S_ 32 0#32) :=
  read_nullary (writes (F := F)) Writes.nil 82 rfl (not_mem_of_idx (by decide +kernel)) U
theorem st_main_v61 : Vf U main_v61 = (broadcastInDim S4000000 ![] bcast_S_S4000000 : (⟨S_, .i32⟩ : BufTy).Contents (Elt F) → (⟨S4000000, .i32⟩ : BufTy).Contents (Elt F)) (Vf U main_c_13) :=
  read_unary (writes (F := F)) Writes.nil 83 rfl (not_mem_of_idx (by decide +kernel)) (not_mem_of_idx (by decide +kernel)) U
theorem st_main_v62 : Vf U main_v62 = (cmpi .slt : (⟨S4000000, .i32⟩ : BufTy).Contents (Elt F) → (⟨S4000000, .i32⟩ : BufTy).Contents (Elt F) → (⟨S4000000, .i1⟩ : BufTy).Contents (Elt F)) (Vf U main_v52) (Vf U main_v61) :=
  read_binary (writes (F := F)) Writes.nil 84 rfl (not_mem_of_idx (by decide +kernel)) (not_mem_of_idx (by decide +kernel)) (not_mem_of_idx (by decide +kernel)) U
theorem st_main_c_14 : Vf U main_c_14 = (constantI S_ 32 4000000#32) :=
  read_nullary (writes (F := F)) Writes.nil 85 rfl (not_mem_of_idx (by decide +kernel)) U
theorem st_main_v63 : Vf U main_v63 = (broadcastInDim S4000000 ![] bcast_S_S4000000 : (⟨S_, .i32⟩ : BufTy).Contents (Elt F) → (⟨S4000000, .i32⟩ : BufTy).Contents (Elt F)) (Vf U main_c_14) :=
  read_unary (writes (F := F)) Writes.nil 86 rfl (not_mem_of_idx (by decide +kernel)) (not_mem_of_idx (by decide +kernel)) U
theorem st_main_v64 : Vf U main_v64 = (addi : (⟨S4000000, .i32⟩ : BufTy).Contents (Elt F) → (⟨S4000000, .i32⟩ : BufTy).Contents (Elt F) → (⟨S4000000, .i32⟩ : BufTy).Contents (Elt F)) (Vf U main_v52) (Vf U main_v63) :=
  read_binary (writes (F := F)) Writes.nil 87 rfl (not_mem_of_idx (by decide +kernel)) (not_mem_of_idx (by decide +kernel)) (not_mem_of_idx (by decide +kernel)) U
theorem st_main_v65 : Vf U main_v65 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v62) (Vf U main_v64) (Vf U main_v52) :=
  read_ternary (writes (F := F)) Writes.nil 88 rfl (not_mem_of_idx (by decide +kernel)) (not_mem_of_idx (by decide +kernel)) (not_mem_of_idx (by decide +kernel)) (not_mem_of_idx (by decide +kernel)) U
theorem st_main_v66 : Vf U main_v66 = (broadcastInDim S4000000x1 ![0] bcast_S4000000_S4000000x1_0 : (⟨S4000000, .i32⟩ : BufTy).Contents (Elt F) → (⟨S4000000x1, .i32⟩ : BufTy).Contents (Elt F)) (Vf U main_v65) :=
  read_unary (writes (F := F)) Writes.nil 89 rfl (not_mem_of_idx (by decide +kernel)) (not_mem_of_idx (by decide +kernel)) U
theorem st_main_v67 : Vf U main_v67 = ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)) (Vf U main_v0) (Vf U main_v66) :=
  read_binary (writes (F := F)) Writes.nil 90 rfl (not_mem_of_idx (by decide +kernel)) (not_mem_of_idx (by decide +kernel)) (not_mem_of_idx (by decide +kernel)) U
theorem st_main_cst_15 : Vf U main_cst_15 = (constant S_ .f32 0x00000000#32) :=
  read_nullary (writes (F := F)) Writes.nil 91 rfl (not_mem_of_idx (by decide +kernel)) U
theorem st_main_call3_v0 : Vf U main_call3_v0 = (id : (⟨S_, .f32⟩ : BufTy).Contents (Elt F) → (⟨S_, .f32⟩ : BufTy).Contents (Elt F)) (Vf U main_cst_15) := by
  have h1 := final_of_at (writes (F := F)) Writes.nil 92 (op := (StableHlo.TRef.unary (τ := τ) (Val := Elt F) (.of main_cst_15 : StableHlo.TRef sig ⟨S_, .f32⟩) main_call3.v0 id)) rfl (y := main_call3_v0) (not_mem_of_idx (by decide +kernel)) U
  have hb0 := final_of_before (writes (F := F)) Writes.nil 92 (a := main_cst_15) (not_mem_of_idx (by decide +kernel)) U
  unfold Vf
  rw [h1, hb0]
  generalize after (List.take 92 (line (F := F))) U = V
  exact (unary_result _ _ _ _ _ V).trans rfl
theorem st_main_call3_v1 : Vf U main_call3_v1 = ((broadcastInDim S4000000x4 ![0, 1] bcast_S4000000x1_S4000000x4_0_1) : (⟨S4000000x1, .i1⟩ : BufTy).Contents (Elt F) → (⟨S4000000x4, .i1⟩ : BufTy).Contents (Elt F)) (Vf U main_v60) := by
  have h1 := final_of_at (writes (F := F)) Writes.nil 93 (op := (StableHlo.TRef.unary (τ := τ) (Val := Elt F) (.of main_v60 : StableHlo.TRef sig ⟨S4000000x1, .i1⟩) main_call3.v1 (broadcastInDim S4000000x4 ![0, 1] bcast_S4000000x1_S4000000x4_0_1))) rfl (y := main_call3_v1) (not_mem_of_idx (by decide +kernel)) U
  have hb0 := final_of_before (writes (F := F)) Writes.nil 93 (a := main_v60) (not_mem_of_idx (by decide +kernel)) U
  unfold Vf
  rw [h1, hb0]
  generalize after (List.take 93 (line (F := F))) U = V
  exact (unary_result _ _ _ _ _ V).trans rfl
theorem st_main_call3_v2 : Vf U main_call3_v2 = ((broadcastInDim S4000000x4 ![] bcast_S_S4000000x4) : (⟨S_, .f32⟩ : BufTy).Contents (Elt F) → (⟨S4000000x4, .f32⟩ : BufTy).Contents (Elt F)) (Vf U main_call3_v0) := by
  have h1 := final_of_at (writes (F := F)) Writes.nil 94 (op := (StableHlo.TRef.unary (τ := τ) (Val := Elt F) main_call3.v0 main_call3.v2 (broadcastInDim S4000000x4 ![] bcast_S_S4000000x4))) rfl (y := main_call3_v2) (not_mem_of_idx (by decide +kernel)) U
  have hb0 := final_of_before (writes (F := F)) Writes.nil 94 (a := main_call3_v0) (not_mem_of_idx (by decide +kernel)) U
  unfold Vf
  rw [h1, hb0]
  generalize after (List.take 94 (line (F := F))) U = V
  exact (unary_result _ _ _ _ _ V).trans rfl
theorem st_main_v68 : Vf U main_v68 = (select : (⟨S4000000x4, .i1⟩ : BufTy).Contents (Elt F) → (⟨S4000000x4, .f32⟩ : BufTy).Contents (Elt F) → (⟨S4000000x4, .f32⟩ : BufTy).Contents (Elt F) → (⟨S4000000x4, .f32⟩ : BufTy).Contents (Elt F)) (Vf U main_call3_v1) (Vf U main_v67) (Vf U main_call3_v2) := by
  have h1 := final_of_at (writes (F := F)) Writes.nil 95 (op := (StableHlo.TRef.ternary (τ := τ) (Val := Elt F) main_call3.v1 (.of main_v67 : StableHlo.TRef sig ⟨S4000000x4, .f32⟩) main_call3.v2 main_call3.v3 select)) rfl (y := main_v68) (not_mem_of_idx (by decide +kernel)) U
  have hb0 := final_of_before (writes (F := F)) Writes.nil 95 (a := main_call3_v1) (not_mem_of_idx (by decide +kernel)) U
  have hb1 := final_of_before (writes (F := F)) Writes.nil 95 (a := main_v67) (not_mem_of_idx (by decide +kernel)) U
  have hb2 := final_of_before (writes (F := F)) Writes.nil 95 (a := main_call3_v2) (not_mem_of_idx (by decide +kernel)) U
  unfold Vf
  rw [h1, hb0, hb1, hb2]
  generalize after (List.take 95 (line (F := F))) U = V
  exact (ternary_result _ _ _ _ _ _ _ _ _ V).trans rfl
theorem st_main_v69 : Vf U main_v69 = (broadcastInDim S4000000x1 ![0] bcast_S4000000_S4000000x1_0 : (⟨S4000000, .i1⟩ : BufTy).Contents (Elt F) → (⟨S4000000x1, .i1⟩ : BufTy).Contents (Elt F)) (Vf U main_v59) :=
  read_unary (writes (F := F)) Writes.nil 96 rfl (not_mem_of_idx (by decide +kernel)) (not_mem_of_idx (by decide +kernel)) U
theorem st_main_c_16 : Vf U main_c_16 = (constantI S_ 32 0#32) :=
  read_nullary (writes (F := F)) Writes.nil 97 rfl (not_mem_of_idx (by decide +kernel)) U
theorem st_main_v70 : Vf U main_v70 = (broadcastInDim S4000000 ![] bcast_S_S4000000 : (⟨S_, .i32⟩ : BufTy).Contents (Elt F) → (⟨S4000000, .i32⟩ : BufTy).Contents (Elt F)) (Vf U main_c_16) :=
  read_unary (writes (F := F)) Writes.nil 98 rfl (not_mem_of_idx (by decide +kernel)) (not_mem_of_idx (by decide +kernel)) U
theorem st_main_v71 : Vf U main_v71 = (cmpi .slt : (⟨S4000000, .i32⟩ : BufTy).Contents (Elt F) → (⟨S4000000, .i32⟩ : BufTy).Contents (Elt F) → (⟨S4000000, .i1⟩ : BufTy).Contents (Elt F)) (Vf U main_v52) (Vf U main_v70) :=
  read_binary (writes (F := F)) Writes.nil 99 rfl (not_mem_of_idx (by decide +kernel)) (not_mem_of_idx (by decide +kernel)) (not_mem_of_idx (by decide +kernel)) U
theorem st_main_c_17 : Vf U main_c_17 = (constantI S_ 32 4000000#32) :=
  read_nullary (writes (F := F)) Writes.nil 100 rfl (not_mem_of_idx (by decide +kernel)) U
theorem st_main_v72 : Vf U main_v72 = (broadcastInDim S4000000 ![] bcast_S_S4000000 : (⟨S_, .i32⟩ : BufTy).Contents (Elt F) → (⟨S4000000, .i32⟩ : BufTy).Contents (Elt F)) (Vf U main_c_17) :=
  read_unary (writes (F := F)) Writes.nil 101 rfl (not_mem_of_idx (by decide +kernel)) (not_mem_of_idx (by decide +kernel)) U
theorem st_main_v73 : Vf U main_v73 = (addi : (⟨S4000000, .i32⟩ : BufTy).Contents (Elt F) → (⟨S4000000, .i32⟩ : BufTy).Contents (Elt F) → (⟨S4000000, .i32⟩ : BufTy).Contents (Elt F)) (Vf U main_v52) (Vf U main_v72) :=
  read_binary (writes (F := F)) Writes.nil 102 rfl (not_mem_of_idx (by decide +kernel)) (not_mem_of_idx (by decide +kernel)) (not_mem_of_idx (by decide +kernel)) U
theorem st_main_v74 : Vf U main_v74 = (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (Vf U main_v71) (Vf U main_v73) (Vf U main_v52) :=
  read_ternary (writes (F := F)) Writes.nil 103 rfl (not_mem_of_idx (by decide +kernel)) (not_mem_of_idx (by decide +kernel)) (not_mem_of_idx (by decide +kernel)) (not_mem_of_idx (by decide +kernel)) U
theorem st_main_v75 : Vf U main_v75 = (broadcastInDim S4000000x1 ![0] bcast_S4000000_S4000000x1_0 : (⟨S4000000, .i32⟩ : BufTy).Contents (Elt F) → (⟨S4000000x1, .i32⟩ : BufTy).Contents (Elt F)) (Vf U main_v74) :=
  read_unary (writes (F := F)) Writes.nil 104 rfl (not_mem_of_idx (by decide +kernel)) (not_mem_of_idx (by decide +kernel)) U
theorem st_main_v76 : Vf U main_v76 = ((fun x i => Host.gather gather_S4000000x4_S4000000x1_S4000000x4_1_0_n_n_0_1_14 x i) : (⟨S4000000x4, .i32⟩ : BufTy).Contents (Elt F) → (⟨S4000000x1, .i32⟩ : BufTy).Contents (Elt F) → (⟨S4000000x4, .i32⟩ : BufTy).Contents (Elt F)) (Vf U main_v14) (Vf U main_v75) :=
  read_binary (writes (F := F)) Writes.nil 105 rfl (not_mem_of_idx (by decide +kernel)) (not_mem_of_idx (by decide +kernel)) (not_mem_of_idx (by decide +kernel)) U
theorem st_main_c_18 : Vf U main_c_18 = (constantI S_ 32 4294967295#32) :=
  read_nullary (writes (F := F)) Writes.nil 106 rfl (not_mem_of_idx (by decide +kernel)) U
theorem st_main_call4_v0 : Vf U main_call4_v0 = (id : (⟨S_, .i32⟩ : BufTy).Contents (Elt F) → (⟨S_, .i32⟩ : BufTy).Contents (Elt F)) (Vf U main_c_18) := by
  have h1 := final_of_at (writes (F := F)) Writes.nil 107 (op := (StableHlo.TRef.unary (τ := τ) (Val := Elt F) (.of main_c_18 : StableHlo.TRef sig ⟨S_, .i32⟩) main_call4.v0 id)) rfl (y := main_call4_v0) (not_mem_of_idx (by decide +kernel)) U
  have hb0 := final_of_before (writes (F := F)) Writes.nil 107 (a := main_c_18) (not_mem_of_idx (by decide +kernel)) U
  unfold Vf
  rw [h1, hb0]
  generalize after (List.take 107 (line (F := F))) U = V
  exact (unary_result _ _ _ _ _ V).trans rfl
theorem st_main_call4_v1 : Vf U main_call4_v1 = ((broadcastInDim S4000000x4 ![0, 1] bcast_S4000000x1_S4000000x4_0_1) : (⟨S4000000x1, .i1⟩ : BufTy).Contents (Elt F) → (⟨S4000000x4, .i1⟩ : BufTy).Contents (Elt F)) (Vf U main_v69) := by
  have h1 := final_of_at (writes (F := F)) Writes.nil 108 (op := (StableHlo.TRef.unary (τ := τ) (Val := Elt F) (.of main_v69 : StableHlo.TRef sig ⟨S4000000x1, .i1⟩) main_call4.v1 (broadcastInDim S4000000x4 ![0, 1] bcast_S4000000x1_S4000000x4_0_1))) rfl (y := main_call4_v1) (not_mem_of_idx (by decide +kernel)) U
  have hb0 := final_of_before (writes (F := F)) Writes.nil 108 (a := main_v69) (not_mem_of_idx (by decide +kernel)) U
  unfold Vf
  rw [h1, hb0]
  generalize after (List.take 108 (line (F := F))) U = V
  exact (unary_result _ _ _ _ _ V).trans rfl
theorem st_main_call4_v2 : Vf U main_call4_v2 = ((broadcastInDim S4000000x4 ![] bcast_S_S4000000x4) : (⟨S_, .i32⟩ : BufTy).Contents (Elt F) → (⟨S4000000x4, .i32⟩ : BufTy).Contents (Elt F)) (Vf U main_call4_v0) := by
  have h1 := final_of_at (writes (F := F)) Writes.nil 109 (op := (StableHlo.TRef.unary (τ := τ) (Val := Elt F) main_call4.v0 main_call4.v2 (broadcastInDim S4000000x4 ![] bcast_S_S4000000x4))) rfl (y := main_call4_v2) (not_mem_of_idx (by decide +kernel)) U
  have hb0 := final_of_before (writes (F := F)) Writes.nil 109 (a := main_call4_v0) (not_mem_of_idx (by decide +kernel)) U
  unfold Vf
  rw [h1, hb0]
  generalize after (List.take 109 (line (F := F))) U = V
  exact (unary_result _ _ _ _ _ V).trans rfl
theorem st_main_v77 : Vf U main_v77 = (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F)) (Vf U main_call4_v1) (Vf U main_v76) (Vf U main_call4_v2) := by
  have h1 := final_of_at (writes (F := F)) Writes.nil 110 (op := (StableHlo.TRef.ternary (τ := τ) (Val := Elt F) main_call4.v1 (.of main_v76 : StableHlo.TRef sig ⟨S4000000x4, .i32⟩) main_call4.v2 main_call4.v3 select)) rfl (y := main_v77) (not_mem_of_idx (by decide +kernel)) U
  have hb0 := final_of_before (writes (F := F)) Writes.nil 110 (a := main_call4_v1) (not_mem_of_idx (by decide +kernel)) U
  have hb1 := final_of_before (writes (F := F)) Writes.nil 110 (a := main_v76) (not_mem_of_idx (by decide +kernel)) U
  have hb2 := final_of_before (writes (F := F)) Writes.nil 110 (a := main_call4_v2) (not_mem_of_idx (by decide +kernel)) U
  unfold Vf
  rw [h1, hb0, hb1, hb2]
  generalize after (List.take 110 (line (F := F))) U = V
  exact (ternary_result _ _ _ _ _ _ _ _ _ V).trans rfl

end Cert.ReferenceIdeal.Stages

end
-- ==== Proof.RefHead.lean ====
/-
  The reference program's first host operations, from the point table to the keys: the three coordinates of
  every point quantised to cells, the batch of every point, the four coordinates (batch, z, y, x) side by side, the test
  that the cells are in the grid, and the voxel key of the points in the grid, S for the others.
-/
import proofs.«129221_j18588618457298_2_alg».proof.Proof.Gen.ReferenceIdeal
import proofs.«129221_j18588618457298_2_alg».proof.Proof.KeySpec
import Idealize.ShloMosaic.PureOps.Reduce

set_option maxRecDepth 16384

noncomputable section

namespace Cert.ReferenceIdeal.Head

open Idealize.ShloMosaic Idealize.ShloMosaic.ValueIdx
open Cert.ReferenceIdeal Cert.ReferenceIdeal.Gen
open Cert.Lib.HostReads Cert.Lib.StableOrder Cert.Lib.VoxelKey Cert.Spec

/-! ## Layout operations of the program read at an index -/

section Reads
variable {α : Type}

/-- The first three columns of an n × 4 table. -/
theorem slice_cols3 {n : ℕ} (x : (⟨2, ![n, 4]⟩ : Shape).Idx → α)
    (h : (⟨2, ![n, 4]⟩ : Shape).Slices ![0, 0] ⟨2, ![n, 3]⟩) (i : Fin n) (j : Fin 3) :
    extractStridedSlice ⟨2, ![n, 3]⟩ ![0, 0] x h (ix2 i j) = x (ix2 i (Fin.castLE (by omega) j)) := by
  refine extractStridedSlice_apply _ x h _ _ fun a => ?_
  match a with
  | ⟨0, _⟩ => show i.val = 0 + i.val; omega
  | ⟨1, _⟩ => show j.val = 0 + j.val; omega

/-- Column c of an n × 3 table, as an n × 1 table. -/
theorem slice_col {n : ℕ} (c : ℕ) (x : (⟨2, ![n, 3]⟩ : Shape).Idx → α)
    (h : (⟨2, ![n, 3]⟩ : Shape).Slices ![0, c] ⟨2, ![n, 1]⟩) (hc : c < 3) (i : Fin n) (z : Fin 1) :
    extractStridedSlice ⟨2, ![n, 1]⟩ ![0, c] x h (ix2 i z) = x (ix2 i ⟨c, hc⟩) := by
  refine extractStridedSlice_apply _ x h _ _ fun a => ?_
  match a with
  | ⟨0, _⟩ => show i.val = 0 + i.val; omega
  | ⟨1, _⟩ => show c = c + z.val; omega

/-- A row of three broadcast down n rows (through a 1 × 3 table). -/
theorem bcast_row {n : ℕ} (c : (⟨1, ![3]⟩ : Shape).Idx → α)
    (h1 : (⟨1, ![3]⟩ : Shape).BroadcastsInDim ⟨2, ![1, 3]⟩ ![1])
    (h2 : (⟨2, ![1, 3]⟩ : Shape).BroadcastsInDim ⟨2, ![n, 3]⟩ ![0, 1]) (i : Fin n) (j : Fin 3) :
    broadcastInDim ⟨2, ![n, 3]⟩ ![0, 1] h2 (broadcastInDim ⟨2, ![1, 3]⟩ ![1] h1 c) (ix2 i j) = c (ix1 j) := by
  refine (broadcastInDim_apply _ h2 _ (ix2 i j) (ix2 0 j) fun a => ?_).trans ?_
  · match a with
    | ⟨0, _⟩ => rfl
    | ⟨1, _⟩ => rfl
  · exact broadcastInDim_apply _ h1 c (ix2 0 j) (ix1 j) fun a => by
      match a with
      | ⟨0, _⟩ => rfl

/-- One value broadcast to every index. -/
theorem bcast_scalar {t : Shape} (c : (⟨0, ![]⟩ : Shape).Idx → α)
    (h : (⟨0, ![]⟩ : Shape).BroadcastsInDim t ![]) (j : t.Idx) :
    broadcastInDim t ![] h c j = c ix0 :=
  broadcastInDim_apply _ h c j ix0 fun a => a.elim0

/-- A length-n array as the one column of an n × 1 table. -/
theorem bcast_col {n : ℕ} (x : (⟨1, ![n]⟩ : Shape).Idx → α)
    (h : (⟨1, ![n]⟩ : Shape).BroadcastsInDim ⟨2, ![n, 1]⟩ ![0]) (i : Fin n) (z : Fin 1) :
    broadcastInDim ⟨2, ![n, 1]⟩ ![0] h x (ix2 i z) = x (ix1 i) := by
  refine broadcastInDim_apply _ h x _ _ fun a => ?_
  match a with
  | ⟨0, _⟩ =>
    show i.val = if n = 1 then 0 else i.val
    have := i.isLt
    split <;> omega

/-- A length-b array broadcast along the rows of a b × m table. -/
theorem bcast_rows {b m : ℕ} (x : (⟨1, ![b]⟩ : Shape).Idx → α)
    (h : (⟨1, ![b]⟩ : Shape).BroadcastsInDim ⟨2, ![b, m]⟩ ![0]) (p : Fin b) (q : Fin m) :
    broadcastInDim ⟨2, ![b, m]⟩ ![0] h x (ix2 p q) = x (ix1 p) := by
  refine broadcastInDim_apply _ h x _ _ fun a => ?_
  match a with
  | ⟨0, _⟩ =>
    show p.val = if b = 1 then 0 else p.val
    have := p.isLt
    split <;> omega

/-- A b × m table re-shaped to one axis: position i is row i / m, column i % m. -/
theorem shapeCast_flat {b m N : ℕ} (x : (⟨2, ![b, m]⟩ : Shape).Idx → α)
    (h : (⟨2, ![b, m]⟩ : Shape).ShapeCasts ⟨1, ![N]⟩) (i : Fin N) (p : Fin b) (q : Fin m)
    (hpq : p.val * m + q.val = i.val) :
    shapeCast ⟨1, ![N]⟩ x h (ix1 i) = x (ix2 p q) := by
  refine shapeCast_apply x h _ _ ?_
  rw [Shape.rowMajor_val_two, Shape.rowMajor_val_one]
  exact hpq

/-- An n × 1 table re-shaped to one axis. -/
theorem shapeCast_col {n : ℕ} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i 0) := by
  refine shapeCast_apply x h _ _ ?_
  rw [Shape.rowMajor_val_two, Shape.rowMajor_val_one]
  show i.val * 1 + 0 = i.val
  omega

/-- The three columns of an n × 3 table reversed. -/
theorem reverse_cols {n : ℕ} (x : (⟨2, ![n, 3]⟩ : Shape).Idx → α) (i : Fin n) (j : Fin 3) :
    Host.reverse [1] x (ix2 i j) = x (ix2 i j.rev) := by
  unfold Host.reverse
  refine congrArg x (funext fun a => ?_)
  match a with
  | ⟨0, _⟩ => rfl
  | ⟨1, _⟩ => rfl

/-- An n × 1 table beside an n × 3 table: column 0 is the first table's column. -/
theorem concat_col0 {n : ℕ} (a : (⟨2, ![n, 1]⟩ : Shape).Idx → α) (b : (⟨2, ![n, 3]⟩ : Shape).Idx → α)
    (h : Shape.Concatenates [⟨2, ![n, 1]⟩, ⟨2, ![n, 3]⟩] ⟨2, ![n, 4]⟩ 1) (i : Fin n) :
    concatenate ⟨2, ![n, 4]⟩ 1 [⟨⟨2, ![n, 1]⟩, a⟩, ⟨⟨2, ![n, 3]⟩, b⟩] h (ix2 i 0) = a (ix2 i 0) :=
  concatenate_pair_apply_left 1 a b h (ix2 i 0) rfl (ix2 i 0) fun c => by
    match c with
    | ⟨0, _⟩ => rfl
    | ⟨1, _⟩ => rfl

/-- An n × 1 table beside an n × 3 table: column j + 1 is the second table's column j. -/
theorem concat_cols {n : ℕ} (a : (⟨2, ![n, 1]⟩ : Shape).Idx → α) (b : (⟨2, ![n, 3]⟩ : Shape).Idx → α)
    (h : Shape.Concatenates [⟨2, ![n, 1]⟩, ⟨2, ![n, 3]⟩] ⟨2, ![n, 4]⟩ 1) (i : Fin n) (j : Fin 3) :
    concatenate ⟨2, ![n, 4]⟩ 1 [⟨⟨2, ![n, 1]⟩, a⟩, ⟨⟨2, ![n, 3]⟩, b⟩] h (ix2 i ⟨j.val + 1, by omega⟩) = b (ix2 i j) :=
  concatenate_pair_apply_right 1 a b h _ rfl rfl (ix2 i j)
    (fun c hc => by
      match c with
      | ⟨0, _⟩ => rfl
      | ⟨1, _⟩ => exact absurd rfl hc)
    (by show j.val + 1 = j.val + 1; rfl)

end Reads

/-! ## The conjunction along the columns -/

/-- A left fold by the one-bit conjunction is 1 exactly when it starts at 1 and meets only 1s. -/
theorem foldl_andi_eq_one_iff {ι : Type} (f : ι → BitVec 1) (l : List ι) (init : BitVec 1) :
    l.foldl (fun r k => IntOp.andi r (f k)) init = 1#1 ↔ init = 1#1 ∧ ∀ k ∈ l, f k = 1#1 := by
  induction l generalizing init with
  | nil => simp
  | cons a l ih =>
    rw [List.foldl_cons, ih, andi_eq_one_iff]
    simp only [List.forall_mem_cons, and_assoc]

/-- The conjunction of an n × 3 table of one-bit words along its columns, from 1: row i gives 1 exactly when its
    three entries are 1. -/
theorem reduce_andi_rows {n : ℕ} (x : IVec ⟨2, ![n, 3]⟩ 1) (init : IVec ⟨0, ![]⟩ 1) (hinit : init ix0 = 1#1)
    (h : (⟨2, ![n, 3]⟩ : Shape).ReducesTo [1] ⟨1, ![n]⟩) (hu : 0 < (⟨0, ![]⟩ : Shape).numel) (i : Fin n) :
    Host.reduce IntOp.andi x init h hu (ix1 i) = 1#1 ↔ ∀ j : Fin 3, x (ix2 i j) = 1#1 := by
  unfold Host.reduce
  rw [foldl_andi_eq_one_iff (fun m => x ((⟨2, ![n, 3]⟩ : Shape).rowMajor.symm m))]
  have h0 : init (Shape.Idx.first hu) = 1#1 := by rw [eq_ix0 (Shape.Idx.first hu)]; exact hinit
  have hd : ∀ k : (⟨2, ![n, 3]⟩ : Shape).Idx, h.drop k = ix1 i ↔ k 0 = i := by
    intro k
    have hv : ((h.drop k 0 : Fin n) : ℕ) = (k 0 : Fin n) := h.drop_apply_val_of_eq k 0 0 Nat.one_pos rfl
    constructor
    · intro e
      apply Fin.ext
      rw [← hv, e]
      rfl
    · intro e
      funext b
      match b with
      | ⟨0, _⟩ =>
        apply Fin.ext
        show ((h.drop k 0 : Fin n) : ℕ) = i.val
        rw [hv, e]
  constructor
  · rintro ⟨-, hall⟩ j
    have hm := hall ((⟨2, ![n, 3]⟩ : Shape).rowMajor (ix2 i j)) (by
      rw [List.mem_filter]
      refine ⟨List.mem_finRange _, decide_eq_true ?_⟩
      rw [Equiv.symm_apply_apply]
      exact (hd _).2 rfl)
    rw [Equiv.symm_apply_apply] at hm
    exact hm
  · intro hall
    refine ⟨h0, fun m hm => ?_⟩
    rw [List.mem_filter] at hm
    have hk0 := (hd _).1 (of_decide_eq_true hm.2)
    show x ((⟨2, ![n, 3]⟩ : Shape).rowMajor.symm m) = 1#1
    rw [eq_ix2 ((⟨2, ![n, 3]⟩ : Shape).rowMajor.symm m), hk0]
    exact hall _

/-! ## Words -/

theorem ofNat_toNat32 (c : BitVec 32) : BitVec.ofNat 32 c.toNat = c :=
  BitVec.eq_of_toNat_eq (toNat_ofNat_of_lt _ c.isLt)

theorem eq_zero_of_toNat_lt_one (c : BitVec 32) (h : c.toNat < 1) : c = 0#32 := by
  apply BitVec.eq_of_toNat_eq
  rw [BitVec.toNat_ofNat]
  omega

/-- The key polynomial the program computes, in wrapping 32-bit arithmetic. -/
def poly (b cz cy cx : BitVec 32) : BitVec 32 :=
  IntOp.addi (IntOp.muli (IntOp.addi (IntOp.muli (IntOp.addi (IntOp.muli b 1#32) cz) 400#32) cy) 352#32) cx

/-- For cells in the grid the key polynomial is the word of the voxel key. -/
theorem poly_inGrid (bs : ℕ) (hbs : bs < 8) (cx cy cz : BitVec 32) (hg : Cert.KeySpec.inGrid cx cy cz) :
    poly (BitVec.ofNat 32 bs) cz cy cx = BitVec.ofNat 32 (bs * 140800 + cy.toNat * 352 + cx.toNat) := by
  obtain ⟨hx, hy, hz⟩ := hg
  have e := key_ofNat bs cy.toNat cx.toNat hbs hy hx
  rw [ofNat_toNat32, ofNat_toNat32] at e
  unfold poly
  rw [← key_poly, eq_zero_of_toNat_lt_one cz hz]
  exact e

/-- The three signed range tests of a row, conjoined, are the grid test. -/
theorem range_tests_iff (cx cy cz : BitVec 32) (t : Fin 3 → BitVec 1)
    (h0 : t 0 = IntOp.andi (IntOp.cmpi .sge cx 0#32) (IntOp.cmpi .slt cx 352#32))
    (h1 : t 1 = IntOp.andi (IntOp.cmpi .sge cy 0#32) (IntOp.cmpi .slt cy 400#32))
    (h2 : t 2 = IntOp.andi (IntOp.cmpi .sge cz 0#32) (IntOp.cmpi .slt cz 1#32)) :
    (∀ j : Fin 3, t j = 1#1) ↔ Cert.KeySpec.inGrid cx cy cz := by
  have e0 : t 0 = 1#1 ↔ cx.toNat < 352 := by rw [h0, andi_eq_one_iff]; exact inRange_iff cx 352 (by norm_num)
  have e1 : t 1 = 1#1 ↔ cy.toNat < 400 := by rw [h1, andi_eq_one_iff]; exact inRange_iff cy 400 (by norm_num)
  have e2 : t 2 = 1#1 ↔ cz.toNat < 1 := by rw [h2, andi_eq_one_iff]; exact inRange_iff cz 1 (by norm_num)
  unfold Cert.KeySpec.inGrid
  rw [← e0, ← e1, ← e2]
  constructor
  · intro hall; exact ⟨hall 0, hall 1, hall 2⟩
  · rintro ⟨a, b, c⟩ j
    match j with
    | ⟨0, _⟩ => exact a
    | ⟨1, _⟩ => exact b
    | ⟨2, _⟩ => exact c

/-! ## The three conclusions from the reads of one row -/

theorem head_row (v0 : FVec Ideal ⟨2, ![n, 4]⟩ .f32) (i : Fin n) (g : BitVec 1) (b k : BitVec 32)
    (hb : b = BitVec.ofNat 32 (i.val / 500000))
    (hg : g = 1#1 ↔ Cert.KeySpec.inGrid (Cert.KeySpec.cellX (v0 (ix2 i 0))) (Cert.KeySpec.cellY (v0 (ix2 i 1)))
      (Cert.KeySpec.cellZ (v0 (ix2 i 2))))
    (hk : k = poly b (Cert.KeySpec.cellZ (v0 (ix2 i 2))) (Cert.KeySpec.cellY (v0 (ix2 i 1)))
      (Cert.KeySpec.cellX (v0 (ix2 i 0)))) :
    Scalar.select g k 1126400#32 = BitVec.ofNat 32 (Cert.KeySpec.keyOf v0 i)
    ∧ (g = 1#1 ↔ Cert.KeySpec.keyOf v0 i < S)
    ∧ (Cert.KeySpec.keyOf v0 i < S →
        b = dec (Cert.KeySpec.keyOf v0 i) 0
        ∧ Cert.KeySpec.cellZ (v0 (ix2 i 2)) = dec (Cert.KeySpec.keyOf v0 i) 1
        ∧ Cert.KeySpec.cellY (v0 (ix2 i 1)) = dec (Cert.KeySpec.keyOf v0 i) 2
        ∧ Cert.KeySpec.cellX (v0 (ix2 i 0)) = dec (Cert.KeySpec.keyOf v0 i) 3) := by
  have hbs : i.val / 500000 < 8 := by have hi : i.val < 4000000 := i.isLt; omega
  refine ⟨?_, ?_, ?_⟩
  · by_cases hin : Cert.KeySpec.inGrid (Cert.KeySpec.cellX (v0 (ix2 i 0))) (Cert.KeySpec.cellY (v0 (ix2 i 1)))
        (Cert.KeySpec.cellZ (v0 (ix2 i 2)))
    · rw [select_of_eq_one (hg.2 hin), hk, hb, poly_inGrid _ hbs _ _ _ hin]
      unfold Cert.KeySpec.keyOf
      rw [if_pos hin]
    · rw [select_of_ne_one (fun e => hin (hg.1 e))]
      unfold Cert.KeySpec.keyOf
      rw [if_neg hin]
  · rw [Cert.KeySpec.keyOf_lt_iff]; exact hg
  · intro hlt
    have hin := (Cert.KeySpec.keyOf_lt_iff v0 i).1 hlt
    obtain ⟨hx, hy, hz⟩ := hin
    have hkey : Cert.KeySpec.keyOf v0 i = i.val / 500000 * 140800 + (Cert.KeySpec.cellY (v0 (ix2 i 1))).toNat * 352
        + (Cert.KeySpec.cellX (v0 (ix2 i 0))).toNat := by
      unfold Cert.KeySpec.keyOf
      rw [if_pos ⟨hx, hy, hz⟩]
    rw [hkey]
    refine ⟨?_, ?_, ?_, ?_⟩
    · show b = BitVec.ofNat 32 (_ / 352 / 400 / 1)
      rw [key_div_div_div_one _ _ _ hbs hy hx, hb]
    · show _ = BitVec.ofNat 32 (_ / 352 / 400 % 1)
      rw [key_div_div_mod_one, eq_zero_of_toNat_lt_one _ hz]
    · show _ = BitVec.ofNat 32 (_ / 352 % 400)
      rw [key_div_mod _ _ _ hbs hy hx, ofNat_toNat32]
    · show _ = BitVec.ofNat 32 (_ % 352)
      rw [key_mod _ _ _ hbs hy hx, ofNat_toNat32]

/-- The row-major position of an index of a length-3 array is the index. -/
theorem rowMajor_ix1_3 (j : Fin 3) : (⟨1, ![3]⟩ : Shape).rowMajor (ix1 j) = j :=
  Fin.ext (Shape.rowMajor_val_one _)

/-! ## The head of the reference program -/

theorem refHead
        (v0 : FVec Ideal S4000000x4 .f32)

    (cst : FVec Ideal S3 .f32) (cst_0 : FVec Ideal S3 .f32) (c : IVec S3 32) (v1 : FVec Ideal S4000000x3 .f32) (v2 : FVec Ideal S1x3 .f32) (v3 : FVec Ideal S4000000x3 .f32) (v4 : FVec Ideal S4000000x3 .f32) (v5 : FVec Ideal S1x3 .f32) (v6 : FVec Ideal S4000000x3 .f32) (v7 : FVec Ideal S4000000x3 .f32) (v8 : IVec S4000000x3 32) (v9 : IVec S8 32) (v10 : IVec S8x500000 32) (v11 : IVec S4000000 32) (v12 : IVec S4000000x1 32) (v13 : IVec S4000000x3 32) (v14 : IVec S4000000x4 32) (c_1 : IVec S_ 32) (v15 : IVec S4000000x3 32) (v16 : IVec S4000000x3 1) (v17 : IVec S1x3 32) (v18 : IVec S4000000x3 32) (v19 : IVec S4000000x3 1) (v20 : IVec S4000000x3 1) (c_2 : IVec S_ 1) (v21 : IVec S4000000 1) (c_3 : IVec S_ 32) (v22 : IVec S4000000 32) (v23 : IVec S4000000 32) (v24 : IVec S4000000x1 32) (v25 : IVec S4000000 32) (v26 : IVec S4000000 32) (c_4 : IVec S_ 32) (v27 : IVec S4000000 32) (v28 : IVec S4000000 32) (v29 : IVec S4000000x1 32) (v30 : IVec S4000000 32) (v31 : IVec S4000000 32) (c_5 : IVec S_ 32) (v32 : IVec S4000000 32) (v33 : IVec S4000000 32) (v34 : IVec S4000000x1 32) (v35 : IVec S4000000 32) (v36 : IVec S4000000 32) (c_6 : IVec S_ 32) (call0_v0 : IVec S_ 32) (call0_v1 : IVec S4000000 32) (v37 : IVec S4000000 32)
    (h_cst : cst = (fun i => FloatOps.ofBits .f32 (lit0 (S3.rowMajor i))))
    (h_cst_0 : cst_0 = (fun i => FloatOps.ofBits .f32 (lit1 (S3.rowMajor i))))
    (h_c : c = (fun i => lit2 (S3.rowMajor i)))
    (h_v1 : v1 = ((extractStridedSlice S4000000x3 ![0, 0] · slices_S4000000x4_S4000000x3_0_0) : (⟨S4000000x4, .f32⟩ : BufTy).Contents (Elt Ideal) → (⟨S4000000x3, .f32⟩ : BufTy).Contents (Elt Ideal)) v0)
    (h_v2 : v2 = (broadcastInDim S1x3 ![1] bcast_S3_S1x3_1 : (⟨S3, .f32⟩ : BufTy).Contents (Elt Ideal) → (⟨S1x3, .f32⟩ : BufTy).Contents (Elt Ideal)) cst)
    (h_v3 : v3 = (broadcastInDim S4000000x3 ![0, 1] bcast_S1x3_S4000000x3_0_1 : (⟨S1x3, .f32⟩ : BufTy).Contents (Elt Ideal) → (⟨S4000000x3, .f32⟩ : BufTy).Contents (Elt Ideal)) v2)
    (h_v4 : v4 = (subf (F := Ideal) : (⟨S4000000x3, .f32⟩ : BufTy).Contents (Elt Ideal) → (⟨S4000000x3, .f32⟩ : BufTy).Contents (Elt Ideal) → (⟨S4000000x3, .f32⟩ : BufTy).Contents (Elt Ideal)) v1 v3)
    (h_v5 : v5 = (broadcastInDim S1x3 ![1] bcast_S3_S1x3_1 : (⟨S3, .f32⟩ : BufTy).Contents (Elt Ideal) → (⟨S1x3, .f32⟩ : BufTy).Contents (Elt Ideal)) cst_0)
    (h_v6 : v6 = (broadcastInDim S4000000x3 ![0, 1] bcast_S1x3_S4000000x3_0_1 : (⟨S1x3, .f32⟩ : BufTy).Contents (Elt Ideal) → (⟨S4000000x3, .f32⟩ : BufTy).Contents (Elt Ideal)) v5)
    (h_v7 : v7 = (Host.divf (F := Ideal) : (⟨S4000000x3, .f32⟩ : BufTy).Contents (Elt Ideal) → (⟨S4000000x3, .f32⟩ : BufTy).Contents (Elt Ideal) → (⟨S4000000x3, .f32⟩ : BufTy).Contents (Elt Ideal)) v4 v6)
    (h_v8 : v8 = (fptosi (F := Ideal) 32 : (⟨S4000000x3, .f32⟩ : BufTy).Contents (Elt Ideal) → (⟨S4000000x3, .i32⟩ : BufTy).Contents (Elt Ideal)) v7)
    (h_v9 : v9 = (iotaInDim S8 32 0))
    (h_v10 : v10 = (broadcastInDim S8x500000 ![0] bcast_S8_S8x500000_0 : (⟨S8, .i32⟩ : BufTy).Contents (Elt Ideal) → (⟨S8x500000, .i32⟩ : BufTy).Contents (Elt Ideal)) v9)
    (h_v11 : v11 = fun i => shapeCast _ v10 shapeCasts_S8x500000_S4000000 i)
    (h_v12 : v12 = (broadcastInDim S4000000x1 ![0] bcast_S4000000_S4000000x1_0 : (⟨S4000000, .i32⟩ : BufTy).Contents (Elt Ideal) → (⟨S4000000x1, .i32⟩ : BufTy).Contents (Elt Ideal)) v11)
    (h_v13 : v13 = (Host.reverse [1] : (⟨S4000000x3, .i32⟩ : BufTy).Contents (Elt Ideal) → (⟨S4000000x3, .i32⟩ : BufTy).Contents (Elt Ideal)) v8)
    (h_v14 : v14 = ((fun a b => concatenate S4000000x4 1 [⟨S4000000x1, a⟩, ⟨S4000000x3, b⟩] concatenates_S4000000x1_S4000000x3_S4000000x4_d1) : (⟨S4000000x1, .i32⟩ : BufTy).Contents (Elt Ideal) → (⟨S4000000x3, .i32⟩ : BufTy).Contents (Elt Ideal) → (⟨S4000000x4, .i32⟩ : BufTy).Contents (Elt Ideal)) v12 v13)
    (h_c_1 : c_1 = (constantI S_ 32 0#32))
    (h_v15 : v15 = (broadcastInDim S4000000x3 ![] bcast_S_S4000000x3 : (⟨S_, .i32⟩ : BufTy).Contents (Elt Ideal) → (⟨S4000000x3, .i32⟩ : BufTy).Contents (Elt Ideal)) c_1)
    (h_v16 : v16 = (cmpi .sge : (⟨S4000000x3, .i32⟩ : BufTy).Contents (Elt Ideal) → (⟨S4000000x3, .i32⟩ : BufTy).Contents (Elt Ideal) → (⟨S4000000x3, .i1⟩ : BufTy).Contents (Elt Ideal)) v8 v15)
    (h_v17 : v17 = (broadcastInDim S1x3 ![1] bcast_S3_S1x3_1 : (⟨S3, .i32⟩ : BufTy).Contents (Elt Ideal) → (⟨S1x3, .i32⟩ : BufTy).Contents (Elt Ideal)) c)
    (h_v18 : v18 = (broadcastInDim S4000000x3 ![0, 1] bcast_S1x3_S4000000x3_0_1 : (⟨S1x3, .i32⟩ : BufTy).Contents (Elt Ideal) → (⟨S4000000x3, .i32⟩ : BufTy).Contents (Elt Ideal)) v17)
    (h_v19 : v19 = (cmpi .slt : (⟨S4000000x3, .i32⟩ : BufTy).Contents (Elt Ideal) → (⟨S4000000x3, .i32⟩ : BufTy).Contents (Elt Ideal) → (⟨S4000000x3, .i1⟩ : BufTy).Contents (Elt Ideal)) v8 v18)
    (h_v20 : v20 = (andi : (⟨S4000000x3, .i1⟩ : BufTy).Contents (Elt Ideal) → (⟨S4000000x3, .i1⟩ : BufTy).Contents (Elt Ideal) → (⟨S4000000x3, .i1⟩ : BufTy).Contents (Elt Ideal)) v16 v19)
    (h_c_2 : c_2 = (constantI S_ 1 1#1))
    (h_v21 : v21 = ((fun x v => Host.reduce IntOp.andi x v reducesTo_S4000000x3_S4000000_d1 h_S_) : (⟨S4000000x3, .i1⟩ : BufTy).Contents (Elt Ideal) → (⟨S_, .i1⟩ : BufTy).Contents (Elt Ideal) → (⟨S4000000, .i1⟩ : BufTy).Contents (Elt Ideal)) v20 c_2)
    (h_c_3 : c_3 = (constantI S_ 32 1#32))
    (h_v22 : v22 = (broadcastInDim S4000000 ![] bcast_S_S4000000 : (⟨S_, .i32⟩ : BufTy).Contents (Elt Ideal) → (⟨S4000000, .i32⟩ : BufTy).Contents (Elt Ideal)) c_3)
    (h_v23 : v23 = (muli : (⟨S4000000, .i32⟩ : BufTy).Contents (Elt Ideal) → (⟨S4000000, .i32⟩ : BufTy).Contents (Elt Ideal) → (⟨S4000000, .i32⟩ : BufTy).Contents (Elt Ideal)) v11 v22)
    (h_v24 : v24 = ((extractStridedSlice S4000000x1 ![0, 2] · slices_S4000000x3_S4000000x1_0_2) : (⟨S4000000x3, .i32⟩ : BufTy).Contents (Elt Ideal) → (⟨S4000000x1, .i32⟩ : BufTy).Contents (Elt Ideal)) v8)
    (h_v25 : v25 = fun i => shapeCast _ v24 shapeCasts_S4000000x1_S4000000 i)
    (h_v26 : v26 = (addi : (⟨S4000000, .i32⟩ : BufTy).Contents (Elt Ideal) → (⟨S4000000, .i32⟩ : BufTy).Contents (Elt Ideal) → (⟨S4000000, .i32⟩ : BufTy).Contents (Elt Ideal)) v23 v25)
    (h_c_4 : c_4 = (constantI S_ 32 400#32))
    (h_v27 : v27 = (broadcastInDim S4000000 ![] bcast_S_S4000000 : (⟨S_, .i32⟩ : BufTy).Contents (Elt Ideal) → (⟨S4000000, .i32⟩ : BufTy).Contents (Elt Ideal)) c_4)
    (h_v28 : v28 = (muli : (⟨S4000000, .i32⟩ : BufTy).Contents (Elt Ideal) → (⟨S4000000, .i32⟩ : BufTy).Contents (Elt Ideal) → (⟨S4000000, .i32⟩ : BufTy).Contents (Elt Ideal)) v26 v27)
    (h_v29 : v29 = ((extractStridedSlice S4000000x1 ![0, 1] · slices_S4000000x3_S4000000x1_0_1) : (⟨S4000000x3, .i32⟩ : BufTy).Contents (Elt Ideal) → (⟨S4000000x1, .i32⟩ : BufTy).Contents (Elt Ideal)) v8)
    (h_v30 : v30 = fun i => shapeCast _ v29 shapeCasts_S4000000x1_S4000000 i)
    (h_v31 : v31 = (addi : (⟨S4000000, .i32⟩ : BufTy).Contents (Elt Ideal) → (⟨S4000000, .i32⟩ : BufTy).Contents (Elt Ideal) → (⟨S4000000, .i32⟩ : BufTy).Contents (Elt Ideal)) v28 v30)
    (h_c_5 : c_5 = (constantI S_ 32 352#32))
    (h_v32 : v32 = (broadcastInDim S4000000 ![] bcast_S_S4000000 : (⟨S_, .i32⟩ : BufTy).Contents (Elt Ideal) → (⟨S4000000, .i32⟩ : BufTy).Contents (Elt Ideal)) c_5)
    (h_v33 : v33 = (muli : (⟨S4000000, .i32⟩ : BufTy).Contents (Elt Ideal) → (⟨S4000000, .i32⟩ : BufTy).Contents (Elt Ideal) → (⟨S4000000, .i32⟩ : BufTy).Contents (Elt Ideal)) v31 v32)
    (h_v34 : v34 = ((extractStridedSlice S4000000x1 ![0, 0] · slices_S4000000x3_S4000000x1_0_0) : (⟨S4000000x3, .i32⟩ : BufTy).Contents (Elt Ideal) → (⟨S4000000x1, .i32⟩ : BufTy).Contents (Elt Ideal)) v8)
    (h_v35 : v35 = fun i => shapeCast _ v34 shapeCasts_S4000000x1_S4000000 i)
    (h_v36 : v36 = (addi : (⟨S4000000, .i32⟩ : BufTy).Contents (Elt Ideal) → (⟨S4000000, .i32⟩ : BufTy).Contents (Elt Ideal) → (⟨S4000000, .i32⟩ : BufTy).Contents (Elt Ideal)) v33 v35)
    (h_c_6 : c_6 = (constantI S_ 32 1126400#32))
    (h_call0_v0 : call0_v0 = id c_6)
    (h_call0_v1 : call0_v1 = (broadcastInDim S4000000 ![] bcast_S_S4000000) call0_v0)
    (h_v37 : v37 = select v21 v36 call0_v1) :
    (∀ i : Fin n, v37 (ix1 i) = BitVec.ofNat 32 (Cert.KeySpec.keyOf v0 i))
    ∧ (∀ i : Fin n, v21 (ix1 i) = 1#1 ↔ Cert.KeySpec.keyOf v0 i < S)
    ∧ (∀ (i : Fin n) (c : Fin 4), Cert.KeySpec.keyOf v0 i < S → v14 (ix2 i c) = dec (Cert.KeySpec.keyOf v0 i) c) := by
  -- the point table's first three columns, the two literal rows, the quotient, the cells
  have r1 : ∀ (i : Fin n) (j : Fin 3), v1 (ix2 i j) = v0 (ix2 i (Fin.castLE (by omega) j)) := by
    intro i j; rw [h_v1]; exact slice_cols3 v0 _ i j
  have r3 : ∀ (i : Fin n) (j : Fin 3), v3 (ix2 i j) = Ideal.ofBits .f32 (lit0 j) := by
    intro i j; rw [h_v3, h_v2, h_cst]
    exact (bcast_row _ _ _ i j).trans (congrArg (fun k => Ideal.ofBits .f32 (lit0 k)) (rowMajor_ix1_3 j))
  have r6 : ∀ (i : Fin n) (j : Fin 3), v6 (ix2 i j) = Ideal.ofBits .f32 (lit1 j) := by
    intro i j; rw [h_v6, h_v5, h_cst_0]
    exact (bcast_row _ _ _ i j).trans (congrArg (fun k => Ideal.ofBits .f32 (lit1 k)) (rowMajor_ix1_3 j))
  have r8 : ∀ (i : Fin n) (j : Fin 3), v8 (ix2 i j)
      = Ideal.fptosi 32 (Ideal.div (v0 (ix2 i (Fin.castLE (by omega) j)) - Ideal.ofBits .f32 (lit0 j))
          (Ideal.ofBits .f32 (lit1 j))) := by
    intro i j; rw [h_v8, h_v7, h_v4]
    show Ideal.fptosi 32 (Ideal.div (v1 (ix2 i j) - v3 (ix2 i j)) (v6 (ix2 i j))) = _
    rw [r1, r3, r6]
  have r8x : ∀ i : Fin n, v8 (ix2 i 0) = Cert.KeySpec.cellX (v0 (ix2 i 0)) := fun i => r8 i 0
  have r8y : ∀ i : Fin n, v8 (ix2 i 1) = Cert.KeySpec.cellY (v0 (ix2 i 1)) := fun i => r8 i 1
  have r8z : ∀ i : Fin n, v8 (ix2 i 2) = Cert.KeySpec.cellZ (v0 (ix2 i 2)) := fun i => r8 i 2
  -- the batch of a point
  have r11 : ∀ i : Fin n, v11 (ix1 i) = BitVec.ofNat 32 (i.val / 500000) := by
    intro i
    have hi : i.val < 4000000 := i.isLt
    rw [h_v11, h_v10, h_v9]
    refine (shapeCast_flat _ _ i ⟨i.val / 500000, by omega⟩ ⟨i.val % 500000, by omega⟩
      (by show i.val / 500000 * 500000 + i.val % 500000 = i.val; omega)).trans ?_
    exact (bcast_rows _ _ _ _).trans rfl
  -- the four coordinates side by side
  have r12 : ∀ (i : Fin n) (z : Fin 1), v12 (ix2 i z) = v11 (ix1 i) := by
    intro i z; rw [h_v12]; exact bcast_col v11 _ i z
  have r13 : ∀ (i : Fin n) (j : Fin 3), v13 (ix2 i j) = v8 (ix2 i j.rev) := by
    intro i j; rw [h_v13]; exact reverse_cols v8 i j
  have r14a : ∀ i : Fin n, v14 (ix2 i 0) = v12 (ix2 i 0) := by
    intro i; rw [h_v14]; exact concat_col0 v12 v13 _ i
  have r14b : ∀ (i : Fin n) (j : Fin 3), v14 (ix2 i ⟨j.val + 1, by omega⟩) = v13 (ix2 i j) := by
    intro i j; rw [h_v14]; exact concat_cols v12 v13 _ i j
  -- the range tests and their conjunction
  have r15 : ∀ (i : Fin n) (j : Fin 3), v15 (ix2 i j) = 0#32 := by
    intro i j; rw [h_v15, h_c_1]; exact (bcast_scalar _ _ _).trans rfl
  have r18 : ∀ (i : Fin n) (j : Fin 3), v18 (ix2 i j) = lit2 j := by
    intro i j; rw [h_v18, h_v17, h_c]
    exact (bcast_row _ _ _ i j).trans (congrArg lit2 (rowMajor_ix1_3 j))
  have r20 : ∀ (i : Fin n) (j : Fin 3), v20 (ix2 i j)
      = IntOp.andi (IntOp.cmpi .sge (v8 (ix2 i j)) 0#32) (IntOp.cmpi .slt (v8 (ix2 i j)) (lit2 j)) := by
    intro i j; rw [h_v20, h_v16, h_v19]
    show IntOp.andi (IntOp.cmpi .sge (v8 (ix2 i j)) (v15 (ix2 i j))) (IntOp.cmpi .slt (v8 (ix2 i j)) (v18 (ix2 i j))) = _
    rw [r15, r18]
  have r21 : ∀ i : Fin n, v21 (ix1 i) = 1#1
      ↔ Cert.KeySpec.inGrid (v8 (ix2 i 0)) (v8 (ix2 i 1)) (v8 (ix2 i 2)) := by
    intro i; rw [h_v21]
    refine (reduce_andi_rows v20 c_2 (by rw [h_c_2]; rfl) _ _ i).trans ?_
    exact range_tests_iff _ _ _ (fun j => v20 (ix2 i j)) (r20 i 0) (r20 i 1) (r20 i 2)
  -- the key polynomial
  have r22 : ∀ i : Fin n, v22 (ix1 i) = 1#32 := by
    intro i; rw [h_v22, h_c_3]; exact (bcast_scalar _ _ _).trans rfl
  have r27 : ∀ i : Fin n, v27 (ix1 i) = 400#32 := by
    intro i; rw [h_v27, h_c_4]; exact (bcast_scalar _ _ _).trans rfl
  have r32 : ∀ i : Fin n, v32 (ix1 i) = 352#32 := by
    intro i; rw [h_v32, h_c_5]; exact (bcast_scalar _ _ _).trans rfl
  have r25 : ∀ i : Fin n, v25 (ix1 i) = v8 (ix2 i 2) := by
    intro i; rw [h_v25, h_v24]
    exact (shapeCast_col _ _ i).trans (slice_col 2 v8 _ (by norm_num) i 0)
  have r30 : ∀ i : Fin n, v30 (ix1 i) = v8 (ix2 i 1) := by
    intro i; rw [h_v30, h_v29]
    exact (shapeCast_col _ _ i).trans (slice_col 1 v8 _ (by norm_num) i 0)
  have r35 : ∀ i : Fin n, v35 (ix1 i) = v8 (ix2 i 0) := by
    intro i; rw [h_v35, h_v34]
    exact (shapeCast_col _ _ i).trans (slice_col 0 v8 _ (by norm_num) i 0)
  have r36 : ∀ i : Fin n, v36 (ix1 i) = poly (v11 (ix1 i)) (v8 (ix2 i 2)) (v8 (ix2 i 1)) (v8 (ix2 i 0)) := by
    intro i; rw [h_v36, h_v33, h_v31, h_v28, h_v26, h_v23]
    show IntOp.addi (IntOp.muli (IntOp.addi (IntOp.muli (IntOp.addi (IntOp.muli (v11 (ix1 i)) (v22 (ix1 i)))
      (v25 (ix1 i))) (v27 (ix1 i))) (v30 (ix1 i))) (v32 (ix1 i))) (v35 (ix1 i)) = _
    rw [r22, r25, r27, r30, r32, r35]
    rfl
  have r37 : ∀ i : Fin n, v37 (ix1 i) = Scalar.select (v21 (ix1 i)) (v36 (ix1 i)) 1126400#32 := by
    intro i; rw [h_v37, h_call0_v1, h_call0_v0, h_c_6]
    rfl
  -- the three conclusions, row by row
  have hrow := fun i : Fin n => head_row v0 i (v21 (ix1 i)) (v11 (ix1 i)) (v36 (ix1 i)) (r11 i)
    (by rw [← r8x i, ← r8y i, ← r8z i]; exact r21 i) (by rw [r36 i, r8x i, r8y i, r8z i])
  refine ⟨fun i => (r37 i).trans (hrow i).1, fun i => (hrow i).2.1, fun i c hlt => ?_⟩
  obtain ⟨e0, e1, e2, e3⟩ := (hrow i).2.2 hlt
  match c with
  | ⟨0, _⟩ => exact ((r14a i).trans (r12 i 0)).trans e0
  | ⟨1, _⟩ => exact ((r14b i 0).trans ((r13 i 0).trans (r8z i))).trans e1
  | ⟨2, _⟩ => exact ((r14b i 1).trans ((r13 i 1).trans (r8y i))).trans e2
  | ⟨3, _⟩ => exact ((r14b i 2).trans ((r13 i 2).trans (r8x i))).trans e3

end Cert.ReferenceIdeal.Head

end
-- ==== Proof.RefTail.lean ====
/-
  The reference program's host operations after the keys: the largest point index of every voxel by a scatter with
  maximum, the mark of the points that are that index and in range, the stable sort by the key of marked points and
  S+1 for the others, and the gathers of the mark, the points and the coordinates in that order, masked by the mark.
-/
import proofs.«129221_j18588618457298_2_alg».proof.Proof.Gen.ReferenceIdeal
import proofs.«129221_j18588618457298_2_alg».proof.Proof.Spec

set_option maxRecDepth 16384

noncomputable section

namespace Cert.ReferenceIdeal.Tail

open Idealize.ShloMosaic Idealize.ShloMosaic.ValueIdx
open Cert.ReferenceIdeal Cert.ReferenceIdeal.Gen
open Cert.Lib.HostReads Cert.Lib.StableOrder Cert.Lib.VoxelKey Cert.Spec

/-! ## Layout operations read at an index -/

section Reads
variable {α : Type}

/-- A broadcast scalar reads the scalar everywhere. -/
theorem bcast_scalar_apply {t : Shape} (dims : Fin (⟨0, ![]⟩ : Shape).rank → Fin t.rank)
    (h : (⟨0, ![]⟩ : Shape).BroadcastsInDim t dims) (x : (⟨0, ![]⟩ : Shape).Idx → α) (i : t.Idx) :
    broadcastInDim t dims h x i = x ix0 := by
  unfold broadcastInDim
  exact congrArg x (eq_ix0 _)

/-- An array of `n` elements as one column: element `(k, 0)` is element `k`. -/
theorem bcast_col_apply {n : ℕ} (dims : Fin (⟨1, ![n]⟩ : Shape).rank → Fin (⟨2, ![n, 1]⟩ : Shape).rank)
    (hdims : dims 0 = 0) (h : (⟨1, ![n]⟩ : Shape).BroadcastsInDim ⟨2, ![n, 1]⟩ dims)
    (x : (⟨1, ![n]⟩ : Shape).Idx → α) (k : Fin n) (z : Fin 1) :
    broadcastInDim ⟨2, ![n, 1]⟩ dims h x (ix2 k z) = x (ix1 k) := by
  unfold broadcastInDim
  refine congrArg x ?_
  funext a
  obtain rfl : a = 0 := Subsingleton.elim _ _
  refine Fin.ext ?_
  split
  · next h1 =>
    have h1' : n = 1 := h1
    have := k.isLt
    show 0 = k.val
    omega
  · next h1 =>
    show (ix2 k z (dims 0)).val = k.val
    rw [hdims]
    rfl

/-- One column stretched along the rows: element `(j, c)` is element `(j, 0)` of the column. -/
theorem bcast_row_apply {n C : ℕ} (dims : Fin (⟨2, ![n, 1]⟩ : Shape).rank → Fin (⟨2, ![n, C]⟩ : Shape).rank)
    (hdims0 : dims 0 = 0) (h : (⟨2, ![n, 1]⟩ : Shape).BroadcastsInDim ⟨2, ![n, C]⟩ dims)
    (x : (⟨2, ![n, 1]⟩ : Shape).Idx → α) (j : Fin n) (c : Fin C) :
    broadcastInDim ⟨2, ![n, C]⟩ dims h x (ix2 j c) = x (ix2 j 0) := by
  unfold broadcastInDim
  refine congrArg x ?_
  funext a
  refine Fin.ext ?_
  match a with
  | ⟨0, _⟩ =>
    split
    · next h1 =>
      have h1' : n = 1 := h1
      have := j.isLt
      show 0 = j.val
      omega
    · next h1 =>
      show (ix2 j c (dims 0)).val = j.val
      rw [hdims0]
      rfl
  | ⟨1, _⟩ =>
    split
    · rfl
    · next h1 => exact absurd rfl h1

end Reads

/-! ## Words -/

/-- The index correction for a negative index does nothing to the word of a natural below `2^31`. -/
theorem wrapNeg_apply {s : Shape} (v c0 cN : IVec s 32) (hc0 : ∀ i, c0 i = 0#32) (i : s.Idx) (a : ℕ)
    (ha : a < 2 ^ 31) (hv : v i = BitVec.ofNat 32 a) :
    select (cmpi .slt v c0) (addi v cN) v i = BitVec.ofNat 32 a := by
  show Scalar.select (IntOp.cmpi .slt (v i) (c0 i)) (IntOp.addi (v i) (cN i)) (v i) = BitVec.ofNat 32 a
  rw [hc0, hv, cmpi_slt_zero_ofNat a ha]
  exact select_zero _ _

/-- The comparator of the sort: signed "less than" on the first components. -/
theorem comparator_eq (l r : BitVec 32 × BitVec 32) : comparator_i32_i32_d0 l r = IntOp.cmpi .slt l.1 r.1 := rfl

/-! ## The mathematics of the operations, over arrays of any length -/

section Generic
variable {n : ℕ}

/-- The scatter with maximum of the positions `0 … n-1` into cells of the least word, position `k` to
    cell `key k`: cell `key i` ends at the largest position with that key. -/
theorem segMax_spec {N : ℕ} (key : Fin n → ℕ) (hN : ∀ i, key i < N) (hn : n ≤ 2 ^ 31) (hN' : N ≤ 2 ^ 31)
    (d : ScatterDims ⟨1, ![N]⟩ ⟨2, ![n, 1]⟩ ⟨1, ![n]⟩) (h1 : d.updateWindowDims = [])
    (h2 : d.insertedWindowDims = [0]) (h3 : d.scatterDimsToOperandDims = [0]) (h4 : d.indexVectorDim = 1)
    (idx : IVec ⟨2, ![n, 1]⟩ 32) (hidx : ∀ k : Fin n, idx (ix2 k 0) = BitVec.ofNat 32 (key k))
    (upd : IVec ⟨1, ![n]⟩ 32) (hupd : ∀ k : Fin n, upd (ix1 k) = BitVec.ofNat 32 k.val) (i : Fin n) :
    ∃ k : Fin n, key k = key i ∧
      Host.scatter d IntOp.maxsi (fun _ => 2147483648#32) idx upd (ix1 ⟨key i, hN i⟩) = BitVec.ofNat 32 k.val ∧
      ∀ k' : Fin n, key k' = key i → k' ≤ k := by
  have hseg : ∀ k : Fin n, (idx (ix2 k 0)).toInt = (((⟨key k, hN k⟩ : Fin N)).val : ℤ) := fun k => by
    rw [hidx]; exact toInt_ofNat_of_lt _ (lt_of_lt_of_le (hN k) hN')
  have hu : ∀ k : Fin n, (upd (ix1 k)).toInt = (k.val : ℤ) := fun k => by
    rw [hupd]; exact toInt_ofNat_of_lt _ (lt_of_lt_of_le k.isLt hn)
  have hge := scatter1_max_ge d h1 h2 h3 h4 (2147483648#32) idx upd (fun k => ⟨key k, hN k⟩) hseg ⟨key i, hN i⟩
  rcases scatter1_max_mem d h1 h2 h3 h4 (2147483648#32) idx upd (fun k => ⟨key k, hN k⟩) hseg ⟨key i, hN i⟩
    with h0 | ⟨k, hk, hR⟩
  · exfalso
    have hi := hge i rfl
    rw [h0, hu] at hi
    have e : (2147483648#32 : BitVec 32).toInt = -2147483648 := by decide
    rw [e] at hi
    omega
  · have hkk : key k = key i := congrArg Fin.val hk
    refine ⟨k, hkk, hR.trans (hupd k), fun k' hk' => ?_⟩
    have hle := hge k' (Fin.ext hk')
    rw [hR, hu, hu] at hle
    exact Fin.le_def.mpr (by exact_mod_cast hle)

/-- "In range, and the position is the largest one with its key" is `chosen`. -/
theorem mark_iff_chosen (key : Fin n → ℕ) (S : ℕ) (hn : n ≤ 2 ^ 32) (i k : Fin n) (a : BitVec 1)
    (ha : a = 1#1 ↔ key i < S) (hk : key k = key i) (hmax : ∀ k' : Fin n, key k' = key i → k' ≤ k) :
    IntOp.andi a (IntOp.cmpi .eq (BitVec.ofNat 32 i.val) (BitVec.ofNat 32 k.val)) = 1#1
      ↔ Cert.Lib.Dedup.chosen key S i := by
  rw [andi_eq_one_iff, cmpi_eq_eq_one_iff,
    ofNat_inj _ _ (lt_of_lt_of_le i.isLt hn) (lt_of_lt_of_le k.isLt hn), ha]
  constructor
  · rintro ⟨h1, h2⟩
    have e : i = k := Fin.ext h2
    refine ⟨h1, fun i' hi' => ?_⟩
    rw [e]; exact hmax i' hi'
  · rintro ⟨h1, h2⟩
    exact ⟨h1, congrArg Fin.val (le_antisymm (hmax i rfl) (h2 k hk))⟩

/-- The key of a marked point, `S + 1` for the others: the word of `key2`. -/
theorem select_key2 (key : Fin n → ℕ) (S : ℕ) (i : Fin n) (m : BitVec 1)
    (hm : m = 1#1 ↔ Cert.Lib.Dedup.chosen key S i) :
    Scalar.select m (BitVec.ofNat 32 (key i)) (BitVec.ofNat 32 (S + 1))
      = BitVec.ofNat 32 (Cert.Lib.Dedup.key2 key S i) := by
  by_cases hc : Cert.Lib.Dedup.chosen key S i
  · rw [select_of_eq_one (hm.mpr hc), Cert.Lib.Dedup.key2_of_chosen hc]
  · rw [select_of_ne_one (fun h => hc (hm.mp h)), Cert.Lib.Dedup.key2_of_not_chosen hc]

theorem key2_le (key : Fin n → ℕ) (S : ℕ) (hkey : ∀ i, key i ≤ S) (i : Fin n) :
    Cert.Lib.Dedup.key2 key S i ≤ S + 1 := by
  by_cases hc : Cert.Lib.Dedup.chosen key S i
  · rw [Cert.Lib.Dedup.key2_of_chosen hc]; exact le_trans (hkey i) (Nat.le_succ S)
  · rw [Cert.Lib.Dedup.key2_of_not_chosen hc]

/-- The stable sort of the words of naturals below `2^31` by signed "less than" is the stable sort
    of the naturals. -/
theorem sortPerm_slt_eq (f : Fin n → ℕ) (hf : ∀ i, f i < 2 ^ 31) (x y : IVec ⟨1, ![n]⟩ 32)
    (hx : ∀ i : Fin n, x (ix1 i) = BitVec.ofNat 32 (f i))
    (cmp : BitVec 32 × BitVec 32 → BitVec 32 × BitVec 32 → BitVec 1)
    (hcmp : ∀ l r, cmp l r = IntOp.cmpi .slt l.1 r.1) :
    sortPerm cmp x y = sortedFrom (fun k k' => decide (f k < f k')) := by
  unfold sortPerm
  refine congrArg sortedFrom ?_
  funext k k'
  rw [hcmp]
  show (IntOp.cmpi .slt (x (ix1 k)) (x (ix1 k')) == 1#1) = decide (f k < f k')
  rw [hx, hx, Bool.eq_iff_iff, beq_iff_eq, cmpi_slt_eq_one_iff, toInt_ofNat_of_lt _ (hf k),
    toInt_ofNat_of_lt _ (hf k'), decide_eq_true_iff]
  exact Int.ofNat_lt

end Generic

/-! ## The chosen points come first in the emission order -/

theorem chosen_order_iff (key : Fin n → ℕ) (hkey : ∀ i, key i ≤ S) (j : Fin n) :
    Cert.Lib.Dedup.chosen key S (order key j) ↔ j.val < total key := by
  classical
  have hσ : Function.Bijective (sortedFrom (fun k k' : Fin n => decide (key k < key k'))) :=
    sortedFrom_bijective _
  have hσs : LexSorted key (sortedFrom (fun k k' : Fin n => decide (key k < key k'))) :=
    sortedFrom_lexSorted _ _ (fun _ _ => decide_eq_true_iff)
  have ht : total key
      = Cert.Lib.Dedup.total key S (sortedFrom (fun k k' : Fin n => decide (key k < key k'))) := by
    unfold Cert.Spec.total
    exact (Cert.Lib.Dedup.total_eq_card_chosen key S _ id hkey hσ hσs Function.bijective_id).symm
  rw [ht]
  exact Cert.Lib.Dedup.chosen_iff_lt_total key S _ (order key) hkey hσ hσs (order_bijective key)
    (order_lexSorted key) j

theorem refTail
    (key : Fin n → ℕ) (hkey : ∀ i, key i ≤ S)
    (v0 : FVec Ideal S4000000x4 .f32) (v14 : IVec S4000000x4 32) (v21 : IVec S4000000 1) (v37 : IVec S4000000 32)
    (hv37 : ∀ i : Fin n, v37 (ix1 i) = BitVec.ofNat 32 (key i))
    (hv21 : ∀ i : Fin n, v21 (ix1 i) = 1#1 ↔ key i < S)
    (v38 : IVec S4000000 32) (c_7 : IVec S_ 32) (v39 : IVec S1126401 32) (v40 : IVec S4000000x1 32) (v41 : IVec S1126401 32) (c_8 : IVec S_ 32) (v42 : IVec S4000000 32) (v43 : IVec S4000000 1) (c_9 : IVec S_ 32) (v44 : IVec S4000000 32) (v45 : IVec S4000000 32) (v46 : IVec S4000000 32) (v47 : IVec S4000000x1 32) (v48 : IVec S4000000 32) (v49 : IVec S4000000 1) (v50 : IVec S4000000 1) (c_10 : IVec S_ 32) (call1_v0 : IVec S_ 32) (call1_v1 : IVec S4000000 32) (v51 : IVec S4000000 32) (call2_v0 : IVec S4000000 32) (call2_v1_0 : IVec S4000000 32) (v52 : IVec S4000000 32) (c_11 : IVec S_ 32) (v53 : IVec S4000000 32) (v54 : IVec S4000000 1) (c_12 : IVec S_ 32) (v55 : IVec S4000000 32) (v56 : IVec S4000000 32) (v57 : IVec S4000000 32) (v58 : IVec S4000000x1 32) (v59 : IVec S4000000 1) (v60 : IVec S4000000x1 1) (c_13 : IVec S_ 32) (v61 : IVec S4000000 32) (v62 : IVec S4000000 1) (c_14 : IVec S_ 32) (v63 : IVec S4000000 32) (v64 : IVec S4000000 32) (v65 : IVec S4000000 32) (v66 : IVec S4000000x1 32) (v67 : FVec Ideal S4000000x4 .f32) (cst_15 : FVec Ideal S_ .f32) (call3_v0 : FVec Ideal S_ .f32) (call3_v1 : IVec S4000000x4 1) (call3_v2 : FVec Ideal S4000000x4 .f32) (v68 : FVec Ideal S4000000x4 .f32) (v69 : IVec S4000000x1 1) (c_16 : IVec S_ 32) (v70 : IVec S4000000 32) (v71 : IVec S4000000 1) (c_17 : IVec S_ 32) (v72 : IVec S4000000 32) (v73 : IVec S4000000 32) (v74 : IVec S4000000 32) (v75 : IVec S4000000x1 32) (v76 : IVec S4000000x4 32) (c_18 : IVec S_ 32) (call4_v0 : IVec S_ 32) (call4_v1 : IVec S4000000x4 1) (call4_v2 : IVec S4000000x4 32) (v77 : IVec S4000000x4 32)
    (h_v38 : v38 = (iotaInDim S4000000 32 0))
    (h_c_7 : c_7 = (constantI S_ 32 2147483648#32))
    (h_v39 : v39 = (broadcastInDim S1126401 ![] bcast_S_S1126401 : (⟨S_, .i32⟩ : BufTy).Contents (Elt Ideal) → (⟨S1126401, .i32⟩ : BufTy).Contents (Elt Ideal)) c_7)
    (h_v40 : v40 = (broadcastInDim S4000000x1 ![0] bcast_S4000000_S4000000x1_0 : (⟨S4000000, .i32⟩ : BufTy).Contents (Elt Ideal) → (⟨S4000000x1, .i32⟩ : BufTy).Contents (Elt Ideal)) v37)
    (h_v41 : v41 = ((fun x i u => Host.scatter scatter_S1126401_S4000000x1_S4000000_n_0_0_1 IntOp.maxsi x i u) : (⟨S1126401, .i32⟩ : BufTy).Contents (Elt Ideal) → (⟨S4000000x1, .i32⟩ : BufTy).Contents (Elt Ideal) → (⟨S4000000, .i32⟩ : BufTy).Contents (Elt Ideal) → (⟨S1126401, .i32⟩ : BufTy).Contents (Elt Ideal)) v39 v40 v38)
    (h_c_8 : c_8 = (constantI S_ 32 0#32))
    (h_v42 : v42 = (broadcastInDim S4000000 ![] bcast_S_S4000000 : (⟨S_, .i32⟩ : BufTy).Contents (Elt Ideal) → (⟨S4000000, .i32⟩ : BufTy).Contents (Elt Ideal)) c_8)
    (h_v43 : v43 = (cmpi .slt : (⟨S4000000, .i32⟩ : BufTy).Contents (Elt Ideal) → (⟨S4000000, .i32⟩ : BufTy).Contents (Elt Ideal) → (⟨S4000000, .i1⟩ : BufTy).Contents (Elt Ideal)) v37 v42)
    (h_c_9 : c_9 = (constantI S_ 32 1126401#32))
    (h_v44 : v44 = (broadcastInDim S4000000 ![] bcast_S_S4000000 : (⟨S_, .i32⟩ : BufTy).Contents (Elt Ideal) → (⟨S4000000, .i32⟩ : BufTy).Contents (Elt Ideal)) c_9)
    (h_v45 : v45 = (addi : (⟨S4000000, .i32⟩ : BufTy).Contents (Elt Ideal) → (⟨S4000000, .i32⟩ : BufTy).Contents (Elt Ideal) → (⟨S4000000, .i32⟩ : BufTy).Contents (Elt Ideal)) v37 v44)
    (h_v46 : v46 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v43 v45 v37)
    (h_v47 : v47 = (broadcastInDim S4000000x1 ![0] bcast_S4000000_S4000000x1_0 : (⟨S4000000, .i32⟩ : BufTy).Contents (Elt Ideal) → (⟨S4000000x1, .i32⟩ : BufTy).Contents (Elt Ideal)) v46)
    (h_v48 : v48 = ((fun x i => Host.gather gather_S1126401_S4000000x1_S4000000_n_0_n_n_0_1_1 x i) : (⟨S1126401, .i32⟩ : BufTy).Contents (Elt Ideal) → (⟨S4000000x1, .i32⟩ : BufTy).Contents (Elt Ideal) → (⟨S4000000, .i32⟩ : BufTy).Contents (Elt Ideal)) v41 v47)
    (h_v49 : v49 = (cmpi .eq : (⟨S4000000, .i32⟩ : BufTy).Contents (Elt Ideal) → (⟨S4000000, .i32⟩ : BufTy).Contents (Elt Ideal) → (⟨S4000000, .i1⟩ : BufTy).Contents (Elt Ideal)) v38 v48)
    (h_v50 : v50 = (andi : (⟨S4000000, .i1⟩ : BufTy).Contents (Elt Ideal) → (⟨S4000000, .i1⟩ : BufTy).Contents (Elt Ideal) → (⟨S4000000, .i1⟩ : BufTy).Contents (Elt Ideal)) v21 v49)
    (h_c_10 : c_10 = (constantI S_ 32 1126401#32))
    (h_call1_v0 : call1_v0 = id c_10)
    (h_call1_v1 : call1_v1 = (broadcastInDim S4000000 ![] bcast_S_S4000000) call1_v0)
    (h_v51 : v51 = select v50 v37 call1_v1)
    (h_call2_v0 : call2_v0 = (iotaInDim S4000000 32 0))
    (h_call2_v1_0 : call2_v1_0 = (fun x y => (Host.sort2 S4000000 0 comparator_i32_i32_d0 x y).1) v51 call2_v0)
    (h_v52 : v52 = (fun x y => (Host.sort2 S4000000 0 comparator_i32_i32_d0 x y).2) v51 call2_v0)
    (h_c_11 : c_11 = (constantI S_ 32 0#32))
    (h_v53 : v53 = (broadcastInDim S4000000 ![] bcast_S_S4000000 : (⟨S_, .i32⟩ : BufTy).Contents (Elt Ideal) → (⟨S4000000, .i32⟩ : BufTy).Contents (Elt Ideal)) c_11)
    (h_v54 : v54 = (cmpi .slt : (⟨S4000000, .i32⟩ : BufTy).Contents (Elt Ideal) → (⟨S4000000, .i32⟩ : BufTy).Contents (Elt Ideal) → (⟨S4000000, .i1⟩ : BufTy).Contents (Elt Ideal)) v52 v53)
    (h_c_12 : c_12 = (constantI S_ 32 4000000#32))
    (h_v55 : v55 = (broadcastInDim S4000000 ![] bcast_S_S4000000 : (⟨S_, .i32⟩ : BufTy).Contents (Elt Ideal) → (⟨S4000000, .i32⟩ : BufTy).Contents (Elt Ideal)) c_12)
    (h_v56 : v56 = (addi : (⟨S4000000, .i32⟩ : BufTy).Contents (Elt Ideal) → (⟨S4000000, .i32⟩ : BufTy).Contents (Elt Ideal) → (⟨S4000000, .i32⟩ : BufTy).Contents (Elt Ideal)) v52 v55)
    (h_v57 : v57 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v54 v56 v52)
    (h_v58 : v58 = (broadcastInDim S4000000x1 ![0] bcast_S4000000_S4000000x1_0 : (⟨S4000000, .i32⟩ : BufTy).Contents (Elt Ideal) → (⟨S4000000x1, .i32⟩ : BufTy).Contents (Elt Ideal)) v57)
    (h_v59 : v59 = ((fun x i => Host.gather gather_S4000000_S4000000x1_S4000000_n_0_n_n_0_1_1 x i) : (⟨S4000000, .i1⟩ : BufTy).Contents (Elt Ideal) → (⟨S4000000x1, .i32⟩ : BufTy).Contents (Elt Ideal) → (⟨S4000000, .i1⟩ : BufTy).Contents (Elt Ideal)) v50 v58)
    (h_v60 : v60 = (broadcastInDim S4000000x1 ![0] bcast_S4000000_S4000000x1_0 : (⟨S4000000, .i1⟩ : BufTy).Contents (Elt Ideal) → (⟨S4000000x1, .i1⟩ : BufTy).Contents (Elt Ideal)) v59)
    (h_c_13 : c_13 = (constantI S_ 32 0#32))
    (h_v61 : v61 = (broadcastInDim S4000000 ![] bcast_S_S4000000 : (⟨S_, .i32⟩ : BufTy).Contents (Elt Ideal) → (⟨S4000000, .i32⟩ : BufTy).Contents (Elt Ideal)) c_13)
    (h_v62 : v62 = (cmpi .slt : (⟨S4000000, .i32⟩ : BufTy).Contents (Elt Ideal) → (⟨S4000000, .i32⟩ : BufTy).Contents (Elt Ideal) → (⟨S4000000, .i1⟩ : BufTy).Contents (Elt Ideal)) v52 v61)
    (h_c_14 : c_14 = (constantI S_ 32 4000000#32))
    (h_v63 : v63 = (broadcastInDim S4000000 ![] bcast_S_S4000000 : (⟨S_, .i32⟩ : BufTy).Contents (Elt Ideal) → (⟨S4000000, .i32⟩ : BufTy).Contents (Elt Ideal)) c_14)
    (h_v64 : v64 = (addi : (⟨S4000000, .i32⟩ : BufTy).Contents (Elt Ideal) → (⟨S4000000, .i32⟩ : BufTy).Contents (Elt Ideal) → (⟨S4000000, .i32⟩ : BufTy).Contents (Elt Ideal)) v52 v63)
    (h_v65 : v65 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v62 v64 v52)
    (h_v66 : v66 = (broadcastInDim S4000000x1 ![0] bcast_S4000000_S4000000x1_0 : (⟨S4000000, .i32⟩ : BufTy).Contents (Elt Ideal) → (⟨S4000000x1, .i32⟩ : BufTy).Contents (Elt Ideal)) v65)
    (h_v67 : v67 = ((fun x i => Host.gather gather_S4000000x4_S4000000x1_S4000000x4_1_0_n_n_0_1_14 x i) : (⟨S4000000x4, .f32⟩ : BufTy).Contents (Elt Ideal) → (⟨S4000000x1, .i32⟩ : BufTy).Contents (Elt Ideal) → (⟨S4000000x4, .f32⟩ : BufTy).Contents (Elt Ideal)) v0 v66)
    (h_cst_15 : cst_15 = (constant S_ .f32 0x00000000#32))
    (h_call3_v0 : call3_v0 = id cst_15)
    (h_call3_v1 : call3_v1 = (broadcastInDim S4000000x4 ![0, 1] bcast_S4000000x1_S4000000x4_0_1) v60)
    (h_call3_v2 : call3_v2 = (broadcastInDim S4000000x4 ![] bcast_S_S4000000x4) call3_v0)
    (h_v68 : v68 = select call3_v1 v67 call3_v2)
    (h_v69 : v69 = (broadcastInDim S4000000x1 ![0] bcast_S4000000_S4000000x1_0 : (⟨S4000000, .i1⟩ : BufTy).Contents (Elt Ideal) → (⟨S4000000x1, .i1⟩ : BufTy).Contents (Elt Ideal)) v59)
    (h_c_16 : c_16 = (constantI S_ 32 0#32))
    (h_v70 : v70 = (broadcastInDim S4000000 ![] bcast_S_S4000000 : (⟨S_, .i32⟩ : BufTy).Contents (Elt Ideal) → (⟨S4000000, .i32⟩ : BufTy).Contents (Elt Ideal)) c_16)
    (h_v71 : v71 = (cmpi .slt : (⟨S4000000, .i32⟩ : BufTy).Contents (Elt Ideal) → (⟨S4000000, .i32⟩ : BufTy).Contents (Elt Ideal) → (⟨S4000000, .i1⟩ : BufTy).Contents (Elt Ideal)) v52 v70)
    (h_c_17 : c_17 = (constantI S_ 32 4000000#32))
    (h_v72 : v72 = (broadcastInDim S4000000 ![] bcast_S_S4000000 : (⟨S_, .i32⟩ : BufTy).Contents (Elt Ideal) → (⟨S4000000, .i32⟩ : BufTy).Contents (Elt Ideal)) c_17)
    (h_v73 : v73 = (addi : (⟨S4000000, .i32⟩ : BufTy).Contents (Elt Ideal) → (⟨S4000000, .i32⟩ : BufTy).Contents (Elt Ideal) → (⟨S4000000, .i32⟩ : BufTy).Contents (Elt Ideal)) v52 v72)
    (h_v74 : v74 = (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)) v71 v73 v52)
    (h_v75 : v75 = (broadcastInDim S4000000x1 ![0] bcast_S4000000_S4000000x1_0 : (⟨S4000000, .i32⟩ : BufTy).Contents (Elt Ideal) → (⟨S4000000x1, .i32⟩ : BufTy).Contents (Elt Ideal)) v74)
    (h_v76 : v76 = ((fun x i => Host.gather gather_S4000000x4_S4000000x1_S4000000x4_1_0_n_n_0_1_14 x i) : (⟨S4000000x4, .i32⟩ : BufTy).Contents (Elt Ideal) → (⟨S4000000x1, .i32⟩ : BufTy).Contents (Elt Ideal) → (⟨S4000000x4, .i32⟩ : BufTy).Contents (Elt Ideal)) v14 v75)
    (h_c_18 : c_18 = (constantI S_ 32 4294967295#32))
    (h_call4_v0 : call4_v0 = id c_18)
    (h_call4_v1 : call4_v1 = (broadcastInDim S4000000x4 ![0, 1] bcast_S4000000x1_S4000000x4_0_1) v69)
    (h_call4_v2 : call4_v2 = (broadcastInDim S4000000x4 ![] bcast_S_S4000000x4) call4_v0)
    (h_v77 : v77 = select call4_v1 v76 call4_v2) :
    (∀ j : Fin n, v59 (ix1 j) = if j.val < total key then 1#1 else 0#1)
    ∧ (∀ (j : Fin n) (c : Fin 4), v68 (ix2 j c) = if j.val < total key then v0 (ix2 (order key j) c) else Ideal.ofBits .f32 0x00000000#32)
    ∧ (∀ (j : Fin n) (c : Fin 4), v77 (ix2 j c) = if j.val < total key then v14 (ix2 (order key j) c) else 4294967295#32) := by
  -- bounds
  have hS : (1126400 : ℕ) < 2 ^ 31 := by norm_num
  have hn31 : (4000000 : ℕ) ≤ 2 ^ 31 := by norm_num
  have hn32 : (4000000 : ℕ) ≤ 2 ^ 32 := by norm_num
  have hN31 : (1126401 : ℕ) ≤ 2 ^ 31 := by norm_num
  have keylt : ∀ i : Fin n, key i < 2 ^ 31 := fun i => lt_of_le_of_lt (hkey i) hS
  have hN : ∀ i : Fin n, key i < 1126401 := fun i => Nat.lt_succ_of_le (hkey i)
  have ordlt : ∀ j : Fin n, (order key j).val < 2 ^ 31 := fun j => lt_of_lt_of_le (order key j).isLt hn31
  -- the iota, the constants, the index column
  have r38 : ∀ i : Fin n, v38 (ix1 i) = BitVec.ofNat 32 i.val := fun i => by rw [h_v38]; rfl
  have r39 : v39 = fun _ => 2147483648#32 := by rw [h_v39, h_c_7]; rfl
  have r40 : ∀ k : Fin n, v40 (ix2 k 0) = BitVec.ofNat 32 (key k) := fun k => by
    rw [h_v40]; exact (bcast_col_apply _ rfl _ v37 k 0).trans (hv37 k)
  have r41 : v41 = Host.scatter scatter_S1126401_S4000000x1_S4000000_n_0_0_1 IntOp.maxsi
      (fun _ => 2147483648#32) v40 v38 := by rw [h_v41, r39]
  have r42 : ∀ i, v42 i = 0#32 := fun i => by rw [h_v42, h_c_8]; rfl
  -- the index column of the first gather is the key column
  have r46 : ∀ i : Fin n, v46 (ix1 i) = BitVec.ofNat 32 (key i) := fun i => by
    rw [h_v46, h_v45, h_v43]; exact wrapNeg_apply v37 v42 v44 r42 (ix1 i) (key i) (keylt i) (hv37 i)
  have r47 : ∀ i : Fin n, v47 (ix2 i 0) = BitVec.ofNat 32 (key i) := fun i => by
    rw [h_v47]; exact (bcast_col_apply _ rfl _ v46 i 0).trans (r46 i)
  have r48 : ∀ i : Fin n, v48 (ix1 i) = v41 (ix1 ⟨key i, hN i⟩) := fun i => by
    rw [h_v48]
    exact gather1_apply gather_S1126401_S4000000x1_S4000000_n_0_n_n_0_1_1 rfl rfl rfl rfl rfl rfl rfl v41 v47 i
      ⟨key i, hN i⟩ (by rw [r47]; exact toInt_ofNat_of_lt _ (keylt i))
  -- the mark
  have r50 : ∀ i : Fin n, v50 (ix1 i) = 1#1 ↔ Cert.Lib.Dedup.chosen key S i := fun i => by
    obtain ⟨k, hk, hR, hmax⟩ := segMax_spec key hN hn31 hN31 scatter_S1126401_S4000000x1_S4000000_n_0_0_1
      rfl rfl rfl rfl v40 r40 v38 r38 i
    have e49 : v49 (ix1 i) = IntOp.cmpi .eq (BitVec.ofNat 32 i.val) (BitVec.ofNat 32 k.val) := by
      rw [h_v49]
      show IntOp.cmpi .eq (v38 (ix1 i)) (v48 (ix1 i)) = _
      rw [r38, r48, r41, hR]
    rw [h_v50]
    show IntOp.andi (v21 (ix1 i)) (v49 (ix1 i)) = 1#1 ↔ _
    rw [e49]
    exact mark_iff_chosen key S hn32 i k (v21 (ix1 i)) (hv21 i) hk hmax
  -- the sort key
  have rc1 : ∀ i, call1_v1 i = 1126401#32 := fun i => by rw [h_call1_v1, h_call1_v0, h_c_10]; rfl
  have r51 : ∀ i : Fin n, v51 (ix1 i) = BitVec.ofNat 32 (Cert.Lib.Dedup.key2 key S i) := fun i => by
    rw [h_v51]
    show Scalar.select (v50 (ix1 i)) (v37 (ix1 i)) (call1_v1 (ix1 i)) = _
    rw [hv37, rc1]
    exact select_key2 key S i (v50 (ix1 i)) (r50 i)
  -- the sorting permutation is the emission order
  have rτ : sortPerm comparator_i32_i32_d0 v51 call2_v0 = order key :=
    sortPerm_slt_eq (Cert.Lib.Dedup.key2 key S)
      (fun i => lt_of_le_of_lt (key2_le key S hkey i) (by norm_num)) v51 call2_v0 r51
      comparator_i32_i32_d0 comparator_eq
  have r52 : ∀ j : Fin n, v52 (ix1 j) = BitVec.ofNat 32 (order key j).val := fun j => by
    rw [h_v52]
    show (Host.sort2 S4000000 0 comparator_i32_i32_d0 v51 call2_v0).2 (ix1 j) = _
    refine (sort2_snd_apply comparator_i32_i32_d0 v51 call2_v0 j).trans ?_
    rw [rτ, h_call2_v0]; rfl
  -- the three index columns of the later gathers
  have r53 : ∀ i, v53 i = 0#32 := fun i => by rw [h_v53, h_c_11]; rfl
  have r61 : ∀ i, v61 i = 0#32 := fun i => by rw [h_v61, h_c_13]; rfl
  have r70 : ∀ i, v70 i = 0#32 := fun i => by rw [h_v70, h_c_16]; rfl
  have r58 : ∀ j : Fin n, v58 (ix2 j 0) = BitVec.ofNat 32 (order key j).val := fun j => by
    rw [h_v58]
    refine (bcast_col_apply _ rfl _ v57 j 0).trans ?_
    rw [h_v57, h_v56, h_v54]
    exact wrapNeg_apply v52 v53 v55 r53 (ix1 j) _ (ordlt j) (r52 j)
  have r66 : ∀ j : Fin n, v66 (ix2 j 0) = BitVec.ofNat 32 (order key j).val := fun j => by
    rw [h_v66]
    refine (bcast_col_apply _ rfl _ v65 j 0).trans ?_
    rw [h_v65, h_v64, h_v62]
    exact wrapNeg_apply v52 v61 v63 r61 (ix1 j) _ (ordlt j) (r52 j)
  have r75 : ∀ j : Fin n, v75 (ix2 j 0) = BitVec.ofNat 32 (order key j).val := fun j => by
    rw [h_v75]
    refine (bcast_col_apply _ rfl _ v74 j 0).trans ?_
    rw [h_v74, h_v73, h_v71]
    exact wrapNeg_apply v52 v70 v72 r70 (ix1 j) _ (ordlt j) (r52 j)
  -- the gathered mark
  have r59 : ∀ j : Fin n, v59 (ix1 j) = if j.val < total key then 1#1 else 0#1 := fun j => by
    have e : v59 (ix1 j) = v50 (ix1 (order key j)) := by
      rw [h_v59]
      exact gather1_apply gather_S4000000_S4000000x1_S4000000_n_0_n_n_0_1_1 rfl rfl rfl rfl rfl rfl rfl v50 v58 j
        (order key j) (by rw [r58]; exact toInt_ofNat_of_lt _ (ordlt j))
    rw [e]
    by_cases hj : j.val < total key
    · rw [if_pos hj]; exact (r50 _).mpr ((chosen_order_iff key hkey j).mpr hj)
    · rw [if_neg hj]
      exact eq_zero_of_ne_one fun h => hj ((chosen_order_iff key hkey j).mp ((r50 _).mp h))
  refine ⟨r59, fun j c => ?_, fun j c => ?_⟩
  · -- the points
    have e1 : call3_v1 (ix2 j c) = v59 (ix1 j) := by
      rw [h_call3_v1]
      refine (bcast_row_apply _ rfl _ v60 j c).trans ?_
      rw [h_v60]; exact bcast_col_apply _ rfl _ v59 j 0
    have e2 : call3_v2 (ix2 j c) = Ideal.ofBits .f32 0x00000000#32 := by
      rw [h_call3_v2, h_call3_v0, h_cst_15]; rfl
    have e3 : v67 (ix2 j c) = v0 (ix2 (order key j) c) := by
      rw [h_v67]
      exact gatherRows_apply gather_S4000000x4_S4000000x1_S4000000x4_1_0_n_n_0_1_14 rfl rfl rfl rfl rfl rfl rfl v0 v66
        j c (order key j) (by rw [r66]; exact toInt_ofNat_of_lt _ (ordlt j))
    rw [h_v68]
    show Scalar.select (call3_v1 (ix2 j c)) (v67 (ix2 j c)) (call3_v2 (ix2 j c)) = _
    rw [e1, e2, e3, r59 j]
    by_cases hj : j.val < total key
    · rw [if_pos hj, if_pos hj]; exact select_one _ _
    · rw [if_neg hj, if_neg hj]; exact select_zero _ _
  · -- the coordinates
    have e1 : call4_v1 (ix2 j c) = v59 (ix1 j) := by
      rw [h_call4_v1]
      refine (bcast_row_apply _ rfl _ v69 j c).trans ?_
      rw [h_v69]; exact bcast_col_apply _ rfl _ v59 j 0
    have e2 : call4_v2 (ix2 j c) = 4294967295#32 := by
      rw [h_call4_v2, h_call4_v0, h_c_18]; rfl
    have e3 : v76 (ix2 j c) = v14 (ix2 (order key j) c) := by
      rw [h_v76]
      exact gatherRows_apply gather_S4000000x4_S4000000x1_S4000000x4_1_0_n_n_0_1_14 rfl rfl rfl rfl rfl rfl rfl v14 v75
        j c (order key j) (by rw [r75]; exact toInt_ofNat_of_lt _ (ordlt j))
    rw [h_v77]
    show Scalar.select (call4_v1 (ix2 j c)) (v76 (ix2 j c)) (call4_v2 (ix2 j c)) = _
    rw [e1, e2, e3, r59 j]
    by_cases hj : j.val < total key
    · rw [if_pos hj, if_pos hj]; exact select_one _ _
    · rw [if_neg hj, if_neg hj]; exact select_zero _ _

end Cert.ReferenceIdeal.Tail

end
-- ==== Proof.RefResult.lean ====
/-
  The reference program's three results as mathematics: its host operations' equations, one per operation, feed the
  statement about the keys (the first stretch) and the statement about the selection and the emission order (the rest).
  At the end: row j of the first result is point order(j) of the point table for j below the number of occupied voxels and
  zero after; row j of the second is that point's voxel coordinates, or −1; entry j of the third says whether j is below
  that number. The argument array is unchanged.
-/
import proofs.«129221_j18588618457298_2_alg».proof.Proof.RefStages1
import proofs.«129221_j18588618457298_2_alg».proof.Proof.RefStages2
import proofs.«129221_j18588618457298_2_alg».proof.Proof.RefHead
import proofs.«129221_j18588618457298_2_alg».proof.Proof.RefTail
import proofs.«129221_j18588618457298_2_alg».proof.Proof.PtsSpec

set_option maxRecDepth 16384

noncomputable section

namespace Cert.ReferenceIdeal.Result

open Idealize.ShloMosaic Idealize.ShloMosaic.TcCoe Idealize.ShloMosaic.ValueIdx
open Idealize.SL Idealize.SL.Sem Idealize.ShloMosaic.StableHlo
open Cert.ReferenceIdeal Cert.ReferenceIdeal.Gen Cert.ReferenceIdeal.Run
open Cert.Spec Cert.KeySpec Cert.PtsSpec

variable (m : (ℓ : Loc nD τ sig) → Buf (Elt Ideal) ℓ) (ρ : Dev nD → PrngReg)

/-- The launch memory of core `c`. -/
abbrev U (c : Dev nD) : Valuation τ sig (Elt Ideal) := launchContents m c

/-- No operation writes the argument array. -/
theorem U_arg0 (c : Dev nD) : Stages.Vf (U m c) main_arg0 = m ((c.tc : Thread nD τ).loc main_arg0) :=
  Stages.kept (U m c) (b := main_arg0) (Stages.not_mem_of_idx (by decide +kernel))

/-- The point table is the argument re-shaped. -/
theorem v0_eq (c : Dev nD) : Stages.Vf (U m c) main_v0 = ptsOf (m ((c.tc : Thread nD τ).loc main_arg0)) := by
  rw [Stages.st_main_v0, U_arg0]
  rfl

set_option maxHeartbeats 4000000 in
/-- What the reference's host operations leave in the three result buffers. -/
theorem values (c : Dev nD) :
    (∀ (j : Fin n) (ch : Fin 4), Stages.Vf (U m c) main_v68 (ix2 j ch)
        = if j.val < total (keyOf (Stages.Vf (U m c) main_v0)) then Stages.Vf (U m c) main_v0 (ix2 (order (keyOf (Stages.Vf (U m c) main_v0)) j) ch) else Ideal.ofBits .f32 0x00000000#32)
    ∧ (∀ (j : Fin n) (ch : Fin 4), Stages.Vf (U m c) main_v77 (ix2 j ch)
        = if j.val < total (keyOf (Stages.Vf (U m c) main_v0)) then dec (keyOf (Stages.Vf (U m c) main_v0) (order (keyOf (Stages.Vf (U m c) main_v0)) j)) ch else 4294967295#32)
    ∧ (∀ j : Fin n, Stages.Vf (U m c) main_v59 (ix1 j) = if j.val < total (keyOf (Stages.Vf (U m c) main_v0)) then 1#1 else 0#1) := by
  obtain ⟨hH1, hH2, hH3⟩ := Cert.ReferenceIdeal.Head.refHead
      (cst := Stages.Vf (U m c) main_cst) (cst_0 := Stages.Vf (U m c) main_cst_0) (c := Stages.Vf (U m c) main_c) (v1 := Stages.Vf (U m c) main_v1) (v0 := Stages.Vf (U m c) main_v0) (v2 := Stages.Vf (U m c) main_v2) (v3 := Stages.Vf (U m c) main_v3) (v4 := Stages.Vf (U m c) main_v4) (v5 := Stages.Vf (U m c) main_v5) (v6 := Stages.Vf (U m c) main_v6) (v7 := Stages.Vf (U m c) main_v7) (v8 := Stages.Vf (U m c) main_v8) (v9 := Stages.Vf (U m c) main_v9) (v10 := Stages.Vf (U m c) main_v10) (v11 := Stages.Vf (U m c) main_v11) (v12 := Stages.Vf (U m c) main_v12) (v13 := Stages.Vf (U m c) main_v13) (v14 := Stages.Vf (U m c) main_v14) (c_1 := Stages.Vf (U m c) main_c_1) (v15 := Stages.Vf (U m c) main_v15) (v16 := Stages.Vf (U m c) main_v16) (v17 := Stages.Vf (U m c) main_v17) (v18 := Stages.Vf (U m c) main_v18) (v19 := Stages.Vf (U m c) main_v19) (v20 := Stages.Vf (U m c) main_v20) (c_2 := Stages.Vf (U m c) main_c_2) (v21 := Stages.Vf (U m c) main_v21) (c_3 := Stages.Vf (U m c) main_c_3) (v22 := Stages.Vf (U m c) main_v22) (v23 := Stages.Vf (U m c) main_v23) (v24 := Stages.Vf (U m c) main_v24) (v25 := Stages.Vf (U m c) main_v25) (v26 := Stages.Vf (U m c) main_v26) (c_4 := Stages.Vf (U m c) main_c_4) (v27 := Stages.Vf (U m c) main_v27) (v28 := Stages.Vf (U m c) main_v28) (v29 := Stages.Vf (U m c) main_v29) (v30 := Stages.Vf (U m c) main_v30) (v31 := Stages.Vf (U m c) main_v31) (c_5 := Stages.Vf (U m c) main_c_5) (v32 := Stages.Vf (U m c) main_v32) (v33 := Stages.Vf (U m c) main_v33) (v34 := Stages.Vf (U m c) main_v34) (v35 := Stages.Vf (U m c) main_v35) (v36 := Stages.Vf (U m c) main_v36) (c_6 := Stages.Vf (U m c) main_c_6) (call0_v0 := Stages.Vf (U m c) main_call0_v0) (call0_v1 := Stages.Vf (U m c) main_call0_v1) (v37 := Stages.Vf (U m c) main_v37) (h_cst := Stages.st_main_cst (U m c)) (h_cst_0 := Stages.st_main_cst_0 (U m c)) (h_c := Stages.st_main_c (U m c)) (h_v1 := Stages.st_main_v1 (U m c)) (h_v2 := Stages.st_main_v2 (U m c)) (h_v3 := Stages.st_main_v3 (U m c)) (h_v4 := Stages.st_main_v4 (U m c)) (h_v5 := Stages.st_main_v5 (U m c)) (h_v6 := Stages.st_main_v6 (U m c)) (h_v7 := Stages.st_main_v7 (U m c)) (h_v8 := Stages.st_main_v8 (U m c)) (h_v9 := Stages.st_main_v9 (U m c)) (h_v10 := Stages.st_main_v10 (U m c)) (h_v11 := Stages.st_main_v11 (U m c)) (h_v12 := Stages.st_main_v12 (U m c)) (h_v13 := Stages.st_main_v13 (U m c)) (h_v14 := Stages.st_main_v14 (U m c)) (h_c_1 := Stages.st_main_c_1 (U m c)) (h_v15 := Stages.st_main_v15 (U m c)) (h_v16 := Stages.st_main_v16 (U m c)) (h_v17 := Stages.st_main_v17 (U m c)) (h_v18 := Stages.st_main_v18 (U m c)) (h_v19 := Stages.st_main_v19 (U m c)) (h_v20 := Stages.st_main_v20 (U m c)) (h_c_2 := Stages.st_main_c_2 (U m c)) (h_v21 := Stages.st_main_v21 (U m c)) (h_c_3 := Stages.st_main_c_3 (U m c)) (h_v22 := Stages.st_main_v22 (U m c)) (h_v23 := Stages.st_main_v23 (U m c)) (h_v24 := Stages.st_main_v24 (U m c)) (h_v25 := Stages.st_main_v25 (U m c)) (h_v26 := Stages.st_main_v26 (U m c)) (h_c_4 := Stages.st_main_c_4 (U m c)) (h_v27 := Stages.st_main_v27 (U m c)) (h_v28 := Stages.st_main_v28 (U m c)) (h_v29 := Stages.st_main_v29 (U m c)) (h_v30 := Stages.st_main_v30 (U m c)) (h_v31 := Stages.st_main_v31 (U m c)) (h_c_5 := Stages.st_main_c_5 (U m c)) (h_v32 := Stages.st_main_v32 (U m c)) (h_v33 := Stages.st_main_v33 (U m c)) (h_v34 := Stages.st_main_v34 (U m c)) (h_v35 := Stages.st_main_v35 (U m c)) (h_v36 := Stages.st_main_v36 (U m c)) (h_c_6 := Stages.st_main_c_6 (U m c)) (h_call0_v0 := Stages.st_main_call0_v0 (U m c)) (h_call0_v1 := Stages.st_main_call0_v1 (U m c)) (h_v37 := Stages.st_main_v37 (U m c))
  obtain ⟨hT1, hT2, hT3⟩ := Cert.ReferenceIdeal.Tail.refTail (key := keyOf (Stages.Vf (U m c) main_v0)) (hkey := keyOf_le _) (hv37 := hH1) (hv21 := hH2)
      (v38 := Stages.Vf (U m c) main_v38) (c_7 := Stages.Vf (U m c) main_c_7) (v39 := Stages.Vf (U m c) main_v39) (v40 := Stages.Vf (U m c) main_v40) (v37 := Stages.Vf (U m c) main_v37) (v41 := Stages.Vf (U m c) main_v41) (c_8 := Stages.Vf (U m c) main_c_8) (v42 := Stages.Vf (U m c) main_v42) (v43 := Stages.Vf (U m c) main_v43) (c_9 := Stages.Vf (U m c) main_c_9) (v44 := Stages.Vf (U m c) main_v44) (v45 := Stages.Vf (U m c) main_v45) (v46 := Stages.Vf (U m c) main_v46) (v47 := Stages.Vf (U m c) main_v47) (v48 := Stages.Vf (U m c) main_v48) (v49 := Stages.Vf (U m c) main_v49) (v50 := Stages.Vf (U m c) main_v50) (v21 := Stages.Vf (U m c) main_v21) (c_10 := Stages.Vf (U m c) main_c_10) (call1_v0 := Stages.Vf (U m c) main_call1_v0) (call1_v1 := Stages.Vf (U m c) main_call1_v1) (v51 := Stages.Vf (U m c) main_v51) (call2_v0 := Stages.Vf (U m c) main_call2_v0) (call2_v1_0 := Stages.Vf (U m c) main_call2_v1_0) (v52 := Stages.Vf (U m c) main_v52) (c_11 := Stages.Vf (U m c) main_c_11) (v53 := Stages.Vf (U m c) main_v53) (v54 := Stages.Vf (U m c) main_v54) (c_12 := Stages.Vf (U m c) main_c_12) (v55 := Stages.Vf (U m c) main_v55) (v56 := Stages.Vf (U m c) main_v56) (v57 := Stages.Vf (U m c) main_v57) (v58 := Stages.Vf (U m c) main_v58) (v59 := Stages.Vf (U m c) main_v59) (v60 := Stages.Vf (U m c) main_v60) (c_13 := Stages.Vf (U m c) main_c_13) (v61 := Stages.Vf (U m c) main_v61) (v62 := Stages.Vf (U m c) main_v62) (c_14 := Stages.Vf (U m c) main_c_14) (v63 := Stages.Vf (U m c) main_v63) (v64 := Stages.Vf (U m c) main_v64) (v65 := Stages.Vf (U m c) main_v65) (v66 := Stages.Vf (U m c) main_v66) (v67 := Stages.Vf (U m c) main_v67) (v0 := Stages.Vf (U m c) main_v0) (cst_15 := Stages.Vf (U m c) main_cst_15) (call3_v0 := Stages.Vf (U m c) main_call3_v0) (call3_v1 := Stages.Vf (U m c) main_call3_v1) (call3_v2 := Stages.Vf (U m c) main_call3_v2) (v68 := Stages.Vf (U m c) main_v68) (v69 := Stages.Vf (U m c) main_v69) (c_16 := Stages.Vf (U m c) main_c_16) (v70 := Stages.Vf (U m c) main_v70) (v71 := Stages.Vf (U m c) main_v71) (c_17 := Stages.Vf (U m c) main_c_17) (v72 := Stages.Vf (U m c) main_v72) (v73 := Stages.Vf (U m c) main_v73) (v74 := Stages.Vf (U m c) main_v74) (v75 := Stages.Vf (U m c) main_v75) (v76 := Stages.Vf (U m c) main_v76) (v14 := Stages.Vf (U m c) main_v14) (c_18 := Stages.Vf (U m c) main_c_18) (call4_v0 := Stages.Vf (U m c) main_call4_v0) (call4_v1 := Stages.Vf (U m c) main_call4_v1) (call4_v2 := Stages.Vf (U m c) main_call4_v2) (v77 := Stages.Vf (U m c) main_v77) (h_v38 := Stages.st_main_v38 (U m c)) (h_c_7 := Stages.st_main_c_7 (U m c)) (h_v39 := Stages.st_main_v39 (U m c)) (h_v40 := Stages.st_main_v40 (U m c)) (h_v41 := Stages.st_main_v41 (U m c)) (h_c_8 := Stages.st_main_c_8 (U m c)) (h_v42 := Stages.st_main_v42 (U m c)) (h_v43 := Stages.st_main_v43 (U m c)) (h_c_9 := Stages.st_main_c_9 (U m c)) (h_v44 := Stages.st_main_v44 (U m c)) (h_v45 := Stages.st_main_v45 (U m c)) (h_v46 := Stages.st_main_v46 (U m c)) (h_v47 := Stages.st_main_v47 (U m c)) (h_v48 := Stages.st_main_v48 (U m c)) (h_v49 := Stages.st_main_v49 (U m c)) (h_v50 := Stages.st_main_v50 (U m c)) (h_c_10 := Stages.st_main_c_10 (U m c)) (h_call1_v0 := Stages.st_main_call1_v0 (U m c)) (h_call1_v1 := Stages.st_main_call1_v1 (U m c)) (h_v51 := Stages.st_main_v51 (U m c)) (h_call2_v0 := Stages.st_main_call2_v0 (U m c)) (h_call2_v1_0 := Stages.st_main_call2_v1_0 (U m c)) (h_v52 := Stages.st_main_v52 (U m c)) (h_c_11 := Stages.st_main_c_11 (U m c)) (h_v53 := Stages.st_main_v53 (U m c)) (h_v54 := Stages.st_main_v54 (U m c)) (h_c_12 := Stages.st_main_c_12 (U m c)) (h_v55 := Stages.st_main_v55 (U m c)) (h_v56 := Stages.st_main_v56 (U m c)) (h_v57 := Stages.st_main_v57 (U m c)) (h_v58 := Stages.st_main_v58 (U m c)) (h_v59 := Stages.st_main_v59 (U m c)) (h_v60 := Stages.st_main_v60 (U m c)) (h_c_13 := Stages.st_main_c_13 (U m c)) (h_v61 := Stages.st_main_v61 (U m c)) (h_v62 := Stages.st_main_v62 (U m c)) (h_c_14 := Stages.st_main_c_14 (U m c)) (h_v63 := Stages.st_main_v63 (U m c)) (h_v64 := Stages.st_main_v64 (U m c)) (h_v65 := Stages.st_main_v65 (U m c)) (h_v66 := Stages.st_main_v66 (U m c)) (h_v67 := Stages.st_main_v67 (U m c)) (h_cst_15 := Stages.st_main_cst_15 (U m c)) (h_call3_v0 := Stages.st_main_call3_v0 (U m c)) (h_call3_v1 := Stages.st_main_call3_v1 (U m c)) (h_call3_v2 := Stages.st_main_call3_v2 (U m c)) (h_v68 := Stages.st_main_v68 (U m c)) (h_v69 := Stages.st_main_v69 (U m c)) (h_c_16 := Stages.st_main_c_16 (U m c)) (h_v70 := Stages.st_main_v70 (U m c)) (h_v71 := Stages.st_main_v71 (U m c)) (h_c_17 := Stages.st_main_c_17 (U m c)) (h_v72 := Stages.st_main_v72 (U m c)) (h_v73 := Stages.st_main_v73 (U m c)) (h_v74 := Stages.st_main_v74 (U m c)) (h_v75 := Stages.st_main_v75 (U m c)) (h_v76 := Stages.st_main_v76 (U m c)) (h_c_18 := Stages.st_main_c_18 (U m c)) (h_call4_v0 := Stages.st_main_call4_v0 (U m c)) (h_call4_v1 := Stages.st_main_call4_v1 (U m c)) (h_call4_v2 := Stages.st_main_call4_v2 (U m c)) (h_v77 := Stages.st_main_v77 (U m c))
  refine ⟨hT2, fun j ch => ?_, hT1⟩
  rw [hT3 j ch]
  by_cases hj : j.val < total (keyOf (Stages.Vf (U m c) main_v0))
  · rw [if_pos hj, if_pos hj]
    exact hH3 _ ch ((Cert.ReferenceIdeal.Tail.chosen_order_iff _ (keyOf_le _) j).mpr hj).1
  · rw [if_neg hj, if_neg hj]

/-- Every weakly fair execution of the reference terminates with these results and the argument unchanged. -/
theorem result : θ_run defs (onTc (τ := τ) (main (F := Ideal))) ⟨m, fun _ => 0, ρ⟩ (fun r => ∀ c : Dev nD,
      r.2.mem ((c.tc : Thread nD τ).loc main_v68) = Stages.Vf (U m c) main_v68
      ∧ r.2.mem ((c.tc : Thread nD τ).loc main_v77) = Stages.Vf (U m c) main_v77
      ∧ r.2.mem ((c.tc : Thread nD τ).loc main_v59) = Stages.Vf (U m c) main_v59
      ∧ r.2.mem ((c.tc : Thread nD τ).loc main_arg0) = m ((c.tc : Thread nD τ).loc main_arg0)) :=
  (θ_run defs _ _).mono (fun _ h c =>
    ⟨(h c main_v68).trans (Stages.Vf_eq (U m c) main_v68).symm, (h c main_v77).trans (Stages.Vf_eq (U m c) main_v77).symm,
     (h c main_v59).trans (Stages.Vf_eq (U m c) main_v59).symm, ((h c main_arg0).trans (Stages.Vf_eq (U m c) main_arg0).symm).trans (U_arg0 m c)⟩)
    (run_main m ρ)

end Cert.ReferenceIdeal.Result

end
-- ==== Proof.lean ====
/-
  The claim. Both kernel programs run: @main is three host operations, one region of 25 grid points whose body
  quantises 160000 points per point of the grid to voxel keys, and 203 host operations; the launch theorem carries the
  run through the region and the later operations, and no operation writes the argument. The reference is a straight
  line of 111 host operations. The idealisation rewrote nothing. At the ideal instance both programs end with the same
  three arrays: the voxel key of a point is one function of its coordinates on both sides (the kernel's row of keys is
  the reference's key vector); the kernel sorts the points stably by key, marks the last of every run of equal in-range
  keys, and moves the marked ones to the front by a prefix count, while the reference marks the largest index of every
  voxel by a scatter with maximum and sorts stably by the key of marked points; the two emission orders agree on the
  marked prefix (the counting argument on stable sorts), the rows behind it are masked on both sides, and the
  coordinates the kernel decodes from the key are the cells the reference gathered.
-/
import proofs.«129221_j18588618457298_2_alg».proof.Defs
import proofs.«129221_j18588618457298_2_alg».proof.Proof.KernelBody
import proofs.«129221_j18588618457298_2_alg».proof.Proof.KernelIdealResult
import proofs.«129221_j18588618457298_2_alg».proof.Proof.RefResult
import proofs.«129221_j18588618457298_2_alg».proof.Proof.Gen.Pre_finite_inputs
import Idealize.ShloMosaic.Adequacy
import Idealize.ShloMosaic.Init

set_option maxRecDepth 16384

noncomputable section

namespace Cert.Proof

open Idealize.ShloMosaic Idealize.ShloMosaic.ValueIdx Idealize.SL.Sem
open Cert.Spec Cert.KeySpec Cert.PtsSpec

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2.2) (Cert.ReferenceIdeal.Result.result m ρ)

theorem algebraic : Cert.algebraic_KernelIdeal_ReferenceIdeal := by
  intro m ρ m' ρ' _ hagree
  refine ⟨fun c => Cert.KernelIdeal.Stages.Vf (Cert.KernelIdeal.Result.U m c) Cert.KernelIdeal.main_v64,
    fun c => Cert.KernelIdeal.Stages.Vf (Cert.KernelIdeal.Result.U m c) Cert.KernelIdeal.main_v66,
    fun c => Cert.KernelIdeal.Stages.Vf (Cert.KernelIdeal.Result.U m c) Cert.KernelIdeal.main_v44,
    Cert.KernelIdeal.Result.result m ρ, ?_⟩
  refine (θ_run Cert.ReferenceIdeal.defs _ _).mono (fun r h c => ?_) (Cert.ReferenceIdeal.Result.result m' ρ')
  obtain ⟨hk1, hk2, hk3⟩ := Cert.KernelIdeal.Result.values m c
  obtain ⟨hr1, hr2, hr3⟩ := Cert.ReferenceIdeal.Result.values m' c
  have hp : Cert.ReferenceIdeal.Stages.Vf (Cert.ReferenceIdeal.Result.U m' c) Cert.ReferenceIdeal.main_v0
      = Cert.KernelIdeal.Value.pts m c := by
    rw [Cert.ReferenceIdeal.Result.v0_eq, Cert.KernelIdeal.Result.pts_eq, hagree c]
  rw [hp] at hr1 hr2 hr3
  refine ⟨(h c).1.trans (funext fun i => ?_), (h c).2.1.trans (funext fun i => ?_), (h c).2.2.1.trans (funext fun i => ?_), (h c).2.2.2⟩
  · obtain ⟨j, ch, rfl⟩ : ∃ (j : Fin n) (ch : Fin 4), i = ix2 j ch := ⟨i 0, i 1, eq_ix2 i⟩
    exact (hr1 j ch).trans (hk1 j ch).symm
  · obtain ⟨j, ch, rfl⟩ : ∃ (j : Fin n) (ch : Fin 4), i = ix2 j ch := ⟨i 0, i 1, eq_ix2 i⟩
    exact (hr2 j ch).trans (hk2 j ch).symm
  · obtain ⟨j, rfl⟩ : ∃ j : Fin n, i = ix1 j := ⟨i 0, eq_ix1 i⟩
    exact (hr3 j).trans (hk3 j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
